-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v121)) (v1 : (c : Dev Cert.KernelIdeal.nD) → Buf (Elt Ideal) ((c.tc : Thread Cert.KernelIdeal.nD Cert.KernelIdeal.τ).loc Cert.KernelIdeal.main_v102_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v121) = v0 c
          ∧ r.2.mem ((c.tc : Thread Cert.KernelIdeal.nD Cert.KernelIdeal.τ).loc Cert.KernelIdeal.main_v102_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_v138) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000 : Shape := ⟨1, ![400000]⟩
abbrev S4096 : Shape := ⟨1, ![4096]⟩
abbrev S100000x128 : Shape := ⟨2, ![100000, 128]⟩
abbrev S129x129 : Shape := ⟨2, ![129, 129]⟩
abbrev S257x257 : Shape := ⟨2, ![257, 257]⟩
abbrev S258x258 : Shape := ⟨2, ![258, 258]⟩
abbrev S515x515 : Shape := ⟨2, ![515, 515]⟩
abbrev S128x1030 : Shape := ⟨2, ![128, 1030]⟩
abbrev S1x128 : Shape := ⟨2, ![1, 128]⟩
abbrev S128x515 : Shape := ⟨2, ![128, 515]⟩
abbrev S10x128 : Shape := ⟨2, ![10, 128]⟩
abbrev S_ : Shape := ⟨0, ![]⟩
abbrev S1 : Shape := ⟨1, ![1]⟩

class Facts : Prop where
  bcast_S_S400000 : S_.BroadcastsInDim S400000 (![] : Fin 0 → Fin S400000.rank)
  reducesTo_S400000_S_d0 : S400000.ReducesTo [0] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S129x129 : S_.BroadcastsInDim S129x129 (![] : Fin 0 → Fin S129x129.rank)
  reducesTo_S129x129_S_d0_1 : S129x129.ReducesTo [0, 1] S_
  bcast_S_S257x257 : S_.BroadcastsInDim S257x257 (![] : Fin 0 → Fin S257x257.rank)
  reducesTo_S257x257_S_d0_1 : S257x257.ReducesTo [0, 1] S_
  bcast_S_S258x258 : S_.BroadcastsInDim S258x258 (![] : Fin 0 → Fin S258x258.rank)
  reducesTo_S258x258_S_d0_1 : S258x258.ReducesTo [0, 1] S_
  bcast_S_S515x515 : S_.BroadcastsInDim S515x515 (![] : Fin 0 → Fin S515x515.rank)
  reducesTo_S515x515_S_d0_1 : S515x515.ReducesTo [0, 1] S_
  bcast_S_S128x1030 : S_.BroadcastsInDim S128x1030 (![] : Fin 0 → Fin S128x1030.rank)
  reducesTo_S128x1030_S_d0_1 : S128x1030.ReducesTo [0, 1] S_
  bcast_S_S1x128 : S_.BroadcastsInDim S1x128 (![] : Fin 0 → Fin S1x128.rank)
  reducesTo_S1x128_S_d0_1 : S1x128.ReducesTo [0, 1] S_
  bcast_S_S128x515 : S_.BroadcastsInDim S128x515 (![] : Fin 0 → Fin S128x515.rank)
  reducesTo_S128x515_S_d0_1 : S128x515.ReducesTo [0, 1] S_
  bcast_S_S10x128 : S_.BroadcastsInDim S10x128 (![] : Fin 0 → Fin S10x128.rank)
  reducesTo_S10x128_S_d0_1 : S10x128.ReducesTo [0, 1] S_
  slices_S400000_S1_399999 : S400000.Slices ![399999] S1
  shapeCasts_S1_S_ : S1.ShapeCasts S_
  slices_S400000_S1_0 : S400000.Slices ![0] S1

variable [Facts]

def fn_part3 {F : FTy → Type} [FloatOps F] (main_arg2 : FVec F S400000 .f32) (main_v48 : IVec S_ 1) (main_v50 : FVec F S_ .f32) (main_cst_18 : FVec F S_ .f32) : IVec S_ 1 :=
  let main_v51 : FVec F S_ .f32 := addf main_cst_18 main_v50
  let main_v52 : FVec F S1 .f32 := (extractStridedSlice S1 ![0] · slices_S400000_S1_0) main_arg2
  let main_v53 : FVec F S_ .f32 := shapeCast S_ main_v52 shapeCasts_S1_S_
  let main_v54 : FVec F S_ .f32 := subf main_v51 main_v53
  let main_cst_19 : FVec F S_ .f32 := constant S_ .f32 0x00000000#32
  let main_v55 : IVec S_ 1 := cmpf .une main_v54 main_cst_19
  let main_v56 : IVec S_ 1 := andi main_v48 main_v55
  main_v56

def fn_part2 {F : FTy → Type} [FloatOps F] (main_arg2 : FVec F S400000 .f32) (main_arg11 : FVec F S1x128 .f32) (main_arg12 : FVec F S128x515 .f32) (main_arg13 : FVec F S10x128 .f32) (main_v33 : IVec S_ 1) : IVec S_ 1 :=
  let main_v34 : FVec F S1x128 .f32 := Host.absf main_arg11
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S128x515 .f32 := Host.absf main_arg12
  let main_cst_14 : FVec F S_ .f32 := constant S_ .f32 0x7F800000#32
  let main_v40 : FVec F S128x515 .f32 := broadcastInDim S128x515 ![] bcast_S_S128x515 main_cst_14
  let main_v41 : IVec S128x515 1 := cmpf .olt main_v39 main_v40
  let main_c_15 : IVec S_ 1 := constantI S_ 1 1#1
  let main_v42 : IVec S_ 1 := (fun x v => Host.reduce IntOp.andi x v reducesTo_S128x515_S_d0_1 h_S_) main_v41 main_c_15
  let main_v43 : IVec S_ 1 := andi main_v38 main_v42
  let main_v44 : FVec F S10x128 .f32 := Host.absf main_arg13
  let main_cst_16 : FVec F S_ .f32 := constant S_ .f32 0x7F800000#32
  let main_v45 : FVec F S10x128 .f32 := broadcastInDim S10x128 ![] bcast_S_S10x128 main_cst_16
  let main_v46 : IVec S10x128 1 := cmpf .olt main_v44 main_v45
  let main_c_17 : IVec S_ 1 := constantI S_ 1 1#1
  let main_v47 : IVec S_ 1 := (fun x v => Host.reduce IntOp.andi x v reducesTo_S10x128_S_d0_1 h_S_) main_v46 main_c_17
  let main_v48 : IVec S_ 1 := andi main_v43 main_v47
  let main_v49 : FVec F S1 .f32 := (extractStridedSlice S1 ![399999] · slices_S400000_S1_399999) main_arg2
  let main_v50 : FVec F S_ .f32 := shapeCast S_ main_v49 shapeCasts_S1_S_
  let main_cst_18 : FVec F S_ .f32 := constant S_ .f32 0x3F800000#32
  fn_part3 (F := F) main_arg2 main_v48 main_v50 main_cst_18

def fn_part1 {F : FTy → Type} [FloatOps F] (main_arg2 : FVec F S400000 .f32) (main_arg8 : FVec F S258x258 .f32) (main_arg9 : FVec F S515x515 .f32) (main_arg10 : FVec F S128x1030 .f32) (main_arg11 : FVec F S1x128 .f32) (main_arg12 : FVec F S128x515 .f32) (main_arg13 : FVec F S10x128 .f32) (main_v13 : IVec S_ 1) (main_v16 : IVec S257x257 1) : IVec S_ 1 :=
  let main_c_5 : IVec S_ 1 := constantI S_ 1 1#1
  let main_v17 : IVec S_ 1 := (fun x v => Host.reduce IntOp.andi x v reducesTo_S257x257_S_d0_1 h_S_) main_v16 main_c_5
  let main_v18 : IVec S_ 1 := andi main_v13 main_v17
  let main_v19 : FVec F S258x258 .f32 := Host.absf main_arg8
  let main_cst_6 : FVec F S_ .f32 := constant S_ .f32 0x7F800000#32
  let main_v20 : FVec F S258x258 .f32 := broadcastInDim S258x258 ![] bcast_S_S258x258 main_cst_6
  let main_v21 : IVec S258x258 1 := cmpf .olt main_v19 main_v20
  let main_c_7 : IVec S_ 1 := constantI S_ 1 1#1
  let main_v22 : IVec S_ 1 := (fun x v => Host.reduce IntOp.andi x v reducesTo_S258x258_S_d0_1 h_S_) main_v21 main_c_7
  let main_v23 : IVec S_ 1 := andi main_v18 main_v22
  let main_v24 : FVec F S515x515 .f32 := Host.absf main_arg9
  let main_cst_8 : FVec F S_ .f32 := constant S_ .f32 0x7F800000#32
  let main_v25 : FVec F S515x515 .f32 := broadcastInDim S515x515 ![] bcast_S_S515x515 main_cst_8
  let main_v26 : IVec S515x515 1 := cmpf .olt main_v24 main_v25
  let main_c_9 : IVec S_ 1 := constantI S_ 1 1#1
  let main_v27 : IVec S_ 1 := (fun x v => Host.reduce IntOp.andi x v reducesTo_S515x515_S_d0_1 h_S_) main_v26 main_c_9
  let main_v28 : IVec S_ 1 := andi main_v23 main_v27
  let main_v29 : FVec F S128x1030 .f32 := Host.absf main_arg10
  let main_cst_10 : FVec F S_ .f32 := constant S_ .f32 0x7F800000#32
  let main_v30 : FVec F S128x1030 .f32 := broadcastInDim S128x1030 ![] bcast_S_S128x1030 main_cst_10
  let main_v31 : IVec S128x1030 1 := cmpf .olt main_v29 main_v30
  let main_c_11 : IVec S_ 1 := constantI S_ 1 1#1
  let main_v32 : IVec S_ 1 := (fun x v => Host.reduce IntOp.andi x v reducesTo_S128x1030_S_d0_1 h_S_) main_v31 main_c_11
  let main_v33 : IVec S_ 1 := andi main_v28 main_v32
  fn_part2 (F := F) main_arg2 main_arg11 main_arg12 main_arg13 main_v33

def fn {F : FTy → Type} [FloatOps F] (main_arg0 : IVec S400000 32) (main_arg1 : IVec S400000 32) (main_arg2 : FVec F S400000 .f32) (main_arg3 : IVec S4096 32) (main_arg4 : IVec S4096 32) (main_arg5 : FVec F S100000x128 .f32) (main_arg6 : FVec F S129x129 .f32) (main_arg7 : FVec F S257x257 .f32) (main_arg8 : FVec F S258x258 .f32) (main_arg9 : FVec F S515x515 .f32) (main_arg10 : FVec F S128x1030 .f32) (main_arg11 : FVec F S1x128 .f32) (main_arg12 : FVec F S128x515 .f32) (main_arg13 : FVec F S10x128 .f32) : IVec S_ 1 :=
  let main_v0 : FVec F S400000 .f32 := Host.absf main_arg2
  let main_cst : FVec F S_ .f32 := constant S_ .f32 0x7F800000#32
  let main_v1 : FVec F S400000 .f32 := broadcastInDim S400000 ![] bcast_S_S400000 main_cst
  let main_v2 : IVec S400000 1 := cmpf .olt main_v0 main_v1
  let main_c : IVec S_ 1 := constantI S_ 1 1#1
  let main_v3 : IVec S_ 1 := (fun x v => Host.reduce IntOp.andi x v reducesTo_S400000_S_d0 h_S_) main_v2 main_c
  let main_v4 : FVec F S100000x128 .f32 := Host.absf main_arg5
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S129x129 .f32 := Host.absf main_arg6
  let main_cst_2 : FVec F S_ .f32 := constant S_ .f32 0x7F800000#32
  let main_v10 : FVec F S129x129 .f32 := broadcastInDim S129x129 ![] bcast_S_S129x129 main_cst_2
  let main_v11 : IVec S129x129 1 := cmpf .olt main_v9 main_v10
  let main_c_3 : IVec S_ 1 := constantI S_ 1 1#1
  let main_v12 : IVec S_ 1 := (fun x v => Host.reduce IntOp.andi x v reducesTo_S129x129_S_d0_1 h_S_) main_v11 main_c_3
  let main_v13 : IVec S_ 1 := andi main_v8 main_v12
  let main_v14 : FVec F S257x257 .f32 := Host.absf main_arg7
  let main_cst_4 : FVec F S_ .f32 := constant S_ .f32 0x7F800000#32
  let main_v15 : FVec F S257x257 .f32 := broadcastInDim S257x257 ![] bcast_S_S257x257 main_cst_4
  let main_v16 : IVec S257x257 1 := cmpf .olt main_v14 main_v15
  fn_part1 (F := F) main_arg2 main_arg8 main_arg9 main_arg10 main_arg11 main_arg12 main_arg13 main_v13 main_v16
-- ==== Kernel.lean ====
abbrev S400000 : Shape := ⟨1, ![400000]⟩
abbrev S4096 : Shape := ⟨1, ![4096]⟩
abbrev S100000x128 : Shape := ⟨2, ![100000, 128]⟩
abbrev S129x129 : Shape := ⟨2, ![129, 129]⟩
abbrev S257x257 : Shape := ⟨2, ![257, 257]⟩
abbrev S258x258 : Shape := ⟨2, ![258, 258]⟩
abbrev S515x515 : Shape := ⟨2, ![515, 515]⟩
abbrev S128x1030 : Shape := ⟨2, ![128, 1030]⟩
abbrev S1x128 : Shape := ⟨2, ![1, 128]⟩
abbrev S128x515 : Shape := ⟨2, ![128, 515]⟩
abbrev S10x128 : Shape := ⟨2, ![10, 128]⟩
abbrev S1 : Shape := ⟨1, ![1]⟩
abbrev S_ : Shape := ⟨0, ![]⟩
abbrev S400000x1 : Shape := ⟨2, ![400000, 1]⟩
abbrev S400000x128 : Shape := ⟨2, ![400000, 128]⟩
abbrev S400000x129 : Shape := ⟨2, ![400000, 129]⟩
abbrev S100000x129 : Shape := ⟨2, ![100000, 129]⟩
abbrev S1x129 : Shape := ⟨2, ![1, 129]⟩
abbrev S1000x129 : Shape := ⟨2, ![1000, 129]⟩
abbrev S129 : Shape := ⟨1, ![129]⟩
abbrev S257x128 : Shape := ⟨2, ![257, 128]⟩
abbrev S257x129 : Shape := ⟨2, ![257, 129]⟩
abbrev S128x257 : Shape := ⟨2, ![128, 257]⟩
abbrev S129x257 : Shape := ⟨2, ![129, 257]⟩
abbrev S100000x257 : Shape := ⟨2, ![100000, 257]⟩
abbrev S1000x128 : Shape := ⟨2, ![1000, 128]⟩
abbrev S1000x257 : Shape := ⟨2, ![1000, 257]⟩
abbrev S515x128 : Shape := ⟨2, ![515, 128]⟩
abbrev S128x10 : Shape := ⟨2, ![128, 10]⟩
abbrev S400000x257 : Shape := ⟨2, ![400000, 257]⟩
abbrev S400000x258 : Shape := ⟨2, ![400000, 258]⟩
abbrev S100000x258 : Shape := ⟨2, ![100000, 258]⟩
abbrev S1x258 : Shape := ⟨2, ![1, 258]⟩
abbrev S1000x258 : Shape := ⟨2, ![1000, 258]⟩
abbrev S258 : Shape := ⟨1, ![258]⟩
abbrev S515x257 : Shape := ⟨2, ![515, 257]⟩
abbrev S515x258 : Shape := ⟨2, ![515, 258]⟩
abbrev S257x515 : Shape := ⟨2, ![257, 515]⟩
abbrev S258x515 : Shape := ⟨2, ![258, 515]⟩
abbrev S100000x515 : Shape := ⟨2, ![100000, 515]⟩
abbrev S100000x10 : Shape := ⟨2, ![100000, 10]⟩
abbrev S1000x515 : Shape := ⟨2, ![1000, 515]⟩
abbrev S1000x10 : Shape := ⟨2, ![1000, 10]⟩
abbrev S4096x1 : Shape := ⟨2, ![4096, 1]⟩
abbrev S4096x515 : Shape := ⟨2, ![4096, 515]⟩
abbrev S4096x1030 : Shape := ⟨2, ![4096, 1030]⟩
abbrev S1030x128 : Shape := ⟨2, ![1030, 128]⟩
abbrev S128x1 : Shape := ⟨2, ![128, 1]⟩
abbrev S1024x1030 : Shape := ⟨2, ![1024, 1030]⟩
abbrev S1024x1 : Shape := ⟨2, ![1024, 1]⟩
abbrev S1024x128 : Shape := ⟨2, ![1024, 128]⟩

abbrev nBuf : Space → Nat
  | .hbm => 166
  | .vmem => 40
  | .smem => 0
  | _ => 0

abbrev hbmTy0_0 (i : Nat) : BufTy := match i % 128 with
  | 0 => ⟨S400000, .i32⟩
  | 1 => ⟨S400000, .i32⟩
  | 2 => ⟨S400000, .f32⟩
  | 3 => ⟨S4096, .i32⟩
  | 4 => ⟨S4096, .i32⟩
  | 5 => ⟨S100000x128, .f32⟩
  | 6 => ⟨S129x129, .f32⟩
  | 7 => ⟨S257x257, .f32⟩
  | 8 => ⟨S258x258, .f32⟩
  | 9 => ⟨S515x515, .f32⟩
  | 10 => ⟨S128x1030, .f32⟩
  | 11 => ⟨S1x128, .f32⟩
  | 12 => ⟨S128x515, .f32⟩
  | 13 => ⟨S10x128, .f32⟩
  | 14 => ⟨S1, .f32⟩
  | 15 => ⟨S_, .f32⟩
  | 16 => ⟨S400000, .f32⟩
  | 17 => ⟨S400000, .f32⟩
  | 18 => ⟨S1, .f32⟩
  | 19 => ⟨S_, .f32⟩
  | 20 => ⟨S_, .f32⟩
  | 21 => ⟨S_, .f32⟩
  | 22 => ⟨S1, .f32⟩
  | 23 => ⟨S_, .f32⟩
  | 24 => ⟨S_, .f32⟩
  | 25 => ⟨S400000, .f32⟩
  | 26 => ⟨S400000, .f32⟩
  | 27 => ⟨S400000x1, .f32⟩
  | 28 => ⟨S_, .i32⟩
  | 29 => ⟨S400000, .i32⟩
  | 30 => ⟨S400000, .i1⟩
  | 31 => ⟨S_, .i32⟩
  | 32 => ⟨S400000, .i32⟩
  | 33 => ⟨S400000, .i32⟩
  | 34 => ⟨S400000, .i32⟩
  | 35 => ⟨S400000x1, .i32⟩
  | 36 => ⟨S400000x128, .f32⟩
  | 37 => ⟨S400000x129, .f32⟩
  | 38 => ⟨S_, .i32⟩
  | 39 => ⟨S400000, .i32⟩
  | 40 => ⟨S400000, .i1⟩
  | 41 => ⟨S_, .i32⟩
  | 42 => ⟨S400000, .i32⟩
  | 43 => ⟨S400000, .i32⟩
  | 44 => ⟨S400000, .i32⟩
  | 45 => ⟨S400000x1, .i32⟩
  | 46 => ⟨S400000x128, .f32⟩
  | 47 => ⟨S400000x129, .f32⟩
  | 48 => ⟨S_, .f32⟩
  | 49 => ⟨S100000x129, .f32⟩
  | 50 => ⟨S_, .i32⟩
  | 51 => ⟨S400000, .i32⟩
  | 52 => ⟨S400000, .i1⟩
  | 53 => ⟨S_, .i32⟩
  | 54 => ⟨S400000, .i32⟩
  | 55 => ⟨S400000, .i32⟩
  | 56 => ⟨S400000, .i32⟩
  | 57 => ⟨S400000x1, .i32⟩
  | 58 => ⟨S100000x129, .f32⟩
  | 59 => ⟨S_, .i32⟩
  | 60 => ⟨S400000, .i32⟩
  | 61 => ⟨S400000, .i1⟩
  | 62 => ⟨S_, .i32⟩
  | 63 => ⟨S400000, .i32⟩
  | 64 => ⟨S400000, .i32⟩
  | 65 => ⟨S400000, .i32⟩
  | 66 => ⟨S400000x1, .i32⟩
  | 67 => ⟨S100000x129, .f32⟩
  | 68 => ⟨S1x129, .f32⟩
  | 69 => ⟨S1x129, .f32⟩
  | 70 => ⟨S_, .f32⟩
  | 71 => ⟨S1x129, .f32⟩
  | 72 => ⟨S1x129, .f32⟩
  | 73 => ⟨S_, .f32⟩
  | 74 => ⟨S1x129, .f32⟩
  | 75 => ⟨S1x129, .f32⟩
  | 76 => ⟨S1x129, .f32⟩
  | 77 => ⟨S1x129, .f32⟩
  | 78 => ⟨S129x129, .f32⟩
  | 79 => ⟨S257x128, .f32⟩
  | 80 => ⟨S257x129, .f32⟩
  | 81 => ⟨S128x257, .f32⟩
  | 82 => ⟨S129x257, .f32⟩
  | 83 => ⟨S100000x257, .f32⟩
  | 84 => ⟨S515x128, .f32⟩
  | 85 => ⟨S128x10, .f32⟩
  | 86 => ⟨S_, .i32⟩
  | 87 => ⟨S400000, .i32⟩
  | 88 => ⟨S400000, .i1⟩
  | 89 => ⟨S_, .i32⟩
  | 90 => ⟨S400000, .i32⟩
  | 91 => ⟨S400000, .i32⟩
  | 92 => ⟨S400000, .i32⟩
  | 93 => ⟨S400000x1, .i32⟩
  | 94 => ⟨S400000x257, .f32⟩
  | 95 => ⟨S400000x258, .f32⟩
  | 96 => ⟨S_, .i32⟩
  | 97 => ⟨S400000, .i32⟩
  | 98 => ⟨S400000, .i1⟩
  | 99 => ⟨S_, .i32⟩
  | 100 => ⟨S400000, .i32⟩
  | 101 => ⟨S400000, .i32⟩
  | 102 => ⟨S400000, .i32⟩
  | 103 => ⟨S400000x1, .i32⟩
  | 104 => ⟨S400000x257, .f32⟩
  | 105 => ⟨S400000x258, .f32⟩
  | 106 => ⟨S_, .f32⟩
  | 107 => ⟨S100000x258, .f32⟩
  | 108 => ⟨S_, .i32⟩
  | 109 => ⟨S400000, .i32⟩
  | 110 => ⟨S400000, .i1⟩
  | 111 => ⟨S_, .i32⟩
  | 112 => ⟨S400000, .i32⟩
  | 113 => ⟨S400000, .i32⟩
  | 114 => ⟨S400000, .i32⟩
  | 115 => ⟨S400000x1, .i32⟩
  | 116 => ⟨S100000x258, .f32⟩
  | 117 => ⟨S_, .i32⟩
  | 118 => ⟨S400000, .i32⟩
  | 119 => ⟨S400000, .i1⟩
  | 120 => ⟨S_, .i32⟩
  | 121 => ⟨S400000, .i32⟩
  | 122 => ⟨S400000, .i32⟩
  | 123 => ⟨S400000, .i32⟩
  | 124 => ⟨S400000x1, .i32⟩
  | 125 => ⟨S100000x258, .f32⟩
  | 126 => ⟨S1x258, .f32⟩
  | 127 => ⟨S1x258, .f32⟩
  | _ => ⟨S400000, .i32⟩

abbrev hbmTy0_1 (i : Nat) : BufTy := match i % 128 with
  | 0 => ⟨S_, .f32⟩
  | 1 => ⟨S1x258, .f32⟩
  | 2 => ⟨S1x258, .f32⟩
  | 3 => ⟨S_, .f32⟩
  | 4 => ⟨S1x258, .f32⟩
  | 5 => ⟨S1x258, .f32⟩
  | 6 => ⟨S1x258, .f32⟩
  | 7 => ⟨S1x258, .f32⟩
  | 8 => ⟨S258x258, .f32⟩
  | 9 => ⟨S515x257, .f32⟩
  | 10 => ⟨S515x258, .f32⟩
  | 11 => ⟨S257x515, .f32⟩
  | 12 => ⟨S258x515, .f32⟩
  | 13 => ⟨S100000x515, .f32⟩
  | 14 => ⟨S100000x10, .f32⟩
  | 15 => ⟨S_, .i32⟩
  | 16 => ⟨S4096, .i32⟩
  | 17 => ⟨S4096, .i1⟩
  | 18 => ⟨S_, .i32⟩
  | 19 => ⟨S4096, .i32⟩
  | 20 => ⟨S4096, .i32⟩
  | 21 => ⟨S4096, .i32⟩
  | 22 => ⟨S4096x1, .i32⟩
  | 23 => ⟨S4096x515, .f32⟩
  | 24 => ⟨S_, .i32⟩
  | 25 => ⟨S4096, .i32⟩
  | 26 => ⟨S4096, .i1⟩
  | 27 => ⟨S_, .i32⟩
  | 28 => ⟨S4096, .i32⟩
  | 29 => ⟨S4096, .i32⟩
  | 30 => ⟨S4096, .i32⟩
  | 31 => ⟨S4096x1, .i32⟩
  | 32 => ⟨S4096x515, .f32⟩
  | 33 => ⟨S4096x1030, .f32⟩
  | 34 => ⟨S1030x128, .f32⟩
  | 35 => ⟨S128x1, .f32⟩
  | 36 => ⟨S4096x1, .f32⟩
  | 37 => ⟨S4096, .f32⟩
  | _ => ⟨S400000, .i32⟩

abbrev hbmTy (i : Nat) : BufTy := match i / 128 with
  | 0 => hbmTy0_0 i
  | 1 => hbmTy0_1 i
  | _ => ⟨S400000, .i32⟩

abbrev bufTy : (tb : Table) → Fin (tcTables nBuf tb) → BufTy
  | .hbm, ⟨i, _⟩ => hbmTy i
  | .local _ .vmem, ⟨0, _⟩ => ⟨S1000x129, .f32⟩
  | .local _ .vmem, ⟨1, _⟩ => ⟨S1000x129, .f32⟩
  | .local _ .vmem, ⟨2, _⟩ => ⟨S1x129, .f32⟩
  | .local _ .vmem, ⟨3, _⟩ => ⟨S1x129, .f32⟩
  | .local _ .vmem, ⟨4, _⟩ => ⟨S1000x129, .f32⟩
  | .local _ .vmem, ⟨5, _⟩ => ⟨S1000x129, .f32⟩
  | .local _ .vmem, ⟨6, _⟩ => ⟨S1000x128, .f32⟩
  | .local _ .vmem, ⟨7, _⟩ => ⟨S1000x128, .f32⟩
  | .local _ .vmem, ⟨8, _⟩ => ⟨S1x129, .f32⟩
  | .local _ .vmem, ⟨9, _⟩ => ⟨S1x129, .f32⟩
  | .local _ .vmem, ⟨10, _⟩ => ⟨S129x129, .f32⟩
  | .local _ .vmem, ⟨11, _⟩ => ⟨S128x257, .f32⟩
  | .local _ .vmem, ⟨12, _⟩ => ⟨S129x257, .f32⟩
  | .local _ .vmem, ⟨13, _⟩ => ⟨S1000x257, .f32⟩
  | .local _ .vmem, ⟨14, _⟩ => ⟨S1000x257, .f32⟩
  | .local _ .vmem, ⟨15, _⟩ => ⟨S1000x258, .f32⟩
  | .local _ .vmem, ⟨16, _⟩ => ⟨S1000x258, .f32⟩
  | .local _ .vmem, ⟨17, _⟩ => ⟨S1x258, .f32⟩
  | .local _ .vmem, ⟨18, _⟩ => ⟨S1x258, .f32⟩
  | .local _ .vmem, ⟨19, _⟩ => ⟨S1000x258, .f32⟩
  | .local _ .vmem, ⟨20, _⟩ => ⟨S1000x258, .f32⟩
  | .local _ .vmem, ⟨21, _⟩ => ⟨S1000x257, .f32⟩
  | .local _ .vmem, ⟨22, _⟩ => ⟨S1000x257, .f32⟩
  | .local _ .vmem, ⟨23, _⟩ => ⟨S1x258, .f32⟩
  | .local _ .vmem, ⟨24, _⟩ => ⟨S1x258, .f32⟩
  | .local _ .vmem, ⟨25, _⟩ => ⟨S258x258, .f32⟩
  | .local _ .vmem, ⟨26, _⟩ => ⟨S257x515, .f32⟩
  | .local _ .vmem, ⟨27, _⟩ => ⟨S258x515, .f32⟩
  | .local _ .vmem, ⟨28, _⟩ => ⟨S515x128, .f32⟩
  | .local _ .vmem, ⟨29, _⟩ => ⟨S128x10, .f32⟩
  | .local _ .vmem, ⟨30, _⟩ => ⟨S1000x515, .f32⟩
  | .local _ .vmem, ⟨31, _⟩ => ⟨S1000x515, .f32⟩
  | .local _ .vmem, ⟨32, _⟩ => ⟨S1000x10, .f32⟩
  | .local _ .vmem, ⟨33, _⟩ => ⟨S1000x10, .f32⟩
  | .local _ .vmem, ⟨34, _⟩ => ⟨S1024x1030, .f32⟩
  | .local _ .vmem, ⟨35, _⟩ => ⟨S1024x1030, .f32⟩
  | .local _ .vmem, ⟨36, _⟩ => ⟨S1030x128, .f32⟩
  | .local _ .vmem, ⟨37, _⟩ => ⟨S128x1, .f32⟩
  | .local _ .vmem, ⟨38, _⟩ => ⟨S1024x1, .f32⟩
  | .local _ .vmem, ⟨39, _⟩ => ⟨S1024x1, .f32⟩
  | _, _ => ⟨S400000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_1 : Ref sig .tc := ⟨.hbm, 38, rfl⟩
abbrev main_v21 : Ref sig .tc := ⟨.hbm, 39, rfl⟩
abbrev main_v22 : Ref sig .tc := ⟨.hbm, 40, rfl⟩
abbrev main_c_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_c_4 : Ref sig .tc := ⟨.hbm, 50, rfl⟩
abbrev main_v30 : Ref sig .tc := ⟨.hbm, 51, rfl⟩
abbrev main_v31 : Ref sig .tc := ⟨.hbm, 52, rfl⟩
abbrev main_c_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_6 : Ref sig .tc := ⟨.hbm, 59, rfl⟩
abbrev main_v37 : Ref sig .tc := ⟨.hbm, 60, rfl⟩
abbrev main_v38 : Ref sig .tc := ⟨.hbm, 61, rfl⟩
abbrev main_c_7 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44_0 : Ref sig .tc := ⟨.hbm, 68, rfl⟩
abbrev main_v44_1 : Ref sig .tc := ⟨.hbm, 69, rfl⟩
abbrev main_cst_8 : Ref sig .tc := ⟨.hbm, 70, rfl⟩
abbrev main_v45 : Ref sig .tc := ⟨.hbm, 71, rfl⟩
abbrev main_v46 : Ref sig .tc := ⟨.hbm, 72, rfl⟩
abbrev main_cst_9 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c_10 : Ref sig .tc := ⟨.hbm, 86, rfl⟩
abbrev main_v59 : Ref sig .tc := ⟨.hbm, 87, rfl⟩
abbrev main_v60 : Ref sig .tc := ⟨.hbm, 88, rfl⟩
abbrev main_c_11 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_12 : Ref sig .tc := ⟨.hbm, 96, rfl⟩
abbrev main_v67 : Ref sig .tc := ⟨.hbm, 97, rfl⟩
abbrev main_v68 : Ref sig .tc := ⟨.hbm, 98, rfl⟩
abbrev main_c_13 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_14 : Ref sig .tc := ⟨.hbm, 106, rfl⟩
abbrev main_v75 : Ref sig .tc := ⟨.hbm, 107, rfl⟩
abbrev main_c_15 : Ref sig .tc := ⟨.hbm, 108, rfl⟩
abbrev main_v76 : Ref sig .tc := ⟨.hbm, 109, rfl⟩
abbrev main_v77 : Ref sig .tc := ⟨.hbm, 110, rfl⟩
abbrev main_c_16 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_c_17 : Ref sig .tc := ⟨.hbm, 117, rfl⟩
abbrev main_v83 : Ref sig .tc := ⟨.hbm, 118, rfl⟩
abbrev main_v84 : Ref sig .tc := ⟨.hbm, 119, rfl⟩
abbrev main_c_18 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90_0 : Ref sig .tc := ⟨.hbm, 126, rfl⟩
abbrev main_v90_1 : Ref sig .tc := ⟨.hbm, 127, rfl⟩
abbrev main_cst_19 : Ref sig .tc := ⟨.hbm, 128, rfl⟩
abbrev main_v91 : Ref sig .tc := ⟨.hbm, 129, rfl⟩
abbrev main_v92 : Ref sig .tc := ⟨.hbm, 130, rfl⟩
abbrev main_cst_20 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102_0 : Ref sig .tc := ⟨.hbm, 141, rfl⟩
abbrev main_v102_1 : Ref sig .tc := ⟨.hbm, 142, rfl⟩
abbrev main_c_21 : Ref sig .tc := ⟨.hbm, 143, rfl⟩
abbrev main_v103 : Ref sig .tc := ⟨.hbm, 144, rfl⟩
abbrev main_v104 : Ref sig .tc := ⟨.hbm, 145, rfl⟩
abbrev main_c_22 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_c_23 : Ref sig .tc := ⟨.hbm, 152, rfl⟩
abbrev main_v110 : Ref sig .tc := ⟨.hbm, 153, rfl⟩
abbrev main_v111 : Ref sig .tc := ⟨.hbm, 154, rfl⟩
abbrev main_c_24 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg7_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg6_0 : Ref sig .tc := ⟨.vmem, 27, rfl⟩
abbrev cc3_stg7_0 : Ref sig .tc := ⟨.vmem, 28, rfl⟩
abbrev cc3_stg8_0 : Ref sig .tc := ⟨.vmem, 29, rfl⟩
abbrev cc3_stg9_0 : Ref sig .tc := ⟨.vmem, 30, rfl⟩
abbrev cc3_stg9_1 : Ref sig .tc := ⟨.vmem, 31, rfl⟩
abbrev cc3_stg10_0 : Ref sig .tc := ⟨.vmem, 32, rfl⟩
abbrev cc3_stg10_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg3_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem7_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem6_0 : DmaSem sig := 27
abbrev cc3_sem7_0 : DmaSem sig := 28
abbrev cc3_sem8_0 : DmaSem sig := 29
abbrev cc3_sem9_0 : DmaSem sig := 30
abbrev cc3_sem9_1 : DmaSem sig := 31
abbrev cc3_sem10_0 : DmaSem sig := 32
abbrev cc3_sem10_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem3_1 : DmaSem sig := 39

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x129 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x129 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x129 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x129 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x129 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x129 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S129x129 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x257 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S129x257 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1000x257 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1000x258 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x258 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x258 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x258 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x257 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x258 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x258 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S258x258 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S257x515 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S258x515 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S515x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x10 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S1000x515 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S1000x10 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x1030 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1030x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S400000_S1_399999 : S400000.Slices ![399999] S1
  shapeCasts_S1_S_ : S1.ShapeCasts S_
  bcast_S_S400000 : S_.BroadcastsInDim S400000 (![] : Fin 0 → Fin S400000.rank)
  slices_S400000_S1_0 : S400000.Slices ![0] S1
  bcast_S400000_S400000x1_0 : S400000.BroadcastsInDim S400000x1 (![0] : Fin 1 → Fin S400000x1.rank)
  concatenates_S400000x128_S400000x1_S400000x129_d1 : Shape.Concatenates [S400000x128, S400000x1] S400000x129 1
  bcast_S_S100000x129 : S_.BroadcastsInDim S100000x129 (![] : Fin 0 → Fin S100000x129.rank)
  inb_S1x129_S1x129_0_0 : ∀ a, (![0, 0] : Fin 2 → Nat) a + S1x129.size a ≤ S1x129.size a
  h_S1x129 : 0 < S1x129.numel
  inb_S1000x129_S1000x129_0_0 : ∀ a, (![0, 0] : Fin 2 → Nat) a + S1000x129.size a ≤ S1000x129.size a
  h_S1000x129 : 0 < S1000x129.numel
  shapeCasts_S1000x129_S1000x129 : S1000x129.ShapeCasts S1000x129
  shapeCasts_S1x129_S1x129 : S1x129.ShapeCasts S1x129
  reduces_S1000x129_S129 : S1000x129.Reduces [0] S129
  shapeCasts_S129_S1x129 : S129.ShapeCasts S1x129
  bcast_S_S1x129 : S_.BroadcastsInDim S1x129 (![] : Fin 0 → Fin S1x129.rank)
  transposes_S129x129_S129x129_1_0 : S129x129.Transposes [1, 0] S129x129
  slices_S257x257_S257x128_0_0 : S257x257.Slices ![0, 0] S257x128
  slices_S257x257_S257x129_0_128 : S257x257.Slices ![0, 128] S257x129
  transposes_S257x128_S128x257_1_0 : S257x128.Transposes [1, 0] S128x257
  transposes_S257x129_S129x257_1_0 : S257x129.Transposes [1, 0] S129x257
  broadcasts_S1x129_S1000x129 : S1x129.Broadcasts S1000x129
  bitsLt_bf16_f32 : FTy.bits .bf16 < FTy.bits .f32
  inb_S129x129_S129x129_0_0 : ∀ a, (![0, 0] : Fin 2 → Nat) a + S129x129.size a ≤ S129x129.size a
  h_S129x129 : 0 < S129x129.numel
  shapeCasts_S129x129_S129x129 : S129x129.ShapeCasts S129x129
  inb_S1000x128_S1000x128_0_0 : ∀ a, (![0, 0] : Fin 2 → Nat) a + S1000x128.size a ≤ S1000x128.size a
  h_S1000x128 : 0 < S1000x128.numel
  inb_S128x257_S128x257_0_0 : ∀ a, (![0, 0] : Fin 2 → Nat) a + S128x257.size a ≤ S128x257.size a
  h_S128x257 : 0 < S128x257.numel
  shapeCasts_S128x257_S128x257 : S128x257.ShapeCasts S128x257
  inb_S129x257_S129x257_0_0 : ∀ a, (![0, 0] : Fin 2 → Nat) a + S129x257.size a ≤ S129x257.size a
  h_S129x257 : 0 < S129x257.numel
  shapeCasts_S129x257_S129x257 : S129x257.ShapeCasts S129x257
  inb_S1000x257_S1000x257_0_0 : ∀ a, (![0, 0] : Fin 2 → Nat) a + S1000x257.size a ≤ S1000x257.size a
  h_S1000x257 : 0 < S1000x257.numel
  transposes_S128x515_S515x128_1_0 : S128x515.Transposes [1, 0] S515x128
  transposes_S10x128_S128x10_1_0 : S10x128.Transposes [1, 0] S128x10
  concatenates_S400000x257_S400000x1_S400000x258_d1 : Shape.Concatenates [S400000x257, S400000x1] S400000x258 1
  bcast_S_S100000x258 : S_.BroadcastsInDim S100000x258 (![] : Fin 0 → Fin S100000x258.rank)
  inb_S1x258_S1x258_0_0 : ∀ a, (![0, 0] : Fin 2 → Nat) a + S1x258.size a ≤ S1x258.size a
  h_S1x258 : 0 < S1x258.numel
  inb_S1000x258_S1000x258_0_0 : ∀ a, (![0, 0] : Fin 2 → Nat) a + S1000x258.size a ≤ S1000x258.size a
  h_S1000x258 : 0 < S1000x258.numel
  shapeCasts_S1000x258_S1000x258 : S1000x258.ShapeCasts S1000x258
  shapeCasts_S1x258_S1x258 : S1x258.ShapeCasts S1x258
  reduces_S1000x258_S258 : S1000x258.Reduces [0] S258
  shapeCasts_S258_S1x258 : S258.ShapeCasts S1x258
  bcast_S_S1x258 : S_.BroadcastsInDim S1x258 (![] : Fin 0 → Fin S1x258.rank)
  transposes_S258x258_S258x258_1_0 : S258x258.Transposes [1, 0] S258x258
  slices_S515x515_S515x257_0_0 : S515x515.Slices ![0, 0] S515x257
  slices_S515x515_S515x258_0_257 : S515x515.Slices ![0, 257] S515x258
  transposes_S515x257_S257x515_1_0 : S515x257.Transposes [1, 0] S257x515
  transposes_S515x258_S258x515_1_0 : S515x258.Transposes [1, 0] S258x515
  broadcasts_S1x258_S1000x258 : S1x258.Broadcasts S1000x258
  inb_S258x258_S258x258_0_0 : ∀ a, (![0, 0] : Fin 2 → Nat) a + S258x258.size a ≤ S258x258.size a
  h_S258x258 : 0 < S258x258.numel
  shapeCasts_S258x258_S258x258 : S258x258.ShapeCasts S258x258
  shapeCasts_S1000x257_S1000x257 : S1000x257.ShapeCasts S1000x257
  inb_S257x515_S257x515_0_0 : ∀ a, (![0, 0] : Fin 2 → Nat) a + S257x515.size a ≤ S257x515.size a
  h_S257x515 : 0 < S257x515.numel
  shapeCasts_S257x515_S257x515 : S257x515.ShapeCasts S257x515
  inb_S258x515_S258x515_0_0 : ∀ a, (![0, 0] : Fin 2 → Nat) a + S258x515.size a ≤ S258x515.size a
  h_S258x515 : 0 < S258x515.numel
  shapeCasts_S258x515_S258x515 : S258x515.ShapeCasts S258x515
  inb_S1000x515_S1000x515_0_0 : ∀ a, (![0, 0] : Fin 2 → Nat) a + S1000x515.size a ≤ S1000x515.size a
  h_S1000x515 : 0 < S1000x515.numel
  inb_S515x128_S515x128_0_0 : ∀ a, (![0, 0] : Fin 2 → Nat) a + S515x128.size a ≤ S515x128.size a
  h_S515x128 : 0 < S515x128.numel
  shapeCasts_S515x128_S515x128 : S515x128.ShapeCasts S515x128
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S1000x10_S1000x10_0_0 : ∀ a, (![0, 0] : Fin 2 → Nat) a + S1000x10.size a ≤ S1000x10.size a
  h_S1000x10 : 0 < S1000x10.numel
  bcast_S_S4096 : S_.BroadcastsInDim S4096 (![] : Fin 0 → Fin S4096.rank)
  bcast_S4096_S4096x1_0 : S4096.BroadcastsInDim S4096x1 (![0] : Fin 1 → Fin S4096x1.rank)
  concatenates_S4096x515_S4096x515_S4096x1030_d1 : Shape.Concatenates [S4096x515, S4096x515] S4096x1030 1
  transposes_S128x1030_S1030x128_1_0 : S128x1030.Transposes [1, 0] S1030x128
  transposes_S1x128_S128x1_1_0 : S1x128.Transposes [1, 0] S128x1
  inb_S1024x1030_S1024x1030_0_0 : ∀ a, (![0, 0] : Fin 2 → Nat) a + S1024x1030.size a ≤ S1024x1030.size a
  h_S1024x1030 : 0 < S1024x1030.numel
  shapeCasts_S1024x1030_S1024x1030 : S1024x1030.ShapeCasts S1024x1030
  inb_S1030x128_S1030x128_0_0 : ∀ a, (![0, 0] : Fin 2 → Nat) a + S1030x128.size a ≤ S1030x128.size a
  h_S1030x128 : 0 < S1030x128.numel
  shapeCasts_S1030x128_S1030x128 : S1030x128.ShapeCasts S1030x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1024x1_S1024x1_0_0 : ∀ a, (![0, 0] : Fin 2 → Nat) a + S1024x1.size a ≤ S1024x1.size a
  h_S1024x1 : 0 < S1024x1.numel
  shapeCasts_S4096x1_S4096 : S4096x1.ShapeCasts S4096
  gather_S100000x128_S400000x1_S400000x128_1_0_n_n_0_1_1128_wf : GatherDims.WF S100000x128 S400000x1 S400000x128 [1] [0] [] [0] [] 1 ![1, 128]
  scatter_S100000x129_S400000x1_S400000x129_1_0_0_1_wf : ScatterDims.WF S100000x129 S400000x1 S400000x129 [1] [0] [0] 1
  dot_S1000x129_S129x129_S1000x129_1_0_0_1_n_n_wf : DotDims.WF S1000x129 S129x129 S1000x129 [1] [0] [0] [1] [] []
  dot_S1000x128_S128x257_S1000x257_1_0_0_1_n_n_wf : DotDims.WF S1000x128 S128x257 S1000x257 [1] [0] [0] [1] [] []
  dot_S1000x129_S129x257_S1000x257_1_0_0_1_n_n_wf : DotDims.WF S1000x129 S129x257 S1000x257 [1] [0] [0] [1] [] []
  gather_S100000x257_S400000x1_S400000x257_1_0_n_n_0_1_1257_wf : GatherDims.WF S100000x257 S400000x1 S400000x257 [1] [0] [] [0] [] 1 ![1, 257]
  scatter_S100000x258_S400000x1_S400000x258_1_0_0_1_wf : ScatterDims.WF S100000x258 S400000x1 S400000x258 [1] [0] [0] 1
  dot_S1000x258_S258x258_S1000x258_1_0_0_1_n_n_wf : DotDims.WF S1000x258 S258x258 S1000x258 [1] [0] [0] [1] [] []
  dot_S1000x257_S257x515_S1000x515_1_0_0_1_n_n_wf : DotDims.WF S1000x257 S257x515 S1000x515 [1] [0] [0] [1] [] []
  dot_S1000x258_S258x515_S1000x515_1_0_0_1_n_n_wf : DotDims.WF S1000x258 S258x515 S1000x515 [1] [0] [0] [1] [] []
  dot_S1000x515_S515x128_S1000x128_1_0_0_1_n_n_wf : DotDims.WF S1000x515 S515x128 S1000x128 [1] [0] [0] [1] [] []
  dot_S1000x128_S128x10_S1000x10_1_0_0_1_n_n_wf : DotDims.WF S1000x128 S128x10 S1000x10 [1] [0] [0] [1] [] []
  gather_S100000x515_S4096x1_S4096x515_1_0_n_n_0_1_1515_wf : GatherDims.WF S100000x515 S4096x1 S4096x515 [1] [0] [] [0] [] 1 ![1, 515]
  dot_S1024x1030_S1030x128_S1024x128_1_0_0_1_n_n_wf : DotDims.WF S1024x1030 S1030x128 S1024x128 [1] [0] [0] [1] [] []
  dot_S1024x128_S128x1_S1024x1_1_0_0_1_n_n_wf : DotDims.WF S1024x128 S128x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x129.size a ≤ S100000x129.size a
  hwx0_0 : ∀ i : grid0.Coords, EltTy.bits .f32 = 32 ∨ (Rect.block (s := S100000x129) S1000x129.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x129.size a ≤ S1x129.size a
  hwx0_1 : ∀ i : grid0.Coords, EltTy.bits .f32 = 32 ∨ (Rect.block (s := S1x129) S1x129.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x129.size a ≤ S1x129.size a
  hwx0_2 : ∀ i : grid0.Coords, EltTy.bits .f32 = 32 ∨ (Rect.block (s := S1x129) S1x129.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x129.size a ≤ S100000x129.size a
  hwx1_0 : ∀ i : grid1.Coords, EltTy.bits .f32 = 32 ∨ (Rect.block (s := S100000x129) S1000x129.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S100000x128.size a
  hwx1_1 : ∀ i : grid1.Coords, EltTy.bits .f32 = 32 ∨ (Rect.block (s := S100000x128) S1000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x129.size a ≤ S1x129.size a
  hwx1_2 : ∀ i : grid1.Coords, EltTy.bits .f32 = 32 ∨ (Rect.block (s := S1x129) S1x129.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x129.size a ≤ S1x129.size a
  hwx1_3 : ∀ i : grid1.Coords, EltTy.bits .f32 = 32 ∨ (Rect.block (s := S1x129) S1x129.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S129x129.size a ≤ S129x129.size a
  hwx1_4 : ∀ i : grid1.Coords, EltTy.bits .f32 = 32 ∨ (Rect.block (s := S129x129) S129x129.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x257.size a ≤ S128x257.size a
  hwx1_5 : ∀ i : grid1.Coords, EltTy.bits .f32 = 32 ∨ (Rect.block (s := S128x257) S128x257.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S129x257.size a ≤ S129x257.size a
  hwx1_6 : ∀ i : grid1.Coords, EltTy.bits .f32 = 32 ∨ (Rect.block (s := S129x257) S129x257.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1000x257.size a ≤ S100000x257.size a
  hwx1_7 : ∀ i : grid1.Coords, EltTy.bits .f32 = 32 ∨ (Rect.block (s := S100000x257) S1000x257.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x258.size a ≤ S100000x258.size a
  hwx2_0 : ∀ i : grid2.Coords, EltTy.bits .f32 = 32 ∨ (Rect.block (s := S100000x258) S1000x258.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x258.size a ≤ S1x258.size a
  hwx2_1 : ∀ i : grid2.Coords, EltTy.bits .f32 = 32 ∨ (Rect.block (s := S1x258) S1x258.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x258.size a ≤ S1x258.size a
  hwx2_2 : ∀ i : grid2.Coords, EltTy.bits .f32 = 32 ∨ (Rect.block (s := S1x258) S1x258.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x258.size a ≤ S100000x258.size a
  hwx3_0 : ∀ i : grid3.Coords, EltTy.bits .f32 = 32 ∨ (Rect.block (s := S100000x258) S1000x258.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x257.size a ≤ S100000x257.size a
  hwx3_1 : ∀ i : grid3.Coords, EltTy.bits .f32 = 32 ∨ (Rect.block (s := S100000x257) S1000x257.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x258.size a ≤ S1x258.size a
  hwx3_2 : ∀ i : grid3.Coords, EltTy.bits .f32 = 32 ∨ (Rect.block (s := S1x258) S1x258.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x258.size a ≤ S1x258.size a
  hwx3_3 : ∀ i : grid3.Coords, EltTy.bits .f32 = 32 ∨ (Rect.block (s := S1x258) S1x258.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S258x258.size a ≤ S258x258.size a
  hwx3_4 : ∀ i : grid3.Coords, EltTy.bits .f32 = 32 ∨ (Rect.block (s := S258x258) S258x258.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S257x515.size a ≤ S257x515.size a
  hwx3_5 : ∀ i : grid3.Coords, EltTy.bits .f32 = 32 ∨ (Rect.block (s := S257x515) S257x515.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S258x515.size a ≤ S258x515.size a
  hwx3_6 : ∀ i : grid3.Coords, EltTy.bits .f32 = 32 ∨ (Rect.block (s := S258x515) S258x515.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S515x128.size a ≤ S515x128.size a
  hwx3_7 : ∀ i : grid3.Coords, EltTy.bits .f32 = 32 ∨ (Rect.block (s := S515x128) S515x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x10.size a ≤ S128x10.size a
  hwx3_8 : ∀ i : grid3.Coords, EltTy.bits .f32 = 32 ∨ (Rect.block (s := S128x10) S128x10.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S1000x515.size a ≤ S100000x515.size a
  hwx3_9 : ∀ i : grid3.Coords, EltTy.bits .f32 = 32 ∨ (Rect.block (s := S100000x515) S1000x515.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S1000x10.size a ≤ S100000x10.size a
  hwx3_10 : ∀ i : grid3.Coords, EltTy.bits .f32 = 32 ∨ (Rect.block (s := S100000x10) S1000x10.size (cc3_transform_10 i) (hinb3_10 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1030.size a ≤ S4096x1030.size a
  hwx4_0 : ∀ i : grid4.Coords, EltTy.bits .f32 = 32 ∨ (Rect.block (s := S4096x1030) S1024x1030.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1030x128.size a ≤ S1030x128.size a
  hwx4_1 : ∀ i : grid4.Coords, EltTy.bits .f32 = 32 ∨ (Rect.block (s := S1030x128) S1030x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x1.size a ≤ S128x1.size a
  hwx4_2 : ∀ i : grid4.Coords, EltTy.bits .f32 = 32 ∨ (Rect.block (s := S128x1) S128x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x1.size a ≤ S4096x1.size a
  hwx4_3 : ∀ i : grid4.Coords, EltTy.bits .f32 = 32 ∨ (Rect.block (s := S4096x1) S1024x1.size (cc4_transform_3 i) (hinb4_3 i)).WholeWords (EltTy.packing .f32)

variable [Facts₀]

def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x129_S400000x1_S400000x129_1_0_0_1 : ScatterDims S100000x129 S400000x1 S400000x129 where
  updateWindowDims := [1]
  insertedWindowDims := [0]
  scatterDimsToOperandDims := [0]
  indexVectorDim := 1
  wf := scatter_S100000x129_S400000x1_S400000x129_1_0_0_1_wf
def dot_S1000x129_S129x129_S1000x129_1_0_0_1_n_n : DotDims S1000x129 S129x129 S1000x129 where
  lhsContracting := [1]
  rhsContracting := [0]
  lhsNonContracting := [0]
  rhsNonContracting := [1]
  lhsBatch := []
  rhsBatch := []
  wf := dot_S1000x129_S129x129_S1000x129_1_0_0_1_n_n_wf
def dot_S1000x128_S128x257_S1000x257_1_0_0_1_n_n : DotDims S1000x128 S128x257 S1000x257 where
  lhsContracting := [1]
  rhsContracting := [0]
  lhsNonContracting := [0]
  rhsNonContracting := [1]
  lhsBatch := []
  rhsBatch := []
  wf := dot_S1000x128_S128x257_S1000x257_1_0_0_1_n_n_wf
def dot_S1000x129_S129x257_S1000x257_1_0_0_1_n_n : DotDims S1000x129 S129x257 S1000x257 where
  lhsContracting := [1]
  rhsContracting := [0]
  lhsNonContracting := [0]
  rhsNonContracting := [1]
  lhsBatch := []
  rhsBatch := []
  wf := dot_S1000x129_S129x257_S1000x257_1_0_0_1_n_n_wf
def gather_S100000x257_S400000x1_S400000x257_1_0_n_n_0_1_1257 : GatherDims S100000x257 S400000x1 S400000x257 where
  offsetDims := [1]
  collapsedSliceDims := [0]
  operandBatchingDims := []
  startIndicesBatchingDims := []
  startIndexMap := [0]
  indexVectorDim := 1
  sliceSizes := ![1, 257]
  wf := gather_S100000x257_S400000x1_S400000x257_1_0_n_n_0_1_1257_wf
def scatter_S100000x258_S400000x1_S400000x258_1_0_0_1 : ScatterDims S100000x258 S400000x1 S400000x258 where
  updateWindowDims := [1]
  insertedWindowDims := [0]
  scatterDimsToOperandDims := [0]
  indexVectorDim := 1
  wf := scatter_S100000x258_S400000x1_S400000x258_1_0_0_1_wf
def dot_S1000x258_S258x258_S1000x258_1_0_0_1_n_n : DotDims S1000x258 S258x258 S1000x258 where
  lhsContracting := [1]
  rhsContracting := [0]
  lhsNonContracting := [0]
  rhsNonContracting := [1]
  lhsBatch := []
  rhsBatch := []
  wf := dot_S1000x258_S258x258_S1000x258_1_0_0_1_n_n_wf
def dot_S1000x257_S257x515_S1000x515_1_0_0_1_n_n : DotDims S1000x257 S257x515 S1000x515 where
  lhsContracting := [1]
  rhsContracting := [0]
  lhsNonContracting := [0]
  rhsNonContracting := [1]
  lhsBatch := []
  rhsBatch := []
  wf := dot_S1000x257_S257x515_S1000x515_1_0_0_1_n_n_wf
def dot_S1000x258_S258x515_S1000x515_1_0_0_1_n_n : DotDims S1000x258 S258x515 S1000x515 where
  lhsContracting := [1]
  rhsContracting := [0]
  lhsNonContracting := [0]
  rhsNonContracting := [1]
  lhsBatch := []
  rhsBatch := []
  wf := dot_S1000x258_S258x515_S1000x515_1_0_0_1_n_n_wf
def dot_S1000x515_S515x128_S1000x128_1_0_0_1_n_n : DotDims S1000x515 S515x128 S1000x128 where
  lhsContracting := [1]
  rhsContracting := [0]
  lhsNonContracting := [0]
  rhsNonContracting := [1]
  lhsBatch := []
  rhsBatch := []
  wf := dot_S1000x515_S515x128_S1000x128_1_0_0_1_n_n_wf
def dot_S1000x128_S128x10_S1000x10_1_0_0_1_n_n : DotDims S1000x128 S128x10 S1000x10 where
  lhsContracting := [1]
  rhsContracting := [0]
  lhsNonContracting := [0]
  rhsNonContracting := [1]
  lhsBatch := []
  rhsBatch := []
  wf := dot_S1000x128_S128x10_S1000x10_1_0_0_1_n_n_wf
def gather_S100000x515_S4096x1_S4096x515_1_0_n_n_0_1_1515 : GatherDims S100000x515 S4096x1 S4096x515 where
  offsetDims := [1]
  collapsedSliceDims := [0]
  operandBatchingDims := []
  startIndicesBatchingDims := []
  startIndexMap := [0]
  indexVectorDim := 1
  sliceSizes := ![1, 515]
  wf := gather_S100000x515_S4096x1_S4096x515_1_0_n_n_0_1_1515_wf
def dot_S1024x1030_S1030x128_S1024x128_1_0_0_1_n_n : DotDims S1024x1030 S1030x128 S1024x128 where
  lhsContracting := [1]
  rhsContracting := [0]
  lhsNonContracting := [0]
  rhsNonContracting := [1]
  lhsBatch := []
  rhsBatch := []
  wf := dot_S1024x1030_S1030x128_S1024x128_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf

abbrev win0_0 : Pipeline.Window sig grid0 :=
  Pipeline.Window.ofSpec (Memref.whole main_v43) S1000x129.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44_0) S1x129.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v44_1) S1x129.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S1000x129.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x129.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x129.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S129x129.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v54) S128x257.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v55) S129x257.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v56) S1000x257.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v89) S1000x258.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v90_0) S1x258.size cc2_transform_1 reads2_1 true true 1 stage2_1 sem2_1
    hrank2 hreads2_1 hinb2_1 nbuf2_1 (Memref.isWhole_whole _) hwx2_1 hstage2_1

abbrev win2_2 : Pipeline.Window sig grid2 :=
  Pipeline.Window.ofSpec (Memref.whole main_v90_1) S1x258.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v89) S1000x258.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S1000x257.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v92) S1x258.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v96) S1x258.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v97) S258x258.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v100) S257x515.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v101) S258x515.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v57) S515x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v58) S128x10.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v102_0) S1000x515.size cc3_transform_9 reads3_9 true false 2 stage3_9 sem3_9
    hrank3 hreads3_9 hinb3_9 nbuf3_9 (Memref.isWhole_whole _) hwx3_9 hstage3_9

abbrev win3_10 : Pipeline.Window sig grid3 :=
  Pipeline.Window.ofSpec (Memref.whole main_v102_1) S1000x10.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev win4_0 : Pipeline.Window sig grid4 :=
  Pipeline.Window.ofSpec (Memref.whole main_v117) S1024x1030.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v118) S1030x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v119) S128x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v120) S1024x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S400000 : Shape := ⟨1, ![400000]⟩
abbrev S4096 : Shape := ⟨1, ![4096]⟩
abbrev S100000x128 : Shape := ⟨2, ![100000, 128]⟩
abbrev S129x129 : Shape := ⟨2, ![129, 129]⟩
abbrev S257x257 : Shape := ⟨2, ![257, 257]⟩
abbrev S258x258 : Shape := ⟨2, ![258, 258]⟩
abbrev S515x515 : Shape := ⟨2, ![515, 515]⟩
abbrev S128x1030 : Shape := ⟨2, ![128, 1030]⟩
abbrev S1x128 : Shape := ⟨2, ![1, 128]⟩
abbrev S128x515 : Shape := ⟨2, ![128, 515]⟩
abbrev S10x128 : Shape := ⟨2, ![10, 128]⟩
abbrev S1 : Shape := ⟨1, ![1]⟩
abbrev S_ : Shape := ⟨0, ![]⟩
abbrev S400000x1 : Shape := ⟨2, ![400000, 1]⟩
abbrev S400000x128 : Shape := ⟨2, ![400000, 128]⟩
abbrev S400000x129 : Shape := ⟨2, ![400000, 129]⟩
abbrev S100000x129 : Shape := ⟨2, ![100000, 129]⟩
abbrev S129 : Shape := ⟨1, ![129]⟩
abbrev S1x129 : Shape := ⟨2, ![1, 129]⟩
abbrev S100000x257 : Shape := ⟨2, ![100000, 257]⟩
abbrev S400000x257 : Shape := ⟨2, ![400000, 257]⟩
abbrev S400000x258 : Shape := ⟨2, ![400000, 258]⟩
abbrev S100000x258 : Shape := ⟨2, ![100000, 258]⟩
abbrev S258 : Shape := ⟨1, ![258]⟩
abbrev S1x258 : Shape := ⟨2, ![1, 258]⟩
abbrev S100000x515 : Shape := ⟨2, ![100000, 515]⟩
abbrev S4096x1 : Shape := ⟨2, ![4096, 1]⟩
abbrev S4096x515 : Shape := ⟨2, ![4096, 515]⟩
abbrev S4096x1030 : Shape := ⟨2, ![4096, 1030]⟩
abbrev S1030x128 : Shape := ⟨2, ![1030, 128]⟩
abbrev S4096x128 : Shape := ⟨2, ![4096, 128]⟩
abbrev S128x1 : Shape := ⟨2, ![128, 1]⟩
abbrev S515x128 : Shape := ⟨2, ![515, 128]⟩
abbrev S128x10 : Shape := ⟨2, ![128, 10]⟩
abbrev S100000x10 : Shape := ⟨2, ![100000, 10]⟩

abbrev nBuf : Space → Nat
  | .hbm => 234
  | .vmem => 0
  | .smem => 0
  | _ => 0

abbrev hbmTy0_0 (i : Nat) : BufTy := match i % 128 with
  | 0 => ⟨S400000, .i32⟩
  | 1 => ⟨S400000, .i32⟩
  | 2 => ⟨S400000, .f32⟩
  | 3 => ⟨S4096, .i32⟩
  | 4 => ⟨S4096, .i32⟩
  | 5 => ⟨S100000x128, .f32⟩
  | 6 => ⟨S129x129, .f32⟩
  | 7 => ⟨S257x257, .f32⟩
  | 8 => ⟨S258x258, .f32⟩
  | 9 => ⟨S515x515, .f32⟩
  | 10 => ⟨S128x1030, .f32⟩
  | 11 => ⟨S1x128, .f32⟩
  | 12 => ⟨S128x515, .f32⟩
  | 13 => ⟨S10x128, .f32⟩
  | 14 => ⟨S1, .f32⟩
  | 15 => ⟨S_, .f32⟩
  | 16 => ⟨S400000, .f32⟩
  | 17 => ⟨S400000, .f32⟩
  | 18 => ⟨S1, .f32⟩
  | 19 => ⟨S_, .f32⟩
  | 20 => ⟨S_, .f32⟩
  | 21 => ⟨S_, .f32⟩
  | 22 => ⟨S1, .f32⟩
  | 23 => ⟨S_, .f32⟩
  | 24 => ⟨S_, .f32⟩
  | 25 => ⟨S400000, .f32⟩
  | 26 => ⟨S400000, .f32⟩
  | 27 => ⟨S400000x1, .f32⟩
  | 28 => ⟨S_, .i32⟩
  | 29 => ⟨S400000, .i32⟩
  | 30 => ⟨S400000, .i1⟩
  | 31 => ⟨S_, .i32⟩
  | 32 => ⟨S400000, .i32⟩
  | 33 => ⟨S400000, .i32⟩
  | 34 => ⟨S400000, .i32⟩
  | 35 => ⟨S400000x1, .i32⟩
  | 36 => ⟨S400000x128, .f32⟩
  | 37 => ⟨S400000x129, .f32⟩
  | 38 => ⟨S_, .i32⟩
  | 39 => ⟨S400000, .i32⟩
  | 40 => ⟨S400000, .i1⟩
  | 41 => ⟨S_, .i32⟩
  | 42 => ⟨S400000, .i32⟩
  | 43 => ⟨S400000, .i32⟩
  | 44 => ⟨S400000, .i32⟩
  | 45 => ⟨S400000x1, .i32⟩
  | 46 => ⟨S400000x128, .f32⟩
  | 47 => ⟨S400000x129, .f32⟩
  | 48 => ⟨S_, .f32⟩
  | 49 => ⟨S100000x129, .f32⟩
  | 50 => ⟨S_, .i32⟩
  | 51 => ⟨S400000, .i32⟩
  | 52 => ⟨S400000, .i1⟩
  | 53 => ⟨S_, .i32⟩
  | 54 => ⟨S400000, .i32⟩
  | 55 => ⟨S400000, .i32⟩
  | 56 => ⟨S400000, .i32⟩
  | 57 => ⟨S400000x1, .i32⟩
  | 58 => ⟨S100000x129, .f32⟩
  | 59 => ⟨S_, .i32⟩
  | 60 => ⟨S400000, .i32⟩
  | 61 => ⟨S400000, .i1⟩
  | 62 => ⟨S_, .i32⟩
  | 63 => ⟨S400000, .i32⟩
  | 64 => ⟨S400000, .i32⟩
  | 65 => ⟨S400000, .i32⟩
  | 66 => ⟨S400000x1, .i32⟩
  | 67 => ⟨S100000x129, .f32⟩
  | 68 => ⟨S_, .f32⟩
  | 69 => ⟨S129, .f32⟩
  | 70 => ⟨S_, .f32⟩
  | 71 => ⟨S129, .f32⟩
  | 72 => ⟨S129, .f32⟩
  | 73 => ⟨S_, .i32⟩
  | 74 => ⟨S_, .f32⟩
  | 75 => ⟨S129, .f32⟩
  | 76 => ⟨S1x129, .f32⟩
  | 77 => ⟨S_, .f32⟩
  | 78 => ⟨S1x129, .f32⟩
  | 79 => ⟨S1x129, .f32⟩
  | 80 => ⟨S100000x129, .f32⟩
  | 81 => ⟨S100000x129, .f32⟩
  | 82 => ⟨S100000x129, .f32⟩
  | 83 => ⟨S_, .f32⟩
  | 84 => ⟨S_, .f32⟩
  | 85 => ⟨S_, .f32⟩
  | 86 => ⟨S_, .f32⟩
  | 87 => ⟨S129, .f32⟩
  | 88 => ⟨S129, .f32⟩
  | 89 => ⟨S129, .f32⟩
  | 90 => ⟨S_, .f32⟩
  | 91 => ⟨S_, .i1⟩
  | 92 => ⟨S_, .f32⟩
  | 93 => ⟨S_, .f32⟩
  | 94 => ⟨S129, .f32⟩
  | 95 => ⟨S129, .f32⟩
  | 96 => ⟨S1x129, .f32⟩
  | 97 => ⟨S100000x129, .f32⟩
  | 98 => ⟨S100000x129, .f32⟩
  | 99 => ⟨S_, .f32⟩
  | 100 => ⟨S129, .f32⟩
  | 101 => ⟨S129, .f32⟩
  | 102 => ⟨S129, .f32⟩
  | 103 => ⟨S1x129, .f32⟩
  | 104 => ⟨S100000x129, .f32⟩
  | 105 => ⟨S100000x129, .f32⟩
  | 106 => ⟨S129x129, .f32⟩
  | 107 => ⟨S100000x129, .f32⟩
  | 108 => ⟨S_, .f32⟩
  | 109 => ⟨S100000x129, .f32⟩
  | 110 => ⟨S100000x129, .f32⟩
  | 111 => ⟨S100000x257, .f32⟩
  | 112 => ⟨S257x257, .f32⟩
  | 113 => ⟨S100000x257, .f32⟩
  | 114 => ⟨S_, .i32⟩
  | 115 => ⟨S400000, .i32⟩
  | 116 => ⟨S400000, .i1⟩
  | 117 => ⟨S_, .i32⟩
  | 118 => ⟨S400000, .i32⟩
  | 119 => ⟨S400000, .i32⟩
  | 120 => ⟨S400000, .i32⟩
  | 121 => ⟨S400000x1, .i32⟩
  | 122 => ⟨S400000x257, .f32⟩
  | 123 => ⟨S400000x258, .f32⟩
  | 124 => ⟨S_, .i32⟩
  | 125 => ⟨S400000, .i32⟩
  | 126 => ⟨S400000, .i1⟩
  | 127 => ⟨S_, .i32⟩
  | _ => ⟨S400000, .i32⟩

abbrev hbmTy0_1 (i : Nat) : BufTy := match i % 128 with
  | 0 => ⟨S400000, .i32⟩
  | 1 => ⟨S400000, .i32⟩
  | 2 => ⟨S400000, .i32⟩
  | 3 => ⟨S400000x1, .i32⟩
  | 4 => ⟨S400000x257, .f32⟩
  | 5 => ⟨S400000x258, .f32⟩
  | 6 => ⟨S_, .f32⟩
  | 7 => ⟨S100000x258, .f32⟩
  | 8 => ⟨S_, .i32⟩
  | 9 => ⟨S400000, .i32⟩
  | 10 => ⟨S400000, .i1⟩
  | 11 => ⟨S_, .i32⟩
  | 12 => ⟨S400000, .i32⟩
  | 13 => ⟨S400000, .i32⟩
  | 14 => ⟨S400000, .i32⟩
  | 15 => ⟨S400000x1, .i32⟩
  | 16 => ⟨S100000x258, .f32⟩
  | 17 => ⟨S_, .i32⟩
  | 18 => ⟨S400000, .i32⟩
  | 19 => ⟨S400000, .i1⟩
  | 20 => ⟨S_, .i32⟩
  | 21 => ⟨S400000, .i32⟩
  | 22 => ⟨S400000, .i32⟩
  | 23 => ⟨S400000, .i32⟩
  | 24 => ⟨S400000x1, .i32⟩
  | 25 => ⟨S100000x258, .f32⟩
  | 26 => ⟨S_, .f32⟩
  | 27 => ⟨S258, .f32⟩
  | 28 => ⟨S_, .f32⟩
  | 29 => ⟨S258, .f32⟩
  | 30 => ⟨S258, .f32⟩
  | 31 => ⟨S_, .i32⟩
  | 32 => ⟨S_, .f32⟩
  | 33 => ⟨S258, .f32⟩
  | 34 => ⟨S1x258, .f32⟩
  | 35 => ⟨S_, .f32⟩
  | 36 => ⟨S1x258, .f32⟩
  | 37 => ⟨S1x258, .f32⟩
  | 38 => ⟨S100000x258, .f32⟩
  | 39 => ⟨S100000x258, .f32⟩
  | 40 => ⟨S100000x258, .f32⟩
  | 41 => ⟨S_, .f32⟩
  | 42 => ⟨S_, .f32⟩
  | 43 => ⟨S_, .f32⟩
  | 44 => ⟨S_, .f32⟩
  | 45 => ⟨S258, .f32⟩
  | 46 => ⟨S258, .f32⟩
  | 47 => ⟨S258, .f32⟩
  | 48 => ⟨S_, .f32⟩
  | 49 => ⟨S_, .i1⟩
  | 50 => ⟨S_, .f32⟩
  | 51 => ⟨S_, .f32⟩
  | 52 => ⟨S258, .f32⟩
  | 53 => ⟨S258, .f32⟩
  | 54 => ⟨S1x258, .f32⟩
  | 55 => ⟨S100000x258, .f32⟩
  | 56 => ⟨S100000x258, .f32⟩
  | 57 => ⟨S_, .f32⟩
  | 58 => ⟨S258, .f32⟩
  | 59 => ⟨S258, .f32⟩
  | 60 => ⟨S258, .f32⟩
  | 61 => ⟨S1x258, .f32⟩
  | 62 => ⟨S100000x258, .f32⟩
  | 63 => ⟨S100000x258, .f32⟩
  | 64 => ⟨S258x258, .f32⟩
  | 65 => ⟨S100000x258, .f32⟩
  | 66 => ⟨S_, .f32⟩
  | 67 => ⟨S100000x258, .f32⟩
  | 68 => ⟨S100000x258, .f32⟩
  | 69 => ⟨S100000x515, .f32⟩
  | 70 => ⟨S515x515, .f32⟩
  | 71 => ⟨S100000x515, .f32⟩
  | 72 => ⟨S_, .i32⟩
  | 73 => ⟨S4096, .i32⟩
  | 74 => ⟨S4096, .i1⟩
  | 75 => ⟨S_, .i32⟩
  | 76 => ⟨S4096, .i32⟩
  | 77 => ⟨S4096, .i32⟩
  | 78 => ⟨S4096, .i32⟩
  | 79 => ⟨S4096x1, .i32⟩
  | 80 => ⟨S4096x515, .f32⟩
  | 81 => ⟨S_, .i32⟩
  | 82 => ⟨S4096, .i32⟩
  | 83 => ⟨S4096, .i1⟩
  | 84 => ⟨S_, .i32⟩
  | 85 => ⟨S4096, .i32⟩
  | 86 => ⟨S4096, .i32⟩
  | 87 => ⟨S4096, .i32⟩
  | 88 => ⟨S4096x1, .i32⟩
  | 89 => ⟨S4096x515, .f32⟩
  | 90 => ⟨S4096x1030, .f32⟩
  | 91 => ⟨S1030x128, .f32⟩
  | 92 => ⟨S4096x128, .f32⟩
  | 93 => ⟨S_, .f32⟩
  | 94 => ⟨S4096x128, .f32⟩
  | 95 => ⟨S4096x128, .f32⟩
  | 96 => ⟨S128x1, .f32⟩
  | 97 => ⟨S4096x1, .f32⟩
  | 98 => ⟨S4096, .f32⟩
  | 99 => ⟨S515x128, .f32⟩
  | 100 => ⟨S100000x128, .f32⟩
  | 101 => ⟨S_, .f32⟩
  | 102 => ⟨S100000x128, .f32⟩
  | 103 => ⟨S100000x128, .f32⟩
  | 104 => ⟨S128x10, .f32⟩
  | 105 => ⟨S100000x10, .f32⟩
  | _ => ⟨S400000, .i32⟩

abbrev hbmTy (i : Nat) : BufTy := match i / 128 with
  | 0 => hbmTy0_0 i
  | 1 => hbmTy0_1 i
  | _ => ⟨S400000, .i32⟩

abbrev bufTy : (tb : Table) → Fin (tcTables nBuf tb) → BufTy
  | .hbm, ⟨i, _⟩ => hbmTy i
  | _, _ => ⟨S400000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_1 : Ref sig .tc := ⟨.hbm, 38, rfl⟩
abbrev main_v21 : Ref sig .tc := ⟨.hbm, 39, rfl⟩
abbrev main_v22 : Ref sig .tc := ⟨.hbm, 40, rfl⟩
abbrev main_c_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_c_4 : Ref sig .tc := ⟨.hbm, 50, rfl⟩
abbrev main_v30 : Ref sig .tc := ⟨.hbm, 51, rfl⟩
abbrev main_v31 : Ref sig .tc := ⟨.hbm, 52, rfl⟩
abbrev main_c_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_6 : Ref sig .tc := ⟨.hbm, 59, rfl⟩
abbrev main_v37 : Ref sig .tc := ⟨.hbm, 60, rfl⟩
abbrev main_v38 : Ref sig .tc := ⟨.hbm, 61, rfl⟩
abbrev main_c_7 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_v46 : Ref sig .tc := ⟨.hbm, 72, rfl⟩
abbrev main_c_10 : Ref sig .tc := ⟨.hbm, 73, rfl⟩
abbrev main_call0_cst : Ref sig .tc := ⟨.hbm, 74, rfl⟩
abbrev main_call0_v0 : Ref sig .tc := ⟨.hbm, 75, rfl⟩
abbrev main_call0_v1 : Ref sig .tc := ⟨.hbm, 76, rfl⟩
abbrev main_call0_cst_0 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_v5 : Ref sig .tc := ⟨.hbm, 81, rfl⟩
abbrev main_call0_v6 : Ref sig .tc := ⟨.hbm, 82, rfl⟩
abbrev main_call0_v7 : Ref sig .tc := ⟨.hbm, 83, rfl⟩
abbrev main_call0_cst_1 : Ref sig .tc := ⟨.hbm, 84, rfl⟩
abbrev main_call0_v8 : Ref sig .tc := ⟨.hbm, 85, rfl⟩
abbrev main_call0_cst_2 : Ref sig .tc := ⟨.hbm, 86, rfl⟩
abbrev main_call0_v9 : Ref sig .tc := ⟨.hbm, 87, rfl⟩
abbrev main_call0_v10 : Ref sig .tc := ⟨.hbm, 88, rfl⟩
abbrev main_call0_v11 : Ref sig .tc := ⟨.hbm, 89, rfl⟩
abbrev main_call0_cst_3 : Ref sig .tc := ⟨.hbm, 90, rfl⟩
abbrev main_call0_v12 : Ref sig .tc := ⟨.hbm, 91, rfl⟩
abbrev main_call0_cst_4 : Ref sig .tc := ⟨.hbm, 92, rfl⟩
abbrev main_call0_call0_v0 : Ref sig .tc := ⟨.hbm, 93, rfl⟩
abbrev main_call0_call0_v1 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_cst_11 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_call1_cst : Ref sig .tc := ⟨.hbm, 108, rfl⟩
abbrev main_call1_v0 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_c_12 : Ref sig .tc := ⟨.hbm, 114, rfl⟩
abbrev main_v63 : Ref sig .tc := ⟨.hbm, 115, rfl⟩
abbrev main_v64 : Ref sig .tc := ⟨.hbm, 116, rfl⟩
abbrev main_c_13 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_c_14 : Ref sig .tc := ⟨.hbm, 124, rfl⟩
abbrev main_v71 : Ref sig .tc := ⟨.hbm, 125, rfl⟩
abbrev main_v72 : Ref sig .tc := ⟨.hbm, 126, rfl⟩
abbrev main_c_15 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_cst_16 : Ref sig .tc := ⟨.hbm, 134, rfl⟩
abbrev main_v79 : Ref sig .tc := ⟨.hbm, 135, rfl⟩
abbrev main_c_17 : Ref sig .tc := ⟨.hbm, 136, rfl⟩
abbrev main_v80 : Ref sig .tc := ⟨.hbm, 137, rfl⟩
abbrev main_v81 : Ref sig .tc := ⟨.hbm, 138, rfl⟩
abbrev main_c_18 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_c_19 : Ref sig .tc := ⟨.hbm, 145, rfl⟩
abbrev main_v87 : Ref sig .tc := ⟨.hbm, 146, rfl⟩
abbrev main_v88 : Ref sig .tc := ⟨.hbm, 147, rfl⟩
abbrev main_c_20 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_cst_21 : Ref sig .tc := ⟨.hbm, 154, rfl⟩
abbrev main_v94 : Ref sig .tc := ⟨.hbm, 155, rfl⟩
abbrev main_cst_22 : Ref sig .tc := ⟨.hbm, 156, rfl⟩
abbrev main_v95 : Ref sig .tc := ⟨.hbm, 157, rfl⟩
abbrev main_v96 : Ref sig .tc := ⟨.hbm, 158, rfl⟩
abbrev main_c_23 : Ref sig .tc := ⟨.hbm, 159, rfl⟩
abbrev main_call2_cst : Ref sig .tc := ⟨.hbm, 160, rfl⟩
abbrev main_call2_v0 : Ref sig .tc := ⟨.hbm, 161, rfl⟩
abbrev main_call2_v1 : Ref sig .tc := ⟨.hbm, 162, rfl⟩
abbrev main_call2_cst_0 : Ref sig .tc := ⟨.hbm, 163, rfl⟩
abbrev main_call2_v2 : Ref sig .tc := ⟨.hbm, 164, rfl⟩
abbrev main_call2_v3 : Ref sig .tc := ⟨.hbm, 165, rfl⟩
abbrev main_call2_v4 : Ref sig .tc := ⟨.hbm, 166, rfl⟩
abbrev main_call2_v5 : Ref sig .tc := ⟨.hbm, 167, rfl⟩
abbrev main_call2_v6 : Ref sig .tc := ⟨.hbm, 168, rfl⟩
abbrev main_call2_v7 : Ref sig .tc := ⟨.hbm, 169, rfl⟩
abbrev main_call2_cst_1 : Ref sig .tc := ⟨.hbm, 170, rfl⟩
abbrev main_call2_v8 : Ref sig .tc := ⟨.hbm, 171, rfl⟩
abbrev main_call2_cst_2 : Ref sig .tc := ⟨.hbm, 172, rfl⟩
abbrev main_call2_v9 : Ref sig .tc := ⟨.hbm, 173, rfl⟩
abbrev main_call2_v10 : Ref sig .tc := ⟨.hbm, 174, rfl⟩
abbrev main_call2_v11 : Ref sig .tc := ⟨.hbm, 175, rfl⟩
abbrev main_call2_cst_3 : Ref sig .tc := ⟨.hbm, 176, rfl⟩
abbrev main_call2_v12 : Ref sig .tc := ⟨.hbm, 177, rfl⟩
abbrev main_call2_cst_4 : Ref sig .tc := ⟨.hbm, 178, rfl⟩
abbrev main_call2_call0_v0 : Ref sig .tc := ⟨.hbm, 179, rfl⟩
abbrev main_call2_call0_v1 : Ref sig .tc := ⟨.hbm, 180, rfl⟩
abbrev main_v97 : Ref sig .tc := ⟨.hbm, 181, rfl⟩
abbrev main_v98 : Ref sig .tc := ⟨.hbm, 182, rfl⟩
abbrev main_v99 : Ref sig .tc := ⟨.hbm, 183, rfl⟩
abbrev main_v100 : Ref sig .tc := ⟨.hbm, 184, rfl⟩
abbrev main_cst_24 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_call3_cst : Ref sig .tc := ⟨.hbm, 194, rfl⟩
abbrev main_call3_v0 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_c_25 : Ref sig .tc := ⟨.hbm, 200, rfl⟩
abbrev main_v113 : Ref sig .tc := ⟨.hbm, 201, rfl⟩
abbrev main_v114 : Ref sig .tc := ⟨.hbm, 202, rfl⟩
abbrev main_c_26 : Ref sig .tc := ⟨.hbm, 203, rfl⟩
abbrev main_v115 : Ref sig .tc := ⟨.hbm, 204, rfl⟩
abbrev main_v116 : Ref sig .tc := ⟨.hbm, 205, rfl⟩
abbrev main_v117 : Ref sig .tc := ⟨.hbm, 206, rfl⟩
abbrev main_v118 : Ref sig .tc := ⟨.hbm, 207, rfl⟩
abbrev main_v119 : Ref sig .tc := ⟨.hbm, 208, rfl⟩
abbrev main_c_27 : Ref sig .tc := ⟨.hbm, 209, rfl⟩
abbrev main_v120 : Ref sig .tc := ⟨.hbm, 210, rfl⟩
abbrev main_v121 : Ref sig .tc := ⟨.hbm, 211, rfl⟩
abbrev main_c_28 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩
abbrev main_v127 : Ref sig .tc := ⟨.hbm, 218, rfl⟩
abbrev main_v128 : Ref sig .tc := ⟨.hbm, 219, rfl⟩
abbrev main_v129 : Ref sig .tc := ⟨.hbm, 220, rfl⟩
abbrev main_call4_cst : Ref sig .tc := ⟨.hbm, 221, rfl⟩
abbrev main_call4_v0 : Ref sig .tc := ⟨.hbm, 222, rfl⟩
abbrev main_v130 : Ref sig .tc := ⟨.hbm, 223, rfl⟩
abbrev main_v131 : Ref sig .tc := ⟨.hbm, 224, rfl⟩
abbrev main_v132 : Ref sig .tc := ⟨.hbm, 225, rfl⟩
abbrev main_v133 : Ref sig .tc := ⟨.hbm, 226, rfl⟩
abbrev main_v134 : Ref sig .tc := ⟨.hbm, 227, rfl⟩
abbrev main_v135 : Ref sig .tc := ⟨.hbm, 228, rfl⟩
abbrev main_call5_cst : Ref sig .tc := ⟨.hbm, 229, rfl⟩
abbrev main_call5_v0 : Ref sig .tc := ⟨.hbm, 230, rfl⟩
abbrev main_v136 : Ref sig .tc := ⟨.hbm, 231, rfl⟩
abbrev main_v137 : Ref sig .tc := ⟨.hbm, 232, rfl⟩
abbrev main_v138 : Ref sig .tc := ⟨.hbm, 233, rfl⟩

abbrev nD : Nat := 1
abbrev τ : Topo := Topo.v7x

variable {F : FTy → Type} [FloatOps F]

class Facts₀ : Prop where
  slices_S400000_S1_399999 : S400000.Slices ![399999] S1
  shapeCasts_S1_S_ : S1.ShapeCasts S_
  bcast_S_S400000 : S_.BroadcastsInDim S400000 (![] : Fin 0 → Fin S400000.rank)
  slices_S400000_S1_0 : S400000.Slices ![0] S1
  bcast_S400000_S400000x1_0 : S400000.BroadcastsInDim S400000x1 (![0] : Fin 1 → Fin S400000x1.rank)
  concatenates_S400000x128_S400000x1_S400000x129_d1 : Shape.Concatenates [S400000x128, S400000x1] S400000x129 1
  bcast_S_S100000x129 : S_.BroadcastsInDim S100000x129 (![] : Fin 0 → Fin S100000x129.rank)
  reducesTo_S100000x129_S129_d0 : S100000x129.ReducesTo [0] S129
  h_S_ : 0 < S_.numel
  bcast_S_S129 : S_.BroadcastsInDim S129 (![] : Fin 0 → Fin S129.rank)
  bcast_S129_S1x129_1 : S129.BroadcastsInDim S1x129 (![1] : Fin 1 → Fin S1x129.rank)
  bcast_S_S1x129 : S_.BroadcastsInDim S1x129 (![] : Fin 0 → Fin S1x129.rank)
  bcast_S1x129_S100000x129_0_1 : S1x129.BroadcastsInDim S100000x129 (![0, 1] : Fin 2 → Fin S100000x129.rank)
  transposes_S129x129_S129x129_1_0 : S129x129.Transposes [1, 0] S129x129
  concatenates_S100000x128_S100000x129_S100000x257_d1 : Shape.Concatenates [S100000x128, S100000x129] S100000x257 1
  transposes_S257x257_S257x257_1_0 : S257x257.Transposes [1, 0] S257x257
  concatenates_S400000x257_S400000x1_S400000x258_d1 : Shape.Concatenates [S400000x257, S400000x1] S400000x258 1
  bcast_S_S100000x258 : S_.BroadcastsInDim S100000x258 (![] : Fin 0 → Fin S100000x258.rank)
  reducesTo_S100000x258_S258_d0 : S100000x258.ReducesTo [0] S258
  bcast_S_S258 : S_.BroadcastsInDim S258 (![] : Fin 0 → Fin S258.rank)
  bcast_S258_S1x258_1 : S258.BroadcastsInDim S1x258 (![1] : Fin 1 → Fin S1x258.rank)
  bcast_S_S1x258 : S_.BroadcastsInDim S1x258 (![] : Fin 0 → Fin S1x258.rank)
  bcast_S1x258_S100000x258_0_1 : S1x258.BroadcastsInDim S100000x258 (![0, 1] : Fin 2 → Fin S100000x258.rank)
  transposes_S258x258_S258x258_1_0 : S258x258.Transposes [1, 0] S258x258
  concatenates_S100000x257_S100000x258_S100000x515_d1 : Shape.Concatenates [S100000x257, S100000x258] S100000x515 1
  transposes_S515x515_S515x515_1_0 : S515x515.Transposes [1, 0] S515x515
  bcast_S_S4096 : S_.BroadcastsInDim S4096 (![] : Fin 0 → Fin S4096.rank)
  bcast_S4096_S4096x1_0 : S4096.BroadcastsInDim S4096x1 (![0] : Fin 1 → Fin S4096x1.rank)
  concatenates_S4096x515_S4096x515_S4096x1030_d1 : Shape.Concatenates [S4096x515, S4096x515] S4096x1030 1
  transposes_S128x1030_S1030x128_1_0 : S128x1030.Transposes [1, 0] S1030x128
  bcast_S_S4096x128 : S_.BroadcastsInDim S4096x128 (![] : Fin 0 → Fin S4096x128.rank)
  transposes_S1x128_S128x1_1_0 : S1x128.Transposes [1, 0] S128x1
  shapeCasts_S4096x1_S4096 : S4096x1.ShapeCasts S4096
  transposes_S128x515_S515x128_1_0 : S128x515.Transposes [1, 0] S515x128
  bcast_S_S100000x128 : S_.BroadcastsInDim S100000x128 (![] : Fin 0 → Fin S100000x128.rank)
  transposes_S10x128_S128x10_1_0 : S10x128.Transposes [1, 0] S128x10
  gather_S100000x128_S400000x1_S400000x128_1_0_n_n_0_1_1128_wf : GatherDims.WF S100000x128 S400000x1 S400000x128 [1] [0] [] [0] [] 1 ![1, 128]
  scatter_S100000x129_S400000x1_S400000x129_1_0_0_1_wf : ScatterDims.WF S100000x129 S400000x1 S400000x129 [1] [0] [0] 1
  dot_S100000x129_S129x129_S100000x129_1_0_0_1_n_n_wf : DotDims.WF S100000x129 S129x129 S100000x129 [1] [0] [0] [1] [] []
  dot_S100000x257_S257x257_S100000x257_1_0_0_1_n_n_wf : DotDims.WF S100000x257 S257x257 S100000x257 [1] [0] [0] [1] [] []
  gather_S100000x257_S400000x1_S400000x257_1_0_n_n_0_1_1257_wf : GatherDims.WF S100000x257 S400000x1 S400000x257 [1] [0] [] [0] [] 1 ![1, 257]
  scatter_S100000x258_S400000x1_S400000x258_1_0_0_1_wf : ScatterDims.WF S100000x258 S400000x1 S400000x258 [1] [0] [0] 1
  dot_S100000x258_S258x258_S100000x258_1_0_0_1_n_n_wf : DotDims.WF S100000x258 S258x258 S100000x258 [1] [0] [0] [1] [] []
  dot_S100000x515_S515x515_S100000x515_1_0_0_1_n_n_wf : DotDims.WF S100000x515 S515x515 S100000x515 [1] [0] [0] [1] [] []
  gather_S100000x515_S4096x1_S4096x515_1_0_n_n_0_1_1515_wf : GatherDims.WF S100000x515 S4096x1 S4096x515 [1] [0] [] [0] [] 1 ![1, 515]
  dot_S4096x1030_S1030x128_S4096x128_1_0_0_1_n_n_wf : DotDims.WF S4096x1030 S1030x128 S4096x128 [1] [0] [0] [1] [] []
  dot_S4096x128_S128x1_S4096x1_1_0_0_1_n_n_wf : DotDims.WF S4096x128 S128x1 S4096x1 [1] [0] [0] [1] [] []
  dot_S100000x515_S515x128_S100000x128_1_0_0_1_n_n_wf : DotDims.WF S100000x515 S515x128 S100000x128 [1] [0] [0] [1] [] []
  dot_S100000x128_S128x10_S100000x10_1_0_0_1_n_n_wf : DotDims.WF S100000x128 S128x10 S100000x10 [1] [0] [0] [1] [] []

variable [Facts₀]

def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x129_S400000x1_S400000x129_1_0_0_1 : ScatterDims S100000x129 S400000x1 S400000x129 where
  updateWindowDims := [1]
  insertedWindowDims := [0]
  scatterDimsToOperandDims := [0]
  indexVectorDim := 1
  wf := scatter_S100000x129_S400000x1_S400000x129_1_0_0_1_wf
def dot_S100000x129_S129x129_S100000x129_1_0_0_1_n_n : DotDims S100000x129 S129x129 S100000x129 where
  lhsContracting := [1]
  rhsContracting := [0]
  lhsNonContracting := [0]
  rhsNonContracting := [1]
  lhsBatch := []
  rhsBatch := []
  wf := dot_S100000x129_S129x129_S100000x129_1_0_0_1_n_n_wf
def dot_S100000x257_S257x257_S100000x257_1_0_0_1_n_n : DotDims S100000x257 S257x257 S100000x257 where
  lhsContracting := [1]
  rhsContracting := [0]
  lhsNonContracting := [0]
  rhsNonContracting := [1]
  lhsBatch := []
  rhsBatch := []
  wf := dot_S100000x257_S257x257_S100000x257_1_0_0_1_n_n_wf
def gather_S100000x257_S400000x1_S400000x257_1_0_n_n_0_1_1257 : GatherDims S100000x257 S400000x1 S400000x257 where
  offsetDims := [1]
  collapsedSliceDims := [0]
  operandBatchingDims := []
  startIndicesBatchingDims := []
  startIndexMap := [0]
  indexVectorDim := 1
  sliceSizes := ![1, 257]
  wf := gather_S100000x257_S400000x1_S400000x257_1_0_n_n_0_1_1257_wf
def scatter_S100000x258_S400000x1_S400000x258_1_0_0_1 : ScatterDims S100000x258 S400000x1 S400000x258 where
  updateWindowDims := [1]
  insertedWindowDims := [0]
  scatterDimsToOperandDims := [0]
  indexVectorDim := 1
  wf := scatter_S100000x258_S400000x1_S400000x258_1_0_0_1_wf
def dot_S100000x258_S258x258_S100000x258_1_0_0_1_n_n : DotDims S100000x258 S258x258 S100000x258 where
  lhsContracting := [1]
  rhsContracting := [0]
  lhsNonContracting := [0]
  rhsNonContracting := [1]
  lhsBatch := []
  rhsBatch := []
  wf := dot_S100000x258_S258x258_S100000x258_1_0_0_1_n_n_wf
def dot_S100000x515_S515x515_S100000x515_1_0_0_1_n_n : DotDims S100000x515 S515x515 S100000x515 where
  lhsContracting := [1]
  rhsContracting := [0]
  lhsNonContracting := [0]
  rhsNonContracting := [1]
  lhsBatch := []
  rhsBatch := []
  wf := dot_S100000x515_S515x515_S100000x515_1_0_0_1_n_n_wf
def gather_S100000x515_S4096x1_S4096x515_1_0_n_n_0_1_1515 : GatherDims S100000x515 S4096x1 S4096x515 where
  offsetDims := [1]
  collapsedSliceDims := [0]
  operandBatchingDims := []
  startIndicesBatchingDims := []
  startIndexMap := [0]
  indexVectorDim := 1
  sliceSizes := ![1, 515]
  wf := gather_S100000x515_S4096x1_S4096x515_1_0_n_n_0_1_1515_wf
def dot_S4096x1030_S1030x128_S4096x128_1_0_0_1_n_n : DotDims S4096x1030 S1030x128 S4096x128 where
  lhsContracting := [1]
  rhsContracting := [0]
  lhsNonContracting := [0]
  rhsNonContracting := [1]
  lhsBatch := []
  rhsBatch := []
  wf := dot_S4096x1030_S1030x128_S4096x128_1_0_0_1_n_n_wf
def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf
def dot_S100000x515_S515x128_S100000x128_1_0_0_1_n_n : DotDims S100000x515 S515x128 S100000x128 where
  lhsContracting := [1]
  rhsContracting := [0]
  lhsNonContracting := [0]
  rhsNonContracting := [1]
  lhsBatch := []
  rhsBatch := []
  wf := dot_S100000x515_S515x128_S100000x128_1_0_0_1_n_n_wf
def dot_S100000x128_S128x10_S100000x10_1_0_0_1_n_n : DotDims S100000x128 S128x10 S100000x10 where
  lhsContracting := [1]
  rhsContracting := [0]
  lhsNonContracting := [0]
  rhsNonContracting := [1]
  lhsBatch := []
  rhsBatch := []
  wf := dot_S100000x128_S128x10_S100000x10_1_0_0_1_n_n_wf

class Facts : Prop extends Facts₀ where

variable [Facts]
-- ==== Proof.RefRunOps.lean ====
/-
  The reference program as a list of operations, cut into ten consecutive stretches: its statements in order,
  each called function's operations standing in the call's place over that call's buffers.
-/
import proofs.«167109_j5557687681833_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The contents after two lists of operations run in turn are those after the second from those after the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Stretch 0: the edge feature column (%0–%12). -/
abbrev c0 : List (HloOp τ sig (Elt F)) :=
  [ StableHlo.unary main_arg2 main_v0 ((extractStridedSlice S1 ![399999] · slices_S400000_S1_399999) : (⟨S400000, .f32⟩ : BufTy).Contents (Elt F) → (⟨S1, .f32⟩ : BufTy).Contents (Elt F)),
    StableHlo.reshape main_v0 main_v1 rfl shapeCasts_S1_S_,
    StableHlo.unary main_v1 main_v2 (broadcastInDim S400000 ![] bcast_S_S400000 : (⟨S_, .f32⟩ : BufTy).Contents (Elt F) → (⟨S400000, .f32⟩ : BufTy).Contents (Elt F)),
    StableHlo.binary main_v2 main_arg2 main_v3 (subf : (⟨S400000, .f32⟩ : BufTy).Contents (Elt F) → (⟨S400000, .f32⟩ : BufTy).Contents (Elt F) → (⟨S400000, .f32⟩ : BufTy).Contents (Elt F)),
    StableHlo.unary main_arg2 main_v4 ((extractStridedSlice S1 ![399999] · slices_S400000_S1_399999) : (⟨S400000, .f32⟩ : BufTy).Contents (Elt F) → (⟨S1, .f32⟩ : BufTy).Contents (Elt F)),
    StableHlo.reshape main_v4 main_v5 rfl shapeCasts_S1_S_,
    StableHlo.nullary main_cst (constant S_ .f32 0x3F800000#32),
    StableHlo.binary main_cst main_v5 main_v6 (addf : (⟨S_, .f32⟩ : BufTy).Contents (Elt F) → (⟨S_, .f32⟩ : BufTy).Contents (Elt F) → (⟨S_, .f32⟩ : BufTy).Contents (Elt F)),
    StableHlo.unary main_arg2 main_v7 ((extractStridedSlice S1 ![0] · slices_S400000_S1_0) : (⟨S400000, .f32⟩ : BufTy).Contents (Elt F) → (⟨S1, .f32⟩ : BufTy).Contents (Elt F)),
    StableHlo.reshape main_v7 main_v8 rfl shapeCasts_S1_S_,
    StableHlo.binary main_v6 main_v8 main_v9 (subf : (⟨S_, .f32⟩ : BufTy).Contents (Elt F) → (⟨S_, .f32⟩ : BufTy).Contents (Elt F) → (⟨S_, .f32⟩ : BufTy).Contents (Elt F)),
    StableHlo.unary main_v9 main_v10 (broadcastInDim S400000 ![] bcast_S_S400000 : (⟨S_, .f32⟩ : BufTy).Contents (Elt F) → (⟨S400000, .f32⟩ : BufTy).Contents (Elt F)),
    StableHlo.binary main_v3 main_v10 main_v11 (Host.divf : (⟨S400000, .f32⟩ : BufTy).Contents (Elt F) → (⟨S400000, .f32⟩ : BufTy).Contents (Elt F) → (⟨S400000, .f32⟩ : BufTy).Contents (Elt F)),
    StableHlo.unary main_v11 main_v12 (broadcastInDim S400000x1 ![0] bcast_S400000_S400000x1_0 : (⟨S400000, .f32⟩ : BufTy).Contents (Elt F) → (⟨S400000x1, .f32⟩ : BufTy).Contents (Elt F)) ]

/-- Stretch 1: the aggregate of width 129 (%13–%43). -/
abbrev c1 : List (HloOp τ sig (Elt F)) :=
  [ StableHlo.nullary main_c (constantI S_ 32 0#32),
    StableHlo.unary main_c main_v13 (broadcastInDim S400000 ![] bcast_S_S400000 : (⟨S_, .i32⟩ : BufTy).Contents (Elt F) → (⟨S400000, .i32⟩ : BufTy).Contents (Elt F)),
    StableHlo.binary main_arg0 main_v13 main_v14 (cmpi .slt : (⟨S400000, .i32⟩ : BufTy).Contents (Elt F) → (⟨S400000, .i32⟩ : BufTy).Contents (Elt F) → (⟨S400000, .i1⟩ : BufTy).Contents (Elt F)),
    StableHlo.nullary main_c_0 (constantI S_ 32 100000#32),
    StableHlo.unary main_c_0 main_v15 (broadcastInDim S400000 ![] bcast_S_S400000 : (⟨S_, .i32⟩ : BufTy).Contents (Elt F) → (⟨S400000, .i32⟩ : BufTy).Contents (Elt F)),
    StableHlo.binary main_arg0 main_v15 main_v16 (addi : (⟨S400000, .i32⟩ : BufTy).Contents (Elt F) → (⟨S400000, .i32⟩ : BufTy).Contents (Elt F) → (⟨S400000, .i32⟩ : BufTy).Contents (Elt F)),
    StableHlo.ternary main_v14 main_v16 main_arg0 main_v17 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v17 main_v18 (broadcastInDim S400000x1 ![0] bcast_S400000_S400000x1_0 : (⟨S400000, .i32⟩ : BufTy).Contents (Elt F) → (⟨S400000x1, .i32⟩ : BufTy).Contents (Elt F)),
    StableHlo.binary main_arg5 main_v18 main_v19 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    StableHlo.binary main_v19 main_v12 main_v20 ((fun a b => concatenate S400000x129 1 [⟨S400000x128, a⟩, ⟨S400000x1, b⟩] concatenates_S400000x128_S400000x1_S400000x129_d1) : (⟨S400000x128, .f32⟩ : BufTy).Contents (Elt F) → (⟨S400000x1, .f32⟩ : BufTy).Contents (Elt F) → (⟨S400000x129, .f32⟩ : BufTy).Contents (Elt F)),
    StableHlo.nullary main_c_1 (constantI S_ 32 0#32),
    StableHlo.unary main_c_1 main_v21 (broadcastInDim S400000 ![] bcast_S_S400000 : (⟨S_, .i32⟩ : BufTy).Contents (Elt F) → (⟨S400000, .i32⟩ : BufTy).Contents (Elt F)),
    StableHlo.binary main_arg1 main_v21 main_v22 (cmpi .slt : (⟨S400000, .i32⟩ : BufTy).Contents (Elt F) → (⟨S400000, .i32⟩ : BufTy).Contents (Elt F) → (⟨S400000, .i1⟩ : BufTy).Contents (Elt F)),
    StableHlo.nullary main_c_2 (constantI S_ 32 100000#32),
    StableHlo.unary main_c_2 main_v23 (broadcastInDim S400000 ![] bcast_S_S400000 : (⟨S_, .i32⟩ : BufTy).Contents (Elt F) → (⟨S400000, .i32⟩ : BufTy).Contents (Elt F)),
    StableHlo.binary main_arg1 main_v23 main_v24 (addi : (⟨S400000, .i32⟩ : BufTy).Contents (Elt F) → (⟨S400000, .i32⟩ : BufTy).Contents (Elt F) → (⟨S400000, .i32⟩ : BufTy).Contents (Elt F)),
    StableHlo.ternary main_v22 main_v24 main_arg1 main_v25 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v25 main_v26 (broadcastInDim S400000x1 ![0] bcast_S400000_S400000x1_0 : (⟨S400000, .i32⟩ : BufTy).Contents (Elt F) → (⟨S400000x1, .i32⟩ : BufTy).Contents (Elt F)),
    StableHlo.binary main_arg5 main_v26 main_v27 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    StableHlo.binary main_v27 main_v12 main_v28 ((fun a b => concatenate S400000x129 1 [⟨S400000x128, a⟩, ⟨S400000x1, b⟩] concatenates_S400000x128_S400000x1_S400000x129_d1) : (⟨S400000x128, .f32⟩ : BufTy).Contents (Elt F) → (⟨S400000x1, .f32⟩ : BufTy).Contents (Elt F) → (⟨S400000x129, .f32⟩ : BufTy).Contents (Elt F)),
    StableHlo.nullary main_cst_3 (constant S_ .f32 0x00000000#32),
    StableHlo.unary main_cst_3 main_v29 (broadcastInDim S100000x129 ![] bcast_S_S100000x129 : (⟨S_, .f32⟩ : BufTy).Contents (Elt F) → (⟨S100000x129, .f32⟩ : BufTy).Contents (Elt F)),
    StableHlo.nullary main_c_4 (constantI S_ 32 0#32),
    StableHlo.unary main_c_4 main_v30 (broadcastInDim S400000 ![] bcast_S_S400000 : (⟨S_, .i32⟩ : BufTy).Contents (Elt F) → (⟨S400000, .i32⟩ : BufTy).Contents (Elt F)),
    StableHlo.binary main_arg1 main_v30 main_v31 (cmpi .slt : (⟨S400000, .i32⟩ : BufTy).Contents (Elt F) → (⟨S400000, .i32⟩ : BufTy).Contents (Elt F) → (⟨S400000, .i1⟩ : BufTy).Contents (Elt F)),
    StableHlo.nullary main_c_5 (constantI S_ 32 100000#32),
    StableHlo.unary main_c_5 main_v32 (broadcastInDim S400000 ![] bcast_S_S400000 : (⟨S_, .i32⟩ : BufTy).Contents (Elt F) → (⟨S400000, .i32⟩ : BufTy).Contents (Elt F)),
    StableHlo.binary main_arg1 main_v32 main_v33 (addi : (⟨S400000, .i32⟩ : BufTy).Contents (Elt F) → (⟨S400000, .i32⟩ : BufTy).Contents (Elt F) → (⟨S400000, .i32⟩ : BufTy).Contents (Elt F)),
    StableHlo.ternary main_v31 main_v33 main_arg1 main_v34 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v34 main_v35 (broadcastInDim S400000x1 ![0] bcast_S400000_S400000x1_0 : (⟨S400000, .i32⟩ : BufTy).Contents (Elt F) → (⟨S400000x1, .i32⟩ : BufTy).Contents (Elt F)),
    StableHlo.ternary main_v29 main_v35 main_v20 main_v36 ((fun x i u => Host.scatterAdd scatter_S100000x129_S400000x1_S400000x129_1_0_0_1 x i u) : (⟨S100000x129, .f32⟩ : BufTy).Contents (Elt F) → (⟨S400000x1, .i32⟩ : BufTy).Contents (Elt F) → (⟨S400000x129, .f32⟩ : BufTy).Contents (Elt F) → (⟨S100000x129, .f32⟩ : BufTy).Contents (Elt F)),
    StableHlo.nullary main_c_6 (constantI S_ 32 0#32),
    StableHlo.unary main_c_6 main_v37 (broadcastInDim S400000 ![] bcast_S_S400000 : (⟨S_, .i32⟩ : BufTy).Contents (Elt F) → (⟨S400000, .i32⟩ : BufTy).Contents (Elt F)),
    StableHlo.binary main_arg0 main_v37 main_v38 (cmpi .slt : (⟨S400000, .i32⟩ : BufTy).Contents (Elt F) → (⟨S400000, .i32⟩ : BufTy).Contents (Elt F) → (⟨S400000, .i1⟩ : BufTy).Contents (Elt F)),
    StableHlo.nullary main_c_7 (constantI S_ 32 100000#32),
    StableHlo.unary main_c_7 main_v39 (broadcastInDim S400000 ![] bcast_S_S400000 : (⟨S_, .i32⟩ : BufTy).Contents (Elt F) → (⟨S400000, .i32⟩ : BufTy).Contents (Elt F)),
    StableHlo.binary main_arg0 main_v39 main_v40 (addi : (⟨S400000, .i32⟩ : BufTy).Contents (Elt F) → (⟨S400000, .i32⟩ : BufTy).Contents (Elt F) → (⟨S400000, .i32⟩ : BufTy).Contents (Elt F)),
    StableHlo.ternary main_v38 main_v40 main_arg0 main_v41 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v41 main_v42 (broadcastInDim S400000x1 ![0] bcast_S400000_S400000x1_0 : (⟨S400000, .i32⟩ : BufTy).Contents (Elt F) → (⟨S400000x1, .i32⟩ : BufTy).Contents (Elt F)),
    StableHlo.ternary main_v36 main_v42 main_v28 main_v43 ((fun x i u => Host.scatterAdd scatter_S100000x129_S400000x1_S400000x129_1_0_0_1 x i u) : (⟨S100000x129, .f32⟩ : BufTy).Contents (Elt F) → (⟨S400000x1, .i32⟩ : BufTy).Contents (Elt F) → (⟨S400000x129, .f32⟩ : BufTy).Contents (Elt F) → (⟨S100000x129, .f32⟩ : BufTy).Contents (Elt F)) ]

/-- Stretch 2: the first layer up to the column means (%44–%46 and the zero handed to the variance). -/
abbrev c2 : List (HloOp τ sig (Elt F)) :=
  [ StableHlo.nullary main_cst_8 (constant S_ .f32 0x00000000#32),
    StableHlo.binary main_v43 main_cst_8 main_v44 ((fun x v => Host.reduceAdd x v reducesTo_S100000x129_S129_d0 h_S_) : (⟨S100000x129, .f32⟩ : BufTy).Contents (Elt F) → (⟨S_, .f32⟩ : BufTy).Contents (Elt F) → (⟨S129, .f32⟩ : BufTy).Contents (Elt F)),
    StableHlo.nullary main_cst_9 (constant S_ .f32 0x47C35000#32),
    StableHlo.unary main_cst_9 main_v45 (broadcastInDim S129 ![] bcast_S_S129 : (⟨S_, .f32⟩ : BufTy).Contents (Elt F) → (⟨S129, .f32⟩ : BufTy).Contents (Elt F)),
    StableHlo.binary main_v44 main_v45 main_v46 (Host.divf : (⟨S129, .f32⟩ : BufTy).Contents (Elt F) → (⟨S129, .f32⟩ : BufTy).Contents (Elt F) → (⟨S129, .f32⟩ : BufTy).Contents (Elt F)),
    StableHlo.nullary main_c_10 (constantI S_ 32 0#32) ]

/-- Stretch 3: the first layer from the variance on (the variance's operations in place of its call, %48–%62). -/
abbrev c3 : List (HloOp τ sig (Elt F)) :=
  [ StableHlo.TRef.nullary main_call0.cst (constant S_ .f32 0x00000000#32),
    StableHlo.TRef.binary (.of main_v43 : StableHlo.TRef sig ⟨S100000x129, .f32⟩) main_call0.cst main_call0.v0 (fun x v => Host.reduceAdd x v reducesTo_S100000x129_S129_d0 h_S_),
    StableHlo.TRef.unary main_call0.v0 main_call0.v1 (broadcastInDim S1x129 ![1] bcast_S129_S1x129_1),
    StableHlo.TRef.nullary main_call0.cst_0 (constant S_ .f32 0x47C35000#32),
    StableHlo.TRef.unary main_call0.cst_0 main_call0.v2 (broadcastInDim S1x129 ![] bcast_S_S1x129),
    StableHlo.TRef.binary main_call0.v1 main_call0.v2 main_call0.v3 Host.divf,
    StableHlo.TRef.unary main_call0.v3 main_call0.v4 (broadcastInDim S100000x129 ![0, 1] bcast_S1x129_S100000x129_0_1),
    StableHlo.TRef.binary (.of main_v43 : StableHlo.TRef sig ⟨S100000x129, .f32⟩) main_call0.v4 main_call0.v5 subf,
    StableHlo.TRef.binary main_call0.v5 main_call0.v5 main_call0.v6 mulf,
    StableHlo.TRef.unary (.of main_c_10 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x129_S129_d0 h_S_),
    StableHlo.TRef.unary main_call0.v8 main_call0.v10 (broadcastInDim S129 ![] bcast_S_S129),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S129 ![] bcast_S_S129),
    StableHlo.TRef.ternary main_call0.v12 main_call0.v11 main_call0.call0.v1 main_call0.call0.v2 (fun p a b => select (broadcastInDim S129 ![] bcast_S_S129 p) a b),
    StableHlo.unary main_v46 main_v48 (broadcastInDim S1x129 ![1] bcast_S129_S1x129_1 : (⟨S129, .f32⟩ : BufTy).Contents (Elt F) → (⟨S1x129, .f32⟩ : BufTy).Contents (Elt F)),
    StableHlo.unary main_v48 main_v49 (broadcastInDim S100000x129 ![0, 1] bcast_S1x129_S100000x129_0_1 : (⟨S1x129, .f32⟩ : BufTy).Contents (Elt F) → (⟨S100000x129, .f32⟩ : BufTy).Contents (Elt F)),
    StableHlo.binary main_v43 main_v49 main_v50 (subf : (⟨S100000x129, .f32⟩ : BufTy).Contents (Elt F) → (⟨S100000x129, .f32⟩ : BufTy).Contents (Elt F) → (⟨S100000x129, .f32⟩ : BufTy).Contents (Elt F)),
    StableHlo.nullary main_cst_11 (constant S_ .f32 0x3727C5AC#32),
    StableHlo.unary main_cst_11 main_v51 (broadcastInDim S129 ![] bcast_S_S129 : (⟨S_, .f32⟩ : BufTy).Contents (Elt F) → (⟨S129, .f32⟩ : BufTy).Contents (Elt F)),
    StableHlo.binary main_v47 main_v51 main_v52 (addf : (⟨S129, .f32⟩ : BufTy).Contents (Elt F) → (⟨S129, .f32⟩ : BufTy).Contents (Elt F) → (⟨S129, .f32⟩ : BufTy).Contents (Elt F)),
    StableHlo.unary main_v52 main_v53 (Host.rsqrt : (⟨S129, .f32⟩ : BufTy).Contents (Elt F) → (⟨S129, .f32⟩ : BufTy).Contents (Elt F)),
    StableHlo.unary main_v53 main_v54 (broadcastInDim S1x129 ![1] bcast_S129_S1x129_1 : (⟨S129, .f32⟩ : BufTy).Contents (Elt F) → (⟨S1x129, .f32⟩ : BufTy).Contents (Elt F)),
    StableHlo.unary main_v54 main_v55 (broadcastInDim S100000x129 ![0, 1] bcast_S1x129_S100000x129_0_1 : (⟨S1x129, .f32⟩ : BufTy).Contents (Elt F) → (⟨S100000x129, .f32⟩ : BufTy).Contents (Elt F)),
    StableHlo.binary main_v50 main_v55 main_v56 (mulf : (⟨S100000x129, .f32⟩ : BufTy).Contents (Elt F) → (⟨S100000x129, .f32⟩ : BufTy).Contents (Elt F) → (⟨S100000x129, .f32⟩ : BufTy).Contents (Elt F)),
    StableHlo.unary main_arg6 main_v57 ((transpose S129x129 [1, 0] · transposes_S129x129_S129x129_1_0) : (⟨S129x129, .f32⟩ : BufTy).Contents (Elt F) → (⟨S129x129, .f32⟩ : BufTy).Contents (Elt F)),
    StableHlo.binary main_v56 main_v57 main_v58 ((fun l r => Host.dotGeneral dot_S100000x129_S129x129_S100000x129_1_0_0_1_n_n none l r) : (⟨S100000x129, .f32⟩ : BufTy).Contents (Elt F) → (⟨S129x129, .f32⟩ : BufTy).Contents (Elt F) → (⟨S100000x129, .f32⟩ : BufTy).Contents (Elt F)),
    StableHlo.TRef.nullary main_call1.cst (constant S_ .f32 0x00000000#32),
    StableHlo.TRef.unary main_call1.cst main_call1.v0 (broadcastInDim S100000x129 ![] bcast_S_S100000x129),
    StableHlo.TRef.binary (.of main_v58 : StableHlo.TRef sig ⟨S100000x129, .f32⟩) main_call1.v0 main_call1.v1 maximumf,
    StableHlo.binary main_arg5 main_v59 main_v60 ((fun a b => concatenate S100000x257 1 [⟨S100000x128, a⟩, ⟨S100000x129, b⟩] concatenates_S100000x128_S100000x129_S100000x257_d1) : (⟨S100000x128, .f32⟩ : BufTy).Contents (Elt F) → (⟨S100000x129, .f32⟩ : BufTy).Contents (Elt F) → (⟨S100000x257, .f32⟩ : BufTy).Contents (Elt F)),
    StableHlo.unary main_arg7 main_v61 ((transpose S257x257 [1, 0] · transposes_S257x257_S257x257_1_0) : (⟨S257x257, .f32⟩ : BufTy).Contents (Elt F) → (⟨S257x257, .f32⟩ : BufTy).Contents (Elt F)),
    StableHlo.binary main_v60 main_v61 main_v62 ((fun l r => Host.dotGeneral dot_S100000x257_S257x257_S100000x257_1_0_0_1_n_n none l r) : (⟨S100000x257, .f32⟩ : BufTy).Contents (Elt F) → (⟨S257x257, .f32⟩ : BufTy).Contents (Elt F) → (⟨S100000x257, .f32⟩ : BufTy).Contents (Elt F)) ]

/-- Stretch 4: the aggregate of width 258 (%63–%93). -/
abbrev c4 : List (HloOp τ sig (Elt F)) :=
  [ StableHlo.nullary main_c_12 (constantI S_ 32 0#32),
    StableHlo.unary main_c_12 main_v63 (broadcastInDim S400000 ![] bcast_S_S400000 : (⟨S_, .i32⟩ : BufTy).Contents (Elt F) → (⟨S400000, .i32⟩ : BufTy).Contents (Elt F)),
    StableHlo.binary main_arg0 main_v63 main_v64 (cmpi .slt : (⟨S400000, .i32⟩ : BufTy).Contents (Elt F) → (⟨S400000, .i32⟩ : BufTy).Contents (Elt F) → (⟨S400000, .i1⟩ : BufTy).Contents (Elt F)),
    StableHlo.nullary main_c_13 (constantI S_ 32 100000#32),
    StableHlo.unary main_c_13 main_v65 (broadcastInDim S400000 ![] bcast_S_S400000 : (⟨S_, .i32⟩ : BufTy).Contents (Elt F) → (⟨S400000, .i32⟩ : BufTy).Contents (Elt F)),
    StableHlo.binary main_arg0 main_v65 main_v66 (addi : (⟨S400000, .i32⟩ : BufTy).Contents (Elt F) → (⟨S400000, .i32⟩ : BufTy).Contents (Elt F) → (⟨S400000, .i32⟩ : BufTy).Contents (Elt F)),
    StableHlo.ternary main_v64 main_v66 main_arg0 main_v67 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v67 main_v68 (broadcastInDim S400000x1 ![0] bcast_S400000_S400000x1_0 : (⟨S400000, .i32⟩ : BufTy).Contents (Elt F) → (⟨S400000x1, .i32⟩ : BufTy).Contents (Elt F)),
    StableHlo.binary main_v62 main_v68 main_v69 ((fun x i => Host.gather gather_S100000x257_S400000x1_S400000x257_1_0_n_n_0_1_1257 x i) : (⟨S100000x257, .f32⟩ : BufTy).Contents (Elt F) → (⟨S400000x1, .i32⟩ : BufTy).Contents (Elt F) → (⟨S400000x257, .f32⟩ : BufTy).Contents (Elt F)),
    StableHlo.binary main_v69 main_v12 main_v70 ((fun a b => concatenate S400000x258 1 [⟨S400000x257, a⟩, ⟨S400000x1, b⟩] concatenates_S400000x257_S400000x1_S400000x258_d1) : (⟨S400000x257, .f32⟩ : BufTy).Contents (Elt F) → (⟨S400000x1, .f32⟩ : BufTy).Contents (Elt F) → (⟨S400000x258, .f32⟩ : BufTy).Contents (Elt F)),
    StableHlo.nullary main_c_14 (constantI S_ 32 0#32),
    StableHlo.unary main_c_14 main_v71 (broadcastInDim S400000 ![] bcast_S_S400000 : (⟨S_, .i32⟩ : BufTy).Contents (Elt F) → (⟨S400000, .i32⟩ : BufTy).Contents (Elt F)),
    StableHlo.binary main_arg1 main_v71 main_v72 (cmpi .slt : (⟨S400000, .i32⟩ : BufTy).Contents (Elt F) → (⟨S400000, .i32⟩ : BufTy).Contents (Elt F) → (⟨S400000, .i1⟩ : BufTy).Contents (Elt F)),
    StableHlo.nullary main_c_15 (constantI S_ 32 100000#32),
    StableHlo.unary main_c_15 main_v73 (broadcastInDim S400000 ![] bcast_S_S400000 : (⟨S_, .i32⟩ : BufTy).Contents (Elt F) → (⟨S400000, .i32⟩ : BufTy).Contents (Elt F)),
    StableHlo.binary main_arg1 main_v73 main_v74 (addi : (⟨S400000, .i32⟩ : BufTy).Contents (Elt F) → (⟨S400000, .i32⟩ : BufTy).Contents (Elt F) → (⟨S400000, .i32⟩ : BufTy).Contents (Elt F)),
    StableHlo.ternary main_v72 main_v74 main_arg1 main_v75 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v75 main_v76 (broadcastInDim S400000x1 ![0] bcast_S400000_S400000x1_0 : (⟨S400000, .i32⟩ : BufTy).Contents (Elt F) → (⟨S400000x1, .i32⟩ : BufTy).Contents (Elt F)),
    StableHlo.binary main_v62 main_v76 main_v77 ((fun x i => Host.gather gather_S100000x257_S400000x1_S400000x257_1_0_n_n_0_1_1257 x i) : (⟨S100000x257, .f32⟩ : BufTy).Contents (Elt F) → (⟨S400000x1, .i32⟩ : BufTy).Contents (Elt F) → (⟨S400000x257, .f32⟩ : BufTy).Contents (Elt F)),
    StableHlo.binary main_v77 main_v12 main_v78 ((fun a b => concatenate S400000x258 1 [⟨S400000x257, a⟩, ⟨S400000x1, b⟩] concatenates_S400000x257_S400000x1_S400000x258_d1) : (⟨S400000x257, .f32⟩ : BufTy).Contents (Elt F) → (⟨S400000x1, .f32⟩ : BufTy).Contents (Elt F) → (⟨S400000x258, .f32⟩ : BufTy).Contents (Elt F)),
    StableHlo.nullary main_cst_16 (constant S_ .f32 0x00000000#32),
    StableHlo.unary main_cst_16 main_v79 (broadcastInDim S100000x258 ![] bcast_S_S100000x258 : (⟨S_, .f32⟩ : BufTy).Contents (Elt F) → (⟨S100000x258, .f32⟩ : BufTy).Contents (Elt F)),
    StableHlo.nullary main_c_17 (constantI S_ 32 0#32),
    StableHlo.unary main_c_17 main_v80 (broadcastInDim S400000 ![] bcast_S_S400000 : (⟨S_, .i32⟩ : BufTy).Contents (Elt F) → (⟨S400000, .i32⟩ : BufTy).Contents (Elt F)),
    StableHlo.binary main_arg1 main_v80 main_v81 (cmpi .slt : (⟨S400000, .i32⟩ : BufTy).Contents (Elt F) → (⟨S400000, .i32⟩ : BufTy).Contents (Elt F) → (⟨S400000, .i1⟩ : BufTy).Contents (Elt F)),
    StableHlo.nullary main_c_18 (constantI S_ 32 100000#32),
    StableHlo.unary main_c_18 main_v82 (broadcastInDim S400000 ![] bcast_S_S400000 : (⟨S_, .i32⟩ : BufTy).Contents (Elt F) → (⟨S400000, .i32⟩ : BufTy).Contents (Elt F)),
    StableHlo.binary main_arg1 main_v82 main_v83 (addi : (⟨S400000, .i32⟩ : BufTy).Contents (Elt F) → (⟨S400000, .i32⟩ : BufTy).Contents (Elt F) → (⟨S400000, .i32⟩ : BufTy).Contents (Elt F)),
    StableHlo.ternary main_v81 main_v83 main_arg1 main_v84 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v84 main_v85 (broadcastInDim S400000x1 ![0] bcast_S400000_S400000x1_0 : (⟨S400000, .i32⟩ : BufTy).Contents (Elt F) → (⟨S400000x1, .i32⟩ : BufTy).Contents (Elt F)),
    StableHlo.ternary main_v79 main_v85 main_v70 main_v86 ((fun x i u => Host.scatterAdd scatter_S100000x258_S400000x1_S400000x258_1_0_0_1 x i u) : (⟨S100000x258, .f32⟩ : BufTy).Contents (Elt F) → (⟨S400000x1, .i32⟩ : BufTy).Contents (Elt F) → (⟨S400000x258, .f32⟩ : BufTy).Contents (Elt F) → (⟨S100000x258, .f32⟩ : BufTy).Contents (Elt F)),
    StableHlo.nullary main_c_19 (constantI S_ 32 0#32),
    StableHlo.unary main_c_19 main_v87 (broadcastInDim S400000 ![] bcast_S_S400000 : (⟨S_, .i32⟩ : BufTy).Contents (Elt F) → (⟨S400000, .i32⟩ : BufTy).Contents (Elt F)),
    StableHlo.binary main_arg0 main_v87 main_v88 (cmpi .slt : (⟨S400000, .i32⟩ : BufTy).Contents (Elt F) → (⟨S400000, .i32⟩ : BufTy).Contents (Elt F) → (⟨S400000, .i1⟩ : BufTy).Contents (Elt F)),
    StableHlo.nullary main_c_20 (constantI S_ 32 100000#32),
    StableHlo.unary main_c_20 main_v89 (broadcastInDim S400000 ![] bcast_S_S400000 : (⟨S_, .i32⟩ : BufTy).Contents (Elt F) → (⟨S400000, .i32⟩ : BufTy).Contents (Elt F)),
    StableHlo.binary main_arg0 main_v89 main_v90 (addi : (⟨S400000, .i32⟩ : BufTy).Contents (Elt F) → (⟨S400000, .i32⟩ : BufTy).Contents (Elt F) → (⟨S400000, .i32⟩ : BufTy).Contents (Elt F)),
    StableHlo.ternary main_v88 main_v90 main_arg0 main_v91 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v91 main_v92 (broadcastInDim S400000x1 ![0] bcast_S400000_S400000x1_0 : (⟨S400000, .i32⟩ : BufTy).Contents (Elt F) → (⟨S400000x1, .i32⟩ : BufTy).Contents (Elt F)),
    StableHlo.ternary main_v86 main_v92 main_v78 main_v93 ((fun x i u => Host.scatterAdd scatter_S100000x258_S400000x1_S400000x258_1_0_0_1 x i u) : (⟨S100000x258, .f32⟩ : BufTy).Contents (Elt F) → (⟨S400000x1, .i32⟩ : BufTy).Contents (Elt F) → (⟨S400000x258, .f32⟩ : BufTy).Contents (Elt F) → (⟨S100000x258, .f32⟩ : BufTy).Contents (Elt F)) ]

/-- Stretch 5: the second layer's column sums (%94 and the divisor's word). -/
abbrev c5 : List (HloOp τ sig (Elt F)) :=
  [ StableHlo.nullary main_cst_21 (constant S_ .f32 0x00000000#32),
    StableHlo.binary main_v93 main_cst_21 main_v94 ((fun x v => Host.reduceAdd x v reducesTo_S100000x258_S258_d0 h_S_) : (⟨S100000x258, .f32⟩ : BufTy).Contents (Elt F) → (⟨S_, .f32⟩ : BufTy).Contents (Elt F) → (⟨S258, .f32⟩ : BufTy).Contents (Elt F)),
    StableHlo.nullary main_cst_22 (constant S_ .f32 0x47C35000#32) ]

/-- Stretch 6: the second layer from the means on (%95–%112, the variance's operations in place of its call). -/
abbrev c6 : List (HloOp τ sig (Elt F)) :=
  [ StableHlo.unary main_cst_22 main_v95 (broadcastInDim S258 ![] bcast_S_S258 : (⟨S_, .f32⟩ : BufTy).Contents (Elt F) → (⟨S258, .f32⟩ : BufTy).Contents (Elt F)),
    StableHlo.binary main_v94 main_v95 main_v96 (Host.divf : (⟨S258, .f32⟩ : BufTy).Contents (Elt F) → (⟨S258, .f32⟩ : BufTy).Contents (Elt F) → (⟨S258, .f32⟩ : BufTy).Contents (Elt F)),
    StableHlo.nullary main_c_23 (constantI S_ 32 0#32),
    StableHlo.TRef.nullary main_call2.cst (constant S_ .f32 0x00000000#32),
    StableHlo.TRef.binary (.of main_v93 : StableHlo.TRef sig ⟨S100000x258, .f32⟩) main_call2.cst main_call2.v0 (fun x v => Host.reduceAdd x v reducesTo_S100000x258_S258_d0 h_S_),
    StableHlo.TRef.unary main_call2.v0 main_call2.v1 (broadcastInDim S1x258 ![1] bcast_S258_S1x258_1),
    StableHlo.TRef.nullary main_call2.cst_0 (constant S_ .f32 0x47C35000#32),
    StableHlo.TRef.unary main_call2.cst_0 main_call2.v2 (broadcastInDim S1x258 ![] bcast_S_S1x258),
    StableHlo.TRef.binary main_call2.v1 main_call2.v2 main_call2.v3 Host.divf,
    StableHlo.TRef.unary main_call2.v3 main_call2.v4 (broadcastInDim S100000x258 ![0, 1] bcast_S1x258_S100000x258_0_1),
    StableHlo.TRef.binary (.of main_v93 : StableHlo.TRef sig ⟨S100000x258, .f32⟩) main_call2.v4 main_call2.v5 subf,
    StableHlo.TRef.binary main_call2.v5 main_call2.v5 main_call2.v6 mulf,
    StableHlo.TRef.unary (.of main_c_23 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x258_S258_d0 h_S_),
    StableHlo.TRef.unary main_call2.v8 main_call2.v10 (broadcastInDim S258 ![] bcast_S_S258),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S258 ![] bcast_S_S258),
    StableHlo.TRef.ternary main_call2.v12 main_call2.v11 main_call2.call0.v1 main_call2.call0.v2 (fun p a b => select (broadcastInDim S258 ![] bcast_S_S258 p) a b),
    StableHlo.unary main_v96 main_v98 (broadcastInDim S1x258 ![1] bcast_S258_S1x258_1 : (⟨S258, .f32⟩ : BufTy).Contents (Elt F) → (⟨S1x258, .f32⟩ : BufTy).Contents (Elt F)),
    StableHlo.unary main_v98 main_v99 (broadcastInDim S100000x258 ![0, 1] bcast_S1x258_S100000x258_0_1 : (⟨S1x258, .f32⟩ : BufTy).Contents (Elt F) → (⟨S100000x258, .f32⟩ : BufTy).Contents (Elt F)),
    StableHlo.binary main_v93 main_v99 main_v100 (subf : (⟨S100000x258, .f32⟩ : BufTy).Contents (Elt F) → (⟨S100000x258, .f32⟩ : BufTy).Contents (Elt F) → (⟨S100000x258, .f32⟩ : BufTy).Contents (Elt F)),
    StableHlo.nullary main_cst_24 (constant S_ .f32 0x3727C5AC#32),
    StableHlo.unary main_cst_24 main_v101 (broadcastInDim S258 ![] bcast_S_S258 : (⟨S_, .f32⟩ : BufTy).Contents (Elt F) → (⟨S258, .f32⟩ : BufTy).Contents (Elt F)),
    StableHlo.binary main_v97 main_v101 main_v102 (addf : (⟨S258, .f32⟩ : BufTy).Contents (Elt F) → (⟨S258, .f32⟩ : BufTy).Contents (Elt F) → (⟨S258, .f32⟩ : BufTy).Contents (Elt F)),
    StableHlo.unary main_v102 main_v103 (Host.rsqrt : (⟨S258, .f32⟩ : BufTy).Contents (Elt F) → (⟨S258, .f32⟩ : BufTy).Contents (Elt F)),
    StableHlo.unary main_v103 main_v104 (broadcastInDim S1x258 ![1] bcast_S258_S1x258_1 : (⟨S258, .f32⟩ : BufTy).Contents (Elt F) → (⟨S1x258, .f32⟩ : BufTy).Contents (Elt F)),
    StableHlo.unary main_v104 main_v105 (broadcastInDim S100000x258 ![0, 1] bcast_S1x258_S100000x258_0_1 : (⟨S1x258, .f32⟩ : BufTy).Contents (Elt F) → (⟨S100000x258, .f32⟩ : BufTy).Contents (Elt F)),
    StableHlo.binary main_v100 main_v105 main_v106 (mulf : (⟨S100000x258, .f32⟩ : BufTy).Contents (Elt F) → (⟨S100000x258, .f32⟩ : BufTy).Contents (Elt F) → (⟨S100000x258, .f32⟩ : BufTy).Contents (Elt F)),
    StableHlo.unary main_arg8 main_v107 ((transpose S258x258 [1, 0] · transposes_S258x258_S258x258_1_0) : (⟨S258x258, .f32⟩ : BufTy).Contents (Elt F) → (⟨S258x258, .f32⟩ : BufTy).Contents (Elt F)),
    StableHlo.binary main_v106 main_v107 main_v108 ((fun l r => Host.dotGeneral dot_S100000x258_S258x258_S100000x258_1_0_0_1_n_n none l r) : (⟨S100000x258, .f32⟩ : BufTy).Contents (Elt F) → (⟨S258x258, .f32⟩ : BufTy).Contents (Elt F) → (⟨S100000x258, .f32⟩ : BufTy).Contents (Elt F)),
    StableHlo.TRef.nullary main_call3.cst (constant S_ .f32 0x00000000#32),
    StableHlo.TRef.unary main_call3.cst main_call3.v0 (broadcastInDim S100000x258 ![] bcast_S_S100000x258),
    StableHlo.TRef.binary (.of main_v108 : StableHlo.TRef sig ⟨S100000x258, .f32⟩) main_call3.v0 main_call3.v1 maximumf,
    StableHlo.binary main_v62 main_v109 main_v110 ((fun a b => concatenate S100000x515 1 [⟨S100000x257, a⟩, ⟨S100000x258, b⟩] concatenates_S100000x257_S100000x258_S100000x515_d1) : (⟨S100000x257, .f32⟩ : BufTy).Contents (Elt F) → (⟨S100000x258, .f32⟩ : BufTy).Contents (Elt F) → (⟨S100000x515, .f32⟩ : BufTy).Contents (Elt F)),
    StableHlo.unary main_arg9 main_v111 ((transpose S515x515 [1, 0] · transposes_S515x515_S515x515_1_0) : (⟨S515x515, .f32⟩ : BufTy).Contents (Elt F) → (⟨S515x515, .f32⟩ : BufTy).Contents (Elt F)),
    StableHlo.binary main_v110 main_v111 main_v112 ((fun l r => Host.dotGeneral dot_S100000x515_S515x515_S100000x515_1_0_0_1_n_n none l r) : (⟨S100000x515, .f32⟩ : BufTy).Contents (Elt F) → (⟨S515x515, .f32⟩ : BufTy).Contents (Elt F) → (⟨S100000x515, .f32⟩ : BufTy).Contents (Elt F)) ]

/-- Stretch 7: the queried pairs' joined states (%113–%127). -/
abbrev c7 : List (HloOp τ sig (Elt F)) :=
  [ StableHlo.nullary main_c_25 (constantI S_ 32 0#32),
    StableHlo.unary main_c_25 main_v113 (broadcastInDim S4096 ![] bcast_S_S4096 : (⟨S_, .i32⟩ : BufTy).Contents (Elt F) → (⟨S4096, .i32⟩ : BufTy).Contents (Elt F)),
    StableHlo.binary main_arg3 main_v113 main_v114 (cmpi .slt : (⟨S4096, .i32⟩ : BufTy).Contents (Elt F) → (⟨S4096, .i32⟩ : BufTy).Contents (Elt F) → (⟨S4096, .i1⟩ : BufTy).Contents (Elt F)),
    StableHlo.nullary main_c_26 (constantI S_ 32 100000#32),
    StableHlo.unary main_c_26 main_v115 (broadcastInDim S4096 ![] bcast_S_S4096 : (⟨S_, .i32⟩ : BufTy).Contents (Elt F) → (⟨S4096, .i32⟩ : BufTy).Contents (Elt F)),
    StableHlo.binary main_arg3 main_v115 main_v116 (addi : (⟨S4096, .i32⟩ : BufTy).Contents (Elt F) → (⟨S4096, .i32⟩ : BufTy).Contents (Elt F) → (⟨S4096, .i32⟩ : BufTy).Contents (Elt F)),
    StableHlo.ternary main_v114 main_v116 main_arg3 main_v117 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v117 main_v118 (broadcastInDim S4096x1 ![0] bcast_S4096_S4096x1_0 : (⟨S4096, .i32⟩ : BufTy).Contents (Elt F) → (⟨S4096x1, .i32⟩ : BufTy).Contents (Elt F)),
    StableHlo.binary main_v112 main_v118 main_v119 ((fun x i => Host.gather gather_S100000x515_S4096x1_S4096x515_1_0_n_n_0_1_1515 x i) : (⟨S100000x515, .f32⟩ : BufTy).Contents (Elt F) → (⟨S4096x1, .i32⟩ : BufTy).Contents (Elt F) → (⟨S4096x515, .f32⟩ : BufTy).Contents (Elt F)),
    StableHlo.nullary main_c_27 (constantI S_ 32 0#32),
    StableHlo.unary main_c_27 main_v120 (broadcastInDim S4096 ![] bcast_S_S4096 : (⟨S_, .i32⟩ : BufTy).Contents (Elt F) → (⟨S4096, .i32⟩ : BufTy).Contents (Elt F)),
    StableHlo.binary main_arg4 main_v120 main_v121 (cmpi .slt : (⟨S4096, .i32⟩ : BufTy).Contents (Elt F) → (⟨S4096, .i32⟩ : BufTy).Contents (Elt F) → (⟨S4096, .i1⟩ : BufTy).Contents (Elt F)),
    StableHlo.nullary main_c_28 (constantI S_ 32 100000#32),
    StableHlo.unary main_c_28 main_v122 (broadcastInDim S4096 ![] bcast_S_S4096 : (⟨S_, .i32⟩ : BufTy).Contents (Elt F) → (⟨S4096, .i32⟩ : BufTy).Contents (Elt F)),
    StableHlo.binary main_arg4 main_v122 main_v123 (addi : (⟨S4096, .i32⟩ : BufTy).Contents (Elt F) → (⟨S4096, .i32⟩ : BufTy).Contents (Elt F) → (⟨S4096, .i32⟩ : BufTy).Contents (Elt F)),
    StableHlo.ternary main_v121 main_v123 main_arg4 main_v124 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v124 main_v125 (broadcastInDim S4096x1 ![0] bcast_S4096_S4096x1_0 : (⟨S4096, .i32⟩ : BufTy).Contents (Elt F) → (⟨S4096x1, .i32⟩ : BufTy).Contents (Elt F)),
    StableHlo.binary main_v112 main_v125 main_v126 ((fun x i => Host.gather gather_S100000x515_S4096x1_S4096x515_1_0_n_n_0_1_1515 x i) : (⟨S100000x515, .f32⟩ : BufTy).Contents (Elt F) → (⟨S4096x1, .i32⟩ : BufTy).Contents (Elt F) → (⟨S4096x515, .f32⟩ : BufTy).Contents (Elt F)),
    StableHlo.binary main_v119 main_v126 main_v127 ((fun a b => concatenate S4096x1030 1 [⟨S4096x515, a⟩, ⟨S4096x515, b⟩] concatenates_S4096x515_S4096x515_S4096x1030_d1) : (⟨S4096x515, .f32⟩ : BufTy).Contents (Elt F) → (⟨S4096x515, .f32⟩ : BufTy).Contents (Elt F) → (⟨S4096x1030, .f32⟩ : BufTy).Contents (Elt F)) ]

/-- Stretch 8: the link head (%128–%133). -/
abbrev c8 : List (HloOp τ sig (Elt F)) :=
  [ StableHlo.unary main_arg10 main_v128 ((transpose S1030x128 [1, 0] · transposes_S128x1030_S1030x128_1_0) : (⟨S128x1030, .f32⟩ : BufTy).Contents (Elt F) → (⟨S1030x128, .f32⟩ : BufTy).Contents (Elt F)),
    StableHlo.binary main_v127 main_v128 main_v129 ((fun l r => Host.dotGeneral dot_S4096x1030_S1030x128_S4096x128_1_0_0_1_n_n none l r) : (⟨S4096x1030, .f32⟩ : BufTy).Contents (Elt F) → (⟨S1030x128, .f32⟩ : BufTy).Contents (Elt F) → (⟨S4096x128, .f32⟩ : BufTy).Contents (Elt F)),
    StableHlo.TRef.nullary main_call4.cst (constant S_ .f32 0x00000000#32),
    StableHlo.TRef.unary main_call4.cst main_call4.v0 (broadcastInDim S4096x128 ![] bcast_S_S4096x128),
    StableHlo.TRef.binary (.of main_v129 : StableHlo.TRef sig ⟨S4096x128, .f32⟩) main_call4.v0 main_call4.v1 maximumf,
    StableHlo.unary main_arg11 main_v131 ((transpose S128x1 [1, 0] · transposes_S1x128_S128x1_1_0) : (⟨S1x128, .f32⟩ : BufTy).Contents (Elt F) → (⟨S128x1, .f32⟩ : BufTy).Contents (Elt F)),
    StableHlo.binary main_v130 main_v131 main_v132 ((fun l r => Host.dotGeneral dot_S4096x128_S128x1_S4096x1_1_0_0_1_n_n none l r) : (⟨S4096x128, .f32⟩ : BufTy).Contents (Elt F) → (⟨S128x1, .f32⟩ : BufTy).Contents (Elt F) → (⟨S4096x1, .f32⟩ : BufTy).Contents (Elt F)),
    StableHlo.reshape main_v132 main_v133 rfl shapeCasts_S4096x1_S4096 ]

/-- Stretch 9: the node head (%134–%138). -/
abbrev c9 : List (HloOp τ sig (Elt F)) :=
  [ StableHlo.unary main_arg12 main_v134 ((transpose S515x128 [1, 0] · transposes_S128x515_S515x128_1_0) : (⟨S128x515, .f32⟩ : BufTy).Contents (Elt F) → (⟨S515x128, .f32⟩ : BufTy).Contents (Elt F)),
    StableHlo.binary main_v112 main_v134 main_v135 ((fun l r => Host.dotGeneral dot_S100000x515_S515x128_S100000x128_1_0_0_1_n_n none l r) : (⟨S100000x515, .f32⟩ : BufTy).Contents (Elt F) → (⟨S515x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (.of main_v135 : StableHlo.TRef sig ⟨S100000x128, .f32⟩) main_call5.v0 main_call5.v1 maximumf,
    StableHlo.unary main_arg13 main_v137 ((transpose S128x10 [1, 0] · transposes_S10x128_S128x10_1_0) : (⟨S10x128, .f32⟩ : BufTy).Contents (Elt F) → (⟨S128x10, .f32⟩ : BufTy).Contents (Elt F)),
    StableHlo.binary main_v136 main_v137 main_v138 ((fun l r => Host.dotGeneral dot_S100000x128_S128x10_S100000x10_1_0_0_1_n_n none l r) : (⟨S100000x128, .f32⟩ : BufTy).Contents (Elt F) → (⟨S128x10, .f32⟩ : BufTy).Contents (Elt F) → (⟨S100000x10, .f32⟩ : BufTy).Contents (Elt F)) ]

end Cert.RefRun

end
-- ==== Proof.RefRunMain.lean ====
import proofs.«167109_j5557687681833_1_alg».proof.Proof.RefRunOps

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The first window of the program's statements, as stretches 0 to 2. -/
def p0 : List (HloOp τ sig (Elt F)) := c0 ++ c1 ++ c2
/-- The second window, as stretches 3 to 5. -/
def p1 : List (HloOp τ sig (Elt F)) := c3 ++ c4 ++ c5
/-- The third window, as stretches 6 to 9. -/
def p2 : List (HloOp τ sig (Elt F)) := c6 ++ c7 ++ c8 ++ c9
/-- The whole program's operations, in order. -/
def ops : List (HloOp τ sig (Elt F)) := p0 ++ (p1 ++ p2)

-- each window is one chain of steps; the called functions' bodies unfold at their calls
set_option maxRecDepth 8192 in
set_option maxHeartbeats 4000000 in
theorem part0_eq (c : Dev nD) : main_part0 (F := F) c = seq p0 := rfl
set_option maxRecDepth 8192 in
set_option maxHeartbeats 4000000 in
theorem part1_eq (c : Dev nD) : main_part1 (F := F) c = seq p1 := rfl
set_option maxRecDepth 8192 in
set_option maxHeartbeats 4000000 in
theorem part2_eq (c : Dev nD) : main_part2 (F := F) c = seq p2 := rfl

/-- The program is the straight line of its operations: its three windows in turn. -/
theorem main_eq (c : Dev nD) : main (F := F) c = seq ops := by
  rw [ops, seq_append, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem c0_sub : (c0 : List (HloOp τ sig (Elt F))).Forall fun op => op.bufs ⊆ tcRefs τ sig :=
  ⟨unary_bufs_sub .., reshape_bufs_sub .., unary_bufs_sub .., binary_bufs_sub .., unary_bufs_sub .., reshape_bufs_sub .., nullary_bufs_sub .., binary_bufs_sub .., unary_bufs_sub .., reshape_bufs_sub .., binary_bufs_sub .., unary_bufs_sub .., binary_bufs_sub .., unary_bufs_sub ..⟩
set_option maxRecDepth 8192 in
theorem c0_fresh : ∀ op ∈ (c0 : List (HloOp τ sig (Elt F))), op.fresh = ∅ := by
  intro _ h; (repeat (cases h with | head => rfl | tail _ h => ?_)); exact nomatch h

set_option maxRecDepth 8192 in
theorem c1_sub : (c1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩
set_option maxRecDepth 8192 in
theorem c1_fresh : ∀ op ∈ (c1 : List (HloOp τ sig (Elt F))), op.fresh = ∅ := by
  intro _ h; (repeat (cases h with | head => rfl | tail _ h => ?_)); exact nomatch h

set_option maxRecDepth 8192 in
theorem c2_sub : (c2 : List (HloOp τ sig (Elt F))).Forall fun op => op.bufs ⊆ tcRefs τ sig :=
  ⟨nullary_bufs_sub .., binary_bufs_sub .., nullary_bufs_sub .., unary_bufs_sub .., binary_bufs_sub .., nullary_bufs_sub ..⟩
set_option maxRecDepth 8192 in
theorem c2_fresh : ∀ op ∈ (c2 : List (HloOp τ sig (Elt F))), op.fresh = ∅ := by
  intro _ h; (repeat (cases h with | head => rfl | tail _ h => ?_)); exact nomatch h

set_option maxRecDepth 8192 in
theorem c3_sub : (c3 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., unary_bufs_sub .., binary_bufs_sub ..⟩
set_option maxRecDepth 8192 in
theorem c3_fresh : ∀ op ∈ (c3 : List (HloOp τ sig (Elt F))), op.fresh = ∅ := by
  intro _ h; (repeat (cases h with | head => rfl | tail _ h => ?_)); exact nomatch h

set_option maxRecDepth 8192 in
theorem c4_sub : (c4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩
set_option maxRecDepth 8192 in
theorem c4_fresh : ∀ op ∈ (c4 : List (HloOp τ sig (Elt F))), op.fresh = ∅ := by
  intro _ h; (repeat (cases h with | head => rfl | tail _ h => ?_)); exact nomatch h

set_option maxRecDepth 8192 in
theorem c5_sub : (c5 : List (HloOp τ sig (Elt F))).Forall fun op => op.bufs ⊆ tcRefs τ sig :=
  ⟨nullary_bufs_sub .., binary_bufs_sub .., nullary_bufs_sub ..⟩
set_option maxRecDepth 8192 in
theorem c5_fresh : ∀ op ∈ (c5 : List (HloOp τ sig (Elt F))), op.fresh = ∅ := by
  intro _ h; (repeat (cases h with | head => rfl | tail _ h => ?_)); exact nomatch h

set_option maxRecDepth 8192 in
theorem c6_sub : (c6 : List (HloOp τ sig (Elt F))).Forall fun op => op.bufs ⊆ tcRefs τ sig :=
  ⟨unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., unary_bufs_sub .., binary_bufs_sub ..⟩
set_option maxRecDepth 8192 in
theorem c6_fresh : ∀ op ∈ (c6 : List (HloOp τ sig (Elt F))), op.fresh = ∅ := by
  intro _ h; (repeat (cases h with | head => rfl | tail _ h => ?_)); exact nomatch h

set_option maxRecDepth 8192 in
theorem c7_sub : (c7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
set_option maxRecDepth 8192 in
theorem c7_fresh : ∀ op ∈ (c7 : List (HloOp τ sig (Elt F))), op.fresh = ∅ := by
  intro _ h; (repeat (cases h with | head => rfl | tail _ h => ?_)); exact nomatch h

set_option maxRecDepth 8192 in
theorem c8_sub : (c8 : List (HloOp τ sig (Elt F))).Forall fun op => op.bufs ⊆ tcRefs τ sig :=
  ⟨unary_bufs_sub .., binary_bufs_sub .., nullary_bufs_sub .., unary_bufs_sub .., binary_bufs_sub .., unary_bufs_sub .., binary_bufs_sub .., reshape_bufs_sub ..⟩
set_option maxRecDepth 8192 in
theorem c8_fresh : ∀ op ∈ (c8 : List (HloOp τ sig (Elt F))), op.fresh = ∅ := by
  intro _ h; (repeat (cases h with | head => rfl | tail _ h => ?_)); exact nomatch h

set_option maxRecDepth 8192 in
theorem c9_sub : (c9 : List (HloOp τ sig (Elt F))).Forall fun op => op.bufs ⊆ tcRefs τ sig :=
  ⟨unary_bufs_sub .., binary_bufs_sub .., nullary_bufs_sub .., unary_bufs_sub .., binary_bufs_sub .., unary_bufs_sub .., binary_bufs_sub ..⟩
set_option maxRecDepth 8192 in
theorem c9_fresh : ∀ op ∈ (c9 : List (HloOp τ sig (Elt F))), op.fresh = ∅ := by
  intro _ h; (repeat (cases h with | head => rfl | tail _ h => ?_)); exact nomatch h

/-- Every operation touches only the TensorCore's buffers. -/
theorem ops_sub : (ops : List (HloOp τ sig (Elt F))).Forall fun op => op.bufs ⊆ tcRefs τ sig :=
  List.forall_iff_forall_mem.mpr fun op h => by
    simp only [ops, p0, p1, p2, List.mem_append] at h
    rcases h with ((h | h) | h) | ((h | h) | h) | (((h | h) | h) | h)
    exacts [List.forall_iff_forall_mem.mp c0_sub op h, List.forall_iff_forall_mem.mp c1_sub op h, List.forall_iff_forall_mem.mp c2_sub op h, List.forall_iff_forall_mem.mp c3_sub op h, List.forall_iff_forall_mem.mp c4_sub op h, List.forall_iff_forall_mem.mp c5_sub op h, List.forall_iff_forall_mem.mp c6_sub op h, List.forall_iff_forall_mem.mp c7_sub op h, List.forall_iff_forall_mem.mp c8_sub op h, List.forall_iff_forall_mem.mp c9_sub op h]

/-- Every operation determines what it writes. -/
theorem ops_fresh : ∀ op ∈ (ops : List (HloOp τ sig (Elt F))), op.fresh = ∅ := by
  intro op h
  simp only [ops, p0, p1, p2, List.mem_append] at h
  rcases h with ((h | h) | h) | ((h | h) | h) | (((h | h) | h) | h)
  exacts [c0_fresh op h, c1_fresh op h, c2_fresh op h, c3_fresh op h, c4_fresh op h, c5_fresh op h, c6_fresh op h, c7_fresh op h, c8_fresh op h, c9_fresh op h]

/-- Every weakly fair execution of the program terminates, and every final state has each TensorCore buffer at the
    operations' fold over the launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.RefRun

end
-- ==== Proof.RefRunKeep.lean ====
import proofs.«167109_j5557687681833_1_alg».proof.Proof.RefRunOps

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers that stretch 0's operations write. -/
abbrev c0_W : List (Ref sig .tc) := [main_v0, main_v1, main_v2, main_v3, main_v4, main_v5, main_cst, main_v6, main_v7, main_v8, main_v9, main_v10, main_v11, main_v12]
set_option maxRecDepth 8192 in
theorem c0_writes : (c0 : List (HloOp τ sig (Elt F))).Forall fun op => op.writes ⊆ (c0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 0 does not write keeps its contents through it. -/
theorem c0_keep (V : Valuation τ sig (Elt F)) (r : Ref sig .tc) (h : r ∉ c0_W) :
    after c0 V (Proc.devRef .tc r) = V (Proc.devRef .tc r) :=
  after_of_writes_sub c0 V c0_writes h

/-- The buffers that stretch 1's operations write. -/
abbrev c1_W : List (Ref sig .tc) := [main_c, main_v13, main_v14, main_c_0, main_v15, main_v16, main_v17, main_v18, main_v19, main_v20, main_c_1, main_v21, main_v22, main_c_2, main_v23, main_v24, main_v25, main_v26, main_v27, main_v28, main_cst_3, main_v29, main_c_4, main_v30, main_v31, main_c_5, main_v32, main_v33, main_v34, main_v35, main_v36, main_c_6, main_v37, main_v38, main_c_7, main_v39, main_v40, main_v41, main_v42, main_v43]
set_option maxRecDepth 8192 in
theorem c1_writes : (c1 : List (HloOp τ sig (Elt F))).Forall fun op => op.writes ⊆ (c1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 1 does not write keeps its contents through it. -/
theorem c1_keep (V : Valuation τ sig (Elt F)) (r : Ref sig .tc) (h : r ∉ c1_W) :
    after c1 V (Proc.devRef .tc r) = V (Proc.devRef .tc r) :=
  after_of_writes_sub c1 V c1_writes h

/-- The buffers that stretch 2's operations write. -/
abbrev c2_W : List (Ref sig .tc) := [main_cst_8, main_v44, main_cst_9, main_v45, main_v46, main_c_10]
set_option maxRecDepth 8192 in
theorem c2_writes : (c2 : List (HloOp τ sig (Elt F))).Forall fun op => op.writes ⊆ (c2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 2 does not write keeps its contents through it. -/
theorem c2_keep (V : Valuation τ sig (Elt F)) (r : Ref sig .tc) (h : r ∉ c2_W) :
    after c2 V (Proc.devRef .tc r) = V (Proc.devRef .tc r) :=
  after_of_writes_sub c2 V c2_writes h

/-- The buffers that stretch 3's operations write. -/
abbrev c3_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v47, main_v48, main_v49, main_v50, main_cst_11, main_v51, main_v52, main_v53, main_v54, main_v55, main_v56, main_v57, main_v58, main_call1_cst, main_call1_v0, main_v59, main_v60, main_v61, main_v62]
set_option maxRecDepth 8192 in
theorem c3_writes : (c3 : List (HloOp τ sig (Elt F))).Forall fun op => op.writes ⊆ (c3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 3 does not write keeps its contents through it. -/
theorem c3_keep (V : Valuation τ sig (Elt F)) (r : Ref sig .tc) (h : r ∉ c3_W) :
    after c3 V (Proc.devRef .tc r) = V (Proc.devRef .tc r) :=
  after_of_writes_sub c3 V c3_writes h

/-- The buffers that stretch 4's operations write. -/
abbrev c4_W : List (Ref sig .tc) := [main_c_12, main_v63, main_v64, main_c_13, main_v65, main_v66, main_v67, main_v68, main_v69, main_v70, main_c_14, main_v71, main_v72, main_c_15, main_v73, main_v74, main_v75, main_v76, main_v77, main_v78, main_cst_16, main_v79, main_c_17, main_v80, main_v81, main_c_18, main_v82, main_v83, main_v84, main_v85, main_v86, main_c_19, main_v87, main_v88, main_c_20, main_v89, main_v90, main_v91, main_v92, main_v93]
set_option maxRecDepth 8192 in
theorem c4_writes : (c4 : List (HloOp τ sig (Elt F))).Forall fun op => op.writes ⊆ (c4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 4 does not write keeps its contents through it. -/
theorem c4_keep (V : Valuation τ sig (Elt F)) (r : Ref sig .tc) (h : r ∉ c4_W) :
    after c4 V (Proc.devRef .tc r) = V (Proc.devRef .tc r) :=
  after_of_writes_sub c4 V c4_writes h

/-- The buffers that stretch 5's operations write. -/
abbrev c5_W : List (Ref sig .tc) := [main_cst_21, main_v94, main_cst_22]
set_option maxRecDepth 8192 in
theorem c5_writes : (c5 : List (HloOp τ sig (Elt F))).Forall fun op => op.writes ⊆ (c5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 5 does not write keeps its contents through it. -/
theorem c5_keep (V : Valuation τ sig (Elt F)) (r : Ref sig .tc) (h : r ∉ c5_W) :
    after c5 V (Proc.devRef .tc r) = V (Proc.devRef .tc r) :=
  after_of_writes_sub c5 V c5_writes h

/-- The buffers that stretch 6's operations write. -/
abbrev c6_W : List (Ref sig .tc) := [main_v95, main_v96, main_c_23, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v97, main_v98, main_v99, main_v100, main_cst_24, main_v101, main_v102, main_v103, main_v104, main_v105, main_v106, main_v107, main_v108, main_call3_cst, main_call3_v0, main_v109, main_v110, main_v111, main_v112]
set_option maxRecDepth 8192 in
theorem c6_writes : (c6 : List (HloOp τ sig (Elt F))).Forall fun op => op.writes ⊆ (c6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 6 does not write keeps its contents through it. -/
theorem c6_keep (V : Valuation τ sig (Elt F)) (r : Ref sig .tc) (h : r ∉ c6_W) :
    after c6 V (Proc.devRef .tc r) = V (Proc.devRef .tc r) :=
  after_of_writes_sub c6 V c6_writes h

/-- The buffers that stretch 7's operations write. -/
abbrev c7_W : List (Ref sig .tc) := [main_c_25, main_v113, main_v114, main_c_26, main_v115, main_v116, main_v117, main_v118, main_v119, main_c_27, main_v120, main_v121, main_c_28, main_v122, main_v123, main_v124, main_v125, main_v126, main_v127]
set_option maxRecDepth 8192 in
theorem c7_writes : (c7 : List (HloOp τ sig (Elt F))).Forall fun op => op.writes ⊆ (c7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 7 does not write keeps its contents through it. -/
theorem c7_keep (V : Valuation τ sig (Elt F)) (r : Ref sig .tc) (h : r ∉ c7_W) :
    after c7 V (Proc.devRef .tc r) = V (Proc.devRef .tc r) :=
  after_of_writes_sub c7 V c7_writes h

/-- The buffers that stretch 8's operations write. -/
abbrev c8_W : List (Ref sig .tc) := [main_v128, main_v129, main_call4_cst, main_call4_v0, main_v130, main_v131, main_v132, main_v133]
set_option maxRecDepth 8192 in
theorem c8_writes : (c8 : List (HloOp τ sig (Elt F))).Forall fun op => op.writes ⊆ (c8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 8 does not write keeps its contents through it. -/
theorem c8_keep (V : Valuation τ sig (Elt F)) (r : Ref sig .tc) (h : r ∉ c8_W) :
    after c8 V (Proc.devRef .tc r) = V (Proc.devRef .tc r) :=
  after_of_writes_sub c8 V c8_writes h

/-- The buffers that stretch 9's operations write. -/
abbrev c9_W : List (Ref sig .tc) := [main_v134, main_v135, main_call5_cst, main_call5_v0, main_v136, main_v137, main_v138]
set_option maxRecDepth 8192 in
theorem c9_writes : (c9 : List (HloOp τ sig (Elt F))).Forall fun op => op.writes ⊆ (c9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 9 does not write keeps its contents through it. -/
theorem c9_keep (V : Valuation τ sig (Elt F)) (r : Ref sig .tc) (h : r ∉ c9_W) :
    after c9 V (Proc.devRef .tc r) = V (Proc.devRef .tc r) :=
  after_of_writes_sub c9 V c9_writes h

end Cert.RefRun

end
-- ==== Proof.RefStages.lean ====
/-
  The reference program's result as a composition of eight stages, each written once as the composition of
  the program's own operations over its inputs, at the extended reals.  The stages, in the program's order: the
  edge feature column, the aggregate of width 129, the first layer, the aggregate of width 258, the second layer,
  the queried pairs' joined states, and the two heads.
-/
import proofs.«167109_j5557687681833_1_alg».proof.ReferenceIdeal
import proofs.«167109_j5557687681833_1_alg».proof.Proof.Gen.ReferenceIdeal
import Idealize.ShloMosaic.PureOps.Ideal

noncomputable section

namespace Cert.RefRun

open Cert.ReferenceIdeal Cert.ReferenceIdeal.Gen Idealize.ShloMosaic

/-- The edge feature as a column: the last time minus each time, over one plus the last time minus the first. -/
def gcol (t : (⟨S400000, .f32⟩ : BufTy).Contents (Elt Ideal)) :
    (⟨S400000x1, .f32⟩ : BufTy).Contents (Elt Ideal) :=
  broadcastInDim S400000x1 ![0] bcast_S400000_S400000x1_0 (Host.divf (F := Ideal) (subf (broadcastInDim S400000 ![] bcast_S_S400000 (shapeCast S_ (extractStridedSlice S1 ![399999] t slices_S400000_S1_399999) shapeCasts_S1_S_)) t) (broadcastInDim S400000 ![] bcast_S_S400000 (subf (addf (constant (F := Ideal) S_ .f32 0x3F800000#32) (shapeCast S_ (extractStridedSlice S1 ![399999] t slices_S400000_S1_399999) shapeCasts_S1_S_)) (shapeCast S_ (extractStridedSlice S1 ![0] t slices_S400000_S1_0) shapeCasts_S1_S_))))

/-- The aggregate of width 129: from zero, every edge adds the row of its source's state and edge feature to its target's row, then the row of its target's to its source's. -/
def agg129 (u : (⟨S400000, .i32⟩ : BufTy).Contents (Elt Ideal)) (v : (⟨S400000, .i32⟩ : BufTy).Contents (Elt Ideal)) (gc : (⟨S400000x1, .f32⟩ : BufTy).Contents (Elt Ideal)) (h : (⟨S100000x128, .f32⟩ : BufTy).Contents (Elt Ideal)) :
    (⟨S100000x129, .f32⟩ : BufTy).Contents (Elt Ideal) :=
  Host.scatterAdd (F := Ideal) scatter_S100000x129_S400000x1_S400000x129_1_0_0_1 (Host.scatterAdd (F := Ideal) scatter_S100000x129_S400000x1_S400000x129_1_0_0_1 (broadcastInDim S100000x129 ![] bcast_S_S100000x129 (constant (F := Ideal) S_ .f32 0x00000000#32)) (broadcastInDim S400000x1 ![0] bcast_S400000_S400000x1_0 (select (cmpi .slt v (broadcastInDim S400000 ![] bcast_S_S400000 (constantI S_ 32 0#32))) (addi v (broadcastInDim S400000 ![] bcast_S_S400000 (constantI S_ 32 100000#32))) v)) (concatenate S400000x129 1 [⟨S400000x128, (Host.gather gather_S100000x128_S400000x1_S400000x128_1_0_n_n_0_1_1128 h (broadcastInDim S400000x1 ![0] bcast_S400000_S400000x1_0 (select (cmpi .slt u (broadcastInDim S400000 ![] bcast_S_S400000 (constantI S_ 32 0#32))) (addi u (broadcastInDim S400000 ![] bcast_S_S400000 (constantI S_ 32 100000#32))) u)))⟩, ⟨S400000x1, gc⟩] concatenates_S400000x128_S400000x1_S400000x129_d1)) (broadcastInDim S400000x1 ![0] bcast_S400000_S400000x1_0 (select (cmpi .slt u (broadcastInDim S400000 ![] bcast_S_S400000 (constantI S_ 32 0#32))) (addi u (broadcastInDim S400000 ![] bcast_S_S400000 (constantI S_ 32 100000#32))) u)) (concatenate S400000x129 1 [⟨S400000x128, (Host.gather gather_S100000x128_S400000x1_S400000x128_1_0_n_n_0_1_1128 h (broadcastInDim S400000x1 ![0] bcast_S400000_S400000x1_0 (select (cmpi .slt v (broadcastInDim S400000 ![] bcast_S_S400000 (constantI S_ 32 0#32))) (addi v (broadcastInDim S400000 ![] bcast_S_S400000 (constantI S_ 32 100000#32))) v)))⟩, ⟨S400000x1, gc⟩] concatenates_S400000x128_S400000x1_S400000x129_d1)

/-- One layer at width 129: each column of the aggregate centred by its mean and scaled by the inverse square root of its stabilised variance (the mean of the squared deviations), through a dense map and a positive part, joined to the previous state and sent through a second dense map. -/
def layer129 (agg : (⟨S100000x129, .f32⟩ : BufTy).Contents (Elt Ideal)) (h : (⟨S100000x128, .f32⟩ : BufTy).Contents (Elt Ideal)) (w1 : (⟨S129x129, .f32⟩ : BufTy).Contents (Elt Ideal)) (w2 : (⟨S257x257, .f32⟩ : BufTy).Contents (Elt Ideal)) :
    (⟨S100000x257, .f32⟩ : BufTy).Contents (Elt Ideal) :=
  Host.dotGeneral (F := Ideal) (φ₁ := .f32) (φ₂ := .f32) dot_S100000x257_S257x257_S100000x257_1_0_0_1_n_n none (concatenate S100000x257 1 [⟨S100000x128, h⟩, ⟨S100000x129, (maximumf (Host.dotGeneral (F := Ideal) (φ₁ := .f32) (φ₂ := .f32) dot_S100000x129_S129x129_S100000x129_1_0_0_1_n_n none (mulf (subf agg (broadcastInDim S100000x129 ![0, 1] bcast_S1x129_S100000x129_0_1 (broadcastInDim S1x129 ![1] bcast_S129_S1x129_1 (Host.divf (F := Ideal) (Host.reduceAdd (F := Ideal) agg (constant (F := Ideal) S_ .f32 0x00000000#32) reducesTo_S100000x129_S129_d0 h_S_) (broadcastInDim S129 ![] bcast_S_S129 (constant (F := Ideal) S_ .f32 0x47C35000#32)))))) (broadcastInDim S100000x129 ![0, 1] bcast_S1x129_S100000x129_0_1 (broadcastInDim S1x129 ![1] bcast_S129_S1x129_1 (Host.rsqrt (F := Ideal) (addf (select (broadcastInDim S129 ![] bcast_S_S129 (cmpf .ogt (subf (constant (F := Ideal) S_ .f32 0x47C35000#32) (sitofp .f32 (constantI S_ 32 0#32))) (constant (F := Ideal) S_ .f32 0x00000000#32))) (Host.divf (F := Ideal) (Host.reduceAdd (F := Ideal) (mulf (subf agg (broadcastInDim S100000x129 ![0, 1] bcast_S1x129_S100000x129_0_1 (Host.divf (F := Ideal) (broadcastInDim S1x129 ![1] bcast_S129_S1x129_1 (Host.reduceAdd (F := Ideal) agg (constant (F := Ideal) S_ .f32 0x00000000#32) reducesTo_S100000x129_S129_d0 h_S_)) (broadcastInDim S1x129 ![] bcast_S_S1x129 (constant (F := Ideal) S_ .f32 0x47C35000#32))))) (subf agg (broadcastInDim S100000x129 ![0, 1] bcast_S1x129_S100000x129_0_1 (Host.divf (F := Ideal) (broadcastInDim S1x129 ![1] bcast_S129_S1x129_1 (Host.reduceAdd (F := Ideal) agg (constant (F := Ideal) S_ .f32 0x00000000#32) reducesTo_S100000x129_S129_d0 h_S_)) (broadcastInDim S1x129 ![] bcast_S_S1x129 (constant (F := Ideal) S_ .f32 0x47C35000#32)))))) (constant (F := Ideal) S_ .f32 0x00000000#32) reducesTo_S100000x129_S129_d0 h_S_) (broadcastInDim S129 ![] bcast_S_S129 (subf (constant (F := Ideal) S_ .f32 0x47C35000#32) (sitofp .f32 (constantI S_ 32 0#32))))) (broadcastInDim S129 ![] bcast_S_S129 (id (constant (F := Ideal) S_ .f32 0x7FC00000#32)))) (broadcastInDim S129 ![] bcast_S_S129 (constant (F := Ideal) S_ .f32 0x3727C5AC#32))))))) (transpose S129x129 [1, 0] w1 transposes_S129x129_S129x129_1_0)) (broadcastInDim S100000x129 ![] bcast_S_S100000x129 (constant (F := Ideal) S_ .f32 0x00000000#32)))⟩] concatenates_S100000x128_S100000x129_S100000x257_d1) (transpose S257x257 [1, 0] w2 transposes_S257x257_S257x257_1_0)

/-- The aggregate of width 258, formed as the one of width 129 from the first layer's states. -/
def agg258 (u : (⟨S400000, .i32⟩ : BufTy).Contents (Elt Ideal)) (v : (⟨S400000, .i32⟩ : BufTy).Contents (Elt Ideal)) (gc : (⟨S400000x1, .f32⟩ : BufTy).Contents (Elt Ideal)) (h : (⟨S100000x257, .f32⟩ : BufTy).Contents (Elt Ideal)) :
    (⟨S100000x258, .f32⟩ : BufTy).Contents (Elt Ideal) :=
  Host.scatterAdd (F := Ideal) scatter_S100000x258_S400000x1_S400000x258_1_0_0_1 (Host.scatterAdd (F := Ideal) scatter_S100000x258_S400000x1_S400000x258_1_0_0_1 (broadcastInDim S100000x258 ![] bcast_S_S100000x258 (constant (F := Ideal) S_ .f32 0x00000000#32)) (broadcastInDim S400000x1 ![0] bcast_S400000_S400000x1_0 (select (cmpi .slt v (broadcastInDim S400000 ![] bcast_S_S400000 (constantI S_ 32 0#32))) (addi v (broadcastInDim S400000 ![] bcast_S_S400000 (constantI S_ 32 100000#32))) v)) (concatenate S400000x258 1 [⟨S400000x257, (Host.gather gather_S100000x257_S400000x1_S400000x257_1_0_n_n_0_1_1257 h (broadcastInDim S400000x1 ![0] bcast_S400000_S400000x1_0 (select (cmpi .slt u (broadcastInDim S400000 ![] bcast_S_S400000 (constantI S_ 32 0#32))) (addi u (broadcastInDim S400000 ![] bcast_S_S400000 (constantI S_ 32 100000#32))) u)))⟩, ⟨S400000x1, gc⟩] concatenates_S400000x257_S400000x1_S400000x258_d1)) (broadcastInDim S400000x1 ![0] bcast_S400000_S400000x1_0 (select (cmpi .slt u (broadcastInDim S400000 ![] bcast_S_S400000 (constantI S_ 32 0#32))) (addi u (broadcastInDim S400000 ![] bcast_S_S400000 (constantI S_ 32 100000#32))) u)) (concatenate S400000x258 1 [⟨S400000x257, (Host.gather gather_S100000x257_S400000x1_S400000x257_1_0_n_n_0_1_1257 h (broadcastInDim S400000x1 ![0] bcast_S400000_S400000x1_0 (select (cmpi .slt v (broadcastInDim S400000 ![] bcast_S_S400000 (constantI S_ 32 0#32))) (addi v (broadcastInDim S400000 ![] bcast_S_S400000 (constantI S_ 32 100000#32))) v)))⟩, ⟨S400000x1, gc⟩] concatenates_S400000x257_S400000x1_S400000x258_d1)

/-- The second layer, at width 258. -/
def layer258 (agg : (⟨S100000x258, .f32⟩ : BufTy).Contents (Elt Ideal)) (h : (⟨S100000x257, .f32⟩ : BufTy).Contents (Elt Ideal)) (w1 : (⟨S258x258, .f32⟩ : BufTy).Contents (Elt Ideal)) (w2 : (⟨S515x515, .f32⟩ : BufTy).Contents (Elt Ideal)) :
    (⟨S100000x515, .f32⟩ : BufTy).Contents (Elt Ideal) :=
  Host.dotGeneral (F := Ideal) (φ₁ := .f32) (φ₂ := .f32) dot_S100000x515_S515x515_S100000x515_1_0_0_1_n_n none (concatenate S100000x515 1 [⟨S100000x257, h⟩, ⟨S100000x258, (maximumf (Host.dotGeneral (F := Ideal) (φ₁ := .f32) (φ₂ := .f32) dot_S100000x258_S258x258_S100000x258_1_0_0_1_n_n none (mulf (subf agg (broadcastInDim S100000x258 ![0, 1] bcast_S1x258_S100000x258_0_1 (broadcastInDim S1x258 ![1] bcast_S258_S1x258_1 (Host.divf (F := Ideal) (Host.reduceAdd (F := Ideal) agg (constant (F := Ideal) S_ .f32 0x00000000#32) reducesTo_S100000x258_S258_d0 h_S_) (broadcastInDim S258 ![] bcast_S_S258 (constant (F := Ideal) S_ .f32 0x47C35000#32)))))) (broadcastInDim S100000x258 ![0, 1] bcast_S1x258_S100000x258_0_1 (broadcastInDim S1x258 ![1] bcast_S258_S1x258_1 (Host.rsqrt (F := Ideal) (addf (select (broadcastInDim S258 ![] bcast_S_S258 (cmpf .ogt (subf (constant (F := Ideal) S_ .f32 0x47C35000#32) (sitofp .f32 (constantI S_ 32 0#32))) (constant (F := Ideal) S_ .f32 0x00000000#32))) (Host.divf (F := Ideal) (Host.reduceAdd (F := Ideal) (mulf (subf agg (broadcastInDim S100000x258 ![0, 1] bcast_S1x258_S100000x258_0_1 (Host.divf (F := Ideal) (broadcastInDim S1x258 ![1] bcast_S258_S1x258_1 (Host.reduceAdd (F := Ideal) agg (constant (F := Ideal) S_ .f32 0x00000000#32) reducesTo_S100000x258_S258_d0 h_S_)) (broadcastInDim S1x258 ![] bcast_S_S1x258 (constant (F := Ideal) S_ .f32 0x47C35000#32))))) (subf agg (broadcastInDim S100000x258 ![0, 1] bcast_S1x258_S100000x258_0_1 (Host.divf (F := Ideal) (broadcastInDim S1x258 ![1] bcast_S258_S1x258_1 (Host.reduceAdd (F := Ideal) agg (constant (F := Ideal) S_ .f32 0x00000000#32) reducesTo_S100000x258_S258_d0 h_S_)) (broadcastInDim S1x258 ![] bcast_S_S1x258 (constant (F := Ideal) S_ .f32 0x47C35000#32)))))) (constant (F := Ideal) S_ .f32 0x00000000#32) reducesTo_S100000x258_S258_d0 h_S_) (broadcastInDim S258 ![] bcast_S_S258 (subf (constant (F := Ideal) S_ .f32 0x47C35000#32) (sitofp .f32 (constantI S_ 32 0#32))))) (broadcastInDim S258 ![] bcast_S_S258 (id (constant (F := Ideal) S_ .f32 0x7FC00000#32)))) (broadcastInDim S258 ![] bcast_S_S258 (constant (F := Ideal) S_ .f32 0x3727C5AC#32))))))) (transpose S258x258 [1, 0] w1 transposes_S258x258_S258x258_1_0)) (broadcastInDim S100000x258 ![] bcast_S_S100000x258 (constant (F := Ideal) S_ .f32 0x00000000#32)))⟩] concatenates_S100000x257_S100000x258_S100000x515_d1) (transpose S515x515 [1, 0] w2 transposes_S515x515_S515x515_1_0)

/-- The states of the two endpoints of every queried pair, side by side. -/
def hq (h : (⟨S100000x515, .f32⟩ : BufTy).Contents (Elt Ideal)) (qu : (⟨S4096, .i32⟩ : BufTy).Contents (Elt Ideal)) (qv : (⟨S4096, .i32⟩ : BufTy).Contents (Elt Ideal)) :
    (⟨S4096x1030, .f32⟩ : BufTy).Contents (Elt Ideal) :=
  concatenate S4096x1030 1 [⟨S4096x515, (Host.gather gather_S100000x515_S4096x1_S4096x515_1_0_n_n_0_1_1515 h (broadcastInDim S4096x1 ![0] bcast_S4096_S4096x1_0 (select (cmpi .slt qu (broadcastInDim S4096 ![] bcast_S_S4096 (constantI S_ 32 0#32))) (addi qu (broadcastInDim S4096 ![] bcast_S_S4096 (constantI S_ 32 100000#32))) qu)))⟩, ⟨S4096x515, (Host.gather gather_S100000x515_S4096x1_S4096x515_1_0_n_n_0_1_1515 h (broadcastInDim S4096x1 ![0] bcast_S4096_S4096x1_0 (select (cmpi .slt qv (broadcastInDim S4096 ![] bcast_S_S4096 (constantI S_ 32 0#32))) (addi qv (broadcastInDim S4096 ![] bcast_S_S4096 (constantI S_ 32 100000#32))) qv)))⟩] concatenates_S4096x515_S4096x515_S4096x1030_d1

/-- The link score of every queried pair: a dense map, a positive part, a dense map to one column, read as a vector. -/
def linkHead (hq : (⟨S4096x1030, .f32⟩ : BufTy).Contents (Elt Ideal)) (link_h : (⟨S128x1030, .f32⟩ : BufTy).Contents (Elt Ideal)) (link_o : (⟨S1x128, .f32⟩ : BufTy).Contents (Elt Ideal)) :
    (⟨S4096, .f32⟩ : BufTy).Contents (Elt Ideal) :=
  shapeCast S4096 (Host.dotGeneral (F := Ideal) (φ₁ := .f32) (φ₂ := .f32) dot_S4096x128_S128x1_S4096x1_1_0_0_1_n_n none (maximumf (Host.dotGeneral (F := Ideal) (φ₁ := .f32) (φ₂ := .f32) dot_S4096x1030_S1030x128_S4096x128_1_0_0_1_n_n none hq (transpose S1030x128 [1, 0] link_h transposes_S128x1030_S1030x128_1_0)) (broadcastInDim S4096x128 ![] bcast_S_S4096x128 (constant (F := Ideal) S_ .f32 0x00000000#32))) (transpose S128x1 [1, 0] link_o transposes_S1x128_S128x1_1_0)) shapeCasts_S4096x1_S4096

/-- The node scores: a dense map, a positive part, a dense map to ten columns. -/
def nodeHead (h : (⟨S100000x515, .f32⟩ : BufTy).Contents (Elt Ideal)) (node_h : (⟨S128x515, .f32⟩ : BufTy).Contents (Elt Ideal)) (node_o : (⟨S10x128, .f32⟩ : BufTy).Contents (Elt Ideal)) :
    (⟨S100000x10, .f32⟩ : BufTy).Contents (Elt Ideal) :=
  Host.dotGeneral (F := Ideal) (φ₁ := .f32) (φ₂ := .f32) dot_S100000x128_S128x10_S100000x10_1_0_0_1_n_n none (maximumf (Host.dotGeneral (F := Ideal) (φ₁ := .f32) (φ₂ := .f32) dot_S100000x515_S515x128_S100000x128_1_0_0_1_n_n none h (transpose S515x128 [1, 0] node_h transposes_S128x515_S515x128_1_0)) (broadcastInDim S100000x128 ![] bcast_S_S100000x128 (constant (F := Ideal) S_ .f32 0x00000000#32))) (transpose S128x10 [1, 0] node_o transposes_S10x128_S128x10_1_0)

/-- The node states after the first layer, as a function of the program's inputs. -/
def states1 (u : (⟨S400000, .i32⟩ : BufTy).Contents (Elt Ideal)) (v : (⟨S400000, .i32⟩ : BufTy).Contents (Elt Ideal)) (t : (⟨S400000, .f32⟩ : BufTy).Contents (Elt Ideal)) (h0 : (⟨S100000x128, .f32⟩ : BufTy).Contents (Elt Ideal))
    (w1_0 : (⟨S129x129, .f32⟩ : BufTy).Contents (Elt Ideal)) (w2_0 : (⟨S257x257, .f32⟩ : BufTy).Contents (Elt Ideal)) : (⟨S100000x257, .f32⟩ : BufTy).Contents (Elt Ideal) :=
  layer129 (agg129 u v (gcol t) h0) h0 w1_0 w2_0

/-- The node states after the second layer. -/
def states2 (u : (⟨S400000, .i32⟩ : BufTy).Contents (Elt Ideal)) (v : (⟨S400000, .i32⟩ : BufTy).Contents (Elt Ideal)) (t : (⟨S400000, .f32⟩ : BufTy).Contents (Elt Ideal)) (h0 : (⟨S100000x128, .f32⟩ : BufTy).Contents (Elt Ideal))
    (w1_0 : (⟨S129x129, .f32⟩ : BufTy).Contents (Elt Ideal)) (w2_0 : (⟨S257x257, .f32⟩ : BufTy).Contents (Elt Ideal)) (w1_1 : (⟨S258x258, .f32⟩ : BufTy).Contents (Elt Ideal)) (w2_1 : (⟨S515x515, .f32⟩ : BufTy).Contents (Elt Ideal)) : (⟨S100000x515, .f32⟩ : BufTy).Contents (Elt Ideal) :=
  layer258 (agg258 u v (gcol t) (states1 u v t h0 w1_0 w2_0)) (states1 u v t h0 w1_0 w2_0) w1_1 w2_1

/-- The program's first result, the link scores, as a function of its fourteen inputs in their order. -/
def link (u : (⟨S400000, .i32⟩ : BufTy).Contents (Elt Ideal))
    (v : (⟨S400000, .i32⟩ : BufTy).Contents (Elt Ideal))
    (t : (⟨S400000, .f32⟩ : BufTy).Contents (Elt Ideal))
    (qu : (⟨S4096, .i32⟩ : BufTy).Contents (Elt Ideal))
    (qv : (⟨S4096, .i32⟩ : BufTy).Contents (Elt Ideal))
    (h0 : (⟨S100000x128, .f32⟩ : BufTy).Contents (Elt Ideal))
    (w1_0 : (⟨S129x129, .f32⟩ : BufTy).Contents (Elt Ideal))
    (w2_0 : (⟨S257x257, .f32⟩ : BufTy).Contents (Elt Ideal))
    (w1_1 : (⟨S258x258, .f32⟩ : BufTy).Contents (Elt Ideal))
    (w2_1 : (⟨S515x515, .f32⟩ : BufTy).Contents (Elt Ideal))
    (link_h : (⟨S128x1030, .f32⟩ : BufTy).Contents (Elt Ideal))
    (link_o : (⟨S1x128, .f32⟩ : BufTy).Contents (Elt Ideal))
    (node_h : (⟨S128x515, .f32⟩ : BufTy).Contents (Elt Ideal))
    (node_o : (⟨S10x128, .f32⟩ : BufTy).Contents (Elt Ideal)) :
    (⟨S4096, .f32⟩ : BufTy).Contents (Elt Ideal) :=
  linkHead (hq (states2 u v t h0 w1_0 w2_0 w1_1 w2_1) qu qv) link_h link_o

/-- The program's second result, the node scores, as a function of its fourteen inputs in their order. -/
def node (u : (⟨S400000, .i32⟩ : BufTy).Contents (Elt Ideal))
    (v : (⟨S400000, .i32⟩ : BufTy).Contents (Elt Ideal))
    (t : (⟨S400000, .f32⟩ : BufTy).Contents (Elt Ideal))
    (qu : (⟨S4096, .i32⟩ : BufTy).Contents (Elt Ideal))
    (qv : (⟨S4096, .i32⟩ : BufTy).Contents (Elt Ideal))
    (h0 : (⟨S100000x128, .f32⟩ : BufTy).Contents (Elt Ideal))
    (w1_0 : (⟨S129x129, .f32⟩ : BufTy).Contents (Elt Ideal))
    (w2_0 : (⟨S257x257, .f32⟩ : BufTy).Contents (Elt Ideal))
    (w1_1 : (⟨S258x258, .f32⟩ : BufTy).Contents (Elt Ideal))
    (w2_1 : (⟨S515x515, .f32⟩ : BufTy).Contents (Elt Ideal))
    (link_h : (⟨S128x1030, .f32⟩ : BufTy).Contents (Elt Ideal))
    (link_o : (⟨S1x128, .f32⟩ : BufTy).Contents (Elt Ideal))
    (node_h : (⟨S128x515, .f32⟩ : BufTy).Contents (Elt Ideal))
    (node_o : (⟨S10x128, .f32⟩ : BufTy).Contents (Elt Ideal)) :
    (⟨S100000x10, .f32⟩ : BufTy).Contents (Elt Ideal) :=
  nodeHead (states2 u v t h0 w1_0 w2_0 w1_1 w2_1) node_h node_o

end Cert.RefRun

end
-- ==== Proof.RefRunValGcol.lean ====
import proofs.«167109_j5557687681833_1_alg».proof.Proof.RefRunOps
import proofs.«167109_j5557687681833_1_alg».proof.Proof.RefStages

noncomputable section

namespace Cert.RefRun

open Cert.ReferenceIdeal Cert.ReferenceIdeal.Gen Idealize.ShloMosaic Idealize.ShloMosaic.TcCoe Idealize.SL.Sem Idealize.ShloMosaic.StableHlo

-- the fold over a stretch unrolls one step per operation, and every (operation, later buffer) pair is told apart once
set_option maxRecDepth 8192 in
set_option maxHeartbeats 4000000 in
/-- After the first stretch the edge feature column's buffer holds `gcol` of the time argument as the stretch found it. -/
theorem gcol_val (V : Valuation τ sig (Elt Ideal)) :
    after c0 V (Proc.devRef .tc main_v12)
      = gcol (V (Proc.devRef .tc main_arg2)) := by
  simp only [c0]
  after_results_simp
  rfl

end Cert.RefRun

end
-- ==== Proof.RefRunValAgg129.lean ====
import proofs.«167109_j5557687681833_1_alg».proof.Proof.RefRunOps
import proofs.«167109_j5557687681833_1_alg».proof.Proof.RefStages

noncomputable section

namespace Cert.RefRun

open Cert.ReferenceIdeal Cert.ReferenceIdeal.Gen Idealize.ShloMosaic Idealize.ShloMosaic.TcCoe Idealize.SL.Sem Idealize.ShloMosaic.StableHlo

-- the fold over a stretch unrolls one step per operation, and every (operation, later buffer) pair is told apart once
set_option maxRecDepth 8192 in
set_option maxHeartbeats 4000000 in
/-- After the second stretch the aggregate's buffer holds `agg129` of the index arguments, the edge feature column and the state argument as the stretch found them. -/
theorem agg129_val (V : Valuation τ sig (Elt Ideal)) :
    after c1 V (Proc.devRef .tc main_v43)
      = agg129 (V (Proc.devRef .tc main_arg0)) (V (Proc.devRef .tc main_arg1)) (V (Proc.devRef .tc main_v12)) (V (Proc.devRef .tc main_arg5)) := by
  simp only [c1]
  after_results_simp
  rfl

end Cert.RefRun

end
-- ==== Proof.RefRunValLayer129.lean ====
import proofs.«167109_j5557687681833_1_alg».proof.Proof.RefRunOps
import proofs.«167109_j5557687681833_1_alg».proof.Proof.RefStages

noncomputable section

namespace Cert.RefRun

open Cert.ReferenceIdeal Cert.ReferenceIdeal.Gen Idealize.ShloMosaic Idealize.ShloMosaic.TcCoe Idealize.SL.Sem Idealize.ShloMosaic.StableHlo

-- the fold over a stretch unrolls one step per operation, and every (operation, later buffer) pair is told apart once
set_option maxRecDepth 8192 in
set_option maxHeartbeats 4000000 in
/-- After the two stretches of the first layer its result buffer holds `layer129` of the aggregate, the state and the two weight arguments as they were before. -/
theorem layer129_val (V : Valuation τ sig (Elt Ideal)) :
    after c3 (after c2 V) (Proc.devRef .tc main_v62)
      = layer129 (V (Proc.devRef .tc main_v43)) (V (Proc.devRef .tc main_arg5)) (V (Proc.devRef .tc main_arg6)) (V (Proc.devRef .tc main_arg7)) := by
  simp only [c2, c3]
  after_results_simp
  rfl

end Cert.RefRun

end
-- ==== Proof.RefRunValAgg258.lean ====
import proofs.«167109_j5557687681833_1_alg».proof.Proof.RefRunOps
import proofs.«167109_j5557687681833_1_alg».proof.Proof.RefStages

noncomputable section

namespace Cert.RefRun

open Cert.ReferenceIdeal Cert.ReferenceIdeal.Gen Idealize.ShloMosaic Idealize.ShloMosaic.TcCoe Idealize.SL.Sem Idealize.ShloMosaic.StableHlo

-- the fold over a stretch unrolls one step per operation, and every (operation, later buffer) pair is told apart once
set_option maxRecDepth 8192 in
set_option maxHeartbeats 4000000 in
/-- After the fifth stretch the second aggregate's buffer holds `agg258` of the index arguments, the edge feature column and the first layer's states as the stretch found them. -/
theorem agg258_val (V : Valuation τ sig (Elt Ideal)) :
    after c4 V (Proc.devRef .tc main_v93)
      = agg258 (V (Proc.devRef .tc main_arg0)) (V (Proc.devRef .tc main_arg1)) (V (Proc.devRef .tc main_v12)) (V (Proc.devRef .tc main_v62)) := by
  simp only [c4]
  after_results_simp
  rfl

end Cert.RefRun

end
-- ==== Proof.RefRunValLayer258.lean ====
import proofs.«167109_j5557687681833_1_alg».proof.Proof.RefRunOps
import proofs.«167109_j5557687681833_1_alg».proof.Proof.RefStages

noncomputable section

namespace Cert.RefRun

open Cert.ReferenceIdeal Cert.ReferenceIdeal.Gen Idealize.ShloMosaic Idealize.ShloMosaic.TcCoe Idealize.SL.Sem Idealize.ShloMosaic.StableHlo

-- the fold over a stretch unrolls one step per operation, and every (operation, later buffer) pair is told apart once
set_option maxRecDepth 8192 in
set_option maxHeartbeats 4000000 in
/-- After the two stretches of the second layer its result buffer holds `layer258` of the aggregate, the first layer's states and the two weight arguments as they were before. -/
theorem layer258_val (V : Valuation τ sig (Elt Ideal)) :
    after c6 (after c5 V) (Proc.devRef .tc main_v112)
      = layer258 (V (Proc.devRef .tc main_v93)) (V (Proc.devRef .tc main_v62)) (V (Proc.devRef .tc main_arg8)) (V (Proc.devRef .tc main_arg9)) := by
  simp only [c5, c6]
  after_results_simp
  rfl

end Cert.RefRun

end
-- ==== Proof.RefRunValHq.lean ====
import proofs.«167109_j5557687681833_1_alg».proof.Proof.RefRunOps
import proofs.«167109_j5557687681833_1_alg».proof.Proof.RefStages

noncomputable section

namespace Cert.RefRun

open Cert.ReferenceIdeal Cert.ReferenceIdeal.Gen Idealize.ShloMosaic Idealize.ShloMosaic.TcCoe Idealize.SL.Sem Idealize.ShloMosaic.StableHlo

-- the fold over a stretch unrolls one step per operation, and every (operation, later buffer) pair is told apart once
set_option maxRecDepth 8192 in
set_option maxHeartbeats 4000000 in
/-- After the eighth stretch the joined states' buffer holds `hq` of the second layer's states and the two query arguments as the stretch found them. -/
theorem hq_val (V : Valuation τ sig (Elt Ideal)) :
    after c7 V (Proc.devRef .tc main_v127)
      = hq (V (Proc.devRef .tc main_v112)) (V (Proc.devRef .tc main_arg3)) (V (Proc.devRef .tc main_arg4)) := by
  simp only [c7]
  after_results_simp
  rfl

end Cert.RefRun

end
-- ==== Proof.RefRunValLinkHead.lean ====
import proofs.«167109_j5557687681833_1_alg».proof.Proof.RefRunOps
import proofs.«167109_j5557687681833_1_alg».proof.Proof.RefStages

noncomputable section

namespace Cert.RefRun

open Cert.ReferenceIdeal Cert.ReferenceIdeal.Gen Idealize.ShloMosaic Idealize.ShloMosaic.TcCoe Idealize.SL.Sem Idealize.ShloMosaic.StableHlo

-- the fold over a stretch unrolls one step per operation, and every (operation, later buffer) pair is told apart once
set_option maxRecDepth 8192 in
set_option maxHeartbeats 4000000 in
/-- After the ninth stretch the first result's buffer holds `linkHead` of the joined states and the two link weight arguments as the stretch found them. -/
theorem linkHead_val (V : Valuation τ sig (Elt Ideal)) :
    after c8 V (Proc.devRef .tc main_v133)
      = linkHead (V (Proc.devRef .tc main_v127)) (V (Proc.devRef .tc main_arg10)) (V (Proc.devRef .tc main_arg11)) := by
  simp only [c8]
  after_results_simp
  rfl

end Cert.RefRun

end
-- ==== Proof.RefRunValNodeHead.lean ====
import proofs.«167109_j5557687681833_1_alg».proof.Proof.RefRunOps
import proofs.«167109_j5557687681833_1_alg».proof.Proof.RefStages

noncomputable section

namespace Cert.RefRun

open Cert.ReferenceIdeal Cert.ReferenceIdeal.Gen Idealize.ShloMosaic Idealize.ShloMosaic.TcCoe Idealize.SL.Sem Idealize.ShloMosaic.StableHlo

-- the fold over a stretch unrolls one step per operation, and every (operation, later buffer) pair is told apart once
set_option maxRecDepth 8192 in
set_option maxHeartbeats 4000000 in
/-- After the last stretch the second result's buffer holds `nodeHead` of the second layer's states and the two node weight arguments as the stretch found them. -/
theorem nodeHead_val (V : Valuation τ sig (Elt Ideal)) :
    after c9 V (Proc.devRef .tc main_v138)
      = nodeHead (V (Proc.devRef .tc main_v112)) (V (Proc.devRef .tc main_arg12)) (V (Proc.devRef .tc main_arg13)) := by
  simp only [c9]
  after_results_simp
  rfl

end Cert.RefRun

end
-- ==== Proof.RefRun.lean ====
import proofs.«167109_j5557687681833_1_alg».proof.Proof.RefRunMain
import proofs.«167109_j5557687681833_1_alg».proof.Proof.RefRunKeep
import proofs.«167109_j5557687681833_1_alg».proof.Proof.RefRunValGcol
import proofs.«167109_j5557687681833_1_alg».proof.Proof.RefRunValAgg129
import proofs.«167109_j5557687681833_1_alg».proof.Proof.RefRunValLayer129
import proofs.«167109_j5557687681833_1_alg».proof.Proof.RefRunValAgg258
import proofs.«167109_j5557687681833_1_alg».proof.Proof.RefRunValLayer258
import proofs.«167109_j5557687681833_1_alg».proof.Proof.RefRunValHq
import proofs.«167109_j5557687681833_1_alg».proof.Proof.RefRunValLinkHead
import proofs.«167109_j5557687681833_1_alg».proof.Proof.RefRunValNodeHead

noncomputable section

namespace Cert.RefRun

open Cert.ReferenceIdeal Cert.ReferenceIdeal.Gen Idealize.ShloMosaic Idealize.ShloMosaic.TcCoe Idealize.SL.Sem Idealize.ShloMosaic.StableHlo

/-! The buffers' contents stage by stage: `sK V` is what the device holds after the first K+1 stages from contents `V`. -/

/-- The contents after stage 0 (gcol). -/
def s0 (V : Valuation τ sig (Elt Ideal)) : Valuation τ sig (Elt Ideal) := after c0 V
theorem s0_keep (V : Valuation τ sig (Elt Ideal)) (r : Ref sig .tc) (h0 : r ∉ c0_W) :
    s0 V (Proc.devRef .tc r) = V (Proc.devRef .tc r) :=
  c0_keep _ r h0
theorem s0_arg0 (V : Valuation τ sig (Elt Ideal)) : s0 V (Proc.devRef .tc main_arg0) = V (Proc.devRef .tc main_arg0) :=
  s0_keep V main_arg0 (by decide)
theorem s0_arg1 (V : Valuation τ sig (Elt Ideal)) : s0 V (Proc.devRef .tc main_arg1) = V (Proc.devRef .tc main_arg1) :=
  s0_keep V main_arg1 (by decide)
theorem s0_arg2 (V : Valuation τ sig (Elt Ideal)) : s0 V (Proc.devRef .tc main_arg2) = V (Proc.devRef .tc main_arg2) :=
  s0_keep V main_arg2 (by decide)
theorem s0_arg3 (V : Valuation τ sig (Elt Ideal)) : s0 V (Proc.devRef .tc main_arg3) = V (Proc.devRef .tc main_arg3) :=
  s0_keep V main_arg3 (by decide)
theorem s0_arg4 (V : Valuation τ sig (Elt Ideal)) : s0 V (Proc.devRef .tc main_arg4) = V (Proc.devRef .tc main_arg4) :=
  s0_keep V main_arg4 (by decide)
theorem s0_arg5 (V : Valuation τ sig (Elt Ideal)) : s0 V (Proc.devRef .tc main_arg5) = V (Proc.devRef .tc main_arg5) :=
  s0_keep V main_arg5 (by decide)
theorem s0_arg6 (V : Valuation τ sig (Elt Ideal)) : s0 V (Proc.devRef .tc main_arg6) = V (Proc.devRef .tc main_arg6) :=
  s0_keep V main_arg6 (by decide)
theorem s0_arg7 (V : Valuation τ sig (Elt Ideal)) : s0 V (Proc.devRef .tc main_arg7) = V (Proc.devRef .tc main_arg7) :=
  s0_keep V main_arg7 (by decide)
theorem s0_arg8 (V : Valuation τ sig (Elt Ideal)) : s0 V (Proc.devRef .tc main_arg8) = V (Proc.devRef .tc main_arg8) :=
  s0_keep V main_arg8 (by decide)
theorem s0_arg9 (V : Valuation τ sig (Elt Ideal)) : s0 V (Proc.devRef .tc main_arg9) = V (Proc.devRef .tc main_arg9) :=
  s0_keep V main_arg9 (by decide)
theorem s0_arg10 (V : Valuation τ sig (Elt Ideal)) : s0 V (Proc.devRef .tc main_arg10) = V (Proc.devRef .tc main_arg10) :=
  s0_keep V main_arg10 (by decide)
theorem s0_arg11 (V : Valuation τ sig (Elt Ideal)) : s0 V (Proc.devRef .tc main_arg11) = V (Proc.devRef .tc main_arg11) :=
  s0_keep V main_arg11 (by decide)
theorem s0_arg12 (V : Valuation τ sig (Elt Ideal)) : s0 V (Proc.devRef .tc main_arg12) = V (Proc.devRef .tc main_arg12) :=
  s0_keep V main_arg12 (by decide)
theorem s0_arg13 (V : Valuation τ sig (Elt Ideal)) : s0 V (Proc.devRef .tc main_arg13) = V (Proc.devRef .tc main_arg13) :=
  s0_keep V main_arg13 (by decide)

/-- The contents after stage 1 (agg129). -/
def s1 (V : Valuation τ sig (Elt Ideal)) : Valuation τ sig (Elt Ideal) := after c1 (s0 V)
theorem s1_keep (V : Valuation τ sig (Elt Ideal)) (r : Ref sig .tc) (h1 : r ∉ c1_W) :
    s1 V (Proc.devRef .tc r) = s0 V (Proc.devRef .tc r) :=
  c1_keep _ r h1
theorem s1_arg0 (V : Valuation τ sig (Elt Ideal)) : s1 V (Proc.devRef .tc main_arg0) = V (Proc.devRef .tc main_arg0) :=
  (s1_keep V main_arg0 (by decide)).trans (s0_arg0 V)
theorem s1_arg1 (V : Valuation τ sig (Elt Ideal)) : s1 V (Proc.devRef .tc main_arg1) = V (Proc.devRef .tc main_arg1) :=
  (s1_keep V main_arg1 (by decide)).trans (s0_arg1 V)
theorem s1_arg2 (V : Valuation τ sig (Elt Ideal)) : s1 V (Proc.devRef .tc main_arg2) = V (Proc.devRef .tc main_arg2) :=
  (s1_keep V main_arg2 (by decide)).trans (s0_arg2 V)
theorem s1_arg3 (V : Valuation τ sig (Elt Ideal)) : s1 V (Proc.devRef .tc main_arg3) = V (Proc.devRef .tc main_arg3) :=
  (s1_keep V main_arg3 (by decide)).trans (s0_arg3 V)
theorem s1_arg4 (V : Valuation τ sig (Elt Ideal)) : s1 V (Proc.devRef .tc main_arg4) = V (Proc.devRef .tc main_arg4) :=
  (s1_keep V main_arg4 (by decide)).trans (s0_arg4 V)
theorem s1_arg5 (V : Valuation τ sig (Elt Ideal)) : s1 V (Proc.devRef .tc main_arg5) = V (Proc.devRef .tc main_arg5) :=
  (s1_keep V main_arg5 (by decide)).trans (s0_arg5 V)
theorem s1_arg6 (V : Valuation τ sig (Elt Ideal)) : s1 V (Proc.devRef .tc main_arg6) = V (Proc.devRef .tc main_arg6) :=
  (s1_keep V main_arg6 (by decide)).trans (s0_arg6 V)
theorem s1_arg7 (V : Valuation τ sig (Elt Ideal)) : s1 V (Proc.devRef .tc main_arg7) = V (Proc.devRef .tc main_arg7) :=
  (s1_keep V main_arg7 (by decide)).trans (s0_arg7 V)
theorem s1_arg8 (V : Valuation τ sig (Elt Ideal)) : s1 V (Proc.devRef .tc main_arg8) = V (Proc.devRef .tc main_arg8) :=
  (s1_keep V main_arg8 (by decide)).trans (s0_arg8 V)
theorem s1_arg9 (V : Valuation τ sig (Elt Ideal)) : s1 V (Proc.devRef .tc main_arg9) = V (Proc.devRef .tc main_arg9) :=
  (s1_keep V main_arg9 (by decide)).trans (s0_arg9 V)
theorem s1_arg10 (V : Valuation τ sig (Elt Ideal)) : s1 V (Proc.devRef .tc main_arg10) = V (Proc.devRef .tc main_arg10) :=
  (s1_keep V main_arg10 (by decide)).trans (s0_arg10 V)
theorem s1_arg11 (V : Valuation τ sig (Elt Ideal)) : s1 V (Proc.devRef .tc main_arg11) = V (Proc.devRef .tc main_arg11) :=
  (s1_keep V main_arg11 (by decide)).trans (s0_arg11 V)
theorem s1_arg12 (V : Valuation τ sig (Elt Ideal)) : s1 V (Proc.devRef .tc main_arg12) = V (Proc.devRef .tc main_arg12) :=
  (s1_keep V main_arg12 (by decide)).trans (s0_arg12 V)
theorem s1_arg13 (V : Valuation τ sig (Elt Ideal)) : s1 V (Proc.devRef .tc main_arg13) = V (Proc.devRef .tc main_arg13) :=
  (s1_keep V main_arg13 (by decide)).trans (s0_arg13 V)

/-- The contents after stage 2 (layer129). -/
def s2 (V : Valuation τ sig (Elt Ideal)) : Valuation τ sig (Elt Ideal) := after c3 (after c2 (s1 V))
theorem s2_keep (V : Valuation τ sig (Elt Ideal)) (r : Ref sig .tc) (h2 : r ∉ c2_W) (h3 : r ∉ c3_W) :
    s2 V (Proc.devRef .tc r) = s1 V (Proc.devRef .tc r) :=
  (c3_keep _ r h3).trans (c2_keep _ r h2)
theorem s2_arg0 (V : Valuation τ sig (Elt Ideal)) : s2 V (Proc.devRef .tc main_arg0) = V (Proc.devRef .tc main_arg0) :=
  (s2_keep V main_arg0 (by decide) (by decide)).trans (s1_arg0 V)
theorem s2_arg1 (V : Valuation τ sig (Elt Ideal)) : s2 V (Proc.devRef .tc main_arg1) = V (Proc.devRef .tc main_arg1) :=
  (s2_keep V main_arg1 (by decide) (by decide)).trans (s1_arg1 V)
theorem s2_arg2 (V : Valuation τ sig (Elt Ideal)) : s2 V (Proc.devRef .tc main_arg2) = V (Proc.devRef .tc main_arg2) :=
  (s2_keep V main_arg2 (by decide) (by decide)).trans (s1_arg2 V)
theorem s2_arg3 (V : Valuation τ sig (Elt Ideal)) : s2 V (Proc.devRef .tc main_arg3) = V (Proc.devRef .tc main_arg3) :=
  (s2_keep V main_arg3 (by decide) (by decide)).trans (s1_arg3 V)
theorem s2_arg4 (V : Valuation τ sig (Elt Ideal)) : s2 V (Proc.devRef .tc main_arg4) = V (Proc.devRef .tc main_arg4) :=
  (s2_keep V main_arg4 (by decide) (by decide)).trans (s1_arg4 V)
theorem s2_arg5 (V : Valuation τ sig (Elt Ideal)) : s2 V (Proc.devRef .tc main_arg5) = V (Proc.devRef .tc main_arg5) :=
  (s2_keep V main_arg5 (by decide) (by decide)).trans (s1_arg5 V)
theorem s2_arg6 (V : Valuation τ sig (Elt Ideal)) : s2 V (Proc.devRef .tc main_arg6) = V (Proc.devRef .tc main_arg6) :=
  (s2_keep V main_arg6 (by decide) (by decide)).trans (s1_arg6 V)
theorem s2_arg7 (V : Valuation τ sig (Elt Ideal)) : s2 V (Proc.devRef .tc main_arg7) = V (Proc.devRef .tc main_arg7) :=
  (s2_keep V main_arg7 (by decide) (by decide)).trans (s1_arg7 V)
theorem s2_arg8 (V : Valuation τ sig (Elt Ideal)) : s2 V (Proc.devRef .tc main_arg8) = V (Proc.devRef .tc main_arg8) :=
  (s2_keep V main_arg8 (by decide) (by decide)).trans (s1_arg8 V)
theorem s2_arg9 (V : Valuation τ sig (Elt Ideal)) : s2 V (Proc.devRef .tc main_arg9) = V (Proc.devRef .tc main_arg9) :=
  (s2_keep V main_arg9 (by decide) (by decide)).trans (s1_arg9 V)
theorem s2_arg10 (V : Valuation τ sig (Elt Ideal)) : s2 V (Proc.devRef .tc main_arg10) = V (Proc.devRef .tc main_arg10) :=
  (s2_keep V main_arg10 (by decide) (by decide)).trans (s1_arg10 V)
theorem s2_arg11 (V : Valuation τ sig (Elt Ideal)) : s2 V (Proc.devRef .tc main_arg11) = V (Proc.devRef .tc main_arg11) :=
  (s2_keep V main_arg11 (by decide) (by decide)).trans (s1_arg11 V)
theorem s2_arg12 (V : Valuation τ sig (Elt Ideal)) : s2 V (Proc.devRef .tc main_arg12) = V (Proc.devRef .tc main_arg12) :=
  (s2_keep V main_arg12 (by decide) (by decide)).trans (s1_arg12 V)
theorem s2_arg13 (V : Valuation τ sig (Elt Ideal)) : s2 V (Proc.devRef .tc main_arg13) = V (Proc.devRef .tc main_arg13) :=
  (s2_keep V main_arg13 (by decide) (by decide)).trans (s1_arg13 V)

/-- The contents after stage 3 (agg258). -/
def s3 (V : Valuation τ sig (Elt Ideal)) : Valuation τ sig (Elt Ideal) := after c4 (s2 V)
theorem s3_keep (V : Valuation τ sig (Elt Ideal)) (r : Ref sig .tc) (h4 : r ∉ c4_W) :
    s3 V (Proc.devRef .tc r) = s2 V (Proc.devRef .tc r) :=
  c4_keep _ r h4
theorem s3_arg0 (V : Valuation τ sig (Elt Ideal)) : s3 V (Proc.devRef .tc main_arg0) = V (Proc.devRef .tc main_arg0) :=
  (s3_keep V main_arg0 (by decide)).trans (s2_arg0 V)
theorem s3_arg1 (V : Valuation τ sig (Elt Ideal)) : s3 V (Proc.devRef .tc main_arg1) = V (Proc.devRef .tc main_arg1) :=
  (s3_keep V main_arg1 (by decide)).trans (s2_arg1 V)
theorem s3_arg2 (V : Valuation τ sig (Elt Ideal)) : s3 V (Proc.devRef .tc main_arg2) = V (Proc.devRef .tc main_arg2) :=
  (s3_keep V main_arg2 (by decide)).trans (s2_arg2 V)
theorem s3_arg3 (V : Valuation τ sig (Elt Ideal)) : s3 V (Proc.devRef .tc main_arg3) = V (Proc.devRef .tc main_arg3) :=
  (s3_keep V main_arg3 (by decide)).trans (s2_arg3 V)
theorem s3_arg4 (V : Valuation τ sig (Elt Ideal)) : s3 V (Proc.devRef .tc main_arg4) = V (Proc.devRef .tc main_arg4) :=
  (s3_keep V main_arg4 (by decide)).trans (s2_arg4 V)
theorem s3_arg5 (V : Valuation τ sig (Elt Ideal)) : s3 V (Proc.devRef .tc main_arg5) = V (Proc.devRef .tc main_arg5) :=
  (s3_keep V main_arg5 (by decide)).trans (s2_arg5 V)
theorem s3_arg6 (V : Valuation τ sig (Elt Ideal)) : s3 V (Proc.devRef .tc main_arg6) = V (Proc.devRef .tc main_arg6) :=
  (s3_keep V main_arg6 (by decide)).trans (s2_arg6 V)
theorem s3_arg7 (V : Valuation τ sig (Elt Ideal)) : s3 V (Proc.devRef .tc main_arg7) = V (Proc.devRef .tc main_arg7) :=
  (s3_keep V main_arg7 (by decide)).trans (s2_arg7 V)
theorem s3_arg8 (V : Valuation τ sig (Elt Ideal)) : s3 V (Proc.devRef .tc main_arg8) = V (Proc.devRef .tc main_arg8) :=
  (s3_keep V main_arg8 (by decide)).trans (s2_arg8 V)
theorem s3_arg9 (V : Valuation τ sig (Elt Ideal)) : s3 V (Proc.devRef .tc main_arg9) = V (Proc.devRef .tc main_arg9) :=
  (s3_keep V main_arg9 (by decide)).trans (s2_arg9 V)
theorem s3_arg10 (V : Valuation τ sig (Elt Ideal)) : s3 V (Proc.devRef .tc main_arg10) = V (Proc.devRef .tc main_arg10) :=
  (s3_keep V main_arg10 (by decide)).trans (s2_arg10 V)
theorem s3_arg11 (V : Valuation τ sig (Elt Ideal)) : s3 V (Proc.devRef .tc main_arg11) = V (Proc.devRef .tc main_arg11) :=
  (s3_keep V main_arg11 (by decide)).trans (s2_arg11 V)
theorem s3_arg12 (V : Valuation τ sig (Elt Ideal)) : s3 V (Proc.devRef .tc main_arg12) = V (Proc.devRef .tc main_arg12) :=
  (s3_keep V main_arg12 (by decide)).trans (s2_arg12 V)
theorem s3_arg13 (V : Valuation τ sig (Elt Ideal)) : s3 V (Proc.devRef .tc main_arg13) = V (Proc.devRef .tc main_arg13) :=
  (s3_keep V main_arg13 (by decide)).trans (s2_arg13 V)

/-- The contents after stage 4 (layer258). -/
def s4 (V : Valuation τ sig (Elt Ideal)) : Valuation τ sig (Elt Ideal) := after c6 (after c5 (s3 V))
theorem s4_keep (V : Valuation τ sig (Elt Ideal)) (r : Ref sig .tc) (h5 : r ∉ c5_W) (h6 : r ∉ c6_W) :
    s4 V (Proc.devRef .tc r) = s3 V (Proc.devRef .tc r) :=
  (c6_keep _ r h6).trans (c5_keep _ r h5)
theorem s4_arg0 (V : Valuation τ sig (Elt Ideal)) : s4 V (Proc.devRef .tc main_arg0) = V (Proc.devRef .tc main_arg0) :=
  (s4_keep V main_arg0 (by decide) (by decide)).trans (s3_arg0 V)
theorem s4_arg1 (V : Valuation τ sig (Elt Ideal)) : s4 V (Proc.devRef .tc main_arg1) = V (Proc.devRef .tc main_arg1) :=
  (s4_keep V main_arg1 (by decide) (by decide)).trans (s3_arg1 V)
theorem s4_arg2 (V : Valuation τ sig (Elt Ideal)) : s4 V (Proc.devRef .tc main_arg2) = V (Proc.devRef .tc main_arg2) :=
  (s4_keep V main_arg2 (by decide) (by decide)).trans (s3_arg2 V)
theorem s4_arg3 (V : Valuation τ sig (Elt Ideal)) : s4 V (Proc.devRef .tc main_arg3) = V (Proc.devRef .tc main_arg3) :=
  (s4_keep V main_arg3 (by decide) (by decide)).trans (s3_arg3 V)
theorem s4_arg4 (V : Valuation τ sig (Elt Ideal)) : s4 V (Proc.devRef .tc main_arg4) = V (Proc.devRef .tc main_arg4) :=
  (s4_keep V main_arg4 (by decide) (by decide)).trans (s3_arg4 V)
theorem s4_arg5 (V : Valuation τ sig (Elt Ideal)) : s4 V (Proc.devRef .tc main_arg5) = V (Proc.devRef .tc main_arg5) :=
  (s4_keep V main_arg5 (by decide) (by decide)).trans (s3_arg5 V)
theorem s4_arg6 (V : Valuation τ sig (Elt Ideal)) : s4 V (Proc.devRef .tc main_arg6) = V (Proc.devRef .tc main_arg6) :=
  (s4_keep V main_arg6 (by decide) (by decide)).trans (s3_arg6 V)
theorem s4_arg7 (V : Valuation τ sig (Elt Ideal)) : s4 V (Proc.devRef .tc main_arg7) = V (Proc.devRef .tc main_arg7) :=
  (s4_keep V main_arg7 (by decide) (by decide)).trans (s3_arg7 V)
theorem s4_arg8 (V : Valuation τ sig (Elt Ideal)) : s4 V (Proc.devRef .tc main_arg8) = V (Proc.devRef .tc main_arg8) :=
  (s4_keep V main_arg8 (by decide) (by decide)).trans (s3_arg8 V)
theorem s4_arg9 (V : Valuation τ sig (Elt Ideal)) : s4 V (Proc.devRef .tc main_arg9) = V (Proc.devRef .tc main_arg9) :=
  (s4_keep V main_arg9 (by decide) (by decide)).trans (s3_arg9 V)
theorem s4_arg10 (V : Valuation τ sig (Elt Ideal)) : s4 V (Proc.devRef .tc main_arg10) = V (Proc.devRef .tc main_arg10) :=
  (s4_keep V main_arg10 (by decide) (by decide)).trans (s3_arg10 V)
theorem s4_arg11 (V : Valuation τ sig (Elt Ideal)) : s4 V (Proc.devRef .tc main_arg11) = V (Proc.devRef .tc main_arg11) :=
  (s4_keep V main_arg11 (by decide) (by decide)).trans (s3_arg11 V)
theorem s4_arg12 (V : Valuation τ sig (Elt Ideal)) : s4 V (Proc.devRef .tc main_arg12) = V (Proc.devRef .tc main_arg12) :=
  (s4_keep V main_arg12 (by decide) (by decide)).trans (s3_arg12 V)
theorem s4_arg13 (V : Valuation τ sig (Elt Ideal)) : s4 V (Proc.devRef .tc main_arg13) = V (Proc.devRef .tc main_arg13) :=
  (s4_keep V main_arg13 (by decide) (by decide)).trans (s3_arg13 V)

/-- The contents after stage 5 (hq). -/
def s5 (V : Valuation τ sig (Elt Ideal)) : Valuation τ sig (Elt Ideal) := after c7 (s4 V)
theorem s5_keep (V : Valuation τ sig (Elt Ideal)) (r : Ref sig .tc) (h7 : r ∉ c7_W) :
    s5 V (Proc.devRef .tc r) = s4 V (Proc.devRef .tc r) :=
  c7_keep _ r h7
theorem s5_arg0 (V : Valuation τ sig (Elt Ideal)) : s5 V (Proc.devRef .tc main_arg0) = V (Proc.devRef .tc main_arg0) :=
  (s5_keep V main_arg0 (by decide)).trans (s4_arg0 V)
theorem s5_arg1 (V : Valuation τ sig (Elt Ideal)) : s5 V (Proc.devRef .tc main_arg1) = V (Proc.devRef .tc main_arg1) :=
  (s5_keep V main_arg1 (by decide)).trans (s4_arg1 V)
theorem s5_arg2 (V : Valuation τ sig (Elt Ideal)) : s5 V (Proc.devRef .tc main_arg2) = V (Proc.devRef .tc main_arg2) :=
  (s5_keep V main_arg2 (by decide)).trans (s4_arg2 V)
theorem s5_arg3 (V : Valuation τ sig (Elt Ideal)) : s5 V (Proc.devRef .tc main_arg3) = V (Proc.devRef .tc main_arg3) :=
  (s5_keep V main_arg3 (by decide)).trans (s4_arg3 V)
theorem s5_arg4 (V : Valuation τ sig (Elt Ideal)) : s5 V (Proc.devRef .tc main_arg4) = V (Proc.devRef .tc main_arg4) :=
  (s5_keep V main_arg4 (by decide)).trans (s4_arg4 V)
theorem s5_arg5 (V : Valuation τ sig (Elt Ideal)) : s5 V (Proc.devRef .tc main_arg5) = V (Proc.devRef .tc main_arg5) :=
  (s5_keep V main_arg5 (by decide)).trans (s4_arg5 V)
theorem s5_arg6 (V : Valuation τ sig (Elt Ideal)) : s5 V (Proc.devRef .tc main_arg6) = V (Proc.devRef .tc main_arg6) :=
  (s5_keep V main_arg6 (by decide)).trans (s4_arg6 V)
theorem s5_arg7 (V : Valuation τ sig (Elt Ideal)) : s5 V (Proc.devRef .tc main_arg7) = V (Proc.devRef .tc main_arg7) :=
  (s5_keep V main_arg7 (by decide)).trans (s4_arg7 V)
theorem s5_arg8 (V : Valuation τ sig (Elt Ideal)) : s5 V (Proc.devRef .tc main_arg8) = V (Proc.devRef .tc main_arg8) :=
  (s5_keep V main_arg8 (by decide)).trans (s4_arg8 V)
theorem s5_arg9 (V : Valuation τ sig (Elt Ideal)) : s5 V (Proc.devRef .tc main_arg9) = V (Proc.devRef .tc main_arg9) :=
  (s5_keep V main_arg9 (by decide)).trans (s4_arg9 V)
theorem s5_arg10 (V : Valuation τ sig (Elt Ideal)) : s5 V (Proc.devRef .tc main_arg10) = V (Proc.devRef .tc main_arg10) :=
  (s5_keep V main_arg10 (by decide)).trans (s4_arg10 V)
theorem s5_arg11 (V : Valuation τ sig (Elt Ideal)) : s5 V (Proc.devRef .tc main_arg11) = V (Proc.devRef .tc main_arg11) :=
  (s5_keep V main_arg11 (by decide)).trans (s4_arg11 V)
theorem s5_arg12 (V : Valuation τ sig (Elt Ideal)) : s5 V (Proc.devRef .tc main_arg12) = V (Proc.devRef .tc main_arg12) :=
  (s5_keep V main_arg12 (by decide)).trans (s4_arg12 V)
theorem s5_arg13 (V : Valuation τ sig (Elt Ideal)) : s5 V (Proc.devRef .tc main_arg13) = V (Proc.devRef .tc main_arg13) :=
  (s5_keep V main_arg13 (by decide)).trans (s4_arg13 V)

/-- The contents after stage 6 (linkHead). -/
def s6 (V : Valuation τ sig (Elt Ideal)) : Valuation τ sig (Elt Ideal) := after c8 (s5 V)
theorem s6_keep (V : Valuation τ sig (Elt Ideal)) (r : Ref sig .tc) (h8 : r ∉ c8_W) :
    s6 V (Proc.devRef .tc r) = s5 V (Proc.devRef .tc r) :=
  c8_keep _ r h8
theorem s6_arg0 (V : Valuation τ sig (Elt Ideal)) : s6 V (Proc.devRef .tc main_arg0) = V (Proc.devRef .tc main_arg0) :=
  (s6_keep V main_arg0 (by decide)).trans (s5_arg0 V)
theorem s6_arg1 (V : Valuation τ sig (Elt Ideal)) : s6 V (Proc.devRef .tc main_arg1) = V (Proc.devRef .tc main_arg1) :=
  (s6_keep V main_arg1 (by decide)).trans (s5_arg1 V)
theorem s6_arg2 (V : Valuation τ sig (Elt Ideal)) : s6 V (Proc.devRef .tc main_arg2) = V (Proc.devRef .tc main_arg2) :=
  (s6_keep V main_arg2 (by decide)).trans (s5_arg2 V)
theorem s6_arg3 (V : Valuation τ sig (Elt Ideal)) : s6 V (Proc.devRef .tc main_arg3) = V (Proc.devRef .tc main_arg3) :=
  (s6_keep V main_arg3 (by decide)).trans (s5_arg3 V)
theorem s6_arg4 (V : Valuation τ sig (Elt Ideal)) : s6 V (Proc.devRef .tc main_arg4) = V (Proc.devRef .tc main_arg4) :=
  (s6_keep V main_arg4 (by decide)).trans (s5_arg4 V)
theorem s6_arg5 (V : Valuation τ sig (Elt Ideal)) : s6 V (Proc.devRef .tc main_arg5) = V (Proc.devRef .tc main_arg5) :=
  (s6_keep V main_arg5 (by decide)).trans (s5_arg5 V)
theorem s6_arg6 (V : Valuation τ sig (Elt Ideal)) : s6 V (Proc.devRef .tc main_arg6) = V (Proc.devRef .tc main_arg6) :=
  (s6_keep V main_arg6 (by decide)).trans (s5_arg6 V)
theorem s6_arg7 (V : Valuation τ sig (Elt Ideal)) : s6 V (Proc.devRef .tc main_arg7) = V (Proc.devRef .tc main_arg7) :=
  (s6_keep V main_arg7 (by decide)).trans (s5_arg7 V)
theorem s6_arg8 (V : Valuation τ sig (Elt Ideal)) : s6 V (Proc.devRef .tc main_arg8) = V (Proc.devRef .tc main_arg8) :=
  (s6_keep V main_arg8 (by decide)).trans (s5_arg8 V)
theorem s6_arg9 (V : Valuation τ sig (Elt Ideal)) : s6 V (Proc.devRef .tc main_arg9) = V (Proc.devRef .tc main_arg9) :=
  (s6_keep V main_arg9 (by decide)).trans (s5_arg9 V)
theorem s6_arg10 (V : Valuation τ sig (Elt Ideal)) : s6 V (Proc.devRef .tc main_arg10) = V (Proc.devRef .tc main_arg10) :=
  (s6_keep V main_arg10 (by decide)).trans (s5_arg10 V)
theorem s6_arg11 (V : Valuation τ sig (Elt Ideal)) : s6 V (Proc.devRef .tc main_arg11) = V (Proc.devRef .tc main_arg11) :=
  (s6_keep V main_arg11 (by decide)).trans (s5_arg11 V)
theorem s6_arg12 (V : Valuation τ sig (Elt Ideal)) : s6 V (Proc.devRef .tc main_arg12) = V (Proc.devRef .tc main_arg12) :=
  (s6_keep V main_arg12 (by decide)).trans (s5_arg12 V)
theorem s6_arg13 (V : Valuation τ sig (Elt Ideal)) : s6 V (Proc.devRef .tc main_arg13) = V (Proc.devRef .tc main_arg13) :=
  (s6_keep V main_arg13 (by decide)).trans (s5_arg13 V)

/-- The contents after stage 7 (nodeHead). -/
def s7 (V : Valuation τ sig (Elt Ideal)) : Valuation τ sig (Elt Ideal) := after c9 (s6 V)
theorem s7_keep (V : Valuation τ sig (Elt Ideal)) (r : Ref sig .tc) (h9 : r ∉ c9_W) :
    s7 V (Proc.devRef .tc r) = s6 V (Proc.devRef .tc r) :=
  c9_keep _ r h9
theorem s7_arg0 (V : Valuation τ sig (Elt Ideal)) : s7 V (Proc.devRef .tc main_arg0) = V (Proc.devRef .tc main_arg0) :=
  (s7_keep V main_arg0 (by decide)).trans (s6_arg0 V)
theorem s7_arg1 (V : Valuation τ sig (Elt Ideal)) : s7 V (Proc.devRef .tc main_arg1) = V (Proc.devRef .tc main_arg1) :=
  (s7_keep V main_arg1 (by decide)).trans (s6_arg1 V)
theorem s7_arg2 (V : Valuation τ sig (Elt Ideal)) : s7 V (Proc.devRef .tc main_arg2) = V (Proc.devRef .tc main_arg2) :=
  (s7_keep V main_arg2 (by decide)).trans (s6_arg2 V)
theorem s7_arg3 (V : Valuation τ sig (Elt Ideal)) : s7 V (Proc.devRef .tc main_arg3) = V (Proc.devRef .tc main_arg3) :=
  (s7_keep V main_arg3 (by decide)).trans (s6_arg3 V)
theorem s7_arg4 (V : Valuation τ sig (Elt Ideal)) : s7 V (Proc.devRef .tc main_arg4) = V (Proc.devRef .tc main_arg4) :=
  (s7_keep V main_arg4 (by decide)).trans (s6_arg4 V)
theorem s7_arg5 (V : Valuation τ sig (Elt Ideal)) : s7 V (Proc.devRef .tc main_arg5) = V (Proc.devRef .tc main_arg5) :=
  (s7_keep V main_arg5 (by decide)).trans (s6_arg5 V)
theorem s7_arg6 (V : Valuation τ sig (Elt Ideal)) : s7 V (Proc.devRef .tc main_arg6) = V (Proc.devRef .tc main_arg6) :=
  (s7_keep V main_arg6 (by decide)).trans (s6_arg6 V)
theorem s7_arg7 (V : Valuation τ sig (Elt Ideal)) : s7 V (Proc.devRef .tc main_arg7) = V (Proc.devRef .tc main_arg7) :=
  (s7_keep V main_arg7 (by decide)).trans (s6_arg7 V)
theorem s7_arg8 (V : Valuation τ sig (Elt Ideal)) : s7 V (Proc.devRef .tc main_arg8) = V (Proc.devRef .tc main_arg8) :=
  (s7_keep V main_arg8 (by decide)).trans (s6_arg8 V)
theorem s7_arg9 (V : Valuation τ sig (Elt Ideal)) : s7 V (Proc.devRef .tc main_arg9) = V (Proc.devRef .tc main_arg9) :=
  (s7_keep V main_arg9 (by decide)).trans (s6_arg9 V)
theorem s7_arg10 (V : Valuation τ sig (Elt Ideal)) : s7 V (Proc.devRef .tc main_arg10) = V (Proc.devRef .tc main_arg10) :=
  (s7_keep V main_arg10 (by decide)).trans (s6_arg10 V)
theorem s7_arg11 (V : Valuation τ sig (Elt Ideal)) : s7 V (Proc.devRef .tc main_arg11) = V (Proc.devRef .tc main_arg11) :=
  (s7_keep V main_arg11 (by decide)).trans (s6_arg11 V)
theorem s7_arg12 (V : Valuation τ sig (Elt Ideal)) : s7 V (Proc.devRef .tc main_arg12) = V (Proc.devRef .tc main_arg12) :=
  (s7_keep V main_arg12 (by decide)).trans (s6_arg12 V)
theorem s7_arg13 (V : Valuation τ sig (Elt Ideal)) : s7 V (Proc.devRef .tc main_arg13) = V (Proc.devRef .tc main_arg13) :=
  (s7_keep V main_arg13 (by decide)).trans (s6_arg13 V)

/-! Each stage's result, and the earlier results later stages still read, as terms of the arguments. -/

theorem s0_v12 (V : Valuation τ sig (Elt Ideal)) : s0 V (Proc.devRef .tc main_v12) = gcol (V (Proc.devRef .tc main_arg2)) := gcol_val V
theorem s1_v12 (V : Valuation τ sig (Elt Ideal)) : s1 V (Proc.devRef .tc main_v12) = gcol (V (Proc.devRef .tc main_arg2)) := (s1_keep V main_v12 (by decide)).trans (s0_v12 V)
theorem s2_v12 (V : Valuation τ sig (Elt Ideal)) : s2 V (Proc.devRef .tc main_v12) = gcol (V (Proc.devRef .tc main_arg2)) := (s2_keep V main_v12 (by decide) (by decide)).trans (s1_v12 V)
theorem s1_v43 (V : Valuation τ sig (Elt Ideal)) : s1 V (Proc.devRef .tc main_v43) = agg129 (V (Proc.devRef .tc main_arg0)) (V (Proc.devRef .tc main_arg1)) (gcol (V (Proc.devRef .tc main_arg2))) (V (Proc.devRef .tc main_arg5)) := by
  rw [s1, agg129_val, s0_arg0, s0_arg1, s0_v12, s0_arg5]
theorem s2_v62 (V : Valuation τ sig (Elt Ideal)) : s2 V (Proc.devRef .tc main_v62) = states1 (V (Proc.devRef .tc main_arg0)) (V (Proc.devRef .tc main_arg1)) (V (Proc.devRef .tc main_arg2)) (V (Proc.devRef .tc main_arg5)) (V (Proc.devRef .tc main_arg6)) (V (Proc.devRef .tc main_arg7)) := by
  rw [s2, layer129_val, s1_v43, s1_arg5, s1_arg6, s1_arg7]; rfl
theorem s3_v62 (V : Valuation τ sig (Elt Ideal)) : s3 V (Proc.devRef .tc main_v62) = states1 (V (Proc.devRef .tc main_arg0)) (V (Proc.devRef .tc main_arg1)) (V (Proc.devRef .tc main_arg2)) (V (Proc.devRef .tc main_arg5)) (V (Proc.devRef .tc main_arg6)) (V (Proc.devRef .tc main_arg7)) := (s3_keep V main_v62 (by decide)).trans (s2_v62 V)
theorem s3_v93 (V : Valuation τ sig (Elt Ideal)) : s3 V (Proc.devRef .tc main_v93) = agg258 (V (Proc.devRef .tc main_arg0)) (V (Proc.devRef .tc main_arg1)) (gcol (V (Proc.devRef .tc main_arg2))) (states1 (V (Proc.devRef .tc main_arg0)) (V (Proc.devRef .tc main_arg1)) (V (Proc.devRef .tc main_arg2)) (V (Proc.devRef .tc main_arg5)) (V (Proc.devRef .tc main_arg6)) (V (Proc.devRef .tc main_arg7))) := by
  rw [s3, agg258_val, s2_arg0, s2_arg1, s2_v12, s2_v62]
theorem s4_v112 (V : Valuation τ sig (Elt Ideal)) : s4 V (Proc.devRef .tc main_v112) = states2 (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)) (V (Proc.devRef .tc main_arg9)) := by
  rw [s4, layer258_val, s3_v93, s3_v62, s3_arg8, s3_arg9]; rfl
theorem s5_v112 (V : Valuation τ sig (Elt Ideal)) : s5 V (Proc.devRef .tc main_v112) = states2 (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)) (V (Proc.devRef .tc main_arg9)) := (s5_keep V main_v112 (by decide)).trans (s4_v112 V)
theorem s6_v112 (V : Valuation τ sig (Elt Ideal)) : s6 V (Proc.devRef .tc main_v112) = states2 (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)) (V (Proc.devRef .tc main_arg9)) := (s6_keep V main_v112 (by decide)).trans (s5_v112 V)
theorem s5_v127 (V : Valuation τ sig (Elt Ideal)) : s5 V (Proc.devRef .tc main_v127) = hq (states2 (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)) (V (Proc.devRef .tc main_arg9))) (V (Proc.devRef .tc main_arg3)) (V (Proc.devRef .tc main_arg4)) := by
  rw [s5, hq_val, s4_v112, s4_arg3, s4_arg4]
theorem s6_v133 (V : Valuation τ sig (Elt Ideal)) : s6 V (Proc.devRef .tc main_v133) = link (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [s6, linkHead_val, s5_v127, s5_arg10, s5_arg11]; rfl
theorem s7_v133 (V : Valuation τ sig (Elt Ideal)) : s7 V (Proc.devRef .tc main_v133) = link (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := (s7_keep V main_v133 (by decide)).trans (s6_v133 V)
theorem s7_v138 (V : Valuation τ sig (Elt Ideal)) : s7 V (Proc.devRef .tc main_v138) = node (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [s7, nodeHead_val, s6_v112, s6_arg12, s6_arg13]; rfl

/-- The whole list's fold is the last stage's contents. -/
theorem after_ops (V : Valuation τ sig (Elt Ideal)) : after ops V = s7 V := by
  simp only [ops, p0, p1, p2, after_append]
  rfl

/-- On every device, from any memory with zero counters: every weakly fair execution of the reference program
    terminates with its first result at `link` and its second at `node` of the fourteen argument arrays as the
    launch memory had them, and every argument array unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v133) = link (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
        ∧ r.2.mem ((c.tc : Thread nD τ).loc main_v138) = node (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))) :=
  (θ_run defs _ _).mono (fun _ h c => ⟨⟨(h c main_v133).trans (by rw [after_ops]; exact s7_v133 _),
      (h c main_v138).trans (by rw [after_ops]; exact s7_v138 _)⟩,
      (h c main_arg0).trans (by rw [after_ops]; exact s7_arg0 _),
      (h c main_arg1).trans (by rw [after_ops]; exact s7_arg1 _),
      (h c main_arg2).trans (by rw [after_ops]; exact s7_arg2 _),
      (h c main_arg3).trans (by rw [after_ops]; exact s7_arg3 _),
      (h c main_arg4).trans (by rw [after_ops]; exact s7_arg4 _),
      (h c main_arg5).trans (by rw [after_ops]; exact s7_arg5 _),
      (h c main_arg6).trans (by rw [after_ops]; exact s7_arg6 _),
      (h c main_arg7).trans (by rw [after_ops]; exact s7_arg7 _),
      (h c main_arg8).trans (by rw [after_ops]; exact s7_arg8 _),
      (h c main_arg9).trans (by rw [after_ops]; exact s7_arg9 _),
      (h c main_arg10).trans (by rw [after_ops]; exact s7_arg10 _),
      (h c main_arg11).trans (by rw [after_ops]; exact s7_arg11 _),
      (h c main_arg12).trans (by rw [after_ops]; exact s7_arg12 _),
      (h c main_arg13).trans (by rw [after_ops]; exact s7_arg13 _)⟩)
    (run_ops m ρ)

end Cert.RefRun

end
-- ==== Proof.Claims.lean ====
/-
  The three frame claims and the idealization claim.

  Each kernel program's frame is its generated run over the five grid regions and the host operations between them; the
  reference has no grid region, and its frame is its run with the results forgotten.  The idealization rewrote no
  operation, so there is nothing to preserve.
-/
import proofs.«167109_j5557687681833_1_alg».proof.Defs
import proofs.«167109_j5557687681833_1_alg».proof.Proof.Gen.Kernel
import proofs.«167109_j5557687681833_1_alg».proof.Proof.Gen.Kernel.Frame
import proofs.«167109_j5557687681833_1_alg».proof.Proof.Gen.KernelIdeal
import proofs.«167109_j5557687681833_1_alg».proof.Proof.Gen.KernelIdeal.Frame
import proofs.«167109_j5557687681833_1_alg».proof.Proof.Gen.ReferenceIdeal
import proofs.«167109_j5557687681833_1_alg».proof.Proof.Gen.Pre_finite_inputs
import proofs.«167109_j5557687681833_1_alg».proof.Proof.RefRun

noncomputable section

namespace Cert.Proof.Claims

open Idealize.ShloMosaic Idealize.SL.Sem

theorem frame_kernel : Cert.frame_Kernel (hKernel := Cert.Kernel.Gen.facts)
    (hPre_finite_inputs := Cert.Pre_finite_inputs.Gen.facts) :=
  fun m ρ _ => Cert.Kernel.Gen.frame m ρ

theorem frame_kernelIdeal : Cert.frame_KernelIdeal (hKernelIdeal := Cert.KernelIdeal.Gen.facts)
    (hPre_finite_inputs := Cert.Pre_finite_inputs.Gen.facts) :=
  fun m ρ _ => Cert.KernelIdeal.Gen.frame m ρ

theorem frame_referenceIdeal : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2) (Cert.RefRun.run m ρ)

theorem preserves : Cert.preserves_Kernel_KernelIdeal := trivial

end Cert.Proof.Claims

end
-- ==== Proof.KerRun.lean ====
/-
  The kernel program's run with both results named.

  The program is eleven segments: six stretches of host operations around five grid regions.  Every unscoped
  buffer of a core is carried through the segments, and after the last one it holds the last boundary's
  contents.  Reading that state at the two result buffers names the results; reading it at the fourteen
  argument buffers and walking the boundary contents back to the launch memory says the arguments end as
  they started.
-/
import proofs.«167109_j5557687681833_1_alg».proof.Proof.Gen.KernelIdeal.Frame
import Idealize.ShloMosaic.PureOps.Ideal

set_option maxRecDepth 16384

noncomputable section

namespace Cert.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- From any memory with zero counters every weakly fair execution of the program terminates without a fault;
    in the final state the link scores and the node scores are the last boundary's contents at their buffers,
    and every argument array is as launched. -/
theorem run_results : θ_run (defs (F := Ideal)) (onTc (τ := τ) (main (F := Ideal))) ⟨m, fun _ => 0, ρ⟩ (fun r => ∀ c : Dev nD,
      (r.2.mem ((c.tc : Thread nD τ).loc main_v121) = W11 m ρ c (Proc.devRef .tc main_v121)
        ∧ r.2.mem ((c.tc : Thread nD τ).loc main_v102_1) = W11 m ρ c (Proc.devRef .tc main_v102_1))
      ∧ (
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨⟨h c _ (mem_uc main_v121 (by decide)), h c _ (mem_uc main_v102_1 (by decide))⟩,
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c)⟩)

end Cert.KerRun

end
-- ==== Proof.Spec.lean ====
/-
  The functions both programs compute, written once over the extended reals with plain coordinates.

  A graph layer takes the aggregate `A` (one row per node, `f` columns) and the previous node states `h`
  (`p` columns).  Each column of `A` is centred by its mean over the nodes and scaled by the inverse square
  root of its variance plus a stabiliser; the result goes through a dense map and a positive part
  (`hidden`), and the new state is the previous state and the hidden state, side by side, through a second
  dense map (`layerOut`).  The kernel contracts the two halves separately and adds; the reference joins the
  halves first and contracts once (`joined`).  The kernel takes the variance as the mean of the squares minus
  the square of the mean (`varOfSums`), the reference as the mean of the squared deviations (`varCentred`).
-/
import Idealize.ShloMosaic.PureOps.Ideal
import Mathlib.Algebra.BigOperators.Fin

noncomputable section

namespace Cert.Spec

open Idealize.ShloMosaic

/-- The stabiliser under the inverse square root: the one f32 word both programs carry. -/
def eps : EReal := Ideal.ofBits .f32 0x3727C5AC#32

/-- The number of nodes as both programs write it (the f32 word of 100000). -/
def nodes : EReal := Ideal.ofBits .f32 0x47C35000#32

variable {n f p o a b d : ℕ}

/-- The sum of a column over all rows. -/
def colSum (A : Fin n → Fin f → EReal) (l : Fin f) : EReal := ∑ r, A r l

/-- The sum of the squares of a column over all rows. -/
def colSumSq (A : Fin n → Fin f → EReal) (l : Fin f) : EReal := ∑ r, A r l * A r l

/-- A column total divided by the number of nodes. -/
def meanOfSum (s : Fin f → EReal) (l : Fin f) : EReal := Ideal.div (s l) nodes

/-- The variance from the two totals: mean of squares minus squared mean. -/
def varOfSums (s q : Fin f → EReal) (l : Fin f) : EReal :=
  Ideal.div (q l) nodes - meanOfSum s l * meanOfSum s l

/-- The mean of a column. -/
def colMean (A : Fin n → Fin f → EReal) (l : Fin f) : EReal := Ideal.div (colSum A l) nodes

/-- The variance as the mean of the squared deviations from the column mean. -/
def varCentred (A : Fin n → Fin f → EReal) (l : Fin f) : EReal :=
  Ideal.div (∑ r, (A r l - colMean A l) * (A r l - colMean A l)) nodes

/-- A centred entry scaled by the inverse square root of the stabilised variance. -/
def normed (A : Fin n → Fin f → EReal) (mean var : Fin f → EReal) (r : Fin n) (l : Fin f) : EReal :=
  (A r l - mean l) * Ideal.rsqrt (var l + eps)

/-- The hidden state: the normalised aggregate through a dense map `W` (rows = inputs), then the positive part. -/
def hidden (A : Fin n → Fin f → EReal) (mean var : Fin f → EReal) (W : Fin f → Fin f → EReal)
    (r : Fin n) (k : Fin f) : EReal :=
  max (∑ l, normed A mean var r l * W l k) 0

/-- The layer's result as the kernel forms it: the previous state through `Wa` plus the hidden state through `Wb`. -/
def layerOut (A : Fin n → Fin f → EReal) (mean var : Fin f → EReal) (W : Fin f → Fin f → EReal)
    (h : Fin n → Fin p → EReal) (Wa : Fin p → Fin o → EReal) (Wb : Fin f → Fin o → EReal)
    (r : Fin n) (j : Fin o) : EReal :=
  (∑ k, h r k * Wa k j) + ∑ k, hidden A mean var W r k * Wb k j

/-- The layer's result as the reference forms it: state and hidden state joined, one contraction with `W2`
    (rows = inputs, the first `p` for the state). -/
def joined (A : Fin n → Fin f → EReal) (mean var : Fin f → EReal) (W : Fin f → Fin f → EReal)
    (h : Fin n → Fin p → EReal) (W2 : Fin (p + f) → Fin o → EReal) (r : Fin n) (j : Fin o) : EReal :=
  ∑ k : Fin (p + f), Fin.append (h r) (hidden A mean var W r) k * W2 k j

/-- A two-layer head: dense, positive part, dense. -/
def head (X : Fin n → Fin a → EReal) (W1 : Fin a → Fin b → EReal) (W2 : Fin b → Fin d → EReal)
    (r : Fin n) (j : Fin d) : EReal :=
  ∑ k, max (∑ l, X r l * W1 l k) 0 * W2 k j

/-- Splitting the joined contraction at the seam gives the kernel's two contractions. -/
theorem joined_eq_layerOut (A : Fin n → Fin f → EReal) (mean var : Fin f → EReal) (W : Fin f → Fin f → EReal)
    (h : Fin n → Fin p → EReal) (W2 : Fin (p + f) → Fin o → EReal) (r : Fin n) (j : Fin o) :
    joined A mean var W h W2 r j
      = layerOut A mean var W h (fun k j => W2 (Fin.castAdd f k) j) (fun k j => W2 (Fin.natAdd p k) j) r j := by
  unfold joined layerOut
  rw [Fin.sum_univ_add]
  simp only [Fin.append_left, Fin.append_right]

end Cert.Spec

end
-- ==== Proof.Consts.lean ====
/-
  The two float words the statistics carry, as the reals they denote: the node count 100000 and the
  stabiliser, a positive dyadic rational just below 1e-5.
-/
import proofs.«167109_j5557687681833_1_alg».proof.Proof.Spec

noncomputable section

namespace Cert.Spec

open Idealize.ShloMosaic

/-- The node count's word denotes the real 100000. -/
theorem nodes_eq : nodes = ((100000 : ℝ) : EReal) := by
  unfold nodes
  simp [Ideal.ofBits, Ideal.ieee, -EReal.coe_mul]; norm_num

/-- The stabiliser's word denotes the positive real 10995116 / 2^40. -/
theorem eps_eq : eps = ((10995116 / 1099511627776 : ℝ) : EReal) := by
  unfold eps
  simp [Ideal.ofBits, Ideal.ieee, -EReal.coe_mul]; norm_num

end Cert.Spec

end
-- ==== Proof.RefReadOps.lean ====
/-
  Host operations on matrices, read at one entry, over the extended reals.

  Every lemma here is over matrices of arbitrary extents: a sum over the rows of a column, a transposed
  entry, a row vector laid along every row, two matrices side by side read left or right of the seam,
  and a matrix product as the sum over the contracted coordinate.
-/
import Idealize.ShloMosaic.Lib.StackMember
import Idealize.ShloMosaic.Lib.IdealHost
import Idealize.ShloMosaic.Lib.Pipeline.Value
import proofs.«167109_j5557687681833_1_alg».proof.Proof.Consts

noncomputable section

namespace Cert.RefRead

open Idealize.ShloMosaic Idealize.ShloMosaic.ValueIdx Idealize.ShloMosaic.StackMember

variable {α : Type} {m n k : Nat} {φ φ₁ φ₂ : FTy}

/-- The host's sum over the rows, read at column `l`: the initial value plus the sum of the column's entries. -/
theorem reduceRows_apply {u : Shape} (X : FVec Ideal ⟨2, ![m, n]⟩ φ) (init : u.Idx → Ideal φ)
    (h' : (⟨2, ![m, n]⟩ : Shape).ReducesTo [0] ⟨1, ![n]⟩) (hu : 0 < u.numel) (l : Fin n) :
    Host.reduceAdd X init h' hu (ix1 l) = init (Shape.Idx.first hu) + ∑ r : Fin m, X (ix2 r l) := by
  have h2 : (⟨2, ![m, n]⟩ : Shape).Reduces [0] ⟨1, ![n]⟩ := ⟨h'.1, Nat.one_pos, h'.2⟩
  show Ideal.hostReduceAdd h' X _ (ix1 l) = _
  rw [Ideal.hostReduceAdd_single h' h2]
  refine congrArg (_ + ·) (Finset.sum_congr rfl fun r _ => ?_)
  refine congrArg X (funext fun a => Fin.ext ?_)
  match a with
  | ⟨0, _⟩ => rfl
  | ⟨1, _⟩ => rfl

/-- A transposed matrix at (a, b) is the matrix at (b, a). -/
theorem transpose2_apply (x : (⟨2, ![m, n]⟩ : Shape).Idx → α)
    (h : (⟨2, ![m, n]⟩ : Shape).Transposes [1, 0] ⟨2, ![n, m]⟩) (a : Fin n) (b : Fin m) :
    transpose ⟨2, ![n, m]⟩ [1, 0] x h (ix2 a b) = x (ix2 b a) :=
  transpose_apply [1, 0] x h (ix2 a b) (ix2 b a) (fun c => by
    match c with
    | ⟨0, _⟩ => rfl
    | ⟨1, _⟩ => rfl)

/-- A vector written as a one-row matrix reads the vector at the column. -/
theorem bcastRow_apply (x : (⟨1, ![n]⟩ : Shape).Idx → α)
    (h : (⟨1, ![n]⟩ : Shape).BroadcastsInDim ⟨2, ![1, n]⟩ (![1] : Fin 1 → Fin 2)) (a : Fin 1) (b : Fin n) :
    broadcastInDim ⟨2, ![1, n]⟩ (![1] : Fin 1 → Fin 2) h x (ix2 a b) = x (ix1 b) :=
  broadcastInDim_apply (![1] : Fin 1 → Fin 2) h x (ix2 a b) (ix1 b) (fun c => by
    match c with
    | ⟨0, _⟩ =>
      show b.val = if n = 1 then 0 else b.val
      have := b.isLt
      split <;> omega)

/-- A one-row matrix laid along every row reads its one row at the column. -/
theorem bcastRows_apply (y : (⟨2, ![1, n]⟩ : Shape).Idx → α)
    (h : (⟨2, ![1, n]⟩ : Shape).BroadcastsInDim ⟨2, ![m, n]⟩ (![0, 1] : Fin 2 → Fin 2)) (r : Fin m) (l : Fin n) :
    broadcastInDim ⟨2, ![m, n]⟩ (![0, 1] : Fin 2 → Fin 2) h y (ix2 r l) = y (ix2 0 l) :=
  broadcastInDim_apply (![0, 1] : Fin 2 → Fin 2) h y (ix2 r l) (ix2 0 l) (fun c => by
    match c with
    | ⟨0, _⟩ => rfl
    | ⟨1, _⟩ =>
      show l.val = if n = 1 then 0 else l.val
      have := l.isLt
      split <;> omega)

/-- Two matrices side by side, read left of the seam: the first matrix. -/
theorem concatCols_left {p f o : Nat} (x₁ : (⟨2, ![m, p]⟩ : Shape).Idx → α) (x₂ : (⟨2, ![m, f]⟩ : Shape).Idx → α)
    (h : Shape.Concatenates [⟨2, ![m, p]⟩, ⟨2, ![m, f]⟩] ⟨2, ![m, o]⟩ (1 : Fin 2)) (r : Fin m) (c : Fin o) (hc : c.val < p) :
    concatenate ⟨2, ![m, o]⟩ (1 : Fin 2) [⟨⟨2, ![m, p]⟩, x₁⟩, ⟨⟨2, ![m, f]⟩, x₂⟩] h (ix2 r c) = x₁ (ix2 r ⟨c.val, hc⟩) :=
  concatenate_pair_apply_left (1 : Fin 2) x₁ x₂ h (ix2 r c) rfl (ix2 r ⟨c.val, hc⟩) (fun b => by
    match b with
    | ⟨0, _⟩ => rfl
    | ⟨1, _⟩ => rfl)

/-- Two matrices side by side, read at or right of the seam: the second matrix, the first one's width less. -/
theorem concatCols_right {p f o : Nat} (x₁ : (⟨2, ![m, p]⟩ : Shape).Idx → α) (x₂ : (⟨2, ![m, f]⟩ : Shape).Idx → α)
    (h : Shape.Concatenates [⟨2, ![m, p]⟩, ⟨2, ![m, f]⟩] ⟨2, ![m, o]⟩ (1 : Fin 2)) (r : Fin m) (c : Fin o) (hc : p ≤ c.val)
    (hcf : c.val - p < f) :
    concatenate ⟨2, ![m, o]⟩ (1 : Fin 2) [⟨⟨2, ![m, p]⟩, x₁⟩, ⟨⟨2, ![m, f]⟩, x₂⟩] h (ix2 r c) = x₂ (ix2 r ⟨c.val - p, hcf⟩) :=
  concatenate_pair_apply_right (1 : Fin 2) x₁ x₂ h (ix2 r c) rfl rfl (ix2 r ⟨c.val - p, hcf⟩) (fun b hb => by
    match b, hb with
    | ⟨0, _⟩, _ => rfl
    | ⟨1, _⟩, hb => exact absurd rfl hb)
    (by show (c.val - p) + p = c.val; omega)

/-- A matrix product at (a, b): the sum over the contracted coordinate of the products of the entries. -/
theorem dot_apply (w : DotDims.WF (⟨2, ![m, k]⟩ : Shape) ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b) = ∑ c : Fin k, A (ix2 a c) * B (ix2 c b) :=
  dotGeneral_plain_apply prec A B a b

/-- The node count is positive. -/
theorem nodes_pos : (0 : EReal) < Cert.Spec.nodes := by
  rw [Cert.Spec.nodes_eq]
  exact_mod_cast (by norm_num : (0 : ℝ) < 100000)

/-- The integer zero converted to a float is zero. -/
theorem sitofp_zero : FloatOps.sitofp (F := Ideal) .f32 (0#32 : BitVec 32) = 0 := by
  show (((0#32 : BitVec 32).toInt : ℝ) : EReal) = 0
  simp

end Cert.RefRead

end
-- ==== Proof.RefReadLayer.lean ====
/-
  One graph layer of the reference, over matrices of arbitrary extents, read at one entry.

  The layer takes the aggregate A (m rows, f columns), the previous states h (m rows, p columns) and two dense
  maps.  Each column of A is centred by its mean over the rows and scaled by the inverse square root of its
  variance plus a stabiliser; the variance is the mean of the squared deviations, its divisor written as the
  row count less a converted integer zero and guarded by a test that the divisor is positive.  The normalised
  aggregate goes through the first map and a positive part; the previous states and that result, side by
  side, go through the second map.  Read at an entry this is `Cert.Spec.joined`: the zero each sum starts from
  is dropped, the converted zero is subtracted away, and the guard holds because the row count is positive.
-/
import proofs.«167109_j5557687681833_1_alg».proof.Proof.RefReadOps

noncomputable section

namespace Cert.RefRead

open Idealize.ShloMosaic Idealize.ShloMosaic.ValueIdx

/-- The shape relations one layer's operations ask of its extents. -/
structure LayerFacts (m p f q o : Nat) : Prop where
  red : (⟨2, ![m, f]⟩ : Shape).ReducesTo [0] ⟨1, ![f]⟩
  sc : 0 < (⟨0, ![]⟩ : Shape).numel
  b0 : (⟨0, ![]⟩ : Shape).BroadcastsInDim ⟨1, ![f]⟩ (![] : Fin 0 → Fin 1)
  b1 : (⟨1, ![f]⟩ : Shape).BroadcastsInDim ⟨2, ![1, f]⟩ (![1] : Fin 1 → Fin 2)
  b01 : (⟨0, ![]⟩ : Shape).BroadcastsInDim ⟨2, ![1, f]⟩ (![] : Fin 0 → Fin 2)
  b2 : (⟨2, ![1, f]⟩ : Shape).BroadcastsInDim ⟨2, ![m, f]⟩ (![0, 1] : Fin 2 → Fin 2)
  t1 : (⟨2, ![f, f]⟩ : Shape).Transposes [1, 0] ⟨2, ![f, f]⟩
  d1 : DotDims.WF (⟨2, ![m, f]⟩ : Shape) ⟨2, ![f, f]⟩ ⟨2, ![m, f]⟩ [1] [0] [0] [1] [] []
  b02 : (⟨0, ![]⟩ : Shape).BroadcastsInDim ⟨2, ![m, f]⟩ (![] : Fin 0 → Fin 2)
  cat : Shape.Concatenates [⟨2, ![m, p]⟩, ⟨2, ![m, f]⟩] ⟨2, ![m, q]⟩ (1 : Fin 2)
  t2 : (⟨2, ![o, q]⟩ : Shape).Transposes [1, 0] ⟨2, ![q, o]⟩
  d2 : DotDims.WF (⟨2, ![m, q]⟩ : Shape) ⟨2, ![q, o]⟩ ⟨2, ![m, o]⟩ [1] [0] [0] [1] [] []

variable {m p f q o : Nat}

/-- The column means: the sum over the rows, from zero, divided by the row count. -/
def meanG (F : LayerFacts m p f q o) (A : FVec Ideal ⟨2, ![m, f]⟩ .f32) : FVec Ideal ⟨1, ![f]⟩ .f32 :=
  Host.divf (F := Ideal) (Host.reduceAdd (F := Ideal) A (constant (F := Ideal) ⟨0, ![]⟩ .f32 0x00000000#32) F.red F.sc)
    (broadcastInDim ⟨1, ![f]⟩ (![] : Fin 0 → Fin 1) F.b0 (constant (F := Ideal) ⟨0, ![]⟩ .f32 0x47C35000#32))

/-- The deviations from the column means, the means formed as a one-row matrix laid along every row. -/
def devG (F : LayerFacts m p f q o) (A : FVec Ideal ⟨2, ![m, f]⟩ .f32) : FVec Ideal ⟨2, ![m, f]⟩ .f32 :=
  subf A (broadcastInDim ⟨2, ![m, f]⟩ (![0, 1] : Fin 2 → Fin 2) F.b2
    (Host.divf (F := Ideal) (broadcastInDim ⟨2, ![1, f]⟩ (![1] : Fin 1 → Fin 2) F.b1
        (Host.reduceAdd (F := Ideal) A (constant (F := Ideal) ⟨0, ![]⟩ .f32 0x00000000#32) F.red F.sc))
      (broadcastInDim ⟨2, ![1, f]⟩ (![] : Fin 0 → Fin 2) F.b01 (constant (F := Ideal) ⟨0, ![]⟩ .f32 0x47C35000#32))))

/-- The divisor of the variance: the row count less a converted integer zero. -/
def divisorG : FVec Ideal ⟨0, ![]⟩ .f32 :=
  subf (constant (F := Ideal) ⟨0, ![]⟩ .f32 0x47C35000#32) (sitofp .f32 (constantI ⟨0, ![]⟩ 32 0#32))

/-- The column variances: the mean of the squared deviations where the divisor is positive, a fixed word elsewhere. -/
def varG (F : LayerFacts m p f q o) (A : FVec Ideal ⟨2, ![m, f]⟩ .f32) : FVec Ideal ⟨1, ![f]⟩ .f32 :=
  select (broadcastInDim ⟨1, ![f]⟩ (![] : Fin 0 → Fin 1) F.b0
      (cmpf .ogt divisorG (constant (F := Ideal) ⟨0, ![]⟩ .f32 0x00000000#32)))
    (Host.divf (F := Ideal)
      (Host.reduceAdd (F := Ideal) (mulf (devG F A) (devG F A)) (constant (F := Ideal) ⟨0, ![]⟩ .f32 0x00000000#32) F.red F.sc)
      (broadcastInDim ⟨1, ![f]⟩ (![] : Fin 0 → Fin 1) F.b0 divisorG))
    (broadcastInDim ⟨1, ![f]⟩ (![] : Fin 0 → Fin 1) F.b0 (id (constant (F := Ideal) ⟨0, ![]⟩ .f32 0x7FC00000#32)))

/-- The normalised aggregate. -/
def normG (F : LayerFacts m p f q o) (A : FVec Ideal ⟨2, ![m, f]⟩ .f32) : FVec Ideal ⟨2, ![m, f]⟩ .f32 :=
  mulf (subf A (broadcastInDim ⟨2, ![m, f]⟩ (![0, 1] : Fin 2 → Fin 2) F.b2
      (broadcastInDim ⟨2, ![1, f]⟩ (![1] : Fin 1 → Fin 2) F.b1 (meanG F A))))
    (broadcastInDim ⟨2, ![m, f]⟩ (![0, 1] : Fin 2 → Fin 2) F.b2
      (broadcastInDim ⟨2, ![1, f]⟩ (![1] : Fin 1 → Fin 2) F.b1
        (Host.rsqrt (F := Ideal) (addf (varG F A)
          (broadcastInDim ⟨1, ![f]⟩ (![] : Fin 0 → Fin 1) F.b0 (constant (F := Ideal) ⟨0, ![]⟩ .f32 0x3727C5AC#32))))))

/-- The hidden state: the normalised aggregate through the transposed first map, then the positive part. -/
def hidG (F : LayerFacts m p f q o) (A : FVec Ideal ⟨2, ![m, f]⟩ .f32) (w1 : FVec Ideal ⟨2, ![f, f]⟩ .f32) :
    FVec Ideal ⟨2, ![m, f]⟩ .f32 :=
  maximumf (Host.dotGeneral (F := Ideal) (φ₁ := .f32) (φ₂ := .f32) (⟨[1], [0], [0], [1], [], [], F.d1⟩ : DotDims _ _ _) none
      (normG F A) (transpose ⟨2, ![f, f]⟩ [1, 0] w1 F.t1))
    (broadcastInDim ⟨2, ![m, f]⟩ (![] : Fin 0 → Fin 2) F.b02 (constant (F := Ideal) ⟨0, ![]⟩ .f32 0x00000000#32))

/-- The layer: previous states and hidden state side by side, through the transposed second map. -/
def layerG (F : LayerFacts m p f q o) (A : FVec Ideal ⟨2, ![m, f]⟩ .f32) (h : FVec Ideal ⟨2, ![m, p]⟩ .f32)
    (w1 : FVec Ideal ⟨2, ![f, f]⟩ .f32) (w2 : FVec Ideal ⟨2, ![o, q]⟩ .f32) : FVec Ideal ⟨2, ![m, o]⟩ .f32 :=
  Host.dotGeneral (F := Ideal) (φ₁ := .f32) (φ₂ := .f32) (⟨[1], [0], [0], [1], [], [], F.d2⟩ : DotDims _ _ _) none
    (concatenate ⟨2, ![m, q]⟩ (1 : Fin 2) [⟨⟨2, ![m, p]⟩, h⟩, ⟨⟨2, ![m, f]⟩, hidG F A w1⟩] F.cat)
    (transpose ⟨2, ![q, o]⟩ [1, 0] w2 F.t2)

/-! ## The stages at an index -/

/-- The host's inverse square root at an index is the extended reals' inverse square root of the element. -/
theorem hostRsqrt_apply {s : Shape} {φ : FTy} (x : FVec Ideal s φ) (i : s.Idx) : Host.rsqrt x i = Ideal.rsqrt (x i) := rfl

/-- The column mean at `l`. -/
theorem meanG_apply (F : LayerFacts m p f q o) (A : FVec Ideal ⟨2, ![m, f]⟩ .f32) (l : Fin f) :
    meanG F A (ix1 l) = Cert.Spec.colMean (fun r l => A (ix2 r l)) l := by
  show Ideal.div (Host.reduceAdd (F := Ideal) A (constant (F := Ideal) ⟨0, ![]⟩ .f32 0x00000000#32) F.red F.sc (ix1 l))
      (broadcastInDim ⟨1, ![f]⟩ (![] : Fin 0 → Fin 1) F.b0 (constant (F := Ideal) ⟨0, ![]⟩ .f32 0x47C35000#32) (ix1 l)) = _
  rw [reduceRows_apply, broadcastInDim_scalar_apply]
  show Ideal.div (Ideal.ofBits .f32 0x00000000#32 + _) (Ideal.ofBits .f32 0x47C35000#32) = _
  rw [Ideal.ofBits_zero_f32, zero_add]
  rfl

/-- A deviation at (r, l): the entry less its column's mean. -/
theorem devG_apply (F : LayerFacts m p f q o) (A : FVec Ideal ⟨2, ![m, f]⟩ .f32) (r : Fin m) (l : Fin f) :
    devG F A (ix2 r l) = A (ix2 r l) - Cert.Spec.colMean (fun r l => A (ix2 r l)) l := by
  unfold devG
  rw [subf_apply, bcastRows_apply, hostDivf_apply, bcastRow_apply, reduceRows_apply, broadcastInDim_scalar_apply,
    constant_apply, constant_apply, Ideal.ofBits_zero_f32, zero_add]
  rfl

/-- The divisor is the row count. -/
theorem divisorG_apply : divisorG ix0 = Cert.Spec.nodes := by
  show Ideal.ofBits .f32 0x47C35000#32 - FloatOps.sitofp (F := Ideal) .f32 (0#32 : BitVec 32) = _
  rw [sitofp_zero, sub_zero]
  rfl

/-- The column variance at `l`: the guard holds, so it is the mean of the squared deviations. -/
theorem varG_apply (F : LayerFacts m p f q o) (A : FVec Ideal ⟨2, ![m, f]⟩ .f32) (l : Fin f) :
    varG F A (ix1 l) = Cert.Spec.varCentred (fun r l => A (ix2 r l)) l := by
  unfold varG
  rw [select_apply, broadcastInDim_scalar_apply]
  have hg : cmpf .ogt divisorG (constant (F := Ideal) ⟨0, ![]⟩ .f32 0x00000000#32) ix0 = 1#1 := by
    show Ideal.cmp .ogt (divisorG ix0) (Ideal.ofBits .f32 0x00000000#32) = 1#1
    rw [divisorG_apply, Ideal.ofBits_zero_f32]
    simp [Ideal.cmp, nodes_pos]
  rw [hg, select_one]
  show Ideal.div (Host.reduceAdd (F := Ideal) _ _ F.red F.sc (ix1 l)) (broadcastInDim ⟨1, ![f]⟩ (![] : Fin 0 → Fin 1) F.b0 divisorG (ix1 l)) = _
  rw [reduceRows_apply, broadcastInDim_scalar_apply, divisorG_apply]
  show Ideal.div (Ideal.ofBits .f32 0x00000000#32 + ∑ r : Fin m, devG F A (ix2 r l) * devG F A (ix2 r l)) _ = _
  rw [Ideal.ofBits_zero_f32, zero_add]
  unfold Cert.Spec.varCentred
  refine congrArg (Ideal.div · Cert.Spec.nodes) (Finset.sum_congr rfl fun r _ => ?_)
  rw [devG_apply]

/-- The normalised aggregate at (r, l). -/
theorem normG_apply (F : LayerFacts m p f q o) (A : FVec Ideal ⟨2, ![m, f]⟩ .f32) (r : Fin m) (l : Fin f) :
    normG F A (ix2 r l) = Cert.Spec.normed (fun r l => A (ix2 r l)) (Cert.Spec.colMean fun r l => A (ix2 r l))
      (Cert.Spec.varCentred fun r l => A (ix2 r l)) r l := by
  unfold normG
  rw [mulf_apply, subf_apply, bcastRows_apply, bcastRows_apply, bcastRow_apply, bcastRow_apply, meanG_apply,
    hostRsqrt_apply, addf_apply, varG_apply, broadcastInDim_scalar_apply, constant_apply]
  rfl

/-- The hidden state at (r, k). -/
theorem hidG_apply (F : LayerFacts m p f q o) (A : FVec Ideal ⟨2, ![m, f]⟩ .f32) (w1 : FVec Ideal ⟨2, ![f, f]⟩ .f32)
    (r : Fin m) (k : Fin f) :
    hidG F A w1 (ix2 r k) = Cert.Spec.hidden (fun r l => A (ix2 r l)) (Cert.Spec.colMean fun r l => A (ix2 r l))
      (Cert.Spec.varCentred fun r l => A (ix2 r l)) (fun l k => w1 (ix2 k l)) r k := by
  show max (Host.dotGeneral (F := Ideal) (φ₁ := .f32) (φ₂ := .f32) (⟨[1], [0], [0], [1], [], [], F.d1⟩ : DotDims _ _ _) none
      (normG F A) (transpose ⟨2, ![f, f]⟩ [1, 0] w1 F.t1) (ix2 r k))
    (broadcastInDim ⟨2, ![m, f]⟩ (![] : Fin 0 → Fin 2) F.b02 (constant (F := Ideal) ⟨0, ![]⟩ .f32 0x00000000#32) (ix2 r k)) = _
  rw [dot_apply, broadcastInDim_scalar_apply]
  show max _ (Ideal.ofBits .f32 0x00000000#32) = _
  rw [Ideal.ofBits_zero_f32]
  unfold Cert.Spec.hidden
  refine congrArg (max · 0) (Finset.sum_congr rfl fun l _ => ?_)
  rw [normG_apply, transpose2_apply]

/-- The layer at (r, j): the reference's joined contraction. -/
theorem layerG_apply (F : LayerFacts m p f q o) (hq : q = p + f) (A : FVec Ideal ⟨2, ![m, f]⟩ .f32)
    (h : FVec Ideal ⟨2, ![m, p]⟩ .f32) (w1 : FVec Ideal ⟨2, ![f, f]⟩ .f32) (w2 : FVec Ideal ⟨2, ![o, q]⟩ .f32)
    (r : Fin m) (j : Fin o) :
    layerG F A h w1 w2 (ix2 r j)
      = Cert.Spec.joined (fun r l => A (ix2 r l)) (Cert.Spec.colMean fun r l => A (ix2 r l))
          (Cert.Spec.varCentred fun r l => A (ix2 r l)) (fun l k => w1 (ix2 k l)) (fun r k => h (ix2 r k))
          (fun (k : Fin (p + f)) j => w2 (ix2 j (k.cast hq.symm))) r j := by
  subst hq
  unfold layerG
  rw [dot_apply]
  unfold Cert.Spec.joined
  refine Finset.sum_congr rfl fun c _ => ?_
  rw [transpose2_apply]
  refine congrArg (· * w2 (ix2 j c)) ?_
  refine Fin.addCases (fun i => ?_) (fun i => ?_) c
  · rw [Fin.append_left]
    exact concatCols_left _ _ F.cat r (Fin.castAdd f i) i.isLt
  · rw [Fin.append_right]
    have hle : p ≤ (Fin.natAdd p i).val := by simp
    have hlt : (Fin.natAdd p i).val - p < f := by simp
    refine (concatCols_right _ _ F.cat r (Fin.natAdd p i) hle hlt).trans ?_
    have : (⟨(Fin.natAdd p i).val - p, hlt⟩ : Fin f) = i := Fin.ext (by simp)
    rw [this, hidG_apply]

end Cert.RefRead

end
-- ==== Proof.RefReadHead.lean ====
/-
  A two-layer head of the reference, over matrices of arbitrary extents, read at one entry: the input through a
  transposed dense map, a positive part, and a second transposed dense map.  At an entry it is
  `Cert.Spec.head`: the sum over the hidden coordinate of the positive part of the first contraction times
  the second map's entry.  A one-column result read as a vector is the same entry in column zero.
-/
import proofs.«167109_j5557687681833_1_alg».proof.Proof.RefReadOps

noncomputable section

namespace Cert.RefRead

open Idealize.ShloMosaic Idealize.ShloMosaic.ValueIdx

/-- The shape relations a head's operations ask of its extents. -/
structure HeadFacts (m a b d : Nat) : Prop where
  t1 : (⟨2, ![b, a]⟩ : Shape).Transposes [1, 0] ⟨2, ![a, b]⟩
  d1 : DotDims.WF (⟨2, ![m, a]⟩ : Shape) ⟨2, ![a, b]⟩ ⟨2, ![m, b]⟩ [1] [0] [0] [1] [] []
  b0 : (⟨0, ![]⟩ : Shape).BroadcastsInDim ⟨2, ![m, b]⟩ (![] : Fin 0 → Fin 2)
  t2 : (⟨2, ![d, b]⟩ : Shape).Transposes [1, 0] ⟨2, ![b, d]⟩
  d2 : DotDims.WF (⟨2, ![m, b]⟩ : Shape) ⟨2, ![b, d]⟩ ⟨2, ![m, d]⟩ [1] [0] [0] [1] [] []

variable {m a b d : Nat}

/-- The head: dense, positive part, dense; both maps given with rows as outputs and transposed on the way in. -/
def headG (F : HeadFacts m a b d) (X : FVec Ideal ⟨2, ![m, a]⟩ .f32) (W1 : FVec Ideal ⟨2, ![b, a]⟩ .f32)
    (W2 : FVec Ideal ⟨2, ![d, b]⟩ .f32) : FVec Ideal ⟨2, ![m, d]⟩ .f32 :=
  Host.dotGeneral (F := Ideal) (φ₁ := .f32) (φ₂ := .f32) (⟨[1], [0], [0], [1], [], [], F.d2⟩ : DotDims _ _ _) none
    (maximumf (Host.dotGeneral (F := Ideal) (φ₁ := .f32) (φ₂ := .f32) (⟨[1], [0], [0], [1], [], [], F.d1⟩ : DotDims _ _ _) none
        X (transpose ⟨2, ![a, b]⟩ [1, 0] W1 F.t1))
      (broadcastInDim ⟨2, ![m, b]⟩ (![] : Fin 0 → Fin 2) F.b0 (constant (F := Ideal) ⟨0, ![]⟩ .f32 0x00000000#32)))
    (transpose ⟨2, ![b, d]⟩ [1, 0] W2 F.t2)

/-- The head at (r, j). -/
theorem headG_apply (F : HeadFacts m a b d) (X : FVec Ideal ⟨2, ![m, a]⟩ .f32) (W1 : FVec Ideal ⟨2, ![b, a]⟩ .f32)
    (W2 : FVec Ideal ⟨2, ![d, b]⟩ .f32) (r : Fin m) (j : Fin d) :
    headG F X W1 W2 (ix2 r j)
      = Cert.Spec.head (fun r l => X (ix2 r l)) (fun l k => W1 (ix2 k l)) (fun k j => W2 (ix2 j k)) r j := by
  unfold headG
  rw [dot_apply]
  unfold Cert.Spec.head
  refine Finset.sum_congr rfl fun k _ => ?_
  rw [transpose2_apply, maximumf_apply, dot_apply, broadcastInDim_scalar_apply, constant_apply, Ideal.ofBits_zero_f32]
  refine congrArg (fun s => max s 0 * W2 (ix2 j k)) (Finset.sum_congr rfl fun l _ => ?_)
  rw [transpose2_apply]

/-- A one-column matrix read as a vector: entry `r` is the matrix at (r, 0). -/
theorem colVec_apply {α : Type} (x : (⟨2, ![m, 1]⟩ : Shape).Idx → α) (h : (⟨2, ![m, 1]⟩ : Shape).ShapeCasts ⟨1, ![m]⟩) (r : Fin m) :
    shapeCast ⟨1, ![m]⟩ x h (ix1 r) = x (ix2 r 0) :=
  shapeCast_apply x h (ix1 r) (ix2 r 0) (by
    rw [Shape.rowMajor_val_two, Shape.rowMajor_val_one]
    show r.val * 1 + 0 = r.val
    omega)

end Cert.RefRead

end
-- ==== Proof.RefRead.lean ====
/-
  The reference's stages read at an index.

  Each layer of the reference, read at row r and column j, is the joined contraction `Cert.Spec.joined` of the
  aggregate's entries, its column means, its column variances taken as means of squared deviations, and the two
  dense maps read transposed; each head, read at an entry, is `Cert.Spec.head`.  The statements hold for every
  aggregate, with no hypothesis on its entries: the zero each sum starts from, the integer zero subtracted from
  the divisor and the guard on the divisor's sign are all resolved by the row count being the positive number
  100000.  The proofs are the width-independent readings, instantiated at the program's extents.
-/
import proofs.«167109_j5557687681833_1_alg».proof.Proof.RefStages
import proofs.«167109_j5557687681833_1_alg».proof.Proof.RefReadLayer
import proofs.«167109_j5557687681833_1_alg».proof.Proof.RefReadHead

noncomputable section

namespace Cert.RefRead

open Cert.ReferenceIdeal Cert.ReferenceIdeal.Gen Idealize.ShloMosaic Idealize.ShloMosaic.ValueIdx

/-- The first layer's extents satisfy the layer's shape relations. -/
theorem facts129 : LayerFacts 100000 128 129 257 257 :=
  ⟨reducesTo_S100000x129_S129_d0, h_S_, bcast_S_S129, bcast_S129_S1x129_1, bcast_S_S1x129, bcast_S1x129_S100000x129_0_1,
    transposes_S129x129_S129x129_1_0, dot_S100000x129_S129x129_S100000x129_1_0_0_1_n_n_wf, bcast_S_S100000x129,
    concatenates_S100000x128_S100000x129_S100000x257_d1, transposes_S257x257_S257x257_1_0,
    dot_S100000x257_S257x257_S100000x257_1_0_0_1_n_n_wf⟩

/-- The second layer's extents satisfy the layer's shape relations. -/
theorem facts258 : LayerFacts 100000 257 258 515 515 :=
  ⟨reducesTo_S100000x258_S258_d0, h_S_, bcast_S_S258, bcast_S258_S1x258_1, bcast_S_S1x258, bcast_S1x258_S100000x258_0_1,
    transposes_S258x258_S258x258_1_0, dot_S100000x258_S258x258_S100000x258_1_0_0_1_n_n_wf, bcast_S_S100000x258,
    concatenates_S100000x257_S100000x258_S100000x515_d1, transposes_S515x515_S515x515_1_0,
    dot_S100000x515_S515x515_S100000x515_1_0_0_1_n_n_wf⟩

/-- The link head's extents satisfy the head's shape relations. -/
theorem factsLink : HeadFacts 4096 1030 128 1 :=
  ⟨transposes_S128x1030_S1030x128_1_0, dot_S4096x1030_S1030x128_S4096x128_1_0_0_1_n_n_wf, bcast_S_S4096x128,
    transposes_S1x128_S128x1_1_0, dot_S4096x128_S128x1_S4096x1_1_0_0_1_n_n_wf⟩

/-- The node head's extents satisfy the head's shape relations. -/
theorem factsNode : HeadFacts 100000 515 128 10 :=
  ⟨transposes_S128x515_S515x128_1_0, dot_S100000x515_S515x128_S100000x128_1_0_0_1_n_n_wf, bcast_S_S100000x128,
    transposes_S10x128_S128x10_1_0, dot_S100000x128_S128x10_S100000x10_1_0_0_1_n_n_wf⟩

/-- The first layer is the width-independent layer at its extents. -/
theorem layer129_eq (agg : FVec Ideal S100000x129 .f32) (h : FVec Ideal S100000x128 .f32) (w1 : FVec Ideal S129x129 .f32)
    (w2 : FVec Ideal S257x257 .f32) : Cert.RefRun.layer129 agg h w1 w2 = layerG facts129 agg h w1 w2 := rfl

/-- The second layer is the width-independent layer at its extents. -/
theorem layer258_eq (agg : FVec Ideal S100000x258 .f32) (h : FVec Ideal S100000x257 .f32) (w1 : FVec Ideal S258x258 .f32)
    (w2 : FVec Ideal S515x515 .f32) : Cert.RefRun.layer258 agg h w1 w2 = layerG facts258 agg h w1 w2 := rfl

/-- The first layer at (r, j). -/
theorem layer129_apply (agg : FVec Ideal S100000x129 .f32) (h : FVec Ideal S100000x128 .f32) (w1 : FVec Ideal S129x129 .f32)
    (w2 : FVec Ideal S257x257 .f32) (r : Fin 100000) (j : Fin 257) :
    Cert.RefRun.layer129 agg h w1 w2 (ix2 r j)
      = Cert.Spec.joined (n := 100000) (f := 129) (p := 128) (o := 257) (fun r l => agg (ix2 r l))
          (Cert.Spec.colMean (fun r l => agg (ix2 r l))) (Cert.Spec.varCentred (fun r l => agg (ix2 r l)))
          (fun l k => w1 (ix2 k l)) (fun r k => h (ix2 r k)) (fun k j => w2 (ix2 j k)) r j := by
  rw [layer129_eq]
  exact layerG_apply facts129 rfl agg h w1 w2 r j

/-- The second layer at (r, j). -/
theorem layer258_apply (agg : FVec Ideal S100000x258 .f32) (h : FVec Ideal S100000x257 .f32) (w1 : FVec Ideal S258x258 .f32)
    (w2 : FVec Ideal S515x515 .f32) (r : Fin 100000) (j : Fin 515) :
    Cert.RefRun.layer258 agg h w1 w2 (ix2 r j)
      = Cert.Spec.joined (n := 100000) (f := 258) (p := 257) (o := 515) (fun r l => agg (ix2 r l))
          (Cert.Spec.colMean (fun r l => agg (ix2 r l))) (Cert.Spec.varCentred (fun r l => agg (ix2 r l)))
          (fun l k => w1 (ix2 k l)) (fun r k => h (ix2 r k)) (fun k j => w2 (ix2 j k)) r j := by
  rw [layer258_eq]
  exact layerG_apply facts258 rfl agg h w1 w2 r j

/-- The link head at query `r`. -/
theorem linkHead_apply (hq : FVec Ideal S4096x1030 .f32) (link_h : FVec Ideal S128x1030 .f32) (link_o : FVec Ideal S1x128 .f32)
    (r : Fin 4096) :
    Cert.RefRun.linkHead hq link_h link_o (ix1 r)
      = Cert.Spec.head (n := 4096) (a := 1030) (b := 128) (d := 1) (fun r l => hq (ix2 r l)) (fun l k => link_h (ix2 k l))
          (fun k j => link_o (ix2 j k)) r 0 := by
  have e : Cert.RefRun.linkHead hq link_h link_o
      = shapeCast S4096 (headG factsLink hq link_h link_o) shapeCasts_S4096x1_S4096 := rfl
  rw [e, colVec_apply, headG_apply]

/-- The node head at (r, j). -/
theorem nodeHead_apply (h : FVec Ideal S100000x515 .f32) (node_h : FVec Ideal S128x515 .f32) (node_o : FVec Ideal S10x128 .f32)
    (r : Fin 100000) (j : Fin 10) :
    Cert.RefRun.nodeHead h node_h node_o (ix2 r j)
      = Cert.Spec.head (n := 100000) (a := 515) (b := 128) (d := 10) (fun r l => h (ix2 r l)) (fun l k => node_h (ix2 k l))
          (fun k j => node_o (ix2 j k)) r j := by
  have e : Cert.RefRun.nodeHead h node_h node_o = headG factsNode h node_h node_o := rfl
  rw [e, headG_apply]

end Cert.RefRead

end
-- ==== Proof.Algebra.lean ====
/-
  Real numbers inside the extended reals, and the one identity that joins the two ways of taking a variance.

  For reals x_1 … x_n with total S and mean μ = S / n,   Σ (x_r − μ)² / n  =  Σ x_r² / n − μ².
  The identity needs the divisor to be the number of terms, and it needs every x_r to be a real number: on the
  extended reals ∞ − ∞ has no honest value and the two sides part.  So entries are first shown to be coerced reals
  (`IsReal`), the sums and quotients are pushed inside the coercion, and the identity is the one over ℝ.
-/
import proofs.«167109_j5557687681833_1_alg».proof.Proof.Consts

noncomputable section

namespace Cert.Spec

open Idealize.ShloMosaic

/-- An extended real that is a real number. -/
def IsReal (x : EReal) : Prop := ∃ r : ℝ, x = (r : EReal)

theorem isReal_coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max_zero {x : EReal} (hx : IsReal x) : IsReal (max x 0) := by
  obtain ⟨a, rfl⟩ := hx
  rcases le_total a 0 with h | h
  · exact ⟨0, by rw [max_eq_right (by exact_mod_cast h)]; rfl⟩
  · exact ⟨a, by rw [max_eq_left (by exact_mod_cast h)]⟩

/-- The coercion commutes with a finite sum. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

theorem isReal_sum {ι : Type*} (s : Finset ι) (g : ι → EReal) (h : ∀ i ∈ s, IsReal (g i)) :
    IsReal (∑ i ∈ s, g i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- A real divided by the node count is a real. -/
theorem IsReal.div_nodes {x : EReal} (hx : IsReal x) : IsReal (Ideal.div x nodes) := by
  obtain ⟨a, rfl⟩ := hx
  rw [nodes_eq, Ideal.div_coe (by norm_num : (100000 : ℝ) ≠ 0)]
  exact (isReal_coe a).mul (isReal_coe _)

theorem div_nodes_coe (a : ℝ) : Ideal.div (a : EReal) nodes = ((a * (1 / 100000) : ℝ) : EReal) := by
  rw [nodes_eq, Ideal.div_coe (by norm_num : (100000 : ℝ) ≠ 0), ← EReal.coe_mul]

/-- The inverse square root of a nonnegative real plus the stabiliser is a real. -/
theorem isReal_rsqrt_add_eps {v : ℝ} (hv : 0 ≤ v) : IsReal (Ideal.rsqrt ((v : EReal) + eps)) := by
  rw [eps_eq, ← EReal.coe_add, Ideal.rsqrt_coe]
  have hpos : (0 : ℝ) < v + 10995116 / 1099511627776 := by positivity
  rw [if_neg (not_lt.mpr hpos.le), if_neg hpos.ne']
  exact isReal_coe _

/-- Over the reals: the mean of the squared deviations is the mean of the squares minus the squared mean,
    when the divisor is the number of terms. -/
theorem real_variance (n : ℕ) (hn : 0 < n) (x : Fin n → ℝ) :
    (∑ r, (x r - (∑ r, x r) * (1 / (n : ℝ))) * (x r - (∑ r, x r) * (1 / (n : ℝ)))) * (1 / (n : ℝ))
      = (∑ r, x r * x r) * (1 / (n : ℝ)) - ((∑ r, x r) * (1 / (n : ℝ))) * ((∑ r, x r) * (1 / (n : ℝ))) := by
  have hn' : (n : ℝ) ≠ 0 := by exact_mod_cast hn.ne'
  set S : ℝ := ∑ r, x r with hS
  set μ : ℝ := S * (1 / (n : ℝ)) with hμ
  have h1 : ∀ r, (x r - μ) * (x r - μ) = x r * x r - 2 * μ * x r + μ * μ := fun r => by ring
  simp_rw [h1]
  rw [Finset.sum_add_distrib, Finset.sum_sub_distrib, ← Finset.mul_sum, Finset.sum_const, Finset.card_univ,
    Fintype.card_fin, nsmul_eq_mul, ← hS]
  rw [hμ]
  field_simp
  ring

/-- The two variances agree on a matrix of reals with 100000 rows. -/
theorem varOfSums_eq_varCentred {f : ℕ} (x : Fin 100000 → Fin f → ℝ) (l : Fin f) :
    varOfSums (colSum fun r l => (x r l : EReal)) (colSumSq fun r l => (x r l : EReal)) l
      = varCentred (fun r l => (x r l : EReal)) l := by
  have hsum : (∑ r, (x r l : EReal)) = ((∑ r, x r l : ℝ) : EReal) := (coe_sum _ _).symm
  have hsq : (∑ r, (x r l : EReal) * (x r l : EReal)) = ((∑ r, x r l * x r l : ℝ) : EReal) := by
    rw [coe_sum]; exact Finset.sum_congr rfl fun r _ => (EReal.coe_mul _ _).symm
  unfold varOfSums varCentred meanOfSum colMean colSum colSumSq
  rw [hsum, hsq, div_nodes_coe, div_nodes_coe]
  have hdev : (∑ r, ((x r l : EReal) - ((∑ r, x r l) * (1 / 100000) : ℝ)) * ((x r l : EReal) - ((∑ r, x r l) * (1 / 100000) : ℝ)))
      = ((∑ r, (x r l - (∑ r, x r l) * (1 / 100000)) * (x r l - (∑ r, x r l) * (1 / 100000)) : ℝ) : EReal) := by
    rw [coe_sum]
    exact Finset.sum_congr rfl fun r _ => by rw [← EReal.coe_sub, ← EReal.coe_mul]
  rw [hdev, div_nodes_coe, ← EReal.coe_mul, ← EReal.coe_sub, EReal.coe_eq_coe_iff]
  have := real_variance 100000 (by norm_num) (fun r => x r l)
  simp only [Nat.cast_ofNat] at this
  linarith [this]

/-- The reference's variance of a matrix of reals is a nonnegative real. -/
theorem varCentred_nonneg {f : ℕ} (x : Fin 100000 → Fin f → ℝ) (l : Fin f) :
    ∃ v : ℝ, 0 ≤ v ∧ varCentred (fun r l => (x r l : EReal)) l = (v : EReal) := by
  have hsum : (∑ r, (x r l : EReal)) = ((∑ r, x r l : ℝ) : EReal) := (coe_sum _ _).symm
  refine ⟨(∑ r, (x r l - (∑ r, x r l) * (1 / 100000)) * (x r l - (∑ r, x r l) * (1 / 100000))) * (1 / 100000), ?_, ?_⟩
  · exact mul_nonneg (Finset.sum_nonneg fun r _ => mul_self_nonneg _) (by norm_num)
  · unfold varCentred colMean colSum
    rw [hsum, div_nodes_coe]
    have hdev : (∑ r, ((x r l : EReal) - ((∑ r, x r l) * (1 / 100000) : ℝ)) * ((x r l : EReal) - ((∑ r, x r l) * (1 / 100000) : ℝ)))
        = ((∑ r, (x r l - (∑ r, x r l) * (1 / 100000)) * (x r l - (∑ r, x r l) * (1 / 100000)) : ℝ) : EReal) := by
      rw [coe_sum]
      exact Finset.sum_congr rfl fun r _ => by rw [← EReal.coe_sub, ← EReal.coe_mul]
    rw [hdev, div_nodes_coe]

end Cert.Spec

end
-- ==== Proof.RealArrays.lean ====
/-
  "Every entry is a real number" carried through the operations that build the aggregate.

  Re-laying operations (reshape, slice, broadcast, transpose, gather, concatenate) only move entries, so an array made of
  reals stays one.  A scatter-add leaves at each index the operand's entry plus the sum of the updates that land there:
  a finite sum of reals.  Differences and products of reals are reals, and a quotient by a nonzero real is a real.
-/
import proofs.«167109_j5557687681833_1_alg».proof.Proof.Algebra
import Idealize.ShloMosaic.PureOps
import Idealize.ShloMosaic.PureOps.Ideal.Laws

noncomputable section

namespace Cert.Spec

open Idealize.ShloMosaic

/-- Every entry of the array is a real number. -/
def AllReal {s : Shape} (x : s.Idx → EReal) : Prop := ∀ i, IsReal (x i)

variable {s t : Shape}

theorem AllReal.shapeCast {x : s.Idx → EReal} (hx : AllReal x) (h : s.ShapeCasts t) :
    AllReal (shapeCast t x h) := fun _ => hx _

theorem AllReal.slice {x : s.Idx → EReal} (hx : AllReal x) (off : Fin s.rank → Nat) (h : s.Slices off t) :
    AllReal (extractStridedSlice t off x h) := fun _ => hx _

theorem AllReal.broadcastInDim {x : s.Idx → EReal} (hx : AllReal x) (dims : Fin s.rank → Fin t.rank)
    (h : s.BroadcastsInDim t dims) : AllReal (broadcastInDim t dims h x) := fun _ => hx _

theorem AllReal.transpose {x : s.Idx → EReal} (hx : AllReal x) (perm : List (Fin s.rank)) (h : s.Transposes perm t) :
    AllReal (transpose t perm x h) := fun _ => hx _

theorem AllReal.gather {si : Shape} {w : Nat} {x : s.Idx → EReal} (hx : AllReal x) (d : GatherDims s si t)
    (idx : IVec si w) : AllReal (Host.gather d x idx) := fun _ => hx _

/-- Two arrays side by side: every entry is an entry of one of them. -/
theorem AllReal.concat2 {s1 s2 : Shape} {x1 : s1.Idx → EReal} {x2 : s2.Idx → EReal} (h1 : AllReal x1) (h2 : AllReal x2)
    (a : Fin t.rank)
    (h : Shape.Concatenates (List.map (·.1) ([⟨s1, x1⟩, ⟨s2, x2⟩] : List ((s : Shape) × (s.Idx → EReal)))) t a) :
    AllReal (concatenate t a [⟨s1, x1⟩, ⟨s2, x2⟩] h) := by
  have hall : ∀ p ∈ ([⟨s1, x1⟩, ⟨s2, x2⟩] : List ((s : Shape) × (s.Idx → EReal))), ∀ i, IsReal (p.2 i) := by
    intro p hp
    simp only [List.mem_cons, List.mem_singleton, List.not_mem_nil, or_false] at hp
    rcases hp with rfl | rfl
    · exact h1
    · exact h2
  intro j
  unfold concatenate
  exact hall _ (List.getElem_mem _) _

theorem AllReal.scatterAdd {si su : Shape} {w : Nat} {x : s.Idx → EReal} {upd : su.Idx → EReal} (hx : AllReal x)
    (hu : AllReal upd) (d : ScatterDims s si su) (idx : IVec si w) :
    AllReal (Host.scatterAdd (F := Ideal) (φ := .f32) d x idx upd) := by
  intro i
  show IsReal (Ideal.hostScatterAdd d x idx upd i)
  unfold Ideal.hostScatterAdd
  exact (hx i).add (isReal_sum _ _ fun j _ => hu j)

theorem AllReal.subf {x y : s.Idx → EReal} (hx : AllReal x) (hy : AllReal y) :
    AllReal (subf (F := Ideal) (φ := .f32) x y) := fun i => (hx i).sub (hy i)

theorem AllReal.addf {x y : s.Idx → EReal} (hx : AllReal x) (hy : AllReal y) :
    AllReal (addf (F := Ideal) (φ := .f32) x y) := fun i => (hx i).add (hy i)

theorem allReal_zero (t : Shape) (dims : Fin (⟨0, ![]⟩ : Shape).rank → Fin t.rank)
    (h : (⟨0, ![]⟩ : Shape).BroadcastsInDim t dims) :
    AllReal (broadcastInDim t dims h (constant (F := Ideal) ⟨0, ![]⟩ .f32 0x00000000#32)) := by
  intro i
  show IsReal (Ideal.ofBits .f32 0x00000000#32)
  rw [Ideal.ofBits_zero_f32]; exact isReal_zero

/-- A quotient of reals by a nonzero real is a real. -/
theorem IsReal.div_of_ne {x y : EReal} (hx : IsReal x) (hy : IsReal y) (h0 : y ≠ 0) : IsReal (Ideal.div x y) := by
  obtain ⟨a, rfl⟩ := hx; obtain ⟨b, rfl⟩ := hy
  have hb : b ≠ 0 := fun hb => h0 (by rw [hb]; rfl)
  rw [Ideal.div_coe hb]
  exact (isReal_coe a).mul (isReal_coe _)

theorem AllReal.hostDivf {x y : s.Idx → EReal} (hx : AllReal x) (hy : AllReal y) (h0 : ∀ i, y i ≠ 0) :
    AllReal (Host.divf (F := Ideal) (φ := .f32) x y) := fun i => (hx i).div_of_ne (hy i) (h0 i)

end Cert.Spec

end
-- ==== Proof.LibFiniteEntry.lean ====
/-
  "|x| < +∞" on the extended reals means x is a real number.

  A precondition of the form "every entry is finite" compares max(x, −x) with the float word of +∞ (0x7F800000, which
  denotes ⊤). At x = ⊥ and at x = ⊤ that maximum is ⊤, and ⊤ < ⊤ fails; so where the comparison's bit is 1, x is the
  image of a real number.
-/
import Idealize.ShloMosaic.PureOps.Ideal

namespace Idealize.ShloMosaic.Ideal

/-- An extended real whose absolute value is below the float word of +∞ is a real number. -/
theorem real_of_abs_lt_inf (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => exfalso; simp [Ideal.cmp] at h
  | coe r => exact ⟨r, rfl⟩
  | top => exfalso; simp [Ideal.cmp] at h

end Idealize.ShloMosaic.Ideal
-- ==== Proof.PreFacts.lean ====
/-
  What the precondition says, entry by entry: every float argument holds real numbers (its "|x| < +∞ everywhere" bit is
  one), and the denominator 1 + t[last] − t[first] of the edge weights is not zero (its "≠ 0" bit is one).
  The precondition is a conjunction of eleven bits; each all-entries bit gives the entry's bit at every index, and the
  entry's bit says the entry is the image of a real.
-/
import proofs.«167109_j5557687681833_1_alg».proof.Pre_finite_inputs
import proofs.«167109_j5557687681833_1_alg».proof.Proof.LibFiniteEntry
import proofs.«167109_j5557687681833_1_alg».proof.Proof.Algebra
import Idealize.ShloMosaic.Lib.ReduceAll
import Idealize.ShloMosaic.Lib.ValueIdx
import Idealize.ShloMosaic.PureOps.Ideal.Laws

noncomputable section

namespace Cert.PreFacts

open Idealize.ShloMosaic Cert.Pre_finite_inputs

instance : Subsingleton S_.Idx := ⟨fun a b => funext fun d => d.elim0⟩

/-- Where the all-entries bit of "|x| < +∞" is one, every entry of `x` is a real. -/
theorem all_finite {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi
        (cmpf .olt (Host.absf x) (broadcastInDim s ![] hb (constant (F := Ideal) S_ .f32 0x7F800000#32)))
        (constantI S_ 1 1#1) hr hu j = 1#1) (i : s.Idx) : Cert.Spec.IsReal (x i) := by
  have h := Host.reduce_andi_all _ _ hr hu j e i
  simp only [cmpf, Host.absf, broadcastInDim, constant] at h
  exact Ideal.real_of_abs_lt_inf (x i) h

variable [Facts]
open Facts

/-- The denominator of the edge weights, as the precondition spells it: (1 + t[last]) − t[first]. -/
def den (t : FVec Ideal S400000 .f32) : FVec Ideal S_ .f32 :=
  subf (addf (constant (F := Ideal) S_ .f32 0x3F800000#32)
      (shapeCast S_ (extractStridedSlice S1 ![399999] t slices_S400000_S1_399999) shapeCasts_S1_S_))
    (shapeCast S_ (extractStridedSlice S1 ![0] t slices_S400000_S1_0) shapeCasts_S1_S_)

/-- The precondition, decoded. -/
theorem facts_of_pre (a0 a1 : IVec S400000 32) (a2 : FVec Ideal S400000 .f32) (a3 a4 : IVec S4096 32)
    (a5 : FVec Ideal S100000x128 .f32) (a6 : FVec Ideal S129x129 .f32) (a7 : FVec Ideal S257x257 .f32)
    (a8 : FVec Ideal S258x258 .f32) (a9 : FVec Ideal S515x515 .f32) (a10 : FVec Ideal S128x1030 .f32)
    (a11 : FVec Ideal S1x128 .f32) (a12 : FVec Ideal S128x515 .f32) (a13 : FVec Ideal S10x128 .f32)
    (h : fn (F := Ideal) a0 a1 a2 a3 a4 a5 a6 a7 a8 a9 a10 a11 a12 a13 = fun _ => 1#1) :
    (∀ i, Cert.Spec.IsReal (a2 i)) ∧ (∀ i, Cert.Spec.IsReal (a5 i)) ∧ (∀ i, Cert.Spec.IsReal (a6 i))
      ∧ (∀ i, Cert.Spec.IsReal (a7 i)) ∧ (∀ i, Cert.Spec.IsReal (a8 i)) ∧ (∀ i, Cert.Spec.IsReal (a9 i))
      ∧ (∀ i, Cert.Spec.IsReal (a10 i)) ∧ (∀ i, Cert.Spec.IsReal (a11 i)) ∧ (∀ i, Cert.Spec.IsReal (a12 i))
      ∧ (∀ i, Cert.Spec.IsReal (a13 i)) ∧ den a2 ValueIdx.ix0 ≠ 0 := by
  have h0 := congrFun h ValueIdx.ix0
  dsimp only [fn, fn_part1, fn_part2, fn_part3] at h0
  simp only [andi, IntOp.andi_eq_one] at h0
  obtain ⟨⟨⟨⟨⟨⟨⟨⟨⟨⟨e2, e5⟩, e6⟩, e7⟩, e8⟩, e9⟩, e10⟩, e11⟩, e12⟩, e13⟩, ed⟩ := h0
  refine ⟨all_finite a2 _ _ _ _ e2, all_finite a5 _ _ _ _ e5, all_finite a6 _ _ _ _ e6, all_finite a7 _ _ _ _ e7,
    all_finite a8 _ _ _ _ e8, all_finite a9 _ _ _ _ e9, all_finite a10 _ _ _ _ e10, all_finite a11 _ _ _ _ e11,
    all_finite a12 _ _ _ _ e12, all_finite a13 _ _ _ _ e13, ?_⟩
  intro hz
  have hd : den a2 ValueIdx.ix0 = subf (addf (constant (F := Ideal) S_ .f32 0x3F800000#32)
      (shapeCast S_ (extractStridedSlice S1 ![399999] a2 slices_S400000_S1_399999) shapeCasts_S1_S_))
    (shapeCast S_ (extractStridedSlice S1 ![0] a2 slices_S400000_S1_0) shapeCasts_S1_S_) ValueIdx.ix0 := rfl
  rw [hd] at hz
  simp only [cmpf, constant] at ed
  rw [hz] at ed
  simp [Ideal.cmpf_def, Ideal.cmp] at ed

end Cert.PreFacts

end
-- ==== Proof.ChainReal.lean ====
/-
  The edge feature column and the two aggregates are made of real numbers.

  The edge feature of an edge is (t_last − t_e) / (1 + t_last − t_first): a quotient of reals by a real that the
  precondition keeps away from zero, hence a real.  An aggregate starts from zeros and adds, row by row, gathered rows
  of the node states joined to the edge feature: finite sums of reals.
-/
import proofs.«167109_j5557687681833_1_alg».proof.Proof.RefStages
import proofs.«167109_j5557687681833_1_alg».proof.Proof.RealArrays
import proofs.«167109_j5557687681833_1_alg».proof.Proof.PreFacts

noncomputable section

namespace Cert.RefRun

open Cert.ReferenceIdeal Cert.ReferenceIdeal.Gen Idealize.ShloMosaic Cert.Spec

/-- The float word of one denotes the real one. -/
theorem ofBits_one : Ideal.ofBits .f32 0x3F800000#32 = ((1 : ℝ) : EReal) := by
  simp [Ideal.ofBits, Ideal.ieee, -EReal.coe_mul]; norm_num

/-- The denominator 1 + t_last − t_first as the program spells it. -/
def den (t : (⟨S400000, .f32⟩ : BufTy).Contents (Elt Ideal)) : S_.Idx → EReal :=
  subf (F := Ideal) (φ := .f32) (addf (F := Ideal) (φ := .f32) (constant (F := Ideal) S_ .f32 0x3F800000#32)
      (shapeCast S_ (extractStridedSlice S1 ![399999] t slices_S400000_S1_399999) shapeCasts_S1_S_))
    (shapeCast S_ (extractStridedSlice S1 ![0] t slices_S400000_S1_0) shapeCasts_S1_S_)

theorem allReal_den (t : (⟨S400000, .f32⟩ : BufTy).Contents (Elt Ideal)) (ht : AllReal (s := S400000) t) :
    AllReal (s := S_) (den t) := by
  unfold den
  refine AllReal.subf (AllReal.addf ?_ ((ht.slice _ _).shapeCast _)) ((ht.slice _ _).shapeCast _)
  intro i
  show IsReal (Ideal.ofBits .f32 0x3F800000#32)
  rw [ofBits_one]; exact isReal_coe _

/-- With real times and a nonzero denominator the edge feature column is made of reals. -/
theorem allReal_gcol (t : (⟨S400000, .f32⟩ : BufTy).Contents (Elt Ideal)) (ht : AllReal (s := S400000) t)
    (hd : ∀ i, den t i ≠ 0) : AllReal (s := S400000x1) (gcol t) := by
  unfold gcol
  refine AllReal.broadcastInDim ?_ _ _
  refine AllReal.hostDivf (AllReal.subf (AllReal.broadcastInDim ((ht.slice _ _).shapeCast _) _ _) ht)
    (AllReal.broadcastInDim (allReal_den t ht) _ _) ?_
  intro i
  exact hd _

/-- An aggregate of real states and real edge features is made of reals (width 129). -/
theorem allReal_agg129 (u v : (⟨S400000, .i32⟩ : BufTy).Contents (Elt Ideal))
    (gc : (⟨S400000x1, .f32⟩ : BufTy).Contents (Elt Ideal)) (h : (⟨S100000x128, .f32⟩ : BufTy).Contents (Elt Ideal))
    (hg : AllReal (s := S400000x1) gc) (hh : AllReal (s := S100000x128) h) :
    AllReal (s := S100000x129) (agg129 u v gc h) := by
  unfold agg129
  exact AllReal.scatterAdd (AllReal.scatterAdd (allReal_zero _ _ _) (AllReal.concat2 (hh.gather _ _) hg _ _) _ _)
    (AllReal.concat2 (hh.gather _ _) hg _ _) _ _

/-- The same at width 258. -/
theorem allReal_agg258 (u v : (⟨S400000, .i32⟩ : BufTy).Contents (Elt Ideal))
    (gc : (⟨S400000x1, .f32⟩ : BufTy).Contents (Elt Ideal)) (h : (⟨S100000x257, .f32⟩ : BufTy).Contents (Elt Ideal))
    (hg : AllReal (s := S400000x1) gc) (hh : AllReal (s := S100000x257) h) :
    AllReal (s := S100000x258) (agg258 u v gc h) := by
  unfold agg258
  exact AllReal.scatterAdd (AllReal.scatterAdd (allReal_zero _ _ _) (AllReal.concat2 (hh.gather _ _) hg _ _) _ _)
    (AllReal.concat2 (hh.gather _ _) hg _ _) _ _

end Cert.RefRun

end
-- ==== Proof.LayerLaw.lean ====
/-
  One graph layer, the two ways: on an aggregate of real numbers with 100000 rows the kernel's form of the layer
  (statistics from the two column totals; the state and the hidden state contracted separately and added) is the
  reference's form (centred variance; one contraction over the joined row).  And a layer of real inputs has real
  outputs, so the next layer's aggregate is again made of reals.
-/
import proofs.«167109_j5557687681833_1_alg».proof.Proof.Algebra

noncomputable section

namespace Cert.Spec

open Idealize.ShloMosaic

variable {f p o a b d : ℕ}

/-- The mean from the column total is the column mean: the same quotient. -/
theorem meanOfSum_colSum {n : ℕ} (A : Fin n → Fin f → EReal) : meanOfSum (colSum A) = colMean A := rfl

/-- The layer law: for a real aggregate the kernel's layer is the reference's. -/
theorem layerOut_eq_joined (x : Fin 100000 → Fin f → ℝ) (W : Fin f → Fin f → EReal)
    (h : Fin 100000 → Fin p → EReal) (W2 : Fin (p + f) → Fin o → EReal) (r : Fin 100000) (j : Fin o) :
    layerOut (fun r l => (x r l : EReal)) (meanOfSum (colSum fun r l => (x r l : EReal)))
        (varOfSums (colSum fun r l => (x r l : EReal)) (colSumSq fun r l => (x r l : EReal))) W h
        (fun k j => W2 (Fin.castAdd f k) j) (fun k j => W2 (Fin.natAdd p k) j) r j
      = joined (fun r l => (x r l : EReal)) (colMean fun r l => (x r l : EReal))
        (varCentred fun r l => (x r l : EReal)) W h W2 r j := by
  rw [joined_eq_layerOut, meanOfSum_colSum]
  have hv : varOfSums (colSum fun r l => (x r l : EReal)) (colSumSq fun r l => (x r l : EReal))
      = varCentred fun r l => (x r l : EReal) := funext fun l => varOfSums_eq_varCentred x l
  rw [hv]

/-- A matrix of extended reals all of whose entries are reals is the coercion of a real matrix. -/
theorem exists_real_matrix {n m : ℕ} (A : Fin n → Fin m → EReal) (hA : ∀ r l, IsReal (A r l)) :
    ∃ x : Fin n → Fin m → ℝ, A = fun r l => (x r l : EReal) := by
  choose x hx using hA
  exact ⟨x, funext fun r => funext fun l => hx r l⟩

theorem isReal_colMean (x : Fin 100000 → Fin f → ℝ) (l : Fin f) :
    IsReal (colMean (fun r l => (x r l : EReal)) l) := by
  unfold colMean colSum
  exact (isReal_sum _ _ fun r _ => isReal_coe _).div_nodes

/-- A normalised entry of a real aggregate, with the reference's statistics, is a real. -/
theorem isReal_normed (x : Fin 100000 → Fin f → ℝ) (r : Fin 100000) (l : Fin f) :
    IsReal (normed (fun r l => (x r l : EReal)) (colMean fun r l => (x r l : EReal))
      (varCentred fun r l => (x r l : EReal)) r l) := by
  unfold normed
  obtain ⟨v, hv0, hv⟩ := varCentred_nonneg x l
  rw [hv]
  exact ((isReal_coe _).sub (isReal_colMean x l)).mul (isReal_rsqrt_add_eps hv0)

theorem isReal_hidden (x : Fin 100000 → Fin f → ℝ) (W : Fin f → Fin f → EReal) (hW : ∀ l k, IsReal (W l k))
    (r : Fin 100000) (k : Fin f) :
    IsReal (hidden (fun r l => (x r l : EReal)) (colMean fun r l => (x r l : EReal))
      (varCentred fun r l => (x r l : EReal)) W r k) := by
  unfold hidden
  exact (isReal_sum _ _ fun l _ => (isReal_normed x r l).mul (hW l k)).max_zero

/-- The reference's layer of real inputs is real, entry by entry. -/
theorem isReal_joined (x : Fin 100000 → Fin f → ℝ) (W : Fin f → Fin f → EReal) (hW : ∀ l k, IsReal (W l k))
    (h : Fin 100000 → Fin p → EReal) (hh : ∀ r k, IsReal (h r k))
    (W2 : Fin (p + f) → Fin o → EReal) (hW2 : ∀ k j, IsReal (W2 k j)) (r : Fin 100000) (j : Fin o) :
    IsReal (joined (fun r l => (x r l : EReal)) (colMean fun r l => (x r l : EReal))
      (varCentred fun r l => (x r l : EReal)) W h W2 r j) := by
  unfold joined
  refine isReal_sum _ _ fun k _ => IsReal.mul ?_ (hW2 k j)
  refine Fin.addCases (fun i => ?_) (fun i => ?_) k
  · rw [Fin.append_left]; exact hh r i
  · rw [Fin.append_right]; exact isReal_hidden x W hW r i

end Cert.Spec

end
-- ==== Proof.Bridge.lean ====
/-
  The two programs compute the same two arrays.

  Given the reference's stages read entry by entry (each layer as the joined contraction with the centred variance,
  each head as dense, positive part, dense) and the kernel's arrays read entry by entry (each layer as two contractions
  with the variance from the column totals, over the same aggregate), the kernel's arrays are the reference's:
  layer by layer the aggregate is made of reals, so the two variances agree and the split contraction is the joined one;
  the layer's result is again made of reals, which the next aggregate needs.  The heads need nothing: they are the same
  function of the same states.
-/
import proofs.«167109_j5557687681833_1_alg».proof.Proof.ChainReal
import proofs.«167109_j5557687681833_1_alg».proof.Proof.LayerLaw
import Idealize.ShloMosaic.Lib.ValueIdx

noncomputable section

namespace Cert.Bridge

open Cert.ReferenceIdeal Cert.RefRun Cert.Spec Idealize.ShloMosaic Idealize.ShloMosaic.ValueIdx

/-- The layer law for any aggregate all of whose entries are reals. -/
theorem layer_step {p f o : ℕ} (A : Fin 100000 → Fin f → EReal) (hA : ∀ r l, IsReal (A r l))
    (W : Fin f → Fin f → EReal) (h : Fin 100000 → Fin p → EReal) (W2 : Fin (p + f) → Fin o → EReal)
    (r : Fin 100000) (j : Fin o) :
    layerOut A (meanOfSum (colSum A)) (varOfSums (colSum A) (colSumSq A)) W h
        (fun k j => W2 (Fin.castAdd f k) j) (fun k j => W2 (Fin.natAdd p k) j) r j
      = joined A (colMean A) (varCentred A) W h W2 r j := by
  obtain ⟨x, rfl⟩ := exists_real_matrix A hA
  exact layerOut_eq_joined x W h W2 r j

/-- A layer of real inputs has real outputs. -/
theorem joined_real {p f o : ℕ} (A : Fin 100000 → Fin f → EReal) (hA : ∀ r l, IsReal (A r l))
    (W : Fin f → Fin f → EReal) (hW : ∀ l k, IsReal (W l k)) (h : Fin 100000 → Fin p → EReal)
    (hh : ∀ r k, IsReal (h r k)) (W2 : Fin (p + f) → Fin o → EReal) (hW2 : ∀ k j, IsReal (W2 k j))
    (r : Fin 100000) (j : Fin o) : IsReal (joined A (colMean A) (varCentred A) W h W2 r j) := by
  obtain ⟨x, rfl⟩ := exists_real_matrix A hA
  exact isReal_joined x W hW h hh W2 hW2 r j

section

variable
  (read129 : ∀ (agg : (⟨S100000x129, .f32⟩ : BufTy).Contents (Elt Ideal)) (h : (⟨S100000x128, .f32⟩ : BufTy).Contents (Elt Ideal))
      (w1 : (⟨S129x129, .f32⟩ : BufTy).Contents (Elt Ideal)) (w2 : (⟨S257x257, .f32⟩ : BufTy).Contents (Elt Ideal))
      (r : Fin 100000) (j : Fin 257),
      layer129 agg h w1 w2 (ix2 r j)
        = joined (p := 128) (f := 129) (fun r l => agg (ix2 r l)) (colMean fun r l => agg (ix2 r l))
            (varCentred fun r l => agg (ix2 r l)) (fun l k => w1 (ix2 k l)) (fun r k => h (ix2 r k))
            (fun k j => w2 (ix2 j k)) r j)
  (read258 : ∀ (agg : (⟨S100000x258, .f32⟩ : BufTy).Contents (Elt Ideal)) (h : (⟨S100000x257, .f32⟩ : BufTy).Contents (Elt Ideal))
      (w1 : (⟨S258x258, .f32⟩ : BufTy).Contents (Elt Ideal)) (w2 : (⟨S515x515, .f32⟩ : BufTy).Contents (Elt Ideal))
      (r : Fin 100000) (j : Fin 515),
      layer258 agg h w1 w2 (ix2 r j)
        = joined (p := 257) (f := 258) (fun r l => agg (ix2 r l)) (colMean fun r l => agg (ix2 r l))
            (varCentred fun r l => agg (ix2 r l)) (fun l k => w1 (ix2 k l)) (fun r k => h (ix2 r k))
            (fun k j => w2 (ix2 j k)) r j)
  (readLink : ∀ (x : (⟨S4096x1030, .f32⟩ : BufTy).Contents (Elt Ideal)) (link_h : (⟨S128x1030, .f32⟩ : BufTy).Contents (Elt Ideal))
      (link_o : (⟨S1x128, .f32⟩ : BufTy).Contents (Elt Ideal)) (r : Fin 4096),
      linkHead x link_h link_o (ix1 r)
        = head (fun r l => x (ix2 r l)) (fun l k => link_h (ix2 k l)) (fun k j => link_o (ix2 j k)) r (0 : Fin 1))
  (readNode : ∀ (x : (⟨S100000x515, .f32⟩ : BufTy).Contents (Elt Ideal)) (node_h : (⟨S128x515, .f32⟩ : BufTy).Contents (Elt Ideal))
      (node_o : (⟨S10x128, .f32⟩ : BufTy).Contents (Elt Ideal)) (r : Fin 100000) (j : Fin 10),
      nodeHead x node_h node_o (ix2 r j)
        = head (fun r l => x (ix2 r l)) (fun l k => node_h (ix2 k l)) (fun k j => node_o (ix2 j k)) r j)

include read129 in
/-- The first layer: the kernel's states are the reference's, and they are made of reals. -/
theorem states1_eq (u v : (⟨S400000, .i32⟩ : BufTy).Contents (Elt Ideal)) (t : (⟨S400000, .f32⟩ : BufTy).Contents (Elt Ideal))
    (h0 : (⟨S100000x128, .f32⟩ : BufTy).Contents (Elt Ideal)) (w1_0 : (⟨S129x129, .f32⟩ : BufTy).Contents (Elt Ideal))
    (w2_0 : (⟨S257x257, .f32⟩ : BufTy).Contents (Elt Ideal))
    (ht : AllReal (s := S400000) t) (hd : ∀ i, den t i ≠ 0) (hh0 : AllReal (s := S100000x128) h0)
    (hw1 : AllReal (s := S129x129) w1_0) (hw2 : AllReal (s := S257x257) w2_0)
    (h1K : (⟨S100000x257, .f32⟩ : BufTy).Contents (Elt Ideal))
    (e1 : ∀ (r : Fin 100000) (j : Fin 257), h1K (ix2 r j)
      = layerOut (p := 128) (f := 129) (fun r l => agg129 u v (gcol t) h0 (ix2 r l))
          (meanOfSum (colSum fun (r : Fin 100000) (l : Fin 129) => agg129 u v (gcol t) h0 (ix2 r l)))
          (varOfSums (colSum fun (r : Fin 100000) (l : Fin 129) => agg129 u v (gcol t) h0 (ix2 r l))
            (colSumSq fun (r : Fin 100000) (l : Fin 129) => agg129 u v (gcol t) h0 (ix2 r l)))
          (fun l k => w1_0 (ix2 k l)) (fun r k => h0 (ix2 r k))
          (fun k j => w2_0 (ix2 j (Fin.castAdd 129 k))) (fun k j => w2_0 (ix2 j (Fin.natAdd 128 k))) r j) :
    h1K = states1 u v t h0 w1_0 w2_0 ∧ AllReal (s := S100000x257) (states1 u v t h0 w1_0 w2_0) := by
  have hA : ∀ (r : Fin 100000) (l : Fin 129), IsReal (agg129 u v (gcol t) h0 (ix2 r l)) :=
    fun r l => allReal_agg129 u v (gcol t) h0 (allReal_gcol t ht hd) hh0 _
  constructor
  · funext i
    obtain ⟨r, j, rfl⟩ : ∃ (r : Fin 100000) (j : Fin 257), i = ix2 r j := ⟨i 0, i 1, eq_ix2 i⟩
    rw [e1, states1, read129]
    exact layer_step (p := 128) (f := 129) (fun r l => agg129 u v (gcol t) h0 (ix2 r l)) hA
      (fun l k => w1_0 (ix2 k l)) (fun r k => h0 (ix2 r k)) (fun k j => w2_0 (ix2 j k)) r j
  · intro i
    obtain ⟨r, j, rfl⟩ : ∃ (r : Fin 100000) (j : Fin 257), i = ix2 r j := ⟨i 0, i 1, eq_ix2 i⟩
    rw [states1, read129]
    exact joined_real (p := 128) (f := 129) (fun r l => agg129 u v (gcol t) h0 (ix2 r l)) hA
      (fun l k => w1_0 (ix2 k l)) (fun l k => hw1 _) (fun r k => h0 (ix2 r k)) (fun r k => hh0 _)
      (fun k j => w2_0 (ix2 j k)) (fun k j => hw2 _) r j

include read258 in
/-- The second layer: over the first layer's (real) states, the kernel's states are the reference's. -/
theorem states2_eq (u v : (⟨S400000, .i32⟩ : BufTy).Contents (Elt Ideal)) (t : (⟨S400000, .f32⟩ : BufTy).Contents (Elt Ideal))
    (h1 : (⟨S100000x257, .f32⟩ : BufTy).Contents (Elt Ideal)) (w1_1 : (⟨S258x258, .f32⟩ : BufTy).Contents (Elt Ideal))
    (w2_1 : (⟨S515x515, .f32⟩ : BufTy).Contents (Elt Ideal))
    (ht : AllReal (s := S400000) t) (hd : ∀ i, den t i ≠ 0) (hh1 : AllReal (s := S100000x257) h1)
    (h2K : (⟨S100000x515, .f32⟩ : BufTy).Contents (Elt Ideal))
    (e2 : ∀ (r : Fin 100000) (j : Fin 515), h2K (ix2 r j)
      = layerOut (p := 257) (f := 258) (fun r l => agg258 u v (gcol t) h1 (ix2 r l))
          (meanOfSum (colSum fun (r : Fin 100000) (l : Fin 258) => agg258 u v (gcol t) h1 (ix2 r l)))
          (varOfSums (colSum fun (r : Fin 100000) (l : Fin 258) => agg258 u v (gcol t) h1 (ix2 r l))
            (colSumSq fun (r : Fin 100000) (l : Fin 258) => agg258 u v (gcol t) h1 (ix2 r l)))
          (fun l k => w1_1 (ix2 k l)) (fun r k => h1 (ix2 r k))
          (fun k j => w2_1 (ix2 j (Fin.castAdd 258 k))) (fun k j => w2_1 (ix2 j (Fin.natAdd 257 k))) r j) :
    h2K = layer258 (agg258 u v (gcol t) h1) h1 w1_1 w2_1 := by
  have hA : ∀ (r : Fin 100000) (l : Fin 258), IsReal (agg258 u v (gcol t) h1 (ix2 r l)) :=
    fun r l => allReal_agg258 u v (gcol t) h1 (allReal_gcol t ht hd) hh1 _
  funext i
  obtain ⟨r, j, rfl⟩ : ∃ (r : Fin 100000) (j : Fin 515), i = ix2 r j := ⟨i 0, i 1, eq_ix2 i⟩
  rw [e2, read258]
  exact layer_step (p := 257) (f := 258) (fun r l => agg258 u v (gcol t) h1 (ix2 r l)) hA
    (fun l k => w1_1 (ix2 k l)) (fun r k => h1 (ix2 r k)) (fun k j => w2_1 (ix2 j k)) r j

include read129 read258 readLink readNode in
/-- Both results: the kernel's link scores and node scores are the reference's. -/
theorem results_eq (u v : (⟨S400000, .i32⟩ : BufTy).Contents (Elt Ideal)) (t : (⟨S400000, .f32⟩ : BufTy).Contents (Elt Ideal))
    (qu qv : (⟨S4096, .i32⟩ : BufTy).Contents (Elt Ideal))
    (h0 : (⟨S100000x128, .f32⟩ : BufTy).Contents (Elt Ideal)) (w1_0 : (⟨S129x129, .f32⟩ : BufTy).Contents (Elt Ideal))
    (w2_0 : (⟨S257x257, .f32⟩ : BufTy).Contents (Elt Ideal)) (w1_1 : (⟨S258x258, .f32⟩ : BufTy).Contents (Elt Ideal))
    (w2_1 : (⟨S515x515, .f32⟩ : BufTy).Contents (Elt Ideal)) (link_h : (⟨S128x1030, .f32⟩ : BufTy).Contents (Elt Ideal))
    (link_o : (⟨S1x128, .f32⟩ : BufTy).Contents (Elt Ideal)) (node_h : (⟨S128x515, .f32⟩ : BufTy).Contents (Elt Ideal))
    (node_o : (⟨S10x128, .f32⟩ : BufTy).Contents (Elt Ideal))
    (ht : AllReal (s := S400000) t) (hd : ∀ i, den t i ≠ 0) (hh0 : AllReal (s := S100000x128) h0)
    (hw1 : AllReal (s := S129x129) w1_0) (hw2 : AllReal (s := S257x257) w2_0)
    (h1K : (⟨S100000x257, .f32⟩ : BufTy).Contents (Elt Ideal)) (h2K : (⟨S100000x515, .f32⟩ : BufTy).Contents (Elt Ideal))
    (nodeK : (⟨S100000x10, .f32⟩ : BufTy).Contents (Elt Ideal)) (linkK : (⟨S4096, .f32⟩ : BufTy).Contents (Elt Ideal))
    (e1 : ∀ (r : Fin 100000) (j : Fin 257), h1K (ix2 r j)
      = layerOut (p := 128) (f := 129) (fun r l => agg129 u v (gcol t) h0 (ix2 r l))
          (meanOfSum (colSum fun (r : Fin 100000) (l : Fin 129) => agg129 u v (gcol t) h0 (ix2 r l)))
          (varOfSums (colSum fun (r : Fin 100000) (l : Fin 129) => agg129 u v (gcol t) h0 (ix2 r l))
            (colSumSq fun (r : Fin 100000) (l : Fin 129) => agg129 u v (gcol t) h0 (ix2 r l)))
          (fun l k => w1_0 (ix2 k l)) (fun r k => h0 (ix2 r k))
          (fun k j => w2_0 (ix2 j (Fin.castAdd 129 k))) (fun k j => w2_0 (ix2 j (Fin.natAdd 128 k))) r j)
    (e2 : ∀ (r : Fin 100000) (j : Fin 515), h2K (ix2 r j)
      = layerOut (p := 257) (f := 258) (fun r l => agg258 u v (gcol t) h1K (ix2 r l))
          (meanOfSum (colSum fun (r : Fin 100000) (l : Fin 258) => agg258 u v (gcol t) h1K (ix2 r l)))
          (varOfSums (colSum fun (r : Fin 100000) (l : Fin 258) => agg258 u v (gcol t) h1K (ix2 r l))
            (colSumSq fun (r : Fin 100000) (l : Fin 258) => agg258 u v (gcol t) h1K (ix2 r l)))
          (fun l k => w1_1 (ix2 k l)) (fun r k => h1K (ix2 r k))
          (fun k j => w2_1 (ix2 j (Fin.castAdd 258 k))) (fun k j => w2_1 (ix2 j (Fin.natAdd 257 k))) r j)
    (e3 : ∀ (r : Fin 100000) (j : Fin 10), nodeK (ix2 r j)
      = head (fun r l => h2K (ix2 r l)) (fun l k => node_h (ix2 k l)) (fun k j => node_o (ix2 j k)) r j)
    (e4 : ∀ (r : Fin 4096), linkK (ix1 r)
      = head (fun r l => hq h2K qu qv (ix2 r l)) (fun l k => link_h (ix2 k l)) (fun k j => link_o (ix2 j k)) r (0 : Fin 1)) :
    linkK = link u v t qu qv h0 w1_0 w2_0 w1_1 w2_1 link_h link_o node_h node_o
      ∧ nodeK = node u v t qu qv h0 w1_0 w2_0 w1_1 w2_1 link_h link_o node_h node_o := by
  obtain ⟨s1, hr1⟩ := states1_eq read129 u v t h0 w1_0 w2_0 ht hd hh0 hw1 hw2 h1K e1
  subst s1
  have s2 : h2K = states2 u v t h0 w1_0 w2_0 w1_1 w2_1 :=
    states2_eq read258 u v t (states1 u v t h0 w1_0 w2_0) w1_1 w2_1 ht hd hr1 h2K e2
  subst s2
  constructor
  · funext i
    obtain ⟨r, rfl⟩ : ∃ r : Fin 4096, i = ix1 r := ⟨i 0, eq_ix1 i⟩
    rw [e4, link, readLink]
  · funext i
    obtain ⟨r, j, rfl⟩ : ∃ (r : Fin 100000) (j : Fin 10), i = ix2 r j := ⟨i 0, i 1, eq_ix2 i⟩
    rw [e3, node, readNode]

end

end Cert.Bridge

end
-- ==== Proof.PreUse.lean ====
/-
  The precondition at the kernel's launch memory: the float arguments hold reals and the edge weights' denominator,
  in the programs' own spelling, is nowhere zero.
-/
import proofs.«167109_j5557687681833_1_alg».proof.Defs
import proofs.«167109_j5557687681833_1_alg».proof.Proof.Gen.Pre_finite_inputs
import proofs.«167109_j5557687681833_1_alg».proof.Proof.ChainReal

noncomputable section

namespace Cert.PreUse

open Cert.Spec Idealize.ShloMosaic Idealize.SL.Sem

/-- The denominator as the precondition spells it is the denominator as the programs spell it. -/
theorem den_ne (t : FVec Ideal Cert.Pre_finite_inputs.S400000 .f32)
    (h : @Cert.PreFacts.den Cert.Pre_finite_inputs.Gen.facts t ValueIdx.ix0 ≠ 0) : ∀ i, Cert.RefRun.den t i ≠ 0 := by
  intro i
  have hi : i = ValueIdx.ix0 := Subsingleton.elim _ _
  subst hi
  exact h

/-- What the precondition gives at the kernel's launch memory, on every device. -/
theorem of_pre (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    AllReal (s := Cert.ReferenceIdeal.S400000) (m ((c.tc : Thread Cert.KernelIdeal.nD Cert.KernelIdeal.τ).loc Cert.KernelIdeal.main_arg2))
    ∧ AllReal (s := Cert.ReferenceIdeal.S100000x128) (m ((c.tc : Thread Cert.KernelIdeal.nD Cert.KernelIdeal.τ).loc Cert.KernelIdeal.main_arg5))
    ∧ AllReal (s := Cert.ReferenceIdeal.S129x129) (m ((c.tc : Thread Cert.KernelIdeal.nD Cert.KernelIdeal.τ).loc Cert.KernelIdeal.main_arg6))
    ∧ AllReal (s := Cert.ReferenceIdeal.S257x257) (m ((c.tc : Thread Cert.KernelIdeal.nD Cert.KernelIdeal.τ).loc Cert.KernelIdeal.main_arg7))
    ∧ (∀ i, Cert.RefRun.den (m ((c.tc : Thread Cert.KernelIdeal.nD Cert.KernelIdeal.τ).loc Cert.KernelIdeal.main_arg2)) i ≠ 0) := by
  obtain ⟨h2, h5, h6, h7, -, -, -, -, -, -, hd⟩ :=
    @Cert.PreFacts.facts_of_pre Cert.Pre_finite_inputs.Gen.facts _ _ _ _ _ _ _ _ _ _ _ _ _ _ (hpre c)
  exact ⟨h2, h5, h6, h7, den_ne _ hd⟩

end Cert.PreUse

end
-- ==== Proof.KerHostChains.lean ====
/-
  The host chains the kernel program shares with the reference, each as one function of its inputs.

  `gcolK` is the edge-time column: (last time - time) / (1 + last time - first time), as a column.
  `agg129K` and `agg258K` are the neighbourhood aggregates: for every edge the other endpoint's state with the
  time column appended, added into the endpoint's row (both directions), with a negative node index wrapped once.
  `hqK` is the query features: the states of the two query nodes side by side.
  Each is the composition of the program's own host operations, in the program's order.
-/
import proofs.«167109_j5557687681833_1_alg».proof.Proof.Gen.KernelIdeal.Frame
import Idealize.ShloMosaic.PureOps.Ideal
import Idealize.ShloMosaic.Lib.ValueIdx
import Idealize.ShloMosaic.Lib.ValueLayout
import Idealize.ShloMosaic.Lib.Pipeline.Value

set_option maxRecDepth 16384

noncomputable section

namespace Cert.KerRun

open Idealize.ShloMosaic Idealize.ShloMosaic.TcCoe Idealize.ShloMosaic.Tactic
open Idealize.SL.Sem
open Idealize.ShloMosaic.ValueIdx
open Idealize.ShloMosaic.StableHlo (after_cons after_nil nullary_result unary_result binary_result ternary_result quaternary_result
  reshape_result binaryIndexed_result nary4_result nary_result unaryIndexed_result nullary_result_ne unary_result_ne binary_result_ne
  ternary_result_ne quaternary_result_ne reshape_result_ne binaryIndexed_result_ne nary_result_ne unaryIndexed_result_ne)
open Cert.KernelIdeal Cert.KernelIdeal.Gen

variable (m : (ℓ : Loc nD τ sig) → Buf (Elt Ideal) ℓ) (ρ : Dev nD → PrngReg) (c : Dev nD)

/-- The edge-time column from the edge times. -/
def gcolK (t : (⟨S400000, .f32⟩ : BufTy).Contents (Elt Ideal)) : (⟨S400000x1, .f32⟩ : BufTy).Contents (Elt Ideal) :=
  (broadcastInDim S400000x1 ![0] bcast_S400000_S400000x1_0 (Host.divf (F := Ideal) (subf (F := Ideal) (broadcastInDim S400000 ![] bcast_S_S400000 (fun i => shapeCast S_ (extractStridedSlice S1 ![399999] t slices_S400000_S1_399999) shapeCasts_S1_S_ i)) t) (broadcastInDim S400000 ![] bcast_S_S400000 (subf (F := Ideal) (addf (F := Ideal) (constant (F := Ideal) S_ .f32 0x3F800000#32) (fun i => shapeCast S_ (extractStridedSlice S1 ![399999] t slices_S400000_S1_399999) shapeCasts_S1_S_ i)) (fun i => shapeCast S_ (extractStridedSlice S1 ![0] t slices_S400000_S1_0) shapeCasts_S1_S_ i)))))

/-- The first layer's aggregate from the endpoints `u`, `v`, the time column and the node states. -/
def agg129K (u v : (⟨S400000, .i32⟩ : BufTy).Contents (Elt Ideal)) (gc : (⟨S400000x1, .f32⟩ : BufTy).Contents (Elt Ideal)) (h : (⟨S100000x128, .f32⟩ : BufTy).Contents (Elt Ideal)) :
    (⟨S100000x129, .f32⟩ : BufTy).Contents (Elt Ideal) :=
  (Host.scatterAdd (F := Ideal) scatter_S100000x129_S400000x1_S400000x129_1_0_0_1 (Host.scatterAdd (F := Ideal) scatter_S100000x129_S400000x1_S400000x129_1_0_0_1 (broadcastInDim S100000x129 ![] bcast_S_S100000x129 (constant (F := Ideal) S_ .f32 0x00000000#32)) (broadcastInDim S400000x1 ![0] bcast_S400000_S400000x1_0 (select (cmpi .slt v (broadcastInDim S400000 ![] bcast_S_S400000 (constantI S_ 32 0#32))) (addi v (broadcastInDim S400000 ![] bcast_S_S400000 (constantI S_ 32 100000#32))) v)) (concatenate S400000x129 1 [⟨S400000x128, (Host.gather gather_S100000x128_S400000x1_S400000x128_1_0_n_n_0_1_1128 h (broadcastInDim S400000x1 ![0] bcast_S400000_S400000x1_0 (select (cmpi .slt u (broadcastInDim S400000 ![] bcast_S_S400000 (constantI S_ 32 0#32))) (addi u (broadcastInDim S400000 ![] bcast_S_S400000 (constantI S_ 32 100000#32))) u)))⟩, ⟨S400000x1, gc⟩] concatenates_S400000x128_S400000x1_S400000x129_d1)) (broadcastInDim S400000x1 ![0] bcast_S400000_S400000x1_0 (select (cmpi .slt u (broadcastInDim S400000 ![] bcast_S_S400000 (constantI S_ 32 0#32))) (addi u (broadcastInDim S400000 ![] bcast_S_S400000 (constantI S_ 32 100000#32))) u)) (concatenate S400000x129 1 [⟨S400000x128, (Host.gather gather_S100000x128_S400000x1_S400000x128_1_0_n_n_0_1_1128 h (broadcastInDim S400000x1 ![0] bcast_S400000_S400000x1_0 (select (cmpi .slt v (broadcastInDim S400000 ![] bcast_S_S400000 (constantI S_ 32 0#32))) (addi v (broadcastInDim S400000 ![] bcast_S_S400000 (constantI S_ 32 100000#32))) v)))⟩, ⟨S400000x1, gc⟩] concatenates_S400000x128_S400000x1_S400000x129_d1))

/-- The second layer's aggregate from the endpoints `u`, `v`, the time column and the first layer's states. -/
def agg258K (u v : (⟨S400000, .i32⟩ : BufTy).Contents (Elt Ideal)) (gc : (⟨S400000x1, .f32⟩ : BufTy).Contents (Elt Ideal)) (h : (⟨S100000x257, .f32⟩ : BufTy).Contents (Elt Ideal)) :
    (⟨S100000x258, .f32⟩ : BufTy).Contents (Elt Ideal) :=
  (Host.scatterAdd (F := Ideal) scatter_S100000x258_S400000x1_S400000x258_1_0_0_1 (Host.scatterAdd (F := Ideal) scatter_S100000x258_S400000x1_S400000x258_1_0_0_1 (broadcastInDim S100000x258 ![] bcast_S_S100000x258 (constant (F := Ideal) S_ .f32 0x00000000#32)) (broadcastInDim S400000x1 ![0] bcast_S400000_S400000x1_0 (select (cmpi .slt v (broadcastInDim S400000 ![] bcast_S_S400000 (constantI S_ 32 0#32))) (addi v (broadcastInDim S400000 ![] bcast_S_S400000 (constantI S_ 32 100000#32))) v)) (concatenate S400000x258 1 [⟨S400000x257, (Host.gather gather_S100000x257_S400000x1_S400000x257_1_0_n_n_0_1_1257 h (broadcastInDim S400000x1 ![0] bcast_S400000_S400000x1_0 (select (cmpi .slt u (broadcastInDim S400000 ![] bcast_S_S400000 (constantI S_ 32 0#32))) (addi u (broadcastInDim S400000 ![] bcast_S_S400000 (constantI S_ 32 100000#32))) u)))⟩, ⟨S400000x1, gc⟩] concatenates_S400000x257_S400000x1_S400000x258_d1)) (broadcastInDim S400000x1 ![0] bcast_S400000_S400000x1_0 (select (cmpi .slt u (broadcastInDim S400000 ![] bcast_S_S400000 (constantI S_ 32 0#32))) (addi u (broadcastInDim S400000 ![] bcast_S_S400000 (constantI S_ 32 100000#32))) u)) (concatenate S400000x258 1 [⟨S400000x257, (Host.gather gather_S100000x257_S400000x1_S400000x257_1_0_n_n_0_1_1257 h (broadcastInDim S400000x1 ![0] bcast_S400000_S400000x1_0 (select (cmpi .slt v (broadcastInDim S400000 ![] bcast_S_S400000 (constantI S_ 32 0#32))) (addi v (broadcastInDim S400000 ![] bcast_S_S400000 (constantI S_ 32 100000#32))) v)))⟩, ⟨S400000x1, gc⟩] concatenates_S400000x257_S400000x1_S400000x258_d1))

/-- The query features from the final states and the two query node lists. -/
def hqK (h : (⟨S100000x515, .f32⟩ : BufTy).Contents (Elt Ideal)) (qu qv : (⟨S4096, .i32⟩ : BufTy).Contents (Elt Ideal)) : (⟨S4096x1030, .f32⟩ : BufTy).Contents (Elt Ideal) :=
  (concatenate S4096x1030 1 [⟨S4096x515, (Host.gather gather_S100000x515_S4096x1_S4096x515_1_0_n_n_0_1_1515 h (broadcastInDim S4096x1 ![0] bcast_S4096_S4096x1_0 (select (cmpi .slt qu (broadcastInDim S4096 ![] bcast_S_S4096 (constantI S_ 32 0#32))) (addi qu (broadcastInDim S4096 ![] bcast_S_S4096 (constantI S_ 32 100000#32))) qu)))⟩, ⟨S4096x515, (Host.gather gather_S100000x515_S4096x1_S4096x515_1_0_n_n_0_1_1515 h (broadcastInDim S4096x1 ![0] bcast_S4096_S4096x1_0 (select (cmpi .slt qv (broadcastInDim S4096 ![] bcast_S_S4096 (constantI S_ 32 0#32))) (addi qv (broadcastInDim S4096 ![] bcast_S_S4096 (constantI S_ 32 100000#32))) qv)))⟩] concatenates_S4096x515_S4096x515_S4096x1030_d1)

end Cert.KerRun

end
-- ==== Proof.KerHost0.lean ====
/-
  The first region's entry contents: the first stretch of host operations read off the launch memory.

  The stretch computes the edge-time column and the first layer's aggregate; both are the shared chains applied to
  the launch contents of the arguments.
-/
import proofs.«167109_j5557687681833_1_alg».proof.Proof.Gen.KernelIdeal.Frame
import Idealize.ShloMosaic.PureOps.Ideal
import Idealize.ShloMosaic.Lib.ValueIdx
import Idealize.ShloMosaic.Lib.ValueLayout
import Idealize.ShloMosaic.Lib.Pipeline.Value
import proofs.«167109_j5557687681833_1_alg».proof.Proof.KerHostChains

set_option maxRecDepth 16384

noncomputable section

namespace Cert.KerRun

open Idealize.ShloMosaic Idealize.ShloMosaic.TcCoe Idealize.ShloMosaic.Tactic
open Idealize.SL.Sem
open Idealize.ShloMosaic.ValueIdx
open Idealize.ShloMosaic.StableHlo (after_cons after_nil nullary_result unary_result binary_result ternary_result quaternary_result
  reshape_result binaryIndexed_result nary4_result nary_result unaryIndexed_result nullary_result_ne unary_result_ne binary_result_ne
  ternary_result_ne quaternary_result_ne reshape_result_ne binaryIndexed_result_ne nary_result_ne unaryIndexed_result_ne)
open Cert.KernelIdeal Cert.KernelIdeal.Gen

variable (m : (ℓ : Loc nD τ sig) → Buf (Elt Ideal) ℓ) (ρ : Dev nD → PrngReg) (c : Dev nD)

/-- After the first stretch the time-column buffer holds the edge-time column of the edge times. -/
theorem W1_v12 : W1 m ρ c (Proc.devRef .tc main_v12) = gcolK (m ((c.tc : Thread nD τ).loc main_arg2)) := by
  show StableHlo.after hostOps0 (W0 m ρ c) (Proc.devRef .tc main_v12) = _
  after_results_simp
  rfl

/-- The first region's input is the first layer's aggregate of the arguments. -/
theorem V1_win0 : V1 m ρ c (Pipeline.arrRef spec0 0)
    = agg129K (m ((c.tc : Thread nD τ).loc main_arg0)) (m ((c.tc : Thread nD τ).loc main_arg1)) (gcolK (m ((c.tc : Thread nD τ).loc main_arg2))) (m ((c.tc : Thread nD τ).loc main_arg5)) := by
  show StableHlo.after hostOps0 (W0 m ρ c) (Proc.devRef .tc main_v43) = _
  after_results_simp
  rfl

end Cert.KerRun

end
-- ==== Proof.KerHostKeep.lean ====
/-
  Buffers that ride through the program untouched.

  A stretch of host operations leaves every buffer it does not write as it was, and a grid region leaves every
  buffer that is not one of its arrays as it was (an input array too: nothing is written back to it).  So an
  argument read at a later boundary is the launch memory's, the edge-time column computed by the first stretch is
  still there when the third stretch reads it, and a region's input array comes out as it went in.
-/
import proofs.«167109_j5557687681833_1_alg».proof.Proof.Gen.KernelIdeal.Frame
import Idealize.ShloMosaic.PureOps.Ideal
import Idealize.ShloMosaic.Lib.ValueIdx
import Idealize.ShloMosaic.Lib.ValueLayout
import Idealize.ShloMosaic.Lib.Pipeline.Value

set_option maxRecDepth 16384

noncomputable section

namespace Cert.KerRun

open Idealize.ShloMosaic Idealize.ShloMosaic.TcCoe Idealize.ShloMosaic.Tactic
open Idealize.SL.Sem
open Idealize.ShloMosaic.ValueIdx
open Idealize.ShloMosaic.StableHlo (after_cons after_nil nullary_result unary_result binary_result ternary_result quaternary_result
  reshape_result binaryIndexed_result nary4_result nary_result unaryIndexed_result nullary_result_ne unary_result_ne binary_result_ne
  ternary_result_ne quaternary_result_ne reshape_result_ne binaryIndexed_result_ne nary_result_ne unaryIndexed_result_ne)
open Cert.KernelIdeal Cert.KernelIdeal.Gen

variable (m : (ℓ : Loc nD τ sig) → Buf (Elt Ideal) ℓ) (ρ : Dev nD → PrngReg) (c : Dev nD)

/-- A stretch of host operations leaves a buffer none of them writes as it was. -/
macro "host_keeps" ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-- Nothing before boundary 8 writes argument 3. -/
theorem keep8_arg3 : W8 m ρ c (Proc.devRef .tc main_arg3) = m ((c.tc : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := by host_keeps hostOps3
    _ = W5 m ρ c (Proc.devRef .tc main_arg3) := W6_of_ne m ρ c main_arg3 (by decide)
    _ = W4 m ρ c (Proc.devRef .tc main_arg3) := by host_keeps hostOps2
    _ = W3 m ρ c (Proc.devRef .tc main_arg3) := W4_of_ne m ρ c main_arg3 (by decide)
    _ = W2 m ρ c (Proc.devRef .tc main_arg3) := by host_keeps hostOps1
    _ = W1 m ρ c (Proc.devRef .tc main_arg3) := W2_of_ne m ρ c main_arg3 (by decide)
    _ = W0 m ρ c (Proc.devRef .tc main_arg3) := by host_keeps hostOps0
    _ = m ((c.tc : Thread nD τ).loc main_arg3) := rfl

/-- Nothing before boundary 8 writes argument 4. -/
theorem keep8_arg4 : W8 m ρ c (Proc.devRef .tc main_arg4) = m ((c.tc : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := by host_keeps hostOps3
    _ = W5 m ρ c (Proc.devRef .tc main_arg4) := W6_of_ne m ρ c main_arg4 (by decide)
    _ = W4 m ρ c (Proc.devRef .tc main_arg4) := by host_keeps hostOps2
    _ = W3 m ρ c (Proc.devRef .tc main_arg4) := W4_of_ne m ρ c main_arg4 (by decide)
    _ = W2 m ρ c (Proc.devRef .tc main_arg4) := by host_keeps hostOps1
    _ = W1 m ρ c (Proc.devRef .tc main_arg4) := W2_of_ne m ρ c main_arg4 (by decide)
    _ = W0 m ρ c (Proc.devRef .tc main_arg4) := by host_keeps hostOps0
    _ = m ((c.tc : Thread nD τ).loc main_arg4) := rfl

/-- Nothing before boundary 8 writes argument 10. -/
theorem keep8_arg10 : W8 m ρ c (Proc.devRef .tc main_arg10) = m ((c.tc : Thread nD τ).loc main_arg10) :=
  calc W8 m ρ c (Proc.devRef .tc main_arg10)
    _ = W7 m ρ c (Proc.devRef .tc main_arg10) := W8_of_ne m ρ c main_arg10 (by decide)
    _ = W6 m ρ c (Proc.devRef .tc main_arg10) := by host_keeps hostOps3
    _ = W5 m ρ c (Proc.devRef .tc main_arg10) := W6_of_ne m ρ c main_arg10 (by decide)
    _ = W4 m ρ c (Proc.devRef .tc main_arg10) := by host_keeps hostOps2
    _ = W3 m ρ c (Proc.devRef .tc main_arg10) := W4_of_ne m ρ c main_arg10 (by decide)
    _ = W2 m ρ c (Proc.devRef .tc main_arg10) := by host_keeps hostOps1
    _ = W1 m ρ c (Proc.devRef .tc main_arg10) := W2_of_ne m ρ c main_arg10 (by decide)
    _ = W0 m ρ c (Proc.devRef .tc main_arg10) := by host_keeps hostOps0
    _ = m ((c.tc : Thread nD τ).loc main_arg10) := rfl

/-- Nothing before boundary 8 writes argument 11. -/
theorem keep8_arg11 : W8 m ρ c (Proc.devRef .tc main_arg11) = m ((c.tc : Thread nD τ).loc main_arg11) :=
  calc W8 m ρ c (Proc.devRef .tc main_arg11)
    _ = W7 m ρ c (Proc.devRef .tc main_arg11) := W8_of_ne m ρ c main_arg11 (by decide)
    _ = W6 m ρ c (Proc.devRef .tc main_arg11) := by host_keeps hostOps3
    _ = W5 m ρ c (Proc.devRef .tc main_arg11) := W6_of_ne m ρ c main_arg11 (by decide)
    _ = W4 m ρ c (Proc.devRef .tc main_arg11) := by host_keeps hostOps2
    _ = W3 m ρ c (Proc.devRef .tc main_arg11) := W4_of_ne m ρ c main_arg11 (by decide)
    _ = W2 m ρ c (Proc.devRef .tc main_arg11) := by host_keeps hostOps1
    _ = W1 m ρ c (Proc.devRef .tc main_arg11) := W2_of_ne m ρ c main_arg11 (by decide)
    _ = W0 m ρ c (Proc.devRef .tc main_arg11) := by host_keeps hostOps0
    _ = m ((c.tc : Thread nD τ).loc main_arg11) := rfl

/-- Nothing before boundary 6 writes argument 8. -/
theorem keep6_arg8 : W6 m ρ c (Proc.devRef .tc main_arg8) = m ((c.tc : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := by host_keeps hostOps2
    _ = W3 m ρ c (Proc.devRef .tc main_arg8) := W4_of_ne m ρ c main_arg8 (by decide)
    _ = W2 m ρ c (Proc.devRef .tc main_arg8) := by host_keeps hostOps1
    _ = W1 m ρ c (Proc.devRef .tc main_arg8) := W2_of_ne m ρ c main_arg8 (by decide)
    _ = W0 m ρ c (Proc.devRef .tc main_arg8) := by host_keeps hostOps0
    _ = m ((c.tc : Thread nD τ).loc main_arg8) := rfl

/-- Nothing before boundary 6 writes argument 9. -/
theorem keep6_arg9 : W6 m ρ c (Proc.devRef .tc main_arg9) = m ((c.tc : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := by host_keeps hostOps2
    _ = W3 m ρ c (Proc.devRef .tc main_arg9) := W4_of_ne m ρ c main_arg9 (by decide)
    _ = W2 m ρ c (Proc.devRef .tc main_arg9) := by host_keeps hostOps1
    _ = W1 m ρ c (Proc.devRef .tc main_arg9) := W2_of_ne m ρ c main_arg9 (by decide)
    _ = W0 m ρ c (Proc.devRef .tc main_arg9) := by host_keeps hostOps0
    _ = m ((c.tc : Thread nD τ).loc main_arg9) := rfl

/-- Nothing before boundary 4 writes argument 0. -/
theorem keep4_arg0 : W4 m ρ c (Proc.devRef .tc main_arg0) = m ((c.tc : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := by host_keeps hostOps1
    _ = W1 m ρ c (Proc.devRef .tc main_arg0) := W2_of_ne m ρ c main_arg0 (by decide)
    _ = W0 m ρ c (Proc.devRef .tc main_arg0) := by host_keeps hostOps0
    _ = m ((c.tc : Thread nD τ).loc main_arg0) := rfl

/-- Nothing before boundary 4 writes argument 1. -/
theorem keep4_arg1 : W4 m ρ c (Proc.devRef .tc main_arg1) = m ((c.tc : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := by host_keeps hostOps1
    _ = W1 m ρ c (Proc.devRef .tc main_arg1) := W2_of_ne m ρ c main_arg1 (by decide)
    _ = W0 m ρ c (Proc.devRef .tc main_arg1) := by host_keeps hostOps0
    _ = m ((c.tc : Thread nD τ).loc main_arg1) := rfl

/-- Nothing before boundary 4 writes argument 12. -/
theorem keep4_arg12 : W4 m ρ c (Proc.devRef .tc main_arg12) = m ((c.tc : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := by host_keeps hostOps1
    _ = W1 m ρ c (Proc.devRef .tc main_arg12) := W2_of_ne m ρ c main_arg12 (by decide)
    _ = W0 m ρ c (Proc.devRef .tc main_arg12) := by host_keeps hostOps0
    _ = m ((c.tc : Thread nD τ).loc main_arg12) := rfl

/-- Nothing before boundary 4 writes argument 13. -/
theorem keep4_arg13 : W4 m ρ c (Proc.devRef .tc main_arg13) = m ((c.tc : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := by host_keeps hostOps1
    _ = W1 m ρ c (Proc.devRef .tc main_arg13) := W2_of_ne m ρ c main_arg13 (by decide)
    _ = W0 m ρ c (Proc.devRef .tc main_arg13) := by host_keeps hostOps0
    _ = m ((c.tc : Thread nD τ).loc main_arg13) := rfl

/-- Nothing before boundary 2 writes argument 5. -/
theorem keep2_arg5 : W2 m ρ c (Proc.devRef .tc main_arg5) = m ((c.tc : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := by host_keeps hostOps0
    _ = m ((c.tc : Thread nD τ).loc main_arg5) := rfl

/-- Nothing before boundary 2 writes argument 6. -/
theorem keep2_arg6 : W2 m ρ c (Proc.devRef .tc main_arg6) = m ((c.tc : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := by host_keeps hostOps0
    _ = m ((c.tc : Thread nD τ).loc main_arg6) := rfl

/-- Nothing before boundary 2 writes argument 7. -/
theorem keep2_arg7 : W2 m ρ c (Proc.devRef .tc main_arg7) = m ((c.tc : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := by host_keeps hostOps0
    _ = m ((c.tc : Thread nD τ).loc main_arg7) := rfl

/-- The edge-time column of the first stretch is still in its buffer when the third stretch reads it. -/
theorem keep4_v12 : W4 m ρ c (Proc.devRef .tc main_v12) = W1 m ρ c (Proc.devRef .tc main_v12) :=
  calc W4 m ρ c (Proc.devRef .tc main_v12)
    _ = W3 m ρ c (Proc.devRef .tc main_v12) := W4_of_ne m ρ c main_v12 (by decide)
    _ = W2 m ρ c (Proc.devRef .tc main_v12) := by host_keeps hostOps1
    _ = W1 m ρ c (Proc.devRef .tc main_v12) := W2_of_ne m ρ c main_v12 (by decide)

/-- The first region leaves its input, the first layer's aggregate, as it found it. -/
theorem keep2_v43 : W2 m ρ c (Proc.devRef .tc main_v43) = V1 m ρ c (Pipeline.arrRef spec0 0) :=
  (W2_arr m ρ c 0).trans (((dat0 (V1 m ρ) c).arrAt_in 0 rfl _).trans (A_eq0 (V1 m ρ) c 0))

/-- The third region leaves its input, the second layer's aggregate, as it found it. -/
theorem keep6_v89 : W6 m ρ c (Proc.devRef .tc main_v89) = V5 m ρ c (Pipeline.arrRef spec2 0) :=
  (W6_arr m ρ c 0).trans (((dat2 (V5 m ρ) c).arrAt_in 0 rfl _).trans (A_eq2 (V5 m ρ) c 0))

end Cert.KerRun

end
-- ==== Proof.KerHost1.lean ====
/-
  The second region's entry contents: the second stretch of host operations read off the first region's exit.

  The stretch divides the first region's two total rows by the node count (mean, and mean of squares minus the
  squared mean), and lays the first layer's two dense maps out with inputs as rows: the first transposed, the
  second cut at the seam between previous state and hidden state and each part transposed.  The aggregate and the
  node states pass through.
-/
import proofs.«167109_j5557687681833_1_alg».proof.Proof.Gen.KernelIdeal.Frame
import Idealize.ShloMosaic.PureOps.Ideal
import Idealize.ShloMosaic.Lib.ValueIdx
import Idealize.ShloMosaic.Lib.ValueLayout
import Idealize.ShloMosaic.Lib.Pipeline.Value
import proofs.«167109_j5557687681833_1_alg».proof.Proof.Spec
import proofs.«167109_j5557687681833_1_alg».proof.Proof.KerHostKeep
import proofs.«167109_j5557687681833_1_alg».proof.Proof.KerHostChains
import proofs.«167109_j5557687681833_1_alg».proof.Proof.KerHost0

set_option maxRecDepth 16384

noncomputable section

namespace Cert.KerRun

open Idealize.ShloMosaic Idealize.ShloMosaic.TcCoe Idealize.ShloMosaic.Tactic
open Idealize.SL.Sem
open Idealize.ShloMosaic.ValueIdx
open Idealize.ShloMosaic.StableHlo (after_cons after_nil nullary_result unary_result binary_result ternary_result quaternary_result
  reshape_result binaryIndexed_result nary4_result nary_result unaryIndexed_result nullary_result_ne unary_result_ne binary_result_ne
  ternary_result_ne quaternary_result_ne reshape_result_ne binaryIndexed_result_ne nary_result_ne unaryIndexed_result_ne)
open Cert.KernelIdeal Cert.KernelIdeal.Gen

variable (m : (ℓ : Loc nD τ sig) → Buf (Elt Ideal) ℓ) (ρ : Dev nD → PrngReg) (c : Dev nD)

/-- The aggregate passes through the first region and the second stretch. -/
theorem V3_win0 : V3 m ρ c (Pipeline.arrRef spec1 0)
    = agg129K (m ((c.tc : Thread nD τ).loc main_arg0)) (m ((c.tc : Thread nD τ).loc main_arg1)) (gcolK (m ((c.tc : Thread nD τ).loc main_arg2))) (m ((c.tc : Thread nD τ).loc main_arg5)) :=
  calc V3 m ρ c (Pipeline.arrRef spec1 0)
    _ = W2 m ρ c (Proc.devRef .tc main_v43) := by
          show StableHlo.after hostOps1 (W2 m ρ c) (Proc.devRef .tc main_v43) = _
          host_keeps hostOps1
    _ = V1 m ρ c (Pipeline.arrRef spec0 0) := keep2_v43 m ρ c
    _ = _ := V1_win0 m ρ c

/-- The node states are the argument's. -/
theorem V3_win1 : V3 m ρ c (Pipeline.arrRef spec1 1) = m ((c.tc : Thread nD τ).loc main_arg5) :=
  calc V3 m ρ c (Pipeline.arrRef spec1 1)
    _ = W2 m ρ c (Proc.devRef .tc main_arg5) := by
          show StableHlo.after hostOps1 (W2 m ρ c) (Proc.devRef .tc main_arg5) = _
          host_keeps hostOps1
    _ = _ := keep2_arg5 m ρ c

/-- The mean row: the region's column totals over the node count. -/
theorem V3_win2 (l : Fin 129) : V3 m ρ c (Pipeline.arrRef spec1 2) (ix2 0 l)
    = Cert.Spec.meanOfSum (fun l : Fin 129 => (dat0 (V1 m ρ) c).arrAt 1 cfg0.N (ix2 0 l)) l := by
  have e : V3 m ρ c (Pipeline.arrRef spec1 2)
      = Host.divf (F := Ideal) ((dat0 (V1 m ρ) c).arrAt 1 cfg0.N)
          (broadcastInDim S1x129 ![] bcast_S_S1x129 (constant (F := Ideal) S_ .f32 0x47C35000#32)) := by
    show StableHlo.after hostOps1 (W2 m ρ c) (Proc.devRef .tc main_v46) = _
    after_results_simp
    rw [show W2 m ρ c (Proc.devRef .tc main_v44_0) = _ from W2_arr m ρ c 1]
  rw [e]; rfl

/-- The variance row: the totals of squares over the node count, minus the squared mean. -/
theorem V3_win3 (l : Fin 129) : V3 m ρ c (Pipeline.arrRef spec1 3) (ix2 0 l)
    = Cert.Spec.varOfSums (fun l : Fin 129 => (dat0 (V1 m ρ) c).arrAt 1 cfg0.N (ix2 0 l))
        (fun l : Fin 129 => (dat0 (V1 m ρ) c).arrAt 2 cfg0.N (ix2 0 l)) l := by
  have e : V3 m ρ c (Pipeline.arrRef spec1 3)
      = subf (F := Ideal)
          (Host.divf (F := Ideal) ((dat0 (V1 m ρ) c).arrAt 2 cfg0.N)
            (broadcastInDim S1x129 ![] bcast_S_S1x129 (constant (F := Ideal) S_ .f32 0x47C35000#32)))
          (mulf (F := Ideal)
            (Host.divf (F := Ideal) ((dat0 (V1 m ρ) c).arrAt 1 cfg0.N)
              (broadcastInDim S1x129 ![] bcast_S_S1x129 (constant (F := Ideal) S_ .f32 0x47C35000#32)))
            (Host.divf (F := Ideal) ((dat0 (V1 m ρ) c).arrAt 1 cfg0.N)
              (broadcastInDim S1x129 ![] bcast_S_S1x129 (constant (F := Ideal) S_ .f32 0x47C35000#32)))) := by
    show StableHlo.after hostOps1 (W2 m ρ c) (Proc.devRef .tc main_v50) = _
    after_results_simp
    rw [show W2 m ρ c (Proc.devRef .tc main_v44_0) = _ from W2_arr m ρ c 1,
      show W2 m ρ c (Proc.devRef .tc main_v44_1) = _ from W2_arr m ρ c 2]
  rw [e]; rfl

/-- The first dense map enters the region transposed: rows are inputs. -/
theorem V3_win4 (l k : Fin 129) : V3 m ρ c (Pipeline.arrRef spec1 4) (ix2 l k)
    = m ((c.tc : Thread nD τ).loc main_arg6) (ix2 k l) := by
  show StableHlo.after hostOps1 (W2 m ρ c) (Proc.devRef .tc main_v51) (ix2 l k) = _
  after_results_simp
  rw [keep2_arg6 m ρ c]
  exact transpose_ix2_apply _ _ l k

/-- The second dense map's first 128 input columns, transposed: the part that meets the previous state. -/
theorem V3_win5 (k : Fin 128) (j : Fin 257) : V3 m ρ c (Pipeline.arrRef spec1 5) (ix2 k j)
    = m ((c.tc : Thread nD τ).loc main_arg7) (ix2 j (Fin.castAdd 129 k)) := by
  show StableHlo.after hostOps1 (W2 m ρ c) (Proc.devRef .tc main_v54) (ix2 k j) = _
  after_results_simp
  rw [keep2_arg7 m ρ c]
  refine (transpose_ix2_apply _ _ k j).trans ?_
  exact slice2_axis1_apply 0 _ _ j k (Fin.castAdd 129 k) (by show k.val = 0 + k.val; omega)

/-- The second dense map's last 129 input columns, transposed: the part that meets the hidden state. -/
theorem V3_win6 (k : Fin 129) (j : Fin 257) : V3 m ρ c (Pipeline.arrRef spec1 6) (ix2 k j)
    = m ((c.tc : Thread nD τ).loc main_arg7) (ix2 j (Fin.natAdd 128 k)) := by
  show StableHlo.after hostOps1 (W2 m ρ c) (Proc.devRef .tc main_v55) (ix2 k j) = _
  after_results_simp
  rw [keep2_arg7 m ρ c]
  refine (transpose_ix2_apply _ _ k j).trans ?_
  exact slice2_axis1_apply 128 _ _ j k (Fin.natAdd 128 k) (by show 128 + k.val = 128 + k.val; rfl)

end Cert.KerRun

end
-- ==== Proof.Stats0Pieces.lean ====
/-
  Region 0 (the first statistics pass), what one grid point leaves in the two carried [1,129] outputs.

  At the first point the body stores a zero row into each output, reads it back, and then stores
  "what it read + the block's column sums" (output 1) and "what it read + the block's column sums of
  squares" (output 2).  At every later point only the second pair of stores happens, over what the point
  before left.  Each output's final contents at a point are therefore its last covering store's value,
  with the loads resolved: these four equations, at any float instance.
-/
import proofs.«167109_j5557687681833_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.Stats

open Cert.KernelIdeal Cert.KernelIdeal.Gen

variable {F : FTy → Type} [FloatOps F]

theorem hz0 : (![0, 0] : Fin 2 → Nat) = fun _ => 0 := funext fun a => by fin_cases a <;> rfl

/-- A later point: output 1 ends at the sum payload of the block and the carried row. -/
theorem out0_B_1_eq (c : Dev nD) (i : grid0.Coords) (a1 : Memref sig .tc .vmem S1000x129 .f32) (h1 : a1.IsWhole)
    (a2 : Memref sig .tc .vmem S1x129 .f32) (h2 : a2.IsWhole) (a3 : Memref sig .tc .vmem S1x129 .f32) (h3 : a3.IsWhole)
    (hc : ¬cond0_0 i) (x : Vec F S1000x129 .f32) (xo1 xo2 : Vec F S1x129 .f32) :
    out0_B_1 c i a1 h1 a2 h2 a3 h3 hc x xo1 xo2 = k0_pay4 x xo1 := by
  unfold out0_B_1
  rw [View.read_writes_eq_canon _ _ _ (cover0_B_1 c i a1 h1 a2 h2 a3 h3 hc x xo1 xo2)]
  unfold kernelRun0_B
  dsimp only
  rw [View.canon_unit_zero hz0]
  simp only [View.readAt_eq_ld, h1.read_unread, h2.read_unread, View.ld_unit_zero (S := S1000x129) hz0,
    View.ld_unit_zero (S := S1x129) hz0]

/-- A later point: output 2 ends at the sum-of-squares payload of the block and the carried row. -/
theorem out0_B_2_eq (c : Dev nD) (i : grid0.Coords) (a1 : Memref sig .tc .vmem S1000x129 .f32) (h1 : a1.IsWhole)
    (a2 : Memref sig .tc .vmem S1x129 .f32) (h2 : a2.IsWhole) (a3 : Memref sig .tc .vmem S1x129 .f32) (h3 : a3.IsWhole)
    (hc : ¬cond0_0 i) (x : Vec F S1000x129 .f32) (xo1 xo2 : Vec F S1x129 .f32) :
    out0_B_2 c i a1 h1 a2 h2 a3 h3 hc x xo1 xo2 = k0_pay5 x xo2 := by
  unfold out0_B_2
  rw [View.read_writes_eq_canon _ _ _ (cover0_B_2 c i a1 h1 a2 h2 a3 h3 hc x xo1 xo2)]
  unfold kernelRun0_B
  dsimp only
  rw [View.canon_unit_zero hz0]
  simp only [View.readAt_eq_ld, h1.read_unread, h3.read_unread, View.ld_unit_zero (S := S1000x129) hz0,
    View.ld_unit_zero (S := S1x129) hz0]

/-- The first point: output 1 ends at the sum payload of the block and the zero row just stored. -/
theorem out0_A_1_eq (c : Dev nD) (i : grid0.Coords) (a1 : Memref sig .tc .vmem S1000x129 .f32) (h1 : a1.IsWhole)
    (a2 : Memref sig .tc .vmem S1x129 .f32) (h2 : a2.IsWhole) (a3 : Memref sig .tc .vmem S1x129 .f32) (h3 : a3.IsWhole)
    (hc : cond0_0 i) (x : Vec F S1000x129 .f32) :
    out0_A_1 c i a1 h1 a2 h2 a3 h3 hc x = k0_pay4 x (k0_pay1 (F := F)) := by
  unfold out0_A_1
  rw [View.read_writes_eq_canon _ _ _ (cover0_A_1 c i a1 h1 a2 h2 a3 h3 hc x)]
  unfold kernelRun0_A
  dsimp only
  sl_unfold_words
  rw [View.canon_cons_unit_zero (S := S1x129) hz0, View.readCov_unit_zero (S := S1x129) _ hz0]
  simp only [View.readAt_eq_ld, h1.read_unread, View.ld_unit_zero (S := S1000x129) hz0]

/-- The first point: output 2 ends at the sum-of-squares payload of the block and the zero row just stored. -/
theorem out0_A_2_eq (c : Dev nD) (i : grid0.Coords) (a1 : Memref sig .tc .vmem S1000x129 .f32) (h1 : a1.IsWhole)
    (a2 : Memref sig .tc .vmem S1x129 .f32) (h2 : a2.IsWhole) (a3 : Memref sig .tc .vmem S1x129 .f32) (h3 : a3.IsWhole)
    (hc : cond0_0 i) (x : Vec F S1000x129 .f32) :
    out0_A_2 c i a1 h1 a2 h2 a3 h3 hc x = k0_pay5 x (k0_pay2 (F := F)) := by
  unfold out0_A_2
  rw [View.read_writes_eq_canon _ _ _ (cover0_A_2 c i a1 h1 a2 h2 a3 h3 hc x)]
  unfold kernelRun0_A
  dsimp only
  sl_unfold_words
  rw [View.canon_cons_unit_zero (S := S1x129) hz0, View.readCov_unit_zero (S := S1x129) _ hz0]
  simp only [View.readAt_eq_ld, h1.read_unread, View.ld_unit_zero (S := S1000x129) hz0]

end Cert.Stats

end
-- ==== Proof.Stats0Payload.lean ====
/-
  Region 0's two accumulating payloads read at a column, over the extended reals.

  The sum payload is "the carried row + the reduction of the [1000,129] block over its rows"; the
  sum-of-squares payload is the same with the block multiplied by itself first.  At column l they are
  the carried entry plus the sum over the block's 1000 rows of the entry (of its square).  The row the
  first point stores is the zero row.
-/
import proofs.«167109_j5557687681833_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.Stats

open Cert.KernelIdeal Cert.KernelIdeal.Gen

/-- A [1000,129] block reduced over its rows, at column l: the sum of the column's 1000 entries. -/
theorem colReduce129 (y : FVec Ideal S1000x129 .f32) (h : S1000x129.Reduces [0] S129) (hφ : FKind.Formats .f32)
    (hacc : (0x00000000#32 : BitVec 32) = 0x00000000#32) (l : Fin 129) :
    multiReduction .add [0] S129 y 0x00000000#32 h hφ hacc (ix1 l) = ∑ r : Fin 1000, y (ix2 r l) := by
  refine (Ideal.multiReduction_add_single y 0x00000000#32 h hφ hacc (ix1 l)).trans ?_
  show ∑ r : Fin 1000, y (h.lift (ix1 l) r) = _
  refine Finset.sum_congr rfl fun r _ => congrArg y ?_
  funext a
  match a with
  | ⟨0, _⟩ => rfl
  | ⟨1, _⟩ => rfl

/-- The sum payload at column l. -/
theorem pay0_4_apply (x : Vec Ideal S1000x129 .f32) (xo : Vec Ideal S1x129 .f32) (l : Fin 129) :
    k0_pay4 (F := Ideal) x xo (ix2 (0 : Fin 1) l) = xo (ix2 (0 : Fin 1) l) + ∑ r : Fin 1000, x (ix2 r l) := by
  unfold k0_pay4 k0_pay3
  refine (addf_apply _ _ _).trans ?_
  refine congrArg₂ (· + ·) (congrFun (shapeCast_self xo _) _) ?_
  refine (shapeCast_a_1a_apply _ _ 0 l).trans ?_
  refine (colReduce129 _ _ _ _ l).trans ?_
  exact Finset.sum_congr rfl fun r _ => congrFun (shapeCast_self x _) _

/-- The sum-of-squares payload at column l. -/
theorem pay0_5_apply (x : Vec Ideal S1000x129 .f32) (xo : Vec Ideal S1x129 .f32) (l : Fin 129) :
    k0_pay5 (F := Ideal) x xo (ix2 (0 : Fin 1) l)
      = xo (ix2 (0 : Fin 1) l) + ∑ r : Fin 1000, x (ix2 r l) * x (ix2 r l) := by
  unfold k0_pay5 k0_pay3
  refine (addf_apply _ _ _).trans ?_
  refine congrArg₂ (· + ·) (congrFun (shapeCast_self xo _) _) ?_
  refine (shapeCast_a_1a_apply _ _ 0 l).trans ?_
  refine (colReduce129 _ _ _ _ l).trans ?_
  refine Finset.sum_congr rfl fun r _ => ?_
  refine (mulf_apply _ _ _).trans ?_
  rw [shapeCast_self]

/-- The row the first point stores into output 1 is zero everywhere. -/
theorem pay0_1_apply (l : Fin 129) : k0_pay1 (F := Ideal) (ix2 (0 : Fin 1) l) = 0 :=
  Ideal.ofBits_zero_f32

/-- The row the first point stores into output 2 is zero everywhere. -/
theorem pay0_2_apply (l : Fin 129) : k0_pay2 (F := Ideal) (ix2 (0 : Fin 1) l) = 0 :=
  Ideal.ofBits_zero_f32

end Cert.Stats

end
-- ==== Proof.Stats0Sum.lean ====
/-
  Region 0, the accumulation over the grid.

  The input window's block at point t holds rows 1000·t … 1000·t + 999 of the [100000,129] array the
  region finds.  Point 0 leaves "0 + the block's column sums" in output 1 and "0 + the block's column sums of
  squares" in output 2; every later point adds its own block's to what the point before left.  So after
  point n the two outputs hold, at column l, the sum (the sum of squares) of column l over the first
  1000·(n+1) rows: an induction on the point.  Column l is continued by zero past the last row so that the
  running sums range over initial segments of the naturals.
-/
import proofs.«167109_j5557687681833_1_alg».proof.Proof.Gen.KernelIdeal.Frame
import proofs.«167109_j5557687681833_1_alg».proof.Proof.Stats0Pieces
import proofs.«167109_j5557687681833_1_alg».proof.Proof.Stats0Payload
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.Stats

open Cert.KernelIdeal Cert.KernelIdeal.Gen

variable (V : (c : Dev nD) → (b : Ref sig .tc) → Buf (Elt Ideal) ((c : Thread nD τ).loc b))

/-- Column l of the array the region finds in its input window, continued by zero past the last row. -/
def col0 (c : Dev nD) (l : Fin 129) (i : ℕ) : EReal :=
  if h : i < 100000 then V c (Pipeline.arrRef spec0 0) (ix2 (⟨i, h⟩ : Fin 100000) l) else 0

/-- The input window's block index at point t is (t, 0). -/
theorem widx0 : ∀ t : Fin cfg0.N, win0_0.index t 0 = t.val ∧ win0_0.index t 1 = 0 :=
  (by decide +kernel : ∀ t : Fin grid0.N, win0_0.index t 0 = t.val ∧ win0_0.index t 1 = 0)

/-- The input window's block at point t, as a [1000,129] array of extended reals. -/
abbrev blk0 (c : Dev nD) (t : Fin cfg0.N) : Vec Ideal S1000x129 .f32 := iblk0 V c 0 t

/-- The block read at point t holds rows 1000·t … 1000·t + 999. -/
theorem iblk0_apply (c : Dev nD) (t : Fin cfg0.N) (r : Fin 1000) (l : Fin 129) :
    blk0 V c t (ix2 r l) = col0 V c l (1000 * t.val + r.val) := by
  show iblk0 V c 0 t (ix2 r l) = _
  have hN : t.val < 100 := lt_of_lt_of_eq t.isLt (show cfg0.N = 100 from N_0)
  unfold col0
  rw [dif_pos (by omega)]
  unfold iblk0
  rw [View.read_apply]
  show V c (Pipeline.arrRef spec0 0) _ = V c (Pipeline.arrRef spec0 0) _
  congr 1
  funext a
  apply Fin.ext
  match a with
  | ⟨0, _⟩ => show win0_0.index t 0 * 1000 + 1 * r.val = 1000 * t.val + r.val; rw [(widx0 t).1]; omega
  | ⟨1, _⟩ => show win0_0.index t 1 * 129 + 1 * l.val = l.val; rw [(widx0 t).2]; omega

/-- The block's column sum at point t is the sum of the column over those rows. -/
theorem blk0_sum (c : Dev nD) (t : Fin cfg0.N) (l : Fin 129) :
    ∑ r : Fin 1000, blk0 V c t (ix2 r l)
      = ∑ r ∈ Finset.range 1000, col0 V c l (1000 * t.val + r) := by
  rw [Finset.sum_range]
  exact Finset.sum_congr rfl fun r _ => iblk0_apply V c t r l

/-- The block's column sum of squares at point t likewise. -/
theorem blk0_sumsq (c : Dev nD) (t : Fin cfg0.N) (l : Fin 129) :
    ∑ r : Fin 1000, blk0 V c t (ix2 r l) * blk0 V c t (ix2 r l)
      = ∑ r ∈ Finset.range 1000, col0 V c l (1000 * t.val + r) * col0 V c l (1000 * t.val + r) := by
  rw [Finset.sum_range]
  exact Finset.sum_congr rfl fun r _ => by rw [iblk0_apply V c t r l]

/-- Output 1 after the first point: zero plus the block's column sum. -/
theorem first0_1 (c : Dev nD) (t : Fin cfg0.N) (h0 : t.val % 100 = 0) (l : Fin 129) :
    (outsAt0 V c t.val t.isLt).1 (ix2 (0 : Fin 1) l)
      = 0 + ∑ r : Fin 1000, blk0 V c t (ix2 r l) := by
  refine (congrFun (congrArg Prod.fst (outsAt0_A V c t h0)) _).trans ?_
  refine (congrFun (out0_A_1_eq (F := Ideal) c (grid0.coords t) (ms0_0 t) (hs0_0 t) (ms0_1 t) (hs0_1 t) (ms0_2 t) (hs0_2 t)
    ((hcond0_0 t).mpr h0) (iblk0 V c 0 t)) _).trans ?_
  refine (pay0_4_apply (iblk0 V c 0 t) (k0_pay1 (F := Ideal)) l).trans ?_
  rw [pay0_1_apply]

/-- Output 2 after the first point: zero plus the block's column sum of squares. -/
theorem first0_2 (c : Dev nD) (t : Fin cfg0.N) (h0 : t.val % 100 = 0) (l : Fin 129) :
    (outsAt0 V c t.val t.isLt).2 (ix2 (0 : Fin 1) l)
      = 0 + ∑ r : Fin 1000, blk0 V c t (ix2 r l) * blk0 V c t (ix2 r l) := by
  refine (congrFun (congrArg Prod.snd (outsAt0_A V c t h0)) _).trans ?_
  refine (congrFun (out0_A_2_eq (F := Ideal) c (grid0.coords t) (ms0_0 t) (hs0_0 t) (ms0_1 t) (hs0_1 t) (ms0_2 t) (hs0_2 t)
    ((hcond0_0 t).mpr h0) (iblk0 V c 0 t)) _).trans ?_
  refine (pay0_5_apply (iblk0 V c 0 t) (k0_pay2 (F := Ideal)) l).trans ?_
  rw [pay0_2_apply]

/-- Output 1 after a later point: what the point before left plus the block's column sum. -/
theorem later0_1 (c : Dev nD) (t : Fin cfg0.N) (h0 : ¬t.val % 100 = 0) (l : Fin 129) :
    (outsAt0 V c t.val t.isLt).1 (ix2 (0 : Fin 1) l)
      = (outsAt0 V c (t.val - 1) (Nat.lt_of_le_of_lt (Nat.sub_le _ _) t.isLt)).1 (ix2 (0 : Fin 1) l)
        + ∑ r : Fin 1000, blk0 V c t (ix2 r l) := by
  refine (congrFun (congrArg Prod.fst (outsAt0_B V c t h0)) _).trans ?_
  refine (congrFun (out0_B_1_eq (F := Ideal) c (grid0.coords t) (ms0_0 t) (hs0_0 t) (ms0_1 t) (hs0_1 t) (ms0_2 t) (hs0_2 t)
    (fun h => h0 ((hcond0_0 t).mp h)) (iblk0 V c 0 t)
    (outsAt0 V c (t.val - 1) (Nat.lt_of_le_of_lt (Nat.sub_le _ _) t.isLt)).1
    (outsAt0 V c (t.val - 1) (Nat.lt_of_le_of_lt (Nat.sub_le _ _) t.isLt)).2) _).trans ?_
  exact pay0_4_apply (iblk0 V c 0 t) (outsAt0 V c (t.val - 1) (Nat.lt_of_le_of_lt (Nat.sub_le _ _) t.isLt)).1 l

/-- Output 2 after a later point: what the point before left plus the block's column sum of squares. -/
theorem later0_2 (c : Dev nD) (t : Fin cfg0.N) (h0 : ¬t.val % 100 = 0) (l : Fin 129) :
    (outsAt0 V c t.val t.isLt).2 (ix2 (0 : Fin 1) l)
      = (outsAt0 V c (t.val - 1) (Nat.lt_of_le_of_lt (Nat.sub_le _ _) t.isLt)).2 (ix2 (0 : Fin 1) l)
        + ∑ r : Fin 1000, blk0 V c t (ix2 r l) * blk0 V c t (ix2 r l) := by
  refine (congrFun (congrArg Prod.snd (outsAt0_B V c t h0)) _).trans ?_
  refine (congrFun (out0_B_2_eq (F := Ideal) c (grid0.coords t) (ms0_0 t) (hs0_0 t) (ms0_1 t) (hs0_1 t) (ms0_2 t) (hs0_2 t)
    (fun h => h0 ((hcond0_0 t).mp h)) (iblk0 V c 0 t)
    (outsAt0 V c (t.val - 1) (Nat.lt_of_le_of_lt (Nat.sub_le _ _) t.isLt)).1
    (outsAt0 V c (t.val - 1) (Nat.lt_of_le_of_lt (Nat.sub_le _ _) t.isLt)).2) _).trans ?_
  exact pay0_5_apply (iblk0 V c 0 t) (outsAt0 V c (t.val - 1) (Nat.lt_of_le_of_lt (Nat.sub_le _ _) t.isLt)).2 l

/-- After point n output 1 holds, at column l, the sum of the column over the first 1000·(n+1) rows. -/
theorem running0_1 (c : Dev nD) (l : Fin 129) : ∀ (n : ℕ) (h : n < cfg0.N),
    (outsAt0 V c n h).1 (ix2 (0 : Fin 1) l) = ∑ i ∈ Finset.range (1000 * (n + 1)), col0 V c l i
  | 0, h => by
    rw [first0_1 V c ⟨0, h⟩ rfl l, blk0_sum V c ⟨0, h⟩ l, zero_add]
    simp only [Nat.mul_zero, Nat.zero_add, Nat.mul_one]
  | n + 1, h => by
    have hN : cfg0.N = 100 := N_0
    have hB : ¬(⟨n + 1, h⟩ : Fin cfg0.N).val % 100 = 0 := by dsimp only; omega
    rw [later0_1 V c ⟨n + 1, h⟩ hB l]
    show (outsAt0 V c n _).1 (ix2 (0 : Fin 1) l) + _ = _
    rw [running0_1 c l n, blk0_sum V c ⟨n + 1, h⟩ l, show 1000 * (n + 1 + 1) = 1000 * (n + 1) + 1000 from by omega, Finset.sum_range_add]

/-- After point n output 2 holds, at column l, the sum of the column's squares over the first 1000·(n+1) rows. -/
theorem running0_2 (c : Dev nD) (l : Fin 129) : ∀ (n : ℕ) (h : n < cfg0.N),
    (outsAt0 V c n h).2 (ix2 (0 : Fin 1) l) = ∑ i ∈ Finset.range (1000 * (n + 1)), col0 V c l i * col0 V c l i
  | 0, h => by
    rw [first0_2 V c ⟨0, h⟩ rfl l, blk0_sumsq V c ⟨0, h⟩ l, zero_add]
    simp only [Nat.mul_zero, Nat.zero_add, Nat.mul_one]
  | n + 1, h => by
    have hN : cfg0.N = 100 := N_0
    have hB : ¬(⟨n + 1, h⟩ : Fin cfg0.N).val % 100 = 0 := by dsimp only; omega
    rw [later0_2 V c ⟨n + 1, h⟩ hB l]
    show (outsAt0 V c n _).2 (ix2 (0 : Fin 1) l) + _ = _
    rw [running0_2 c l n, blk0_sumsq V c ⟨n + 1, h⟩ l, show 1000 * (n + 1 + 1) = 1000 * (n + 1) + 1000 from by omega, Finset.sum_range_add]

end Cert.Stats

end
-- ==== Proof.Stats0Final.lean ====
/-
  Region 0's two output arrays after the region.

  Both [1,129] outputs are written back once, after the last grid point, and their one block is the whole
  array; so the arrays end holding what the last point left in the staging buffers.  The last point is
  taken as "a point whose number is 99", so that nothing below depends on evaluating the accumulation there.
-/
import proofs.«167109_j5557687681833_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.Stats

open Cert.KernelIdeal Cert.KernelIdeal.Gen

variable (V : (c : Dev nD) → (b : Ref sig .tc) → Buf (Elt Ideal) ((c : Thread nD τ).loc b))

/-- There is a grid point numbered 99. -/
theorem exists_last0 : ∃ t : Fin cfg0.N, t.val = 99 := ⟨⟨99, by rw [show cfg0.N = 100 from N_0]; decide⟩, rfl⟩

/-- The last grid point. -/
def tlast0 : Fin cfg0.N := Classical.choose exists_last0
/-- Its number. -/
theorem tlast0_val : tlast0.val = 99 := Classical.choose_spec exists_last0

/-- What the last point leaves in output 1, as contents of its array. -/
abbrev last0_1 (c : Dev nD) : Buf (Elt Ideal) ((c : Thread nD τ).loc main_v44_0) := (outsAt0 V c tlast0.val tlast0.isLt).1
/-- What the last point leaves in output 2, as contents of its array. -/
abbrev last0_2 (c : Dev nD) : Buf (Elt Ideal) ((c : Thread nD τ).loc main_v44_1) := (outsAt0 V c tlast0.val tlast0.isLt).2

/-- Output 1's window is not cut: the part of the staging buffer a write-back moves is all of it. -/
theorem cut0_1 (t : Fin cfg0.N) (X : Vec Ideal S1x129 .f32) : (cfg0.win 1).cut (grid0.coords t) X = X := rfl
/-- Output 2's window likewise. -/
theorem cut0_2 (t : Fin cfg0.N) (X : Vec Ideal S1x129 .f32) : (cfg0.win 2).cut (grid0.coords t) X = X := rfl

/-- Both outputs' block index is (0, 0) at every point, and their blocks are whole. -/
theorem widx0_out : ∀ t : Fin cfg0.N, (win0_1.index t 0 = 0 ∧ win0_1.index t 1 = 0) ∧ (win0_2.index t 0 = 0 ∧ win0_2.index t 1 = 0) :=
  (by decide +kernel : ∀ t : Fin grid0.N, (win0_1.index t 0 = 0 ∧ win0_1.index t 1 = 0) ∧ (win0_2.index t 0 = 0 ∧ win0_2.index t 1 = 0))
theorem wxsize0_out : ∀ t : Fin cfg0.N, (win0_1.xsize (grid0.coords t) 0 = 1 ∧ win0_1.xsize (grid0.coords t) 1 = 129)
      ∧ (win0_2.xsize (grid0.coords t) 0 = 1 ∧ win0_2.xsize (grid0.coords t) 1 = 129) :=
  (by decide +kernel : ∀ t : Fin grid0.N, (win0_1.xsize (grid0.coords t) 0 = 1 ∧ win0_1.xsize (grid0.coords t) 1 = 129)
      ∧ (win0_2.xsize (grid0.coords t) 0 = 1 ∧ win0_2.xsize (grid0.coords t) 1 = 129))

/-- Block (0, 0) of output 1's [1,129] array, read back, is the array. -/
theorem read_blk0_1 (c : Dev nD) (t : Fin cfg0.N) (X : Buf (Elt Ideal) ((c : Thread nD τ).loc main_v44_0)) :
    ((cfg0.win 1).blk t).view.read (Elt Ideal) X = X := by
  have hz' : (fun a => win0_1.index t a * main_v44_0.ty.shape.size a) = fun _ => 0 :=
    funext fun a => by
      match a with
      | ⟨0, _⟩ => show win0_1.index t 0 * _ = 0; rw [(widx0_out t).1.1, Nat.zero_mul]
      | ⟨1, _⟩ => show win0_1.index t 1 * _ = 0; rw [(widx0_out t).1.2, Nat.zero_mul]
  exact Memref.read_access_unit_zero (Elt Ideal) main_v44_0 hz' (fun a => by rw [congrFun hz' a]; simp) X

/-- Block (0, 0) of output 2's [1,129] array, read back, is the array. -/
theorem read_blk0_2 (c : Dev nD) (t : Fin cfg0.N) (X : Buf (Elt Ideal) ((c : Thread nD τ).loc main_v44_1)) :
    ((cfg0.win 2).blk t).view.read (Elt Ideal) X = X := by
  have hz' : (fun a => win0_2.index t a * main_v44_1.ty.shape.size a) = fun _ => 0 :=
    funext fun a => by
      match a with
      | ⟨0, _⟩ => show win0_2.index t 0 * _ = 0; rw [(widx0_out t).2.1, Nat.zero_mul]
      | ⟨1, _⟩ => show win0_2.index t 1 * _ = 0; rw [(widx0_out t).2.2, Nat.zero_mul]
  exact Memref.read_access_unit_zero (Elt Ideal) main_v44_1 hz' (fun a => by rw [congrFun hz' a]; simp) X

/-- Output 1's one write-back, at the last point, writes what the last point left. -/
theorem flushed0_1_eq (c : Dev nD) (t : Fin cfg0.N) (hf : (cfg0.win 1).flush t = true) :
    (dat0 V c).flushed 1 t = ((cfg0.win 1).blk t).view.read (Elt Ideal) (last0_1 V c) := by
  have hN : cfg0.N = 100 := N_0
  have h99 : t.val = 99 := by have := (flush0_1 t).mp hf; have := t.isLt; omega
  obtain rfl : t = tlast0 := Fin.ext (h99.trans tlast0_val.symm)
  rw [read_blk0_1]
  show (cfg0.win 1).cut (grid0.coords tlast0) ((dat0 V c).after 1 tlast0) = _
  rw [after0_1]
  exact cut0_1 _ _

/-- Output 2's one write-back likewise. -/
theorem flushed0_2_eq (c : Dev nD) (t : Fin cfg0.N) (hf : (cfg0.win 2).flush t = true) :
    (dat0 V c).flushed 2 t = ((cfg0.win 2).blk t).view.read (Elt Ideal) (last0_2 V c) := by
  have hN : cfg0.N = 100 := N_0
  have h99 : t.val = 99 := by have := (flush0_2 t).mp hf; have := t.isLt; omega
  obtain rfl : t = tlast0 := Fin.ext (h99.trans tlast0_val.symm)
  rw [read_blk0_2]
  show (cfg0.win 2).cut (grid0.coords tlast0) ((dat0 V c).after 2 tlast0) = _
  rw [after0_2]
  exact cut0_2 _ _

/-- So output 1's array ends holding what the last point left: the last point's block covers it. -/
theorem final0_1 (c : Dev nD) : (dat0 V c).arrAt 1 cfg0.N = last0_1 V c :=
  (dat0 V c).arrAt_eq_of_cover 1 (last0_1 V c) (flushed0_1_eq V c) fun i =>
    ⟨tlast0, (flush0_1 tlast0).mpr (by rw [tlast0_val]), by
      show i ∈ ((View.whole main_v44_0).slice (win0_1.rect tlast0)).set
      rw [View.set_slice_whole, Rect.mem_set_unit]
      intro a
      have h0 : (i 0 : Nat) < 1 := (i 0).isLt
      have h1 : (i 1 : Nat) < 129 := (i 1).isLt
      match a with
      | ⟨0, _⟩ => show win0_1.index tlast0 0 * win0_1.size 0 ≤ (i 0 : Nat) ∧ (i 0 : Nat) < win0_1.index tlast0 0 * win0_1.size 0 + win0_1.xsize (grid0.coords tlast0) 0
                  rw [(widx0_out tlast0).1.1, (wxsize0_out tlast0).1.1]; omega
      | ⟨1, _⟩ => show win0_1.index tlast0 1 * win0_1.size 1 ≤ (i 1 : Nat) ∧ (i 1 : Nat) < win0_1.index tlast0 1 * win0_1.size 1 + win0_1.xsize (grid0.coords tlast0) 1
                  rw [(widx0_out tlast0).1.2, (wxsize0_out tlast0).1.2]; omega⟩

/-- And output 2's. -/
theorem final0_2 (c : Dev nD) : (dat0 V c).arrAt 2 cfg0.N = last0_2 V c :=
  (dat0 V c).arrAt_eq_of_cover 2 (last0_2 V c) (flushed0_2_eq V c) fun i =>
    ⟨tlast0, (flush0_2 tlast0).mpr (by rw [tlast0_val]), by
      show i ∈ ((View.whole main_v44_1).slice (win0_2.rect tlast0)).set
      rw [View.set_slice_whole, Rect.mem_set_unit]
      intro a
      have h0 : (i 0 : Nat) < 1 := (i 0).isLt
      have h1 : (i 1 : Nat) < 129 := (i 1).isLt
      match a with
      | ⟨0, _⟩ => show win0_2.index tlast0 0 * win0_2.size 0 ≤ (i 0 : Nat) ∧ (i 0 : Nat) < win0_2.index tlast0 0 * win0_2.size 0 + win0_2.xsize (grid0.coords tlast0) 0
                  rw [(widx0_out tlast0).2.1, (wxsize0_out tlast0).2.1]; omega
      | ⟨1, _⟩ => show win0_2.index tlast0 1 * win0_2.size 1 ≤ (i 1 : Nat) ∧ (i 1 : Nat) < win0_2.index tlast0 1 * win0_2.size 1 + win0_2.xsize (grid0.coords tlast0) 1
                  rw [(widx0_out tlast0).2.2, (wxsize0_out tlast0).2.2]; omega⟩

end Cert.Stats

end
-- ==== Proof.Stats0.lean ====
/-
  Region 0's two results as whole-array column sums.

  The arrays end holding what the last grid point left, which is the sum (the sum of squares) of each
  column over all 1000·100 = 100000 rows of the array the region finds in its input window.
-/
import proofs.«167109_j5557687681833_1_alg».proof.Proof.Gen.KernelIdeal.Frame
import proofs.«167109_j5557687681833_1_alg».proof.Proof.Stats0Sum
import proofs.«167109_j5557687681833_1_alg».proof.Proof.Stats0Final
import proofs.«167109_j5557687681833_1_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.Stats

open Cert.KernelIdeal Cert.KernelIdeal.Gen

variable (V : (c : Dev nD) → (b : Ref sig .tc) → Buf (Elt Ideal) ((c : Thread nD τ).loc b))

/-- The array the region finds in its input window, by row and column. -/
abbrev arr0 (c : Dev nD) : Fin 100000 → Fin 129 → EReal := fun r l => V c (Pipeline.arrRef spec0 0) (ix2 r l)

/-- The sum of the column over the first 100000 rows is the sum over every row of the array. -/
theorem col0_total (c : Dev nD) (l : Fin 129) :
    ∑ i ∈ Finset.range (1000 * (tlast0.val + 1)), col0 V c l i = ∑ r : Fin 100000, arr0 V c r l := by
  rw [tlast0_val, show 1000 * (99 + 1) = 100000 from rfl, Finset.sum_range]
  exact Finset.sum_congr rfl fun r _ => dif_pos r.isLt

/-- The same for the squares. -/
theorem col0_total_sq (c : Dev nD) (l : Fin 129) :
    ∑ i ∈ Finset.range (1000 * (tlast0.val + 1)), col0 V c l i * col0 V c l i
      = ∑ r : Fin 100000, arr0 V c r l * arr0 V c r l := by
  rw [tlast0_val, show 1000 * (99 + 1) = 100000 from rfl, Finset.sum_range]
  exact Finset.sum_congr rfl fun r _ => by rw [show col0 V c l r.val = arr0 V c r l from dif_pos r.isLt]

/-- REGION 0, OUTPUT 1: the array ends holding, at column l, the sum of column l of the input array. -/
theorem sum0 (c : Dev nD) (l : Fin 129) :
    (dat0 (F := Ideal) V c).arrAt 1 cfg0.N (ix2 (0 : Fin 1) l)
      = Cert.Spec.colSum (fun (r : Fin 100000) (l : Fin 129) => V c (Pipeline.arrRef spec0 0) (ix2 r l)) l := by
  rw [final0_1]
  show (outsAt0 V c tlast0.val tlast0.isLt).1 (ix2 (0 : Fin 1) l) = _
  rw [running0_1 V c l tlast0.val tlast0.isLt]
  exact col0_total V c l

/-- REGION 0, OUTPUT 2: the array ends holding, at column l, the sum of the squares of column l of the input array. -/
theorem sumsq0 (c : Dev nD) (l : Fin 129) :
    (dat0 (F := Ideal) V c).arrAt 2 cfg0.N (ix2 (0 : Fin 1) l)
      = Cert.Spec.colSumSq (fun (r : Fin 100000) (l : Fin 129) => V c (Pipeline.arrRef spec0 0) (ix2 r l)) l := by
  rw [final0_2]
  show (outsAt0 V c tlast0.val tlast0.isLt).2 (ix2 (0 : Fin 1) l) = _
  rw [running0_2 V c l tlast0.val tlast0.isLt]
  exact col0_total_sq V c l

end Cert.Stats

end
-- ==== Proof.LayerLib.lean ====
/-
  Two facts every dense layer of the kernel uses, over the extended reals.

  A matrix product into a zero accumulator, read at row r and column c, is the sum over the shared axis of the
  products of row r of the left factor and column c of the right factor.  A layer's output at a row depends on
  the aggregate and the previous state only through that same row.
-/
import Idealize.ShloMosaic.Lib.ValueIdx
import Idealize.ShloMosaic.Lib.ValueLayout
import Idealize.ShloMosaic.PureOps.Ideal.Laws
import proofs.«167109_j5557687681833_1_alg».proof.Proof.Spec

noncomputable section

namespace Cert.Layers

open Idealize.ShloMosaic Idealize.ShloMosaic.ValueIdx

/-- A matrix shape. -/
abbrev Sh (a b : ℕ) : Shape := ⟨2, ![a, b]⟩

section Dot
variable {R K C : ℕ} (d : DotDims (Sh R K) (Sh K C) (Sh R C))

/-- The left factor's row is the result's row. -/
theorem lhs_row (hln : d.lhsNonContracting = [0]) (hlb : d.lhsBatch = [])
    (i : (Sh R C).Idx) (q : d.contr.Idx) : (d.lhsIdx i q 0).val = (i 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < (Sh R C).rank) (hq : q < (Sh R C).rank), p = q → (i ⟨p, hp⟩).val = (i ⟨q, hq⟩).val :=
    fun p q hp hq h => by subst h; rfl
  exact key _ _ _ _ (by simp [hlb, hln])

/-- The right factor's column is the result's column. -/
theorem rhs_col (hln : d.lhsNonContracting = [0]) (hlb : d.lhsBatch = []) (hrn : d.rhsNonContracting = [1]) (hrb : d.rhsBatch = [])
    (i : (Sh R C).Idx) (q : d.contr.Idx) : (d.rhsIdx i q 1).val = (i 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < (Sh R C).rank) (hq : q < (Sh R C).rank), p = q → (i ⟨p, hp⟩).val = (i ⟨q, hq⟩).val :=
    fun p q hp hq h => by subst h; rfl
  exact key _ _ _ _ (by simp [hlb, hln, hrn])

/-- A matrix product into the zero accumulator, at row `r` and column `c`: the sum over the shared axis. -/
theorem matmul_zero_ix2 {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (hr : d.contr.rank = 1) (hs : d.contr.size ⟨0, by omega⟩ = K)
    (prec : Option ContractPrecision) (lhs : FVec Ideal (Sh R K) φ₁) (rhs : FVec Ideal (Sh K C) φ₂) (r : Fin R) (c : Fin C) :
    FloatOps.matmul d prec lhs rhs (constant (Sh R C) .f32 0x00000000#32) (ix2 r c)
      = ∑ k : Fin K, lhs (ix2 r k) * rhs (ix2 k c) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 r c) ((contrEquiv1 d K hr hs).symm k) = ix2 r k := funext fun a => Fin.ext (by
    match a with
    | ⟨0, _⟩ => exact lhs_row d hln hlb _ _
    | ⟨1, _⟩ => exact (d.lhsIdx_val_of_single hlc _ _).trans hk)
  have er : d.rhsIdx (ix2 r c) ((contrEquiv1 d K hr hs).symm k) = ix2 k c := funext fun a => Fin.ext (by
    match a with
    | ⟨0, _⟩ => exact (d.rhsIdx_val_of_single hrc _ _).trans hk
    | ⟨1, _⟩ => exact rhs_col d hln hlb hrn hrb _ _)
  rw [el, er]

end Dot

section Rows
variable {n n' f p o a b e : ℕ}

/-- A layer's result at a row reads the aggregate and the previous state at that row only, the second dense
    map at the result's column only, and the statistics and the first dense map entry by entry. -/
theorem layerOut_congr (A : Fin n → Fin f → EReal) (A' : Fin n' → Fin f → EReal) (mean mean' var var' : Fin f → EReal)
    (W W' : Fin f → Fin f → EReal) (h : Fin n → Fin p → EReal) (h' : Fin n' → Fin p → EReal)
    (Wa Wa' : Fin p → Fin o → EReal) (Wb Wb' : Fin f → Fin o → EReal) (r : Fin n) (r' : Fin n') (j j' : Fin o)
    (hA : ∀ l, A r l = A' r' l) (hm : ∀ l, mean l = mean' l) (hv : ∀ l, var l = var' l) (hW : ∀ l k, W l k = W' l k)
    (hh : ∀ k, h r k = h' r' k) (hWa : ∀ k, Wa k j = Wa' k j') (hWb : ∀ k, Wb k j = Wb' k j') :
    Cert.Spec.layerOut A mean var W h Wa Wb r j = Cert.Spec.layerOut A' mean' var' W' h' Wa' Wb' r' j' := by
  unfold Cert.Spec.layerOut Cert.Spec.hidden Cert.Spec.normed
  simp only [hA, hm, hv, hW, hh, hWa, hWb]

/-- A head's result at a row reads its input at that row only. -/
theorem head_congr (X : Fin n → Fin a → EReal) (X' : Fin n' → Fin a → EReal) (W1 W1' : Fin a → Fin b → EReal)
    (W2 W2' : Fin b → Fin e → EReal) (r : Fin n) (r' : Fin n') (j j' : Fin e) (hX : ∀ l, X r l = X' r' l)
    (h1 : ∀ l k, W1 l k = W1' l k) (h2 : ∀ k, W2 k j = W2' k j') :
    Cert.Spec.head X W1 W2 r j = Cert.Spec.head X' W1' W2' r' j' := by
  unfold Cert.Spec.head
  simp only [hX, h1, h2]

end Rows

end Cert.Layers

end
-- ==== Proof.LayerBlock.lean ====
/-
  A block of a graph layer and of a two-layer head, entry by entry, at any widths.

  A block of rows of the aggregate is centred by the column means, scaled by the inverse square root of the
  stabilised variances, sent through the dense map and the positive part; the block of previous states goes
  through the first half of the second dense map, the hidden block through the second half, and the two are
  added.  Changes of float format are the identity on the extended reals and each matrix product starts from
  zero, so entry (r, j) of the result is the layer's formula at row r of the block.  A head is a dense map, the
  positive part, and a second dense map.
-/
import proofs.«167109_j5557687681833_1_alg».proof.Proof.LayerLib

noncomputable section

namespace Cert.Layers

open Idealize.ShloMosaic Idealize.ShloMosaic.ValueIdx

/-- A plain matrix product's dimension numbers: rows by the shared axis times the shared axis by columns. -/
structure Plain {R K C : ℕ} (d : DotDims (Sh R K) (Sh K C) (Sh R C)) : Prop where
  lc : d.lhsContracting = [1]
  rc : d.rhsContracting = [0]
  ln : d.lhsNonContracting = [0]
  rn : d.rhsNonContracting = [1]
  lb : d.lhsBatch = []
  rb : d.rhsBatch = []
  rank : d.contr.rank = 1
  size : d.contr.size ⟨0, by rw [rank]; exact Nat.one_pos⟩ = K

/-- A plain product into the zero accumulator at (r, c). -/
theorem Plain.apply {R K C : ℕ} {d : DotDims (Sh R K) (Sh K C) (Sh R C)} (hd : Plain d) {φ₁ φ₂ : FTy}
    (prec : Option ContractPrecision) (lhs : FVec Ideal (Sh R K) φ₁) (rhs : FVec Ideal (Sh K C) φ₂) (r : Fin R) (c : Fin C) :
    matmul d prec lhs rhs (constant (Sh R C) .f32 0x00000000#32) (ix2 r c) = ∑ k : Fin K, lhs (ix2 r k) * rhs (ix2 k c) :=
  matmul_zero_ix2 d hd.lc hd.rc hd.ln hd.rn hd.lb hd.rb hd.rank hd.size prec lhs rhs r c

variable {n f p o : ℕ}

/-- The normalised aggregate block at (r, l). -/
theorem normed_at (v0 : FVec Ideal (Sh n f) .f32) (v2 v4 : FVec Ideal (Sh 1 f) .f32)
    (h0 : (Sh n f).ShapeCasts (Sh n f)) (h1 : (Sh 1 f).ShapeCasts (Sh 1 f)) (hb : (Sh 1 f).Broadcasts (Sh n f))
    (r : Fin n) (l : Fin f) :
    mulf (subf (shapeCast (Sh n f) v0 h0) (broadcastTo (Sh n f) (shapeCast (Sh 1 f) v2 h1) hb))
        (broadcastTo (Sh n f) (rsqrt (addf (shapeCast (Sh 1 f) v4 h1) (broadcast (Sh 1 f) (Scalar.ofBits .f32 0x3727C5AC#32)))) hb) (ix2 r l)
      = Cert.Spec.normed (fun r l => v0 (ix2 r l)) (fun l => v2 (ix2 0 l)) (fun l => v4 (ix2 0 l)) r l := by
  refine (mulf_apply _ _ _).trans ?_
  unfold Cert.Spec.normed
  refine congrArg₂ (· * ·) ((subf_apply _ _ _).trans (congrArg₂ (· - ·) ?_ ?_)) ?_
  · exact congrFun (shapeCast_self v0 h0) _
  · exact (broadcastTo_1b_ab_apply _ hb r l).trans (congrFun (shapeCast_self v2 h1) _)
  · refine (broadcastTo_1b_ab_apply _ hb r l).trans ?_
    show Ideal.rsqrt (shapeCast (Sh 1 f) v4 h1 (ix2 0 l) + _) = _
    exact congrArg Ideal.rsqrt (congrArg₂ (· + ·) (congrFun (shapeCast_self v4 h1) _) rfl)

/-- The hidden block at (r, k): the normalised block through the dense map, then the positive part. -/
theorem hidden_at (v0 : FVec Ideal (Sh n f) .f32) (v2 v4 : FVec Ideal (Sh 1 f) .f32) (v14 : FVec Ideal (Sh f f) .f32)
    (h0 : (Sh n f).ShapeCasts (Sh n f)) (h1 : (Sh 1 f).ShapeCasts (Sh 1 f)) (hb : (Sh 1 f).Broadcasts (Sh n f))
    (h14 : (Sh f f).ShapeCasts (Sh f f)) (hbits : FTy.bf16.bits < FTy.f32.bits)
    (d1 : DotDims (Sh n f) (Sh f f) (Sh n f)) (hd1 : Plain d1) (r : Fin n) (k : Fin f) :
    maximumf (matmul d1 none
        (truncf .bf16 (mulf (subf (shapeCast (Sh n f) v0 h0) (broadcastTo (Sh n f) (shapeCast (Sh 1 f) v2 h1) hb))
          (broadcastTo (Sh n f) (rsqrt (addf (shapeCast (Sh 1 f) v4 h1) (broadcast (Sh 1 f) (Scalar.ofBits .f32 0x3727C5AC#32)))) hb)) hbits)
        (truncf .bf16 (shapeCast (Sh f f) v14 h14) hbits) (constant (Sh n f) .f32 0x00000000#32))
      (broadcast (Sh n f) (Scalar.ofBits .f32 0x00000000#32)) (ix2 r k)
      = Cert.Spec.hidden (fun r l => v0 (ix2 r l)) (fun l => v2 (ix2 0 l)) (fun l => v4 (ix2 0 l)) (fun l k => v14 (ix2 l k)) r k := by
  refine (maximumf_apply _ _ _).trans ?_
  unfold Cert.Spec.hidden
  refine congrArg₂ max ?_ Ideal.ofBits_zero_f32
  refine (hd1.apply none _ _ r k).trans (Finset.sum_congr rfl fun l _ => ?_)
  exact congrArg₂ (· * ·) (normed_at v0 v2 v4 h0 h1 hb r l) (congrFun (shapeCast_self v14 h14) _)

/-- The layer's result block at (r, j). -/
theorem layer_at (v0 : FVec Ideal (Sh n f) .f32) (v2 v4 : FVec Ideal (Sh 1 f) .f32) (v14 : FVec Ideal (Sh f f) .f32)
    (x20 : FVec Ideal (Sh n p) .bf16) (H : Fin n → Fin p → EReal) (hH : ∀ r k, x20 (ix2 r k) = H r k)
    (v22 : FVec Ideal (Sh p o) .f32) (v27 : FVec Ideal (Sh f o) .f32)
    (h0 : (Sh n f).ShapeCasts (Sh n f)) (h1 : (Sh 1 f).ShapeCasts (Sh 1 f)) (hb : (Sh 1 f).Broadcasts (Sh n f))
    (h14 : (Sh f f).ShapeCasts (Sh f f)) (h22 : (Sh p o).ShapeCasts (Sh p o)) (h27 : (Sh f o).ShapeCasts (Sh f o))
    (hbits : FTy.bf16.bits < FTy.f32.bits)
    (d1 : DotDims (Sh n f) (Sh f f) (Sh n f)) (hd1 : Plain d1)
    (d2 : DotDims (Sh n p) (Sh p o) (Sh n o)) (hd2 : Plain d2)
    (d3 : DotDims (Sh n f) (Sh f o) (Sh n o)) (hd3 : Plain d3) (r : Fin n) (j : Fin o) :
    addf (matmul d2 none x20 (truncf .bf16 (shapeCast (Sh p o) v22 h22) hbits) (constant (Sh n o) .f32 0x00000000#32))
      (matmul d3 none
        (truncf .bf16 (maximumf (matmul d1 none
          (truncf .bf16 (mulf (subf (shapeCast (Sh n f) v0 h0) (broadcastTo (Sh n f) (shapeCast (Sh 1 f) v2 h1) hb))
            (broadcastTo (Sh n f) (rsqrt (addf (shapeCast (Sh 1 f) v4 h1) (broadcast (Sh 1 f) (Scalar.ofBits .f32 0x3727C5AC#32)))) hb)) hbits)
          (truncf .bf16 (shapeCast (Sh f f) v14 h14) hbits) (constant (Sh n f) .f32 0x00000000#32))
          (broadcast (Sh n f) (Scalar.ofBits .f32 0x00000000#32))) hbits)
        (truncf .bf16 (shapeCast (Sh f o) v27 h27) hbits) (constant (Sh n o) .f32 0x00000000#32)) (ix2 r j)
      = Cert.Spec.layerOut (fun r l => v0 (ix2 r l)) (fun l => v2 (ix2 0 l)) (fun l => v4 (ix2 0 l)) (fun l k => v14 (ix2 l k))
          H (fun k j => v22 (ix2 k j)) (fun k j => v27 (ix2 k j)) r j := by
  refine (addf_apply _ _ _).trans ?_
  unfold Cert.Spec.layerOut
  refine congrArg₂ (· + ·) ?_ ?_
  · refine (hd2.apply none _ _ r j).trans (Finset.sum_congr rfl fun k _ => ?_)
    exact congrArg₂ (· * ·) (hH r k) (congrFun (shapeCast_self v22 h22) _)
  · refine (hd3.apply none _ _ r j).trans (Finset.sum_congr rfl fun k _ => ?_)
    exact congrArg₂ (· * ·) (hidden_at v0 v2 v4 v14 h0 h1 hb h14 hbits d1 hd1 r k) (congrFun (shapeCast_self v27 h27) _)

/-- A head's result block at (r, j): dense, positive part, dense. -/
theorem head_at {a b e : ℕ} (x : FVec Ideal (Sh n a) .bf16) (X : Fin n → Fin a → EReal) (hX : ∀ r l, x (ix2 r l) = X r l)
    (w1 : FVec Ideal (Sh a b) .f32) (w2 : FVec Ideal (Sh b e) .f32)
    (h1 : (Sh a b).ShapeCasts (Sh a b)) (h2 : (Sh b e).ShapeCasts (Sh b e)) (hbits : FTy.bf16.bits < FTy.f32.bits)
    (d1 : DotDims (Sh n a) (Sh a b) (Sh n b)) (hd1 : Plain d1) (d2 : DotDims (Sh n b) (Sh b e) (Sh n e)) (hd2 : Plain d2)
    (r : Fin n) (j : Fin e) :
    matmul d2 none
        (truncf .bf16 (maximumf (matmul d1 none x (truncf .bf16 (shapeCast (Sh a b) w1 h1) hbits) (constant (Sh n b) .f32 0x00000000#32))
          (broadcast (Sh n b) (Scalar.ofBits .f32 0x00000000#32))) hbits)
        (truncf .bf16 (shapeCast (Sh b e) w2 h2) hbits) (constant (Sh n e) .f32 0x00000000#32) (ix2 r j)
      = Cert.Spec.head X (fun l k => w1 (ix2 l k)) (fun k j => w2 (ix2 k j)) r j := by
  unfold Cert.Spec.head
  refine (hd2.apply none _ _ r j).trans (Finset.sum_congr rfl fun k _ => ?_)
  refine congrArg₂ (· * ·) ?_ (congrFun (shapeCast_self w2 h2) _)
  refine (truncf_apply (ψ := .bf16) _ hbits _).trans ((maximumf_apply _ _ _).trans (congrArg₂ max ?_ Ideal.ofBits_zero_f32))
  refine (hd1.apply none _ _ r k).trans (Finset.sum_congr rfl fun l _ => ?_)
  exact congrArg₂ (· * ·) (hX r l) (congrFun (shapeCast_self w1 h1) _)

end Cert.Layers

end
-- ==== Proof.Layer1Pay.lean ====
/-
  The first layer's block arithmetic, entry by entry: entry (r, j) of the block the body stores is the layer's
  formula at row r of the loaded blocks (1000 rows, 129 aggregate columns, 128 state columns, 257 result columns).
-/
import proofs.«167109_j5557687681833_1_alg».proof.Proof.Gen.KernelIdeal.Skeleton
import proofs.«167109_j5557687681833_1_alg».proof.Proof.LayerBlock

noncomputable section

namespace Cert.Layers

open Cert.KernelIdeal Cert.KernelIdeal.Gen Idealize.ShloMosaic Idealize.ShloMosaic.ValueIdx

/-- The stored block of the first layer at (r, j). -/
theorem pay1_at (v0 : Vec Ideal S1000x129 .f32) (v2 v4 : Vec Ideal S1x129 .f32) (v14 : Vec Ideal S129x129 .f32)
    (v20 : Vec Ideal S1000x128 .f32) (v22 : Vec Ideal S128x257 .f32) (v27 : Vec Ideal S129x257 .f32) (r : Fin 1000) (j : Fin 257) :
    k1_pay1 (F := Ideal) v0 v2 v4 v14 v20 v22 v27 (ix2 r j)
      = Cert.Spec.layerOut (fun r l => v0 (ix2 r l)) (fun l => v2 (ix2 0 l)) (fun l => v4 (ix2 0 l)) (fun l k => v14 (ix2 l k))
          (fun r k => v20 (ix2 r k)) (fun k j => v22 (ix2 k j)) (fun k j => v27 (ix2 k j)) r j := by
  unfold k1_pay1
  exact layer_at v0 v2 v4 v14 (truncf .bf16 v20 bitsLt_bf16_f32) (fun r k => v20 (ix2 r k)) (fun _ _ => rfl) v22 v27
    shapeCasts_S1000x129_S1000x129 shapeCasts_S1x129_S1x129 broadcasts_S1x129_S1000x129 shapeCasts_S129x129_S129x129
    shapeCasts_S128x257_S128x257 shapeCasts_S129x257_S129x257 bitsLt_bf16_f32
    dot_S1000x129_S129x129_S1000x129_1_0_0_1_n_n ⟨rfl, rfl, rfl, rfl, rfl, rfl, rfl, rfl⟩
    dot_S1000x128_S128x257_S1000x257_1_0_0_1_n_n ⟨rfl, rfl, rfl, rfl, rfl, rfl, rfl, rfl⟩
    dot_S1000x129_S129x257_S1000x257_1_0_0_1_n_n ⟨rfl, rfl, rfl, rfl, rfl, rfl, rfl, rfl⟩ r j

end Cert.Layers

end
-- ==== Proof.Layer1Blocks.lean ====
/-
  The first layer, from blocks to the whole array.

  The grid has 100 points; point t loads rows 1000·t … 1000·t + 999 of the aggregate and of the previous
  states, the whole statistics and weight arrays, and writes back rows 1000·t … 1000·t + 999 of the result.
  A row of the result depends only on the same row of the aggregate and of the previous states, so what point
  t writes back is block t of ONE function of the whole arrays; the 100 blocks cover the 100000 rows (row r is
  in the block of point r / 1000), so the array ends holding that function.
-/
import proofs.«167109_j5557687681833_1_alg».proof.Proof.Gen.KernelIdeal.Frame
import Idealize.ShloMosaic.Lib.Pipeline.Value
import proofs.«167109_j5557687681833_1_alg».proof.Proof.Layer1Pay

set_option maxRecDepth 16384

noncomputable section

namespace Cert.Layers

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The first layer over the whole arrays as the region finds them. -/
def L1 (c : Dev nD) (r : Fin 100000) (j : Fin 257) : EReal :=
  Cert.Spec.layerOut (fun r l => V c (Pipeline.arrRef spec1 0) (ix2 r l)) (fun l => V c (Pipeline.arrRef spec1 2) (ix2 0 l))
    (fun l => V c (Pipeline.arrRef spec1 3) (ix2 0 l)) (fun l k => V c (Pipeline.arrRef spec1 4) (ix2 l k))
    (fun r k => V c (Pipeline.arrRef spec1 1) (ix2 r k)) (fun k j => V c (Pipeline.arrRef spec1 5) (ix2 k j))
    (fun k j => V c (Pipeline.arrRef spec1 6) (ix2 k j)) r j

/-- The block index maps over the grid: the row-blocked windows sit at block t, the others at block 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- A row-blocked window's block at point `t` reads rows 1000·t … of its array. -/
theorem rd1_0 (c : Dev nD) (t : Fin cfg1.N) (p : Fin 1000) (l : Fin 129) (r : Fin 100000) (hr : r.val = t.val * 1000 + p.val) :
    iblk1 V c 0 t (ix2 p l) = V c (Pipeline.arrRef spec1 0) (ix2 r l) := by
  obtain ⟨e00, e01, -⟩ := idx1 t
  show V c (Pipeline.arrRef spec1 0) (((cfg1.win 0).blk t).view.emb (ix2 p l)) = _
  refine congrArg _ (funext fun a => Fin.ext ?_)
  match a with
  | ⟨0, _⟩ => show win1_0.index t (0 : Fin 2) * 1000 + 1 * p.val = r.val; omega
  | ⟨1, _⟩ => show win1_0.index t (1 : Fin 2) * 129 + 1 * l.val = l.val; omega

theorem rd1_1 (c : Dev nD) (t : Fin cfg1.N) (p : Fin 1000) (k : Fin 128) (r : Fin 100000) (hr : r.val = t.val * 1000 + p.val) :
    iblk1 V c 1 t (ix2 p k) = V c (Pipeline.arrRef spec1 1) (ix2 r k) := by
  obtain ⟨-, -, e10, e11, -⟩ := idx1 t
  show V c (Pipeline.arrRef spec1 1) (((cfg1.win 1).blk t).view.emb (ix2 p k)) = _
  refine congrArg _ (funext fun a => Fin.ext ?_)
  match a with
  | ⟨0, _⟩ => show win1_1.index t (0 : Fin 2) * 1000 + 1 * p.val = r.val; omega
  | ⟨1, _⟩ => show win1_1.index t (1 : Fin 2) * 128 + 1 * k.val = k.val; omega

/-- A whole-array window's block at any point is its array. -/
theorem rd1_2 (c : Dev nD) (t : Fin cfg1.N) (z : Fin 1) (l : Fin 129) :
    iblk1 V c 2 t (ix2 z l) = V c (Pipeline.arrRef spec1 2) (ix2 z l) := by
  obtain ⟨-, -, -, -, e20, e21, -⟩ := idx1 t
  show V c (Pipeline.arrRef spec1 2) (((cfg1.win 2).blk t).view.emb (ix2 z l)) = _
  refine congrArg _ (funext fun a => Fin.ext ?_)
  match a with
  | ⟨0, _⟩ => show win1_2.index t (0 : Fin 2) * 1 + 1 * z.val = z.val; omega
  | ⟨1, _⟩ => show win1_2.index t (1 : Fin 2) * 129 + 1 * l.val = l.val; omega

theorem rd1_3 (c : Dev nD) (t : Fin cfg1.N) (z : Fin 1) (l : Fin 129) :
    iblk1 V c 3 t (ix2 z l) = V c (Pipeline.arrRef spec1 3) (ix2 z l) := by
  obtain ⟨-, -, -, -, -, -, e30, e31, -⟩ := idx1 t
  show V c (Pipeline.arrRef spec1 3) (((cfg1.win 3).blk t).view.emb (ix2 z l)) = _
  refine congrArg _ (funext fun a => Fin.ext ?_)
  match a with
  | ⟨0, _⟩ => show win1_3.index t (0 : Fin 2) * 1 + 1 * z.val = z.val; omega
  | ⟨1, _⟩ => show win1_3.index t (1 : Fin 2) * 129 + 1 * l.val = l.val; omega

theorem rd1_4 (c : Dev nD) (t : Fin cfg1.N) (l : Fin 129) (k : Fin 129) :
    iblk1 V c 4 t (ix2 l k) = V c (Pipeline.arrRef spec1 4) (ix2 l k) := by
  obtain ⟨-, -, -, -, -, -, -, -, e40, e41, -⟩ := idx1 t
  show V c (Pipeline.arrRef spec1 4) (((cfg1.win 4).blk t).view.emb (ix2 l k)) = _
  refine congrArg _ (funext fun a => Fin.ext ?_)
  match a with
  | ⟨0, _⟩ => show win1_4.index t (0 : Fin 2) * 129 + 1 * l.val = l.val; omega
  | ⟨1, _⟩ => show win1_4.index t (1 : Fin 2) * 129 + 1 * k.val = k.val; omega

theorem rd1_5 (c : Dev nD) (t : Fin cfg1.N) (k : Fin 128) (j : Fin 257) :
    iblk1 V c 5 t (ix2 k j) = V c (Pipeline.arrRef spec1 5) (ix2 k j) := by
  obtain ⟨-, -, -, -, -, -, -, -, -, -, e50, e51, -⟩ := idx1 t
  show V c (Pipeline.arrRef spec1 5) (((cfg1.win 5).blk t).view.emb (ix2 k j)) = _
  refine congrArg _ (funext fun a => Fin.ext ?_)
  match a with
  | ⟨0, _⟩ => show win1_5.index t (0 : Fin 2) * 128 + 1 * k.val = k.val; omega
  | ⟨1, _⟩ => show win1_5.index t (1 : Fin 2) * 257 + 1 * j.val = j.val; omega

theorem rd1_6 (c : Dev nD) (t : Fin cfg1.N) (k : Fin 129) (j : Fin 257) :
    iblk1 V c 6 t (ix2 k j) = V c (Pipeline.arrRef spec1 6) (ix2 k j) := by
  obtain ⟨-, -, -, -, -, -, -, -, -, -, -, -, e60, e61, -⟩ := idx1 t
  show V c (Pipeline.arrRef spec1 6) (((cfg1.win 6).blk t).view.emb (ix2 k j)) = _
  refine congrArg _ (funext fun a => Fin.ext ?_)
  match a with
  | ⟨0, _⟩ => show win1_6.index t (0 : Fin 2) * 129 + 1 * k.val = k.val; omega
  | ⟨1, _⟩ => show win1_6.index t (1 : Fin 2) * 257 + 1 * j.val = j.val; omega

set_option maxHeartbeats 1000000 in
/-- WHAT POINT `t` WRITES BACK is block `t` of the layer over the whole arrays. -/
theorem flushed1 (c : Dev nD) (t : Fin cfg1.N) :
    (dat1 V c).flushed 7 t = ((cfg1.win 7).blk t).view.read (Elt Ideal) (fun i => L1 V c (i 0) (i 1)) := by
  show (cfg1.win 7).cut (grid1.coords t) ((dat1 V c).after 7 t) = _
  rw [after1_7]
  unfold out1_7
  rw [View.canon_unit_zero hz]
  simp only [View.ld_unit_zero (S := S1000x129) hz, View.ld_unit_zero (S := S1x129) hz, View.ld_unit_zero (S := S129x129) hz,
    View.ld_unit_zero (S := S1000x128) hz, View.ld_unit_zero (S := S128x257) hz, View.ld_unit_zero (S := S129x257) hz]
  obtain ⟨-, -, -, -, -, -, -, -, -, -, -, -, -, -, e70, e71⟩ := idx1 t
  funext y
  have hy0 : (y 0).val < 1000 := (y 0).isLt
  have hy1 : (y 1).val < 257 := (y 1).isLt
  have hy : (cfg1.win 7).xinj (grid1.coords t) y = ix2 (⟨(y 0).val, hy0⟩ : Fin 1000) (⟨(y 1).val, hy1⟩ : Fin 257) :=
    funext fun a => by match a with | ⟨0, _⟩ => rfl | ⟨1, _⟩ => rfl
  have hr : ((((cfg1.win 7).blk t).view.emb y) 0).val = t.val * 1000 + (y 0).val := by
    show win1_7.index t (0 : Fin 2) * 1000 + 1 * (y 0).val = _; omega
  have hj : (⟨(y 1).val, hy1⟩ : Fin 257) = (((cfg1.win 7).blk t).view.emb y) 1 := Fin.ext (by
    show (y 1).val = win1_7.index t (1 : Fin 2) * 257 + 1 * (y 1).val; omega)
  show k1_pay1 (iblk1 V c 0 t) (iblk1 V c 2 t) (iblk1 V c 3 t) (iblk1 V c 4 t) (iblk1 V c 1 t) (iblk1 V c 5 t) (iblk1 V c 6 t)
      ((cfg1.win 7).xinj (grid1.coords t) y)
    = L1 V c ((((cfg1.win 7).blk t).view.emb y) 0) ((((cfg1.win 7).blk t).view.emb y) 1)
  rw [hy, ← hj]
  refine (pay1_at (iblk1 V c 0 t) (iblk1 V c 2 t) (iblk1 V c 3 t) (iblk1 V c 4 t) (iblk1 V c 1 t) (iblk1 V c 5 t) (iblk1 V c 6 t) _ _).trans ?_
  unfold L1
  exact layerOut_congr _ _ _ _ _ _ _ _ _ _ _ _ _ _ _ _ _ _
    (fun l => rd1_0 V c t _ l _ hr) (fun l => rd1_2 V c t 0 l) (fun l => rd1_3 V c t 0 l) (fun l k => rd1_4 V c t l k)
    (fun k => rd1_1 V c t _ k _ hr) (fun k => rd1_5 V c t k _) (fun k => rd1_6 V c t k _)

/-- An index of the array is in point `t`'s block iff each coordinate is in the block's range on its axis. -/
theorem mem_blk1 (t : Fin cfg1.N) (i : S100000x257.Idx) :
    i ∈ ((cfg1.win 7).blk t).view.set ↔ ∀ a : Fin 2, win1_7.index t a * S1000x257.size a ≤ (i a).val ∧ (i a).val < win1_7.index t a * S1000x257.size a + S1000x257.size a := by
  show i ∈ ((View.whole main_v56).slice (win1_7.rect t)).set ↔ _
  rw [View.set_slice_whole, Rect.mem_set_unit]
  exact Iff.rfl

/-- Row `r` is in the block of point `r / 1000`. -/
theorem cover1 (i : S100000x257.Idx) : ∃ t : Fin cfg1.N, (cfg1.win 7).flush t = true ∧ i ∈ ((cfg1.win 7).blk t).view.set := by
  have hi0 : (i 0).val < 100000 := (i 0).isLt
  have hi1 : (i 1).val < 257 := (i 1).isLt
  have hN : cfg1.N = 100 := N_1
  let t : Fin cfg1.N := ⟨(i 0).val / 1000, by rw [hN]; omega⟩
  obtain ⟨-, -, -, -, -, -, -, -, -, -, -, -, -, -, e70, e71⟩ := idx1 t
  have ht : t.val = (i 0).val / 1000 := rfl
  refine ⟨t, flush1_7 t, ?_⟩
  rw [mem_blk1]
  intro a
  match a with
  | ⟨0, _⟩ => show win1_7.index t (0 : Fin 2) * 1000 ≤ (i 0).val ∧ (i 0).val < win1_7.index t (0 : Fin 2) * 1000 + 1000; omega
  | ⟨1, _⟩ => show win1_7.index t (1 : Fin 2) * 257 ≤ (i 1).val ∧ (i 1).val < win1_7.index t (1 : Fin 2) * 257 + 257; omega

/-- THE ARRAY after the region: the first layer of the arrays the region found, entry by entry. -/
theorem out1 (c : Dev nD) (r : Fin 100000) (j : Fin 257) :
    (dat1 (F := Ideal) V c).arrAt 7 cfg1.N (ix2 r j)
      = Cert.Spec.layerOut (fun r l => V c (Pipeline.arrRef spec1 0) (ix2 r l)) (fun l => V c (Pipeline.arrRef spec1 2) (ix2 0 l))
          (fun l => V c (Pipeline.arrRef spec1 3) (ix2 0 l)) (fun l k => V c (Pipeline.arrRef spec1 4) (ix2 l k))
          (fun r k => V c (Pipeline.arrRef spec1 1) (ix2 r k)) (fun k j => V c (Pipeline.arrRef spec1 5) (ix2 k j))
          (fun k j => V c (Pipeline.arrRef spec1 6) (ix2 k j)) r j := by
  have h := (dat1 V c).arrAt_eq_of_cover 7 (fun i => L1 V c (i 0) (i 1)) (fun t _ => flushed1 V c t) cover1
  exact congrFun h (ix2 r j)

end Cert.Layers

end
-- ==== Proof.ChainsEq.lean ====
/-
  The host operations the two programs share (the edge feature column, the two aggregates, the queried pairs' joined
  states) are the same functions: the same operations in the same order over the same shapes.
-/
import proofs.«167109_j5557687681833_1_alg».proof.Proof.KerHostChains
import proofs.«167109_j5557687681833_1_alg».proof.Proof.RefStages

noncomputable section

namespace Cert.ChainsEq

open Idealize.ShloMosaic

theorem gcol_eq : @Cert.KerRun.gcolK = @Cert.RefRun.gcol := rfl

theorem agg129_eq : @Cert.KerRun.agg129K = @Cert.RefRun.agg129 := rfl

theorem agg258_eq : @Cert.KerRun.agg258K = @Cert.RefRun.agg258 := rfl

theorem hq_eq : @Cert.KerRun.hqK = @Cert.RefRun.hq := rfl

end Cert.ChainsEq

end
-- ==== Proof.GlueE1.lean ====
/-
  The kernel's states after the first layer, entry by entry, as the layer's formula over the aggregate of the arguments.

  The states are the second region's output, which is the layer over the region's seven input arrays.  The first is
  the aggregate (it passes through the first region unchanged); the mean and variance rows are the first region's
  column totals and totals of squares over the node count, and those totals are the column sums of the aggregate;
  the previous states are the argument; the three maps are the two weight arguments transposed, the second one split
  at column 128.
-/
import proofs.«167109_j5557687681833_1_alg».proof.Proof.KerHost0
import proofs.«167109_j5557687681833_1_alg».proof.Proof.KerHost1
import proofs.«167109_j5557687681833_1_alg».proof.Proof.Stats0
import proofs.«167109_j5557687681833_1_alg».proof.Proof.Layer1Blocks
import proofs.«167109_j5557687681833_1_alg».proof.Proof.ChainsEq

set_option maxRecDepth 16384

noncomputable section

namespace Cert.Glue

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

/-- The aggregate the first two regions read is the reference's aggregate of the arguments. -/
theorem agg_in0 : V1 m ρ c (Pipeline.arrRef spec0 0) = Cert.RefRun.agg129 (m ((c.tc : Thread nD τ).loc main_arg0)) (m ((c.tc : Thread nD τ).loc main_arg1)) (Cert.RefRun.gcol (m ((c.tc : Thread nD τ).loc main_arg2))) (m ((c.tc : Thread nD τ).loc main_arg5)) := by
  rw [Cert.KerRun.V1_win0 m ρ c, Cert.ChainsEq.agg129_eq, Cert.ChainsEq.gcol_eq]

theorem agg_in1 : V3 m ρ c (Pipeline.arrRef spec1 0) = Cert.RefRun.agg129 (m ((c.tc : Thread nD τ).loc main_arg0)) (m ((c.tc : Thread nD τ).loc main_arg1)) (Cert.RefRun.gcol (m ((c.tc : Thread nD τ).loc main_arg2))) (m ((c.tc : Thread nD τ).loc main_arg5)) := by
  rw [Cert.KerRun.V3_win0 m ρ c, Cert.ChainsEq.agg129_eq, Cert.ChainsEq.gcol_eq]

/-- The first region's first output is the aggregate's column sums. -/
theorem totals0 : (fun l : Fin 129 => (dat0 (V1 m ρ) c).arrAt 1 cfg0.N (ix2 0 l))
    = Cert.Spec.colSum (fun (r : Fin 100000) (l : Fin 129) => Cert.RefRun.agg129 (m ((c.tc : Thread nD τ).loc main_arg0)) (m ((c.tc : Thread nD τ).loc main_arg1)) (Cert.RefRun.gcol (m ((c.tc : Thread nD τ).loc main_arg2))) (m ((c.tc : Thread nD τ).loc main_arg5)) (ix2 r l)) :=
  funext fun l => by rw [Cert.Stats.sum0 (V1 m ρ) c l, agg_in0 m ρ c]

/-- Its second output is the column sums of the squares. -/
theorem totalsSq0 : (fun l : Fin 129 => (dat0 (V1 m ρ) c).arrAt 2 cfg0.N (ix2 0 l))
    = Cert.Spec.colSumSq (fun (r : Fin 100000) (l : Fin 129) => Cert.RefRun.agg129 (m ((c.tc : Thread nD τ).loc main_arg0)) (m ((c.tc : Thread nD τ).loc main_arg1)) (Cert.RefRun.gcol (m ((c.tc : Thread nD τ).loc main_arg2))) (m ((c.tc : Thread nD τ).loc main_arg5)) (ix2 r l)) :=
  funext fun l => by rw [Cert.Stats.sumsq0 (V1 m ρ) c l, agg_in0 m ρ c]

/-- The states after the first layer at (r, j): the layer over the aggregate of the arguments, with the mean and
    the variance from the column totals. -/
theorem glue_e1 (r : Fin 100000) (j : Fin 257) :
    W4 m ρ c (Proc.devRef .tc main_v56) (ix2 r j)
      = Cert.Spec.layerOut (p := 128) (f := 129) (fun (r : Fin 100000) (l : Fin 129) => Cert.RefRun.agg129 (m ((c.tc : Thread nD τ).loc main_arg0)) (m ((c.tc : Thread nD τ).loc main_arg1)) (Cert.RefRun.gcol (m ((c.tc : Thread nD τ).loc main_arg2))) (m ((c.tc : Thread nD τ).loc main_arg5)) (ix2 r l))
          (Cert.Spec.meanOfSum (Cert.Spec.colSum (fun (r : Fin 100000) (l : Fin 129) => Cert.RefRun.agg129 (m ((c.tc : Thread nD τ).loc main_arg0)) (m ((c.tc : Thread nD τ).loc main_arg1)) (Cert.RefRun.gcol (m ((c.tc : Thread nD τ).loc main_arg2))) (m ((c.tc : Thread nD τ).loc main_arg5)) (ix2 r l))))
          (Cert.Spec.varOfSums (Cert.Spec.colSum (fun (r : Fin 100000) (l : Fin 129) => Cert.RefRun.agg129 (m ((c.tc : Thread nD τ).loc main_arg0)) (m ((c.tc : Thread nD τ).loc main_arg1)) (Cert.RefRun.gcol (m ((c.tc : Thread nD τ).loc main_arg2))) (m ((c.tc : Thread nD τ).loc main_arg5)) (ix2 r l)))
            (Cert.Spec.colSumSq (fun (r : Fin 100000) (l : Fin 129) => Cert.RefRun.agg129 (m ((c.tc : Thread nD τ).loc main_arg0)) (m ((c.tc : Thread nD τ).loc main_arg1)) (Cert.RefRun.gcol (m ((c.tc : Thread nD τ).loc main_arg2))) (m ((c.tc : Thread nD τ).loc main_arg5)) (ix2 r l))))
          (fun (l k : Fin 129) => (m ((c.tc : Thread nD τ).loc main_arg6)) (ix2 k l)) (fun (r : Fin 100000) (k : Fin 128) => (m ((c.tc : Thread nD τ).loc main_arg5)) (ix2 r k))
          (fun (k : Fin 128) (j : Fin 257) => (m ((c.tc : Thread nD τ).loc main_arg7)) (ix2 j (Fin.castAdd 129 k)))
          (fun (k : Fin 129) (j : Fin 257) => (m ((c.tc : Thread nD τ).loc main_arg7)) (ix2 j (Fin.natAdd 128 k))) r j := by
  rw [show W4 m ρ c (Proc.devRef .tc main_v56) = _ from W4_arr m ρ c 7, Cert.Layers.out1 (V3 m ρ) c r j]
  refine Cert.Layers.layerOut_congr _ _ _ _ _ _ _ _ _ _ _ _ _ _ _ _ _ _ (fun l => ?_) (fun l => ?_) (fun l => ?_)
    (fun l k => Cert.KerRun.V3_win4 m ρ c l k) (fun k => ?_) (fun k => Cert.KerRun.V3_win5 m ρ c k j)
    (fun k => Cert.KerRun.V3_win6 m ρ c k j)
  · rw [agg_in1 m ρ c]
  · rw [Cert.KerRun.V3_win2 m ρ c l, totals0 m ρ c]
  · rw [Cert.KerRun.V3_win3 m ρ c l, totals0 m ρ c, totalsSq0 m ρ c]
  · rw [Cert.KerRun.V3_win1 m ρ c]

end Cert.Glue

end
-- ==== Proof.Layer3Pay.lean ====
/-
  The second layer's block arithmetic, entry by entry, and the node head on top of it.

  The layer is the first layer's text at other widths (1000 rows, 258 aggregate columns, 257 state columns,
  515 result columns).  The node head takes the layer's result block as its input: a dense map to 128 columns,
  the positive part, and a dense map to 10 columns.
-/
import proofs.«167109_j5557687681833_1_alg».proof.Proof.Gen.KernelIdeal.Skeleton
import proofs.«167109_j5557687681833_1_alg».proof.Proof.LayerBlock

noncomputable section

namespace Cert.Layers

open Cert.KernelIdeal Cert.KernelIdeal.Gen Idealize.ShloMosaic Idealize.ShloMosaic.ValueIdx

/-- The stored block of the second layer at (r, j). -/
theorem pay3_at (v0 : Vec Ideal S1000x258 .f32) (v2 v4 : Vec Ideal S1x258 .f32) (v14 : Vec Ideal S258x258 .f32)
    (v20 : Vec Ideal S1000x257 .f32) (v23 : Vec Ideal S257x515 .f32) (v28 : Vec Ideal S258x515 .f32) (r : Fin 1000) (j : Fin 515) :
    k3_pay2 (F := Ideal) v0 v2 v4 v14 v20 v23 v28 (ix2 r j)
      = Cert.Spec.layerOut (fun r l => v0 (ix2 r l)) (fun l => v2 (ix2 0 l)) (fun l => v4 (ix2 0 l)) (fun l k => v14 (ix2 l k))
          (fun r k => v20 (ix2 r k)) (fun k j => v23 (ix2 k j)) (fun k j => v28 (ix2 k j)) r j := by
  unfold k3_pay2
  exact layer_at v0 v2 v4 v14 (truncf .bf16 (shapeCast S1000x257 v20 shapeCasts_S1000x257_S1000x257) bitsLt_bf16_f32)
    (fun r k => v20 (ix2 r k)) (fun r k => congrFun (shapeCast_self v20 shapeCasts_S1000x257_S1000x257) (ix2 r k)) v23 v28
    shapeCasts_S1000x258_S1000x258 shapeCasts_S1x258_S1x258 broadcasts_S1x258_S1000x258 shapeCasts_S258x258_S258x258
    shapeCasts_S257x515_S257x515 shapeCasts_S258x515_S258x515 bitsLt_bf16_f32
    dot_S1000x258_S258x258_S1000x258_1_0_0_1_n_n ⟨rfl, rfl, rfl, rfl, rfl, rfl, rfl, rfl⟩
    dot_S1000x257_S257x515_S1000x515_1_0_0_1_n_n ⟨rfl, rfl, rfl, rfl, rfl, rfl, rfl, rfl⟩
    dot_S1000x258_S258x515_S1000x515_1_0_0_1_n_n ⟨rfl, rfl, rfl, rfl, rfl, rfl, rfl, rfl⟩ r j

/-- The stored block of the node head at (r, j): the head of the second layer's block. -/
theorem pay3n_at (v0 : Vec Ideal S1000x258 .f32) (v2 v4 : Vec Ideal S1x258 .f32) (v14 : Vec Ideal S258x258 .f32)
    (v20 : Vec Ideal S1000x257 .f32) (v23 : Vec Ideal S257x515 .f32) (v28 : Vec Ideal S258x515 .f32)
    (v35 : Vec Ideal S515x128 .f32) (v42 : Vec Ideal S128x10 .f32) (r : Fin 1000) (j : Fin 10) :
    k3_pay1 (F := Ideal) (k3_pay3 v0 v2 v4 v14 v20 v23 v28) v35 v42 (ix2 r j)
      = Cert.Spec.head
          (fun r l => Cert.Spec.layerOut (fun r l => v0 (ix2 r l)) (fun l => v2 (ix2 0 l)) (fun l => v4 (ix2 0 l)) (fun l k => v14 (ix2 l k))
            (fun r k => v20 (ix2 r k)) (fun k j => v23 (ix2 k j)) (fun k j => v28 (ix2 k j)) r l)
          (fun l k => v35 (ix2 l k)) (fun k j => v42 (ix2 k j)) r j := by
  unfold k3_pay1
  exact head_at (k3_pay3 v0 v2 v4 v14 v20 v23 v28) _ (fun r l => pay3_at v0 v2 v4 v14 v20 v23 v28 r l) v35 v42
    shapeCasts_S515x128_S515x128 shapeCasts_S128x10_S128x10 bitsLt_bf16_f32
    dot_S1000x515_S515x128_S1000x128_1_0_0_1_n_n ⟨rfl, rfl, rfl, rfl, rfl, rfl, rfl, rfl⟩
    dot_S1000x128_S128x10_S1000x10_1_0_0_1_n_n ⟨rfl, rfl, rfl, rfl, rfl, rfl, rfl, rfl⟩ r j

end Cert.Layers

end
-- ==== Proof.Layer3Blocks.lean ====
/-
  The second layer and the node head, from blocks to the whole arrays.

  The grid has 100 points; point t loads rows 1000·t … 1000·t + 999 of the aggregate and of the previous
  states and the whole statistics and weight arrays, and writes back rows 1000·t … 1000·t + 999 of the layer's
  result (515 columns) and of the node head's result (10 columns).  A row of either result depends only on the
  same row of the aggregate and of the previous states, so what point t writes back is block t of one function
  of the whole arrays, and the 100 blocks cover the 100000 rows (row r is in the block of point r / 1000).
-/
import proofs.«167109_j5557687681833_1_alg».proof.Proof.Gen.KernelIdeal.Frame
import Idealize.ShloMosaic.Lib.Pipeline.Value
import proofs.«167109_j5557687681833_1_alg».proof.Proof.Layer3Pay

set_option maxRecDepth 16384

noncomputable section

namespace Cert.Layers

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The second layer over the whole arrays as the region finds them. -/
def L3 (c : Dev nD) (r : Fin 100000) (j : Fin 515) : EReal :=
  Cert.Spec.layerOut (fun r l => V c (Pipeline.arrRef spec3 0) (ix2 r l)) (fun l => V c (Pipeline.arrRef spec3 2) (ix2 0 l))
    (fun l => V c (Pipeline.arrRef spec3 3) (ix2 0 l)) (fun l k => V c (Pipeline.arrRef spec3 4) (ix2 l k))
    (fun r k => V c (Pipeline.arrRef spec3 1) (ix2 r k)) (fun k j => V c (Pipeline.arrRef spec3 5) (ix2 k j))
    (fun k j => V c (Pipeline.arrRef spec3 6) (ix2 k j)) r j

/-- The node head over the whole arrays as the region finds them. -/
def N3 (c : Dev nD) (r : Fin 100000) (j : Fin 10) : EReal :=
  Cert.Spec.head (fun r l => L3 V c r l) (fun l k => V c (Pipeline.arrRef spec3 7) (ix2 l k))
    (fun k j => V c (Pipeline.arrRef spec3 8) (ix2 k j)) r j

/-- The block index maps over the grid: the row-blocked windows sit at block t, the others at block 0. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = t.val ∧ win3_9.index t (1 : Fin 2) = 0
    ∧ win3_10.index t (0 : Fin 2) = t.val ∧ win3_10.index t (1 : Fin 2) = 0 :=
  (by decide +kernel : ∀ t : Fin grid3.N, _)

/-- A row-blocked window's block at point `t` reads rows 1000·t … of its array. -/
theorem rd3_0 (c : Dev nD) (t : Fin cfg3.N) (p : Fin 1000) (l : Fin 258) (r : Fin 100000) (hr : r.val = t.val * 1000 + p.val) :
    iblk3 V c 0 t (ix2 p l) = V c (Pipeline.arrRef spec3 0) (ix2 r l) := by
  obtain ⟨e0, e1, -⟩ := idx3 t
  show V c (Pipeline.arrRef spec3 0) (((cfg3.win 0).blk t).view.emb (ix2 p l)) = _
  refine congrArg _ (funext fun a => Fin.ext ?_)
  match a with
  | ⟨0, _⟩ => show win3_0.index t (0 : Fin 2) * 1000 + 1 * p.val = r.val; omega
  | ⟨1, _⟩ => show win3_0.index t (1 : Fin 2) * 258 + 1 * l.val = l.val; omega

theorem rd3_1 (c : Dev nD) (t : Fin cfg3.N) (p : Fin 1000) (k : Fin 257) (r : Fin 100000) (hr : r.val = t.val * 1000 + p.val) :
    iblk3 V c 1 t (ix2 p k) = V c (Pipeline.arrRef spec3 1) (ix2 r k) := by
  obtain ⟨-, -, e0, e1, -⟩ := idx3 t
  show V c (Pipeline.arrRef spec3 1) (((cfg3.win 1).blk t).view.emb (ix2 p k)) = _
  refine congrArg _ (funext fun a => Fin.ext ?_)
  match a with
  | ⟨0, _⟩ => show win3_1.index t (0 : Fin 2) * 1000 + 1 * p.val = r.val; omega
  | ⟨1, _⟩ => show win3_1.index t (1 : Fin 2) * 257 + 1 * k.val = k.val; omega

/-- A whole-array window's block at any point is its array. -/
theorem rd3_2 (c : Dev nD) (t : Fin cfg3.N) (z : Fin 1) (l : Fin 258) :
    iblk3 V c 2 t (ix2 z l) = V c (Pipeline.arrRef spec3 2) (ix2 z l) := by
  obtain ⟨-, -, -, -, e0, e1, -⟩ := idx3 t
  show V c (Pipeline.arrRef spec3 2) (((cfg3.win 2).blk t).view.emb (ix2 z l)) = _
  refine congrArg _ (funext fun a => Fin.ext ?_)
  match a with
  | ⟨0, _⟩ => show win3_2.index t (0 : Fin 2) * 1 + 1 * z.val = z.val; omega
  | ⟨1, _⟩ => show win3_2.index t (1 : Fin 2) * 258 + 1 * l.val = l.val; omega

theorem rd3_3 (c : Dev nD) (t : Fin cfg3.N) (z : Fin 1) (l : Fin 258) :
    iblk3 V c 3 t (ix2 z l) = V c (Pipeline.arrRef spec3 3) (ix2 z l) := by
  obtain ⟨-, -, -, -, -, -, e0, e1, -⟩ := idx3 t
  show V c (Pipeline.arrRef spec3 3) (((cfg3.win 3).blk t).view.emb (ix2 z l)) = _
  refine congrArg _ (funext fun a => Fin.ext ?_)
  match a with
  | ⟨0, _⟩ => show win3_3.index t (0 : Fin 2) * 1 + 1 * z.val = z.val; omega
  | ⟨1, _⟩ => show win3_3.index t (1 : Fin 2) * 258 + 1 * l.val = l.val; omega

theorem rd3_4 (c : Dev nD) (t : Fin cfg3.N) (l : Fin 258) (k : Fin 258) :
    iblk3 V c 4 t (ix2 l k) = V c (Pipeline.arrRef spec3 4) (ix2 l k) := by
  obtain ⟨-, -, -, -, -, -, -, -, e0, e1, -⟩ := idx3 t
  show V c (Pipeline.arrRef spec3 4) (((cfg3.win 4).blk t).view.emb (ix2 l k)) = _
  refine congrArg _ (funext fun a => Fin.ext ?_)
  match a with
  | ⟨0, _⟩ => show win3_4.index t (0 : Fin 2) * 258 + 1 * l.val = l.val; omega
  | ⟨1, _⟩ => show win3_4.index t (1 : Fin 2) * 258 + 1 * k.val = k.val; omega

theorem rd3_5 (c : Dev nD) (t : Fin cfg3.N) (k : Fin 257) (j : Fin 515) :
    iblk3 V c 5 t (ix2 k j) = V c (Pipeline.arrRef spec3 5) (ix2 k j) := by
  obtain ⟨-, -, -, -, -, -, -, -, -, -, e0, e1, -⟩ := idx3 t
  show V c (Pipeline.arrRef spec3 5) (((cfg3.win 5).blk t).view.emb (ix2 k j)) = _
  refine congrArg _ (funext fun a => Fin.ext ?_)
  match a with
  | ⟨0, _⟩ => show win3_5.index t (0 : Fin 2) * 257 + 1 * k.val = k.val; omega
  | ⟨1, _⟩ => show win3_5.index t (1 : Fin 2) * 515 + 1 * j.val = j.val; omega

theorem rd3_6 (c : Dev nD) (t : Fin cfg3.N) (k : Fin 258) (j : Fin 515) :
    iblk3 V c 6 t (ix2 k j) = V c (Pipeline.arrRef spec3 6) (ix2 k j) := by
  obtain ⟨-, -, -, -, -, -, -, -, -, -, -, -, e0, e1, -⟩ := idx3 t
  show V c (Pipeline.arrRef spec3 6) (((cfg3.win 6).blk t).view.emb (ix2 k j)) = _
  refine congrArg _ (funext fun a => Fin.ext ?_)
  match a with
  | ⟨0, _⟩ => show win3_6.index t (0 : Fin 2) * 258 + 1 * k.val = k.val; omega
  | ⟨1, _⟩ => show win3_6.index t (1 : Fin 2) * 515 + 1 * j.val = j.val; omega

theorem rd3_7 (c : Dev nD) (t : Fin cfg3.N) (l : Fin 515) (k : Fin 128) :
    iblk3 V c 7 t (ix2 l k) = V c (Pipeline.arrRef spec3 7) (ix2 l k) := by
  obtain ⟨-, -, -, -, -, -, -, -, -, -, -, -, -, -, e0, e1, -⟩ := idx3 t
  show V c (Pipeline.arrRef spec3 7) (((cfg3.win 7).blk t).view.emb (ix2 l k)) = _
  refine congrArg _ (funext fun a => Fin.ext ?_)
  match a with
  | ⟨0, _⟩ => show win3_7.index t (0 : Fin 2) * 515 + 1 * l.val = l.val; omega
  | ⟨1, _⟩ => show win3_7.index t (1 : Fin 2) * 128 + 1 * k.val = k.val; omega

theorem rd3_8 (c : Dev nD) (t : Fin cfg3.N) (k : Fin 128) (j : Fin 10) :
    iblk3 V c 8 t (ix2 k j) = V c (Pipeline.arrRef spec3 8) (ix2 k j) := by
  obtain ⟨-, -, -, -, -, -, -, -, -, -, -, -, -, -, -, -, e0, e1, -⟩ := idx3 t
  show V c (Pipeline.arrRef spec3 8) (((cfg3.win 8).blk t).view.emb (ix2 k j)) = _
  refine congrArg _ (funext fun a => Fin.ext ?_)
  match a with
  | ⟨0, _⟩ => show win3_8.index t (0 : Fin 2) * 128 + 1 * k.val = k.val; omega
  | ⟨1, _⟩ => show win3_8.index t (1 : Fin 2) * 10 + 1 * j.val = j.val; omega

/-- The layer's block at point `t`, row `p`, is the layer over the whole arrays at row 1000·t + p. -/
theorem blk3_row (c : Dev nD) (t : Fin cfg3.N) (p : Fin 1000) (j : Fin 515) (r : Fin 100000) (hr : r.val = t.val * 1000 + p.val) :
    Cert.Spec.layerOut (fun r l => iblk3 V c 0 t (ix2 r l)) (fun l => iblk3 V c 2 t (ix2 0 l)) (fun l => iblk3 V c 3 t (ix2 0 l))
        (fun l k => iblk3 V c 4 t (ix2 l k)) (fun r k => iblk3 V c 1 t (ix2 r k)) (fun k j => iblk3 V c 5 t (ix2 k j))
        (fun k j => iblk3 V c 6 t (ix2 k j)) p j
      = L3 V c r j := by
  unfold L3
  exact layerOut_congr _ _ _ _ _ _ _ _ _ _ _ _ _ _ _ _ _ _
    (fun l => rd3_0 V c t _ l _ hr) (fun l => rd3_2 V c t 0 l) (fun l => rd3_3 V c t 0 l) (fun l k => rd3_4 V c t l k)
    (fun k => rd3_1 V c t _ k _ hr) (fun k => rd3_5 V c t k _) (fun k => rd3_6 V c t k _)

set_option maxHeartbeats 1000000 in
/-- WHAT POINT `t` WRITES BACK to the layer's result is block `t` of the layer over the whole arrays. -/
theorem flushed3o (c : Dev nD) (t : Fin cfg3.N) :
    (dat3 V c).flushed 9 t = ((cfg3.win 9).blk t).view.read (Elt Ideal) (fun i => L3 V c (i 0) (i 1)) := by
  show (cfg3.win 9).cut (grid3.coords t) ((dat3 V c).after 9 t) = _
  rw [after3_9]
  unfold out3_9
  rw [View.canon_unit_zero hz3]
  simp only [View.ld_unit_zero (S := S1000x258) hz3, View.ld_unit_zero (S := S1x258) hz3, View.ld_unit_zero (S := S258x258) hz3, View.ld_unit_zero (S := S1000x257) hz3, View.ld_unit_zero (S := S257x515) hz3, View.ld_unit_zero (S := S258x515) hz3, View.ld_unit_zero (S := S515x128) hz3, View.ld_unit_zero (S := S128x10) hz3]
  obtain ⟨-, -, -, -, -, -, -, -, -, -, -, -, -, -, -, -, -, -, e90, e91, -⟩ := idx3 t
  funext y
  have hy0 : (y 0).val < 1000 := (y 0).isLt
  have hy1 : (y 1).val < 515 := (y 1).isLt
  have hy : (cfg3.win 9).xinj (grid3.coords t) y = ix2 (⟨(y 0).val, hy0⟩ : Fin 1000) (⟨(y 1).val, hy1⟩ : Fin 515) :=
    funext fun a => by match a with | ⟨0, _⟩ => rfl | ⟨1, _⟩ => rfl
  have hr : ((((cfg3.win 9).blk t).view.emb y) 0).val = t.val * 1000 + (y 0).val := by
    show win3_9.index t (0 : Fin 2) * 1000 + 1 * (y 0).val = _; omega
  have hj : (⟨(y 1).val, hy1⟩ : Fin 515) = (((cfg3.win 9).blk t).view.emb y) 1 := Fin.ext (by
    show (y 1).val = win3_9.index t (1 : Fin 2) * 515 + 1 * (y 1).val; omega)
  show k3_pay2 (iblk3 V c 0 t) (iblk3 V c 2 t) (iblk3 V c 3 t) (iblk3 V c 4 t) (iblk3 V c 1 t) (iblk3 V c 5 t) (iblk3 V c 6 t) ((cfg3.win 9).xinj (grid3.coords t) y)
    = L3 V c ((((cfg3.win 9).blk t).view.emb y) 0) ((((cfg3.win 9).blk t).view.emb y) 1)
  rw [hy, ← hj]
  refine (pay3_at (iblk3 V c 0 t) (iblk3 V c 2 t) (iblk3 V c 3 t) (iblk3 V c 4 t) (iblk3 V c 1 t) (iblk3 V c 5 t) (iblk3 V c 6 t) _ _).trans ?_
  exact blk3_row V c t _ _ _ hr

/-- An index of the layer's result is in point `t`'s block iff each coordinate is in the block's range on its axis. -/
theorem mem_blk3o (t : Fin cfg3.N) (i : S100000x515.Idx) :
    i ∈ ((cfg3.win 9).blk t).view.set ↔ ∀ a : Fin 2, win3_9.index t a * S1000x515.size a ≤ (i a).val ∧ (i a).val < win3_9.index t a * S1000x515.size a + S1000x515.size a := by
  show i ∈ ((View.whole main_v102_0).slice (win3_9.rect t)).set ↔ _
  rw [View.set_slice_whole, Rect.mem_set_unit]
  exact Iff.rfl

/-- Row `r` of the layer's result is in the block of point `r / 1000`. -/
theorem cover3o (i : S100000x515.Idx) : ∃ t : Fin cfg3.N, (cfg3.win 9).flush t = true ∧ i ∈ ((cfg3.win 9).blk t).view.set := by
  have hi0 : (i 0).val < 100000 := (i 0).isLt
  have hi1 : (i 1).val < 515 := (i 1).isLt
  have hN : cfg3.N = 100 := N_3
  let t : Fin cfg3.N := ⟨(i 0).val / 1000, by rw [hN]; omega⟩
  obtain ⟨-, -, -, -, -, -, -, -, -, -, -, -, -, -, -, -, -, -, e90, e91, -⟩ := idx3 t
  have ht : t.val = (i 0).val / 1000 := rfl
  refine ⟨t, flush3_9 t, ?_⟩
  rw [mem_blk3o]
  intro a
  match a with
  | ⟨0, _⟩ => show win3_9.index t (0 : Fin 2) * 1000 ≤ (i 0).val ∧ (i 0).val < win3_9.index t (0 : Fin 2) * 1000 + 1000; omega
  | ⟨1, _⟩ => show win3_9.index t (1 : Fin 2) * 515 ≤ (i 1).val ∧ (i 1).val < win3_9.index t (1 : Fin 2) * 515 + 515; omega

/-- THE LAYER'S ARRAY after the region: the second layer of the arrays the region found, entry by entry. -/
theorem out3 (c : Dev nD) (r : Fin 100000) (j : Fin 515) :
    (dat3 (F := Ideal) V c).arrAt 9 cfg3.N (ix2 r j)
      = Cert.Spec.layerOut (fun r l => V c (Pipeline.arrRef spec3 0) (ix2 r l)) (fun l => V c (Pipeline.arrRef spec3 2) (ix2 0 l))
          (fun l => V c (Pipeline.arrRef spec3 3) (ix2 0 l)) (fun l k => V c (Pipeline.arrRef spec3 4) (ix2 l k))
          (fun r k => V c (Pipeline.arrRef spec3 1) (ix2 r k)) (fun k j => V c (Pipeline.arrRef spec3 5) (ix2 k j))
          (fun k j => V c (Pipeline.arrRef spec3 6) (ix2 k j)) r j := by
  have h := (dat3 V c).arrAt_eq_of_cover 9 (fun i => L3 V c (i 0) (i 1)) (fun t _ => flushed3o V c t) cover3o
  exact congrFun h (ix2 r j)

set_option maxHeartbeats 1000000 in
/-- WHAT POINT `t` WRITES BACK to the node head's result is block `t` of the node head over the whole arrays. -/
theorem flushed3n (c : Dev nD) (t : Fin cfg3.N) :
    (dat3 V c).flushed 10 t = ((cfg3.win 10).blk t).view.read (Elt Ideal) (fun i => N3 V c (i 0) (i 1)) := by
  show (cfg3.win 10).cut (grid3.coords t) ((dat3 V c).after 10 t) = _
  rw [after3_10]
  unfold out3_10
  rw [View.canon_unit_zero hz3]
  simp only [View.ld_unit_zero (S := S1000x258) hz3, View.ld_unit_zero (S := S1x258) hz3, View.ld_unit_zero (S := S258x258) hz3, View.ld_unit_zero (S := S1000x257) hz3, View.ld_unit_zero (S := S257x515) hz3, View.ld_unit_zero (S := S258x515) hz3, View.ld_unit_zero (S := S515x128) hz3, View.ld_unit_zero (S := S128x10) hz3]
  obtain ⟨-, -, -, -, -, -, -, -, -, -, -, -, -, -, -, -, -, -, -, -, e100, e101⟩ := idx3 t
  funext y
  have hy0 : (y 0).val < 1000 := (y 0).isLt
  have hy1 : (y 1).val < 10 := (y 1).isLt
  have hy : (cfg3.win 10).xinj (grid3.coords t) y = ix2 (⟨(y 0).val, hy0⟩ : Fin 1000) (⟨(y 1).val, hy1⟩ : Fin 10) :=
    funext fun a => by match a with | ⟨0, _⟩ => rfl | ⟨1, _⟩ => rfl
  have hr : ((((cfg3.win 10).blk t).view.emb y) 0).val = t.val * 1000 + (y 0).val := by
    show win3_10.index t (0 : Fin 2) * 1000 + 1 * (y 0).val = _; omega
  have hj : (⟨(y 1).val, hy1⟩ : Fin 10) = (((cfg3.win 10).blk t).view.emb y) 1 := Fin.ext (by
    show (y 1).val = win3_10.index t (1 : Fin 2) * 10 + 1 * (y 1).val; omega)
  show k3_pay1 (k3_pay3 (iblk3 V c 0 t) (iblk3 V c 2 t) (iblk3 V c 3 t) (iblk3 V c 4 t) (iblk3 V c 1 t) (iblk3 V c 5 t) (iblk3 V c 6 t)) (iblk3 V c 7 t) (iblk3 V c 8 t) ((cfg3.win 10).xinj (grid3.coords t) y)
    = N3 V c ((((cfg3.win 10).blk t).view.emb y) 0) ((((cfg3.win 10).blk t).view.emb y) 1)
  rw [hy, ← hj]
  refine (pay3n_at (iblk3 V c 0 t) (iblk3 V c 2 t) (iblk3 V c 3 t) (iblk3 V c 4 t) (iblk3 V c 1 t) (iblk3 V c 5 t) (iblk3 V c 6 t) (iblk3 V c 7 t) (iblk3 V c 8 t) _ _).trans ?_
  unfold N3
  exact head_congr _ _ _ _ _ _ _ _ _ _
    (fun l => blk3_row V c t _ l _ hr) (fun l k => rd3_7 V c t l k) (fun k => rd3_8 V c t k _)

/-- An index of the node head's result is in point `t`'s block iff each coordinate is in the block's range on its axis. -/
theorem mem_blk3n (t : Fin cfg3.N) (i : S100000x10.Idx) :
    i ∈ ((cfg3.win 10).blk t).view.set ↔ ∀ a : Fin 2, win3_10.index t a * S1000x10.size a ≤ (i a).val ∧ (i a).val < win3_10.index t a * S1000x10.size a + S1000x10.size a := by
  show i ∈ ((View.whole main_v102_1).slice (win3_10.rect t)).set ↔ _
  rw [View.set_slice_whole, Rect.mem_set_unit]
  exact Iff.rfl

/-- Row `r` of the node head's result is in the block of point `r / 1000`. -/
theorem cover3n (i : S100000x10.Idx) : ∃ t : Fin cfg3.N, (cfg3.win 10).flush t = true ∧ i ∈ ((cfg3.win 10).blk t).view.set := by
  have hi0 : (i 0).val < 100000 := (i 0).isLt
  have hi1 : (i 1).val < 10 := (i 1).isLt
  have hN : cfg3.N = 100 := N_3
  let t : Fin cfg3.N := ⟨(i 0).val / 1000, by rw [hN]; omega⟩
  obtain ⟨-, -, -, -, -, -, -, -, -, -, -, -, -, -, -, -, -, -, -, -, e100, e101⟩ := idx3 t
  have ht : t.val = (i 0).val / 1000 := rfl
  refine ⟨t, flush3_10 t, ?_⟩
  rw [mem_blk3n]
  intro a
  match a with
  | ⟨0, _⟩ => show win3_10.index t (0 : Fin 2) * 1000 ≤ (i 0).val ∧ (i 0).val < win3_10.index t (0 : Fin 2) * 1000 + 1000; omega
  | ⟨1, _⟩ => show win3_10.index t (1 : Fin 2) * 10 ≤ (i 1).val ∧ (i 1).val < win3_10.index t (1 : Fin 2) * 10 + 10; omega

/-- THE NODE HEAD'S ARRAY after the region: the head of the second layer of the arrays the region found, entry by entry. -/
theorem node3 (c : Dev nD) (r : Fin 100000) (j : Fin 10) :
    (dat3 (F := Ideal) V c).arrAt 10 cfg3.N (ix2 r j)
      = Cert.Spec.head
          (fun r l => Cert.Spec.layerOut (fun r l => V c (Pipeline.arrRef spec3 0) (ix2 r l)) (fun l => V c (Pipeline.arrRef spec3 2) (ix2 0 l))
            (fun l => V c (Pipeline.arrRef spec3 3) (ix2 0 l)) (fun l k => V c (Pipeline.arrRef spec3 4) (ix2 l k))
            (fun r k => V c (Pipeline.arrRef spec3 1) (ix2 r k)) (fun k j => V c (Pipeline.arrRef spec3 5) (ix2 k j))
            (fun k j => V c (Pipeline.arrRef spec3 6) (ix2 k j)) r l)
          (fun l k => V c (Pipeline.arrRef spec3 7) (ix2 l k)) (fun k j => V c (Pipeline.arrRef spec3 8) (ix2 k j)) r j := by
  have h := (dat3 V c).arrAt_eq_of_cover 10 (fun i => N3 V c (i 0) (i 1)) (fun t _ => flushed3n V c t) cover3n
  exact congrFun h (ix2 r j)

end Cert.Layers

end
-- ==== Proof.KerHost2.lean ====
/-
  The third region's entry contents: the third stretch of host operations read off the second region's exit.

  The stretch forms the second layer's aggregate from the endpoints, the edge-time column of the first stretch
  (still in its buffer) and the second region's output.
-/
import proofs.«167109_j5557687681833_1_alg».proof.Proof.Gen.KernelIdeal.Frame
import Idealize.ShloMosaic.PureOps.Ideal
import Idealize.ShloMosaic.Lib.ValueIdx
import Idealize.ShloMosaic.Lib.ValueLayout
import Idealize.ShloMosaic.Lib.Pipeline.Value
import proofs.«167109_j5557687681833_1_alg».proof.Proof.KerHostKeep
import proofs.«167109_j5557687681833_1_alg».proof.Proof.KerHostChains
import proofs.«167109_j5557687681833_1_alg».proof.Proof.KerHost0

set_option maxRecDepth 16384

noncomputable section

namespace Cert.KerRun

open Idealize.ShloMosaic Idealize.ShloMosaic.TcCoe Idealize.ShloMosaic.Tactic
open Idealize.SL.Sem
open Idealize.ShloMosaic.ValueIdx
open Idealize.ShloMosaic.StableHlo (after_cons after_nil nullary_result unary_result binary_result ternary_result quaternary_result
  reshape_result binaryIndexed_result nary4_result nary_result unaryIndexed_result nullary_result_ne unary_result_ne binary_result_ne
  ternary_result_ne quaternary_result_ne reshape_result_ne binaryIndexed_result_ne nary_result_ne unaryIndexed_result_ne)
open Cert.KernelIdeal Cert.KernelIdeal.Gen

variable (m : (ℓ : Loc nD τ sig) → Buf (Elt Ideal) ℓ) (ρ : Dev nD → PrngReg) (c : Dev nD)

/-- From any contents, the third stretch leaves in the aggregate's buffer the second layer's aggregate of what the
    endpoint lists, the time-column buffer and the first layer's output buffer held. -/
theorem agg258_of (F : Valuation τ sig (Elt Ideal)) :
    StableHlo.after hostOps2 F (Proc.devRef .tc main_v89)
      = agg258K (F (Proc.devRef .tc main_arg0)) (F (Proc.devRef .tc main_arg1)) (F (Proc.devRef .tc main_v12))
          (F (Proc.devRef .tc main_v56)) := by
  after_results_simp
  rfl

/-- The third region's input is the second layer's aggregate of the second region's output. -/
theorem V5_win0 : V5 m ρ c (Pipeline.arrRef spec2 0)
    = agg258K (m ((c.tc : Thread nD τ).loc main_arg0)) (m ((c.tc : Thread nD τ).loc main_arg1)) (gcolK (m ((c.tc : Thread nD τ).loc main_arg2))) ((dat1 (V3 m ρ) c).arrAt 7 cfg1.N) :=
  (agg258_of (W4 m ρ c)).trans (by
    rw [keep4_arg0 m ρ c, keep4_arg1 m ρ c, keep4_v12 m ρ c, W1_v12 m ρ c,
      show W4 m ρ c (Proc.devRef .tc main_v56) = _ from W4_arr m ρ c 7])

end Cert.KerRun

end
-- ==== Proof.KerHost3.lean ====
/-
  The fourth region's entry contents: the fourth stretch of host operations read off the third region's exit.

  The stretch divides the third region's two total rows by the node count and lays the second layer's two dense
  maps out with inputs as rows, as the second stretch did for the first layer.  The second layer's aggregate, the
  second region's output and the node head's two maps (transposed by the third stretch) pass through.
-/
import proofs.«167109_j5557687681833_1_alg».proof.Proof.Gen.KernelIdeal.Frame
import Idealize.ShloMosaic.PureOps.Ideal
import Idealize.ShloMosaic.Lib.ValueIdx
import Idealize.ShloMosaic.Lib.ValueLayout
import Idealize.ShloMosaic.Lib.Pipeline.Value
import proofs.«167109_j5557687681833_1_alg».proof.Proof.Spec
import proofs.«167109_j5557687681833_1_alg».proof.Proof.KerHostKeep
import proofs.«167109_j5557687681833_1_alg».proof.Proof.KerHostChains
import proofs.«167109_j5557687681833_1_alg».proof.Proof.KerHost2

set_option maxRecDepth 16384

noncomputable section

namespace Cert.KerRun

open Idealize.ShloMosaic Idealize.ShloMosaic.TcCoe Idealize.ShloMosaic.Tactic
open Idealize.SL.Sem
open Idealize.ShloMosaic.ValueIdx
open Idealize.ShloMosaic.StableHlo (after_cons after_nil nullary_result unary_result binary_result ternary_result quaternary_result
  reshape_result binaryIndexed_result nary4_result nary_result unaryIndexed_result nullary_result_ne unary_result_ne binary_result_ne
  ternary_result_ne quaternary_result_ne reshape_result_ne binaryIndexed_result_ne nary_result_ne unaryIndexed_result_ne)
open Cert.KernelIdeal Cert.KernelIdeal.Gen

variable (m : (ℓ : Loc nD τ sig) → Buf (Elt Ideal) ℓ) (ρ : Dev nD → PrngReg) (c : Dev nD)

set_option maxHeartbeats 1000000 in
/-- The second layer's aggregate passes through the third region and the fourth stretch. -/
theorem V7_win0 : V7 m ρ c (Pipeline.arrRef spec3 0)
    = agg258K (m ((c.tc : Thread nD τ).loc main_arg0)) (m ((c.tc : Thread nD τ).loc main_arg1)) (gcolK (m ((c.tc : Thread nD τ).loc main_arg2))) ((dat1 (V3 m ρ) c).arrAt 7 cfg1.N) :=
  calc V7 m ρ c (Pipeline.arrRef spec3 0)
    _ = W6 m ρ c (Proc.devRef .tc main_v89) := by
          show StableHlo.after hostOps3 (W6 m ρ c) (Proc.devRef .tc main_v89) = _
          host_keeps hostOps3
    _ = V5 m ρ c (Pipeline.arrRef spec2 0) := keep6_v89 m ρ c
    _ = _ := V5_win0 m ρ c

/-- The previous state is the second region's output. -/
theorem V7_win1 : V7 m ρ c (Pipeline.arrRef spec3 1) = (dat1 (V3 m ρ) c).arrAt 7 cfg1.N :=
  calc V7 m ρ c (Pipeline.arrRef spec3 1)
    _ = W6 m ρ c (Proc.devRef .tc main_v56) := by
          show StableHlo.after hostOps3 (W6 m ρ c) (Proc.devRef .tc main_v56) = _
          host_keeps hostOps3
    _ = W5 m ρ c (Proc.devRef .tc main_v56) := W6_of_ne m ρ c main_v56 (by decide)
    _ = W4 m ρ c (Proc.devRef .tc main_v56) := by host_keeps hostOps2
    _ = _ := W4_arr m ρ c 7

/-- The mean row: the region's column totals over the node count. -/
theorem V7_win2 (l : Fin 258) : V7 m ρ c (Pipeline.arrRef spec3 2) (ix2 0 l)
    = Cert.Spec.meanOfSum (fun l : Fin 258 => (dat2 (V5 m ρ) c).arrAt 1 cfg2.N (ix2 0 l)) l := by
  have e : V7 m ρ c (Pipeline.arrRef spec3 2)
      = Host.divf (F := Ideal) ((dat2 (V5 m ρ) c).arrAt 1 cfg2.N)
          (broadcastInDim S1x258 ![] bcast_S_S1x258 (constant (F := Ideal) S_ .f32 0x47C35000#32)) := by
    show StableHlo.after hostOps3 (W6 m ρ c) (Proc.devRef .tc main_v92) = _
    after_results_simp
    rw [show W6 m ρ c (Proc.devRef .tc main_v90_0) = _ from W6_arr m ρ c 1]
  rw [e]; rfl

/-- The variance row: the totals of squares over the node count, minus the squared mean. -/
theorem V7_win3 (l : Fin 258) : V7 m ρ c (Pipeline.arrRef spec3 3) (ix2 0 l)
    = Cert.Spec.varOfSums (fun l : Fin 258 => (dat2 (V5 m ρ) c).arrAt 1 cfg2.N (ix2 0 l))
        (fun l : Fin 258 => (dat2 (V5 m ρ) c).arrAt 2 cfg2.N (ix2 0 l)) l := by
  have e : V7 m ρ c (Pipeline.arrRef spec3 3)
      = subf (F := Ideal)
          (Host.divf (F := Ideal) ((dat2 (V5 m ρ) c).arrAt 2 cfg2.N)
            (broadcastInDim S1x258 ![] bcast_S_S1x258 (constant (F := Ideal) S_ .f32 0x47C35000#32)))
          (mulf (F := Ideal)
            (Host.divf (F := Ideal) ((dat2 (V5 m ρ) c).arrAt 1 cfg2.N)
              (broadcastInDim S1x258 ![] bcast_S_S1x258 (constant (F := Ideal) S_ .f32 0x47C35000#32)))
            (Host.divf (F := Ideal) ((dat2 (V5 m ρ) c).arrAt 1 cfg2.N)
              (broadcastInDim S1x258 ![] bcast_S_S1x258 (constant (F := Ideal) S_ .f32 0x47C35000#32)))) := by
    show StableHlo.after hostOps3 (W6 m ρ c) (Proc.devRef .tc main_v96) = _
    after_results_simp
    rw [show W6 m ρ c (Proc.devRef .tc main_v90_0) = _ from W6_arr m ρ c 1,
      show W6 m ρ c (Proc.devRef .tc main_v90_1) = _ from W6_arr m ρ c 2]
  rw [e]; rfl

/-- The first dense map enters the region transposed: rows are inputs. -/
theorem V7_win4 (l k : Fin 258) : V7 m ρ c (Pipeline.arrRef spec3 4) (ix2 l k)
    = m ((c.tc : Thread nD τ).loc main_arg8) (ix2 k l) := by
  show StableHlo.after hostOps3 (W6 m ρ c) (Proc.devRef .tc main_v97) (ix2 l k) = _
  after_results_simp
  rw [keep6_arg8 m ρ c]
  exact transpose_ix2_apply _ _ l k

/-- The second dense map's first 257 input columns, transposed: the part that meets the previous state. -/
theorem V7_win5 (k : Fin 257) (j : Fin 515) : V7 m ρ c (Pipeline.arrRef spec3 5) (ix2 k j)
    = m ((c.tc : Thread nD τ).loc main_arg9) (ix2 j (Fin.castAdd 258 k)) := by
  show StableHlo.after hostOps3 (W6 m ρ c) (Proc.devRef .tc main_v100) (ix2 k j) = _
  after_results_simp
  rw [keep6_arg9 m ρ c]
  refine (transpose_ix2_apply _ _ k j).trans ?_
  exact slice2_axis1_apply 0 _ _ j k (Fin.castAdd 258 k) (by show k.val = 0 + k.val; omega)

/-- The second dense map's last 258 input columns, transposed: the part that meets the hidden state. -/
theorem V7_win6 (k : Fin 258) (j : Fin 515) : V7 m ρ c (Pipeline.arrRef spec3 6) (ix2 k j)
    = m ((c.tc : Thread nD τ).loc main_arg9) (ix2 j (Fin.natAdd 257 k)) := by
  show StableHlo.after hostOps3 (W6 m ρ c) (Proc.devRef .tc main_v101) (ix2 k j) = _
  after_results_simp
  rw [keep6_arg9 m ρ c]
  refine (transpose_ix2_apply _ _ k j).trans ?_
  exact slice2_axis1_apply 257 _ _ j k (Fin.natAdd 257 k) (by show 257 + k.val = 257 + k.val; rfl)

/-- The node head's first map was transposed by the third stretch and rides through. -/
theorem V7_win7 (l : Fin 515) (k : Fin 128) : V7 m ρ c (Pipeline.arrRef spec3 7) (ix2 l k)
    = m ((c.tc : Thread nD τ).loc main_arg12) (ix2 k l) := by
  have e : V7 m ρ c (Pipeline.arrRef spec3 7) = W5 m ρ c (Proc.devRef .tc main_v57) :=
    calc V7 m ρ c (Pipeline.arrRef spec3 7)
      _ = W6 m ρ c (Proc.devRef .tc main_v57) := by
            show StableHlo.after hostOps3 (W6 m ρ c) (Proc.devRef .tc main_v57) = _
            host_keeps hostOps3
      _ = _ := W6_of_ne m ρ c main_v57 (by decide)
  rw [e]
  show StableHlo.after hostOps2 (W4 m ρ c) (Proc.devRef .tc main_v57) (ix2 l k) = _
  after_results_simp
  rw [keep4_arg12 m ρ c]
  exact transpose_ix2_apply _ _ l k

/-- The node head's second map, likewise. -/
theorem V7_win8 (k : Fin 128) (j : Fin 10) : V7 m ρ c (Pipeline.arrRef spec3 8) (ix2 k j)
    = m ((c.tc : Thread nD τ).loc main_arg13) (ix2 j k) := by
  have e : V7 m ρ c (Pipeline.arrRef spec3 8) = W5 m ρ c (Proc.devRef .tc main_v58) :=
    calc V7 m ρ c (Pipeline.arrRef spec3 8)
      _ = W6 m ρ c (Proc.devRef .tc main_v58) := by
            show StableHlo.after hostOps3 (W6 m ρ c) (Proc.devRef .tc main_v58) = _
            host_keeps hostOps3
      _ = _ := W6_of_ne m ρ c main_v58 (by decide)
  rw [e]
  show StableHlo.after hostOps2 (W4 m ρ c) (Proc.devRef .tc main_v58) (ix2 k j) = _
  after_results_simp
  rw [keep4_arg13 m ρ c]
  exact transpose_ix2_apply _ _ k j

end Cert.KerRun

end
-- ==== Proof.Stats2Pieces.lean ====
/-
  Region 2 (the second statistics pass), what one grid point leaves in the two carried [1,258] outputs.

  At the first point the body stores a zero row into each output, reads it back, and then stores
  "what it read + the block's column sums" (output 1) and "what it read + the block's column sums of
  squares" (output 2).  At every later point only the second pair of stores happens, over what the point
  before left.  Each output's final contents at a point are therefore its last covering store's value,
  with the loads resolved: these four equations, at any float instance.
-/
import proofs.«167109_j5557687681833_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.Stats

open Cert.KernelIdeal Cert.KernelIdeal.Gen

variable {F : FTy → Type} [FloatOps F]

theorem hz2 : (![0, 0] : Fin 2 → Nat) = fun _ => 0 := funext fun a => by fin_cases a <;> rfl

/-- A later point: output 1 ends at the sum payload of the block and the carried row. -/
theorem out2_B_1_eq (c : Dev nD) (i : grid2.Coords) (a1 : Memref sig .tc .vmem S1000x258 .f32) (h1 : a1.IsWhole)
    (a2 : Memref sig .tc .vmem S1x258 .f32) (h2 : a2.IsWhole) (a3 : Memref sig .tc .vmem S1x258 .f32) (h3 : a3.IsWhole)
    (hc : ¬cond2_0 i) (x : Vec F S1000x258 .f32) (xo1 xo2 : Vec F S1x258 .f32) :
    out2_B_1 c i a1 h1 a2 h2 a3 h3 hc x xo1 xo2 = k2_pay4 x xo1 := by
  unfold out2_B_1
  rw [View.read_writes_eq_canon _ _ _ (cover2_B_1 c i a1 h1 a2 h2 a3 h3 hc x xo1 xo2)]
  unfold kernelRun2_B
  dsimp only
  rw [View.canon_unit_zero hz2]
  simp only [View.readAt_eq_ld, h1.read_unread, h2.read_unread, View.ld_unit_zero (S := S1000x258) hz2,
    View.ld_unit_zero (S := S1x258) hz2]

/-- A later point: output 2 ends at the sum-of-squares payload of the block and the carried row. -/
theorem out2_B_2_eq (c : Dev nD) (i : grid2.Coords) (a1 : Memref sig .tc .vmem S1000x258 .f32) (h1 : a1.IsWhole)
    (a2 : Memref sig .tc .vmem S1x258 .f32) (h2 : a2.IsWhole) (a3 : Memref sig .tc .vmem S1x258 .f32) (h3 : a3.IsWhole)
    (hc : ¬cond2_0 i) (x : Vec F S1000x258 .f32) (xo1 xo2 : Vec F S1x258 .f32) :
    out2_B_2 c i a1 h1 a2 h2 a3 h3 hc x xo1 xo2 = k2_pay5 x xo2 := by
  unfold out2_B_2
  rw [View.read_writes_eq_canon _ _ _ (cover2_B_2 c i a1 h1 a2 h2 a3 h3 hc x xo1 xo2)]
  unfold kernelRun2_B
  dsimp only
  rw [View.canon_unit_zero hz2]
  simp only [View.readAt_eq_ld, h1.read_unread, h3.read_unread, View.ld_unit_zero (S := S1000x258) hz2,
    View.ld_unit_zero (S := S1x258) hz2]

/-- The first point: output 1 ends at the sum payload of the block and the zero row just stored. -/
theorem out2_A_1_eq (c : Dev nD) (i : grid2.Coords) (a1 : Memref sig .tc .vmem S1000x258 .f32) (h1 : a1.IsWhole)
    (a2 : Memref sig .tc .vmem S1x258 .f32) (h2 : a2.IsWhole) (a3 : Memref sig .tc .vmem S1x258 .f32) (h3 : a3.IsWhole)
    (hc : cond2_0 i) (x : Vec F S1000x258 .f32) :
    out2_A_1 c i a1 h1 a2 h2 a3 h3 hc x = k2_pay4 x (k2_pay1 (F := F)) := by
  unfold out2_A_1
  rw [View.read_writes_eq_canon _ _ _ (cover2_A_1 c i a1 h1 a2 h2 a3 h3 hc x)]
  unfold kernelRun2_A
  dsimp only
  sl_unfold_words
  rw [View.canon_cons_unit_zero (S := S1x258) hz2, View.readCov_unit_zero (S := S1x258) _ hz2]
  simp only [View.readAt_eq_ld, h1.read_unread, View.ld_unit_zero (S := S1000x258) hz2]

/-- The first point: output 2 ends at the sum-of-squares payload of the block and the zero row just stored. -/
theorem out2_A_2_eq (c : Dev nD) (i : grid2.Coords) (a1 : Memref sig .tc .vmem S1000x258 .f32) (h1 : a1.IsWhole)
    (a2 : Memref sig .tc .vmem S1x258 .f32) (h2 : a2.IsWhole) (a3 : Memref sig .tc .vmem S1x258 .f32) (h3 : a3.IsWhole)
    (hc : cond2_0 i) (x : Vec F S1000x258 .f32) :
    out2_A_2 c i a1 h1 a2 h2 a3 h3 hc x = k2_pay5 x (k2_pay2 (F := F)) := by
  unfold out2_A_2
  rw [View.read_writes_eq_canon _ _ _ (cover2_A_2 c i a1 h1 a2 h2 a3 h3 hc x)]
  unfold kernelRun2_A
  dsimp only
  sl_unfold_words
  rw [View.canon_cons_unit_zero (S := S1x258) hz2, View.readCov_unit_zero (S := S1x258) _ hz2]
  simp only [View.readAt_eq_ld, h1.read_unread, View.ld_unit_zero (S := S1000x258) hz2]

end Cert.Stats

end
-- ==== Proof.Stats2Payload.lean ====
/-
  Region 2's two accumulating payloads read at a column, over the extended reals.

  The sum payload is "the carried row + the reduction of the [1000,258] block over its rows"; the
  sum-of-squares payload is the same with the block multiplied by itself first.  At column l they are
  the carried entry plus the sum over the block's 1000 rows of the entry (of its square).  The row the
  first point stores is the zero row.
-/
import proofs.«167109_j5557687681833_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.Stats

open Cert.KernelIdeal Cert.KernelIdeal.Gen

/-- A [1000,258] block reduced over its rows, at column l: the sum of the column's 1000 entries. -/
theorem colReduce258 (y : FVec Ideal S1000x258 .f32) (h : S1000x258.Reduces [0] S258) (hφ : FKind.Formats .f32)
    (hacc : (0x00000000#32 : BitVec 32) = 0x00000000#32) (l : Fin 258) :
    multiReduction .add [0] S258 y 0x00000000#32 h hφ hacc (ix1 l) = ∑ r : Fin 1000, y (ix2 r l) := by
  refine (Ideal.multiReduction_add_single y 0x00000000#32 h hφ hacc (ix1 l)).trans ?_
  show ∑ r : Fin 1000, y (h.lift (ix1 l) r) = _
  refine Finset.sum_congr rfl fun r _ => congrArg y ?_
  funext a
  match a with
  | ⟨0, _⟩ => rfl
  | ⟨1, _⟩ => rfl

/-- The sum payload at column l. -/
theorem pay2_4_apply (x : Vec Ideal S1000x258 .f32) (xo : Vec Ideal S1x258 .f32) (l : Fin 258) :
    k2_pay4 (F := Ideal) x xo (ix2 (0 : Fin 1) l) = xo (ix2 (0 : Fin 1) l) + ∑ r : Fin 1000, x (ix2 r l) := by
  unfold k2_pay4 k2_pay3
  refine (addf_apply _ _ _).trans ?_
  refine congrArg₂ (· + ·) (congrFun (shapeCast_self xo _) _) ?_
  refine (shapeCast_a_1a_apply _ _ 0 l).trans ?_
  refine (colReduce258 _ _ _ _ l).trans ?_
  exact Finset.sum_congr rfl fun r _ => congrFun (shapeCast_self x _) _

/-- The sum-of-squares payload at column l. -/
theorem pay2_5_apply (x : Vec Ideal S1000x258 .f32) (xo : Vec Ideal S1x258 .f32) (l : Fin 258) :
    k2_pay5 (F := Ideal) x xo (ix2 (0 : Fin 1) l)
      = xo (ix2 (0 : Fin 1) l) + ∑ r : Fin 1000, x (ix2 r l) * x (ix2 r l) := by
  unfold k2_pay5 k2_pay3
  refine (addf_apply _ _ _).trans ?_
  refine congrArg₂ (· + ·) (congrFun (shapeCast_self xo _) _) ?_
  refine (shapeCast_a_1a_apply _ _ 0 l).trans ?_
  refine (colReduce258 _ _ _ _ l).trans ?_
  refine Finset.sum_congr rfl fun r _ => ?_
  refine (mulf_apply _ _ _).trans ?_
  rw [shapeCast_self]

/-- The row the first point stores into output 1 is zero everywhere. -/
theorem pay2_1_apply (l : Fin 258) : k2_pay1 (F := Ideal) (ix2 (0 : Fin 1) l) = 0 :=
  Ideal.ofBits_zero_f32

/-- The row the first point stores into output 2 is zero everywhere. -/
theorem pay2_2_apply (l : Fin 258) : k2_pay2 (F := Ideal) (ix2 (0 : Fin 1) l) = 0 :=
  Ideal.ofBits_zero_f32

end Cert.Stats

end
-- ==== Proof.Stats2Sum.lean ====
/-
  Region 2, the accumulation over the grid.

  The input window's block at point t holds rows 1000·t … 1000·t + 999 of the [100000,258] array the
  region finds.  Point 0 leaves "0 + the block's column sums" in output 1 and "0 + the block's column sums of
  squares" in output 2; every later point adds its own block's to what the point before left.  So after
  point n the two outputs hold, at column l, the sum (the sum of squares) of column l over the first
  1000·(n+1) rows: an induction on the point.  Column l is continued by zero past the last row so that the
  running sums range over initial segments of the naturals.
-/
import proofs.«167109_j5557687681833_1_alg».proof.Proof.Gen.KernelIdeal.Frame
import proofs.«167109_j5557687681833_1_alg».proof.Proof.Stats2Pieces
import proofs.«167109_j5557687681833_1_alg».proof.Proof.Stats2Payload
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.Stats

open Cert.KernelIdeal Cert.KernelIdeal.Gen

variable (V : (c : Dev nD) → (b : Ref sig .tc) → Buf (Elt Ideal) ((c : Thread nD τ).loc b))

/-- Column l of the array the region finds in its input window, continued by zero past the last row. -/
def col2 (c : Dev nD) (l : Fin 258) (i : ℕ) : EReal :=
  if h : i < 100000 then V c (Pipeline.arrRef spec2 0) (ix2 (⟨i, h⟩ : Fin 100000) l) else 0

/-- The input window's block index at point t is (t, 0). -/
theorem widx2 : ∀ t : Fin cfg2.N, win2_0.index t 0 = t.val ∧ win2_0.index t 1 = 0 :=
  (by decide +kernel : ∀ t : Fin grid2.N, win2_0.index t 0 = t.val ∧ win2_0.index t 1 = 0)

/-- The input window's block at point t, as a [1000,258] array of extended reals. -/
abbrev blk2 (c : Dev nD) (t : Fin cfg2.N) : Vec Ideal S1000x258 .f32 := iblk2 V c 0 t

/-- The block read at point t holds rows 1000·t … 1000·t + 999. -/
theorem iblk2_apply (c : Dev nD) (t : Fin cfg2.N) (r : Fin 1000) (l : Fin 258) :
    blk2 V c t (ix2 r l) = col2 V c l (1000 * t.val + r.val) := by
  show iblk2 V c 0 t (ix2 r l) = _
  have hN : t.val < 100 := lt_of_lt_of_eq t.isLt (show cfg2.N = 100 from N_2)
  unfold col2
  rw [dif_pos (by omega)]
  unfold iblk2
  rw [View.read_apply]
  show V c (Pipeline.arrRef spec2 0) _ = V c (Pipeline.arrRef spec2 0) _
  congr 1
  funext a
  apply Fin.ext
  match a with
  | ⟨0, _⟩ => show win2_0.index t 0 * 1000 + 1 * r.val = 1000 * t.val + r.val; rw [(widx2 t).1]; omega
  | ⟨1, _⟩ => show win2_0.index t 1 * 258 + 1 * l.val = l.val; rw [(widx2 t).2]; omega

/-- The block's column sum at point t is the sum of the column over those rows. -/
theorem blk2_sum (c : Dev nD) (t : Fin cfg2.N) (l : Fin 258) :
    ∑ r : Fin 1000, blk2 V c t (ix2 r l)
      = ∑ r ∈ Finset.range 1000, col2 V c l (1000 * t.val + r) := by
  rw [Finset.sum_range]
  exact Finset.sum_congr rfl fun r _ => iblk2_apply V c t r l

/-- The block's column sum of squares at point t likewise. -/
theorem blk2_sumsq (c : Dev nD) (t : Fin cfg2.N) (l : Fin 258) :
    ∑ r : Fin 1000, blk2 V c t (ix2 r l) * blk2 V c t (ix2 r l)
      = ∑ r ∈ Finset.range 1000, col2 V c l (1000 * t.val + r) * col2 V c l (1000 * t.val + r) := by
  rw [Finset.sum_range]
  exact Finset.sum_congr rfl fun r _ => by rw [iblk2_apply V c t r l]

/-- Output 1 after the first point: zero plus the block's column sum. -/
theorem first2_1 (c : Dev nD) (t : Fin cfg2.N) (h0 : t.val % 100 = 0) (l : Fin 258) :
    (outsAt2 V c t.val t.isLt).1 (ix2 (0 : Fin 1) l)
      = 0 + ∑ r : Fin 1000, blk2 V c t (ix2 r l) := by
  refine (congrFun (congrArg Prod.fst (outsAt2_A V c t h0)) _).trans ?_
  refine (congrFun (out2_A_1_eq (F := Ideal) c (grid2.coords t) (ms2_0 t) (hs2_0 t) (ms2_1 t) (hs2_1 t) (ms2_2 t) (hs2_2 t)
    ((hcond2_0 t).mpr h0) (iblk2 V c 0 t)) _).trans ?_
  refine (pay2_4_apply (iblk2 V c 0 t) (k2_pay1 (F := Ideal)) l).trans ?_
  rw [pay2_1_apply]

/-- Output 2 after the first point: zero plus the block's column sum of squares. -/
theorem first2_2 (c : Dev nD) (t : Fin cfg2.N) (h0 : t.val % 100 = 0) (l : Fin 258) :
    (outsAt2 V c t.val t.isLt).2 (ix2 (0 : Fin 1) l)
      = 0 + ∑ r : Fin 1000, blk2 V c t (ix2 r l) * blk2 V c t (ix2 r l) := by
  refine (congrFun (congrArg Prod.snd (outsAt2_A V c t h0)) _).trans ?_
  refine (congrFun (out2_A_2_eq (F := Ideal) c (grid2.coords t) (ms2_0 t) (hs2_0 t) (ms2_1 t) (hs2_1 t) (ms2_2 t) (hs2_2 t)
    ((hcond2_0 t).mpr h0) (iblk2 V c 0 t)) _).trans ?_
  refine (pay2_5_apply (iblk2 V c 0 t) (k2_pay2 (F := Ideal)) l).trans ?_
  rw [pay2_2_apply]

/-- Output 1 after a later point: what the point before left plus the block's column sum. -/
theorem later2_1 (c : Dev nD) (t : Fin cfg2.N) (h0 : ¬t.val % 100 = 0) (l : Fin 258) :
    (outsAt2 V c t.val t.isLt).1 (ix2 (0 : Fin 1) l)
      = (outsAt2 V c (t.val - 1) (Nat.lt_of_le_of_lt (Nat.sub_le _ _) t.isLt)).1 (ix2 (0 : Fin 1) l)
        + ∑ r : Fin 1000, blk2 V c t (ix2 r l) := by
  refine (congrFun (congrArg Prod.fst (outsAt2_B V c t h0)) _).trans ?_
  refine (congrFun (out2_B_1_eq (F := Ideal) c (grid2.coords t) (ms2_0 t) (hs2_0 t) (ms2_1 t) (hs2_1 t) (ms2_2 t) (hs2_2 t)
    (fun h => h0 ((hcond2_0 t).mp h)) (iblk2 V c 0 t)
    (outsAt2 V c (t.val - 1) (Nat.lt_of_le_of_lt (Nat.sub_le _ _) t.isLt)).1
    (outsAt2 V c (t.val - 1) (Nat.lt_of_le_of_lt (Nat.sub_le _ _) t.isLt)).2) _).trans ?_
  exact pay2_4_apply (iblk2 V c 0 t) (outsAt2 V c (t.val - 1) (Nat.lt_of_le_of_lt (Nat.sub_le _ _) t.isLt)).1 l

/-- Output 2 after a later point: what the point before left plus the block's column sum of squares. -/
theorem later2_2 (c : Dev nD) (t : Fin cfg2.N) (h0 : ¬t.val % 100 = 0) (l : Fin 258) :
    (outsAt2 V c t.val t.isLt).2 (ix2 (0 : Fin 1) l)
      = (outsAt2 V c (t.val - 1) (Nat.lt_of_le_of_lt (Nat.sub_le _ _) t.isLt)).2 (ix2 (0 : Fin 1) l)
        + ∑ r : Fin 1000, blk2 V c t (ix2 r l) * blk2 V c t (ix2 r l) := by
  refine (congrFun (congrArg Prod.snd (outsAt2_B V c t h0)) _).trans ?_
  refine (congrFun (out2_B_2_eq (F := Ideal) c (grid2.coords t) (ms2_0 t) (hs2_0 t) (ms2_1 t) (hs2_1 t) (ms2_2 t) (hs2_2 t)
    (fun h => h0 ((hcond2_0 t).mp h)) (iblk2 V c 0 t)
    (outsAt2 V c (t.val - 1) (Nat.lt_of_le_of_lt (Nat.sub_le _ _) t.isLt)).1
    (outsAt2 V c (t.val - 1) (Nat.lt_of_le_of_lt (Nat.sub_le _ _) t.isLt)).2) _).trans ?_
  exact pay2_5_apply (iblk2 V c 0 t) (outsAt2 V c (t.val - 1) (Nat.lt_of_le_of_lt (Nat.sub_le _ _) t.isLt)).2 l

/-- After point n output 1 holds, at column l, the sum of the column over the first 1000·(n+1) rows. -/
theorem running2_1 (c : Dev nD) (l : Fin 258) : ∀ (n : ℕ) (h : n < cfg2.N),
    (outsAt2 V c n h).1 (ix2 (0 : Fin 1) l) = ∑ i ∈ Finset.range (1000 * (n + 1)), col2 V c l i
  | 0, h => by
    rw [first2_1 V c ⟨0, h⟩ rfl l, blk2_sum V c ⟨0, h⟩ l, zero_add]
    simp only [Nat.mul_zero, Nat.zero_add, Nat.mul_one]
  | n + 1, h => by
    have hN : cfg2.N = 100 := N_2
    have hB : ¬(⟨n + 1, h⟩ : Fin cfg2.N).val % 100 = 0 := by dsimp only; omega
    rw [later2_1 V c ⟨n + 1, h⟩ hB l]
    show (outsAt2 V c n _).1 (ix2 (0 : Fin 1) l) + _ = _
    rw [running2_1 c l n, blk2_sum V c ⟨n + 1, h⟩ l, show 1000 * (n + 1 + 1) = 1000 * (n + 1) + 1000 from by omega, Finset.sum_range_add]

/-- After point n output 2 holds, at column l, the sum of the column's squares over the first 1000·(n+1) rows. -/
theorem running2_2 (c : Dev nD) (l : Fin 258) : ∀ (n : ℕ) (h : n < cfg2.N),
    (outsAt2 V c n h).2 (ix2 (0 : Fin 1) l) = ∑ i ∈ Finset.range (1000 * (n + 1)), col2 V c l i * col2 V c l i
  | 0, h => by
    rw [first2_2 V c ⟨0, h⟩ rfl l, blk2_sumsq V c ⟨0, h⟩ l, zero_add]
    simp only [Nat.mul_zero, Nat.zero_add, Nat.mul_one]
  | n + 1, h => by
    have hN : cfg2.N = 100 := N_2
    have hB : ¬(⟨n + 1, h⟩ : Fin cfg2.N).val % 100 = 0 := by dsimp only; omega
    rw [later2_2 V c ⟨n + 1, h⟩ hB l]
    show (outsAt2 V c n _).2 (ix2 (0 : Fin 1) l) + _ = _
    rw [running2_2 c l n, blk2_sumsq V c ⟨n + 1, h⟩ l, show 1000 * (n + 1 + 1) = 1000 * (n + 1) + 1000 from by omega, Finset.sum_range_add]

end Cert.Stats

end
-- ==== Proof.Stats2Final.lean ====
/-
  Region 2's two output arrays after the region.

  Both [1,258] outputs are written back once, after the last grid point, and their one block is the whole
  array; so the arrays end holding what the last point left in the staging buffers.  The last point is
  taken as "a point whose number is 99", so that nothing below depends on evaluating the accumulation there.
-/
import proofs.«167109_j5557687681833_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.Stats

open Cert.KernelIdeal Cert.KernelIdeal.Gen

variable (V : (c : Dev nD) → (b : Ref sig .tc) → Buf (Elt Ideal) ((c : Thread nD τ).loc b))

/-- There is a grid point numbered 99. -/
theorem exists_last2 : ∃ t : Fin cfg2.N, t.val = 99 := ⟨⟨99, by rw [show cfg2.N = 100 from N_2]; decide⟩, rfl⟩

/-- The last grid point. -/
def tlast2 : Fin cfg2.N := Classical.choose exists_last2
/-- Its number. -/
theorem tlast2_val : tlast2.val = 99 := Classical.choose_spec exists_last2

/-- What the last point leaves in output 1, as contents of its array. -/
abbrev last2_1 (c : Dev nD) : Buf (Elt Ideal) ((c : Thread nD τ).loc main_v90_0) := (outsAt2 V c tlast2.val tlast2.isLt).1
/-- What the last point leaves in output 2, as contents of its array. -/
abbrev last2_2 (c : Dev nD) : Buf (Elt Ideal) ((c : Thread nD τ).loc main_v90_1) := (outsAt2 V c tlast2.val tlast2.isLt).2

/-- Output 1's window is not cut: the part of the staging buffer a write-back moves is all of it. -/
theorem cut2_1 (t : Fin cfg2.N) (X : Vec Ideal S1x258 .f32) : (cfg2.win 1).cut (grid2.coords t) X = X := rfl
/-- Output 2's window likewise. -/
theorem cut2_2 (t : Fin cfg2.N) (X : Vec Ideal S1x258 .f32) : (cfg2.win 2).cut (grid2.coords t) X = X := rfl

/-- Both outputs' block index is (0, 0) at every point, and their blocks are whole. -/
theorem widx2_out : ∀ t : Fin cfg2.N, (win2_1.index t 0 = 0 ∧ win2_1.index t 1 = 0) ∧ (win2_2.index t 0 = 0 ∧ win2_2.index t 1 = 0) :=
  (by decide +kernel : ∀ t : Fin grid2.N, (win2_1.index t 0 = 0 ∧ win2_1.index t 1 = 0) ∧ (win2_2.index t 0 = 0 ∧ win2_2.index t 1 = 0))
theorem wxsize2_out : ∀ t : Fin cfg2.N, (win2_1.xsize (grid2.coords t) 0 = 1 ∧ win2_1.xsize (grid2.coords t) 1 = 258)
      ∧ (win2_2.xsize (grid2.coords t) 0 = 1 ∧ win2_2.xsize (grid2.coords t) 1 = 258) :=
  (by decide +kernel : ∀ t : Fin grid2.N, (win2_1.xsize (grid2.coords t) 0 = 1 ∧ win2_1.xsize (grid2.coords t) 1 = 258)
      ∧ (win2_2.xsize (grid2.coords t) 0 = 1 ∧ win2_2.xsize (grid2.coords t) 1 = 258))

/-- Block (0, 0) of output 1's [1,258] array, read back, is the array. -/
theorem read_blk2_1 (c : Dev nD) (t : Fin cfg2.N) (X : Buf (Elt Ideal) ((c : Thread nD τ).loc main_v90_0)) :
    ((cfg2.win 1).blk t).view.read (Elt Ideal) X = X := by
  have hz' : (fun a => win2_1.index t a * main_v90_0.ty.shape.size a) = fun _ => 0 :=
    funext fun a => by
      match a with
      | ⟨0, _⟩ => show win2_1.index t 0 * _ = 0; rw [(widx2_out t).1.1, Nat.zero_mul]
      | ⟨1, _⟩ => show win2_1.index t 1 * _ = 0; rw [(widx2_out t).1.2, Nat.zero_mul]
  exact Memref.read_access_unit_zero (Elt Ideal) main_v90_0 hz' (fun a => by rw [congrFun hz' a]; simp) X

/-- Block (0, 0) of output 2's [1,258] array, read back, is the array. -/
theorem read_blk2_2 (c : Dev nD) (t : Fin cfg2.N) (X : Buf (Elt Ideal) ((c : Thread nD τ).loc main_v90_1)) :
    ((cfg2.win 2).blk t).view.read (Elt Ideal) X = X := by
  have hz' : (fun a => win2_2.index t a * main_v90_1.ty.shape.size a) = fun _ => 0 :=
    funext fun a => by
      match a with
      | ⟨0, _⟩ => show win2_2.index t 0 * _ = 0; rw [(widx2_out t).2.1, Nat.zero_mul]
      | ⟨1, _⟩ => show win2_2.index t 1 * _ = 0; rw [(widx2_out t).2.2, Nat.zero_mul]
  exact Memref.read_access_unit_zero (Elt Ideal) main_v90_1 hz' (fun a => by rw [congrFun hz' a]; simp) X

/-- Output 1's one write-back, at the last point, writes what the last point left. -/
theorem flushed2_1_eq (c : Dev nD) (t : Fin cfg2.N) (hf : (cfg2.win 1).flush t = true) :
    (dat2 V c).flushed 1 t = ((cfg2.win 1).blk t).view.read (Elt Ideal) (last2_1 V c) := by
  have hN : cfg2.N = 100 := N_2
  have h99 : t.val = 99 := by have := (flush2_1 t).mp hf; have := t.isLt; omega
  obtain rfl : t = tlast2 := Fin.ext (h99.trans tlast2_val.symm)
  rw [read_blk2_1]
  show (cfg2.win 1).cut (grid2.coords tlast2) ((dat2 V c).after 1 tlast2) = _
  rw [after2_1]
  exact cut2_1 _ _

/-- Output 2's one write-back likewise. -/
theorem flushed2_2_eq (c : Dev nD) (t : Fin cfg2.N) (hf : (cfg2.win 2).flush t = true) :
    (dat2 V c).flushed 2 t = ((cfg2.win 2).blk t).view.read (Elt Ideal) (last2_2 V c) := by
  have hN : cfg2.N = 100 := N_2
  have h99 : t.val = 99 := by have := (flush2_2 t).mp hf; have := t.isLt; omega
  obtain rfl : t = tlast2 := Fin.ext (h99.trans tlast2_val.symm)
  rw [read_blk2_2]
  show (cfg2.win 2).cut (grid2.coords tlast2) ((dat2 V c).after 2 tlast2) = _
  rw [after2_2]
  exact cut2_2 _ _

/-- So output 1's array ends holding what the last point left: the last point's block covers it. -/
theorem final2_1 (c : Dev nD) : (dat2 V c).arrAt 1 cfg2.N = last2_1 V c :=
  (dat2 V c).arrAt_eq_of_cover 1 (last2_1 V c) (flushed2_1_eq V c) fun i =>
    ⟨tlast2, (flush2_1 tlast2).mpr (by rw [tlast2_val]), by
      show i ∈ ((View.whole main_v90_0).slice (win2_1.rect tlast2)).set
      rw [View.set_slice_whole, Rect.mem_set_unit]
      intro a
      have h0 : (i 0 : Nat) < 1 := (i 0).isLt
      have h1 : (i 1 : Nat) < 258 := (i 1).isLt
      match a with
      | ⟨0, _⟩ => show win2_1.index tlast2 0 * win2_1.size 0 ≤ (i 0 : Nat) ∧ (i 0 : Nat) < win2_1.index tlast2 0 * win2_1.size 0 + win2_1.xsize (grid2.coords tlast2) 0
                  rw [(widx2_out tlast2).1.1, (wxsize2_out tlast2).1.1]; omega
      | ⟨1, _⟩ => show win2_1.index tlast2 1 * win2_1.size 1 ≤ (i 1 : Nat) ∧ (i 1 : Nat) < win2_1.index tlast2 1 * win2_1.size 1 + win2_1.xsize (grid2.coords tlast2) 1
                  rw [(widx2_out tlast2).1.2, (wxsize2_out tlast2).1.2]; omega⟩

/-- And output 2's. -/
theorem final2_2 (c : Dev nD) : (dat2 V c).arrAt 2 cfg2.N = last2_2 V c :=
  (dat2 V c).arrAt_eq_of_cover 2 (last2_2 V c) (flushed2_2_eq V c) fun i =>
    ⟨tlast2, (flush2_2 tlast2).mpr (by rw [tlast2_val]), by
      show i ∈ ((View.whole main_v90_1).slice (win2_2.rect tlast2)).set
      rw [View.set_slice_whole, Rect.mem_set_unit]
      intro a
      have h0 : (i 0 : Nat) < 1 := (i 0).isLt
      have h1 : (i 1 : Nat) < 258 := (i 1).isLt
      match a with
      | ⟨0, _⟩ => show win2_2.index tlast2 0 * win2_2.size 0 ≤ (i 0 : Nat) ∧ (i 0 : Nat) < win2_2.index tlast2 0 * win2_2.size 0 + win2_2.xsize (grid2.coords tlast2) 0
                  rw [(widx2_out tlast2).2.1, (wxsize2_out tlast2).2.1]; omega
      | ⟨1, _⟩ => show win2_2.index tlast2 1 * win2_2.size 1 ≤ (i 1 : Nat) ∧ (i 1 : Nat) < win2_2.index tlast2 1 * win2_2.size 1 + win2_2.xsize (grid2.coords tlast2) 1
                  rw [(widx2_out tlast2).2.2, (wxsize2_out tlast2).2.2]; omega⟩

end Cert.Stats

end
-- ==== Proof.Stats2.lean ====
/-
  Region 2's two results as whole-array column sums.

  The arrays end holding what the last grid point left, which is the sum (the sum of squares) of each
  column over all 1000·100 = 100000 rows of the array the region finds in its input window.
-/
import proofs.«167109_j5557687681833_1_alg».proof.Proof.Gen.KernelIdeal.Frame
import proofs.«167109_j5557687681833_1_alg».proof.Proof.Stats2Sum
import proofs.«167109_j5557687681833_1_alg».proof.Proof.Stats2Final
import proofs.«167109_j5557687681833_1_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.Stats

open Cert.KernelIdeal Cert.KernelIdeal.Gen

variable (V : (c : Dev nD) → (b : Ref sig .tc) → Buf (Elt Ideal) ((c : Thread nD τ).loc b))

/-- The array the region finds in its input window, by row and column. -/
abbrev arr2 (c : Dev nD) : Fin 100000 → Fin 258 → EReal := fun r l => V c (Pipeline.arrRef spec2 0) (ix2 r l)

/-- The sum of the column over the first 100000 rows is the sum over every row of the array. -/
theorem col2_total (c : Dev nD) (l : Fin 258) :
    ∑ i ∈ Finset.range (1000 * (tlast2.val + 1)), col2 V c l i = ∑ r : Fin 100000, arr2 V c r l := by
  rw [tlast2_val, show 1000 * (99 + 1) = 100000 from rfl, Finset.sum_range]
  exact Finset.sum_congr rfl fun r _ => dif_pos r.isLt

/-- The same for the squares. -/
theorem col2_total_sq (c : Dev nD) (l : Fin 258) :
    ∑ i ∈ Finset.range (1000 * (tlast2.val + 1)), col2 V c l i * col2 V c l i
      = ∑ r : Fin 100000, arr2 V c r l * arr2 V c r l := by
  rw [tlast2_val, show 1000 * (99 + 1) = 100000 from rfl, Finset.sum_range]
  exact Finset.sum_congr rfl fun r _ => by rw [show col2 V c l r.val = arr2 V c r l from dif_pos r.isLt]

/-- REGION 2, OUTPUT 1: the array ends holding, at column l, the sum of column l of the input array. -/
theorem sum2 (c : Dev nD) (l : Fin 258) :
    (dat2 (F := Ideal) V c).arrAt 1 cfg2.N (ix2 (0 : Fin 1) l)
      = Cert.Spec.colSum (fun (r : Fin 100000) (l : Fin 258) => V c (Pipeline.arrRef spec2 0) (ix2 r l)) l := by
  rw [final2_1]
  show (outsAt2 V c tlast2.val tlast2.isLt).1 (ix2 (0 : Fin 1) l) = _
  rw [running2_1 V c l tlast2.val tlast2.isLt]
  exact col2_total V c l

/-- REGION 2, OUTPUT 2: the array ends holding, at column l, the sum of the squares of column l of the input array. -/
theorem sumsq2 (c : Dev nD) (l : Fin 258) :
    (dat2 (F := Ideal) V c).arrAt 2 cfg2.N (ix2 (0 : Fin 1) l)
      = Cert.Spec.colSumSq (fun (r : Fin 100000) (l : Fin 258) => V c (Pipeline.arrRef spec2 0) (ix2 r l)) l := by
  rw [final2_2]
  show (outsAt2 V c tlast2.val tlast2.isLt).2 (ix2 (0 : Fin 1) l) = _
  rw [running2_2 V c l tlast2.val tlast2.isLt]
  exact col2_total_sq V c l

end Cert.Stats

end
-- ==== Proof.GlueLayer2Core.lean ====
/-
  A layer of the kernel over the arrays a region finds is the layer over the aggregate with its statistics.

  The kernel's layer reads a mean row and a variance row that an earlier region and the host formed from the
  column totals of an array; when that array and the layer's own aggregate are both the same matrix A, the
  mean row is the mean of A's column sums and the variance row the variance from A's two column totals, and
  the layer, which reads everything entry by entry, is the layer of A with those statistics.
-/
import proofs.«167109_j5557687681833_1_alg».proof.Proof.LayerLib

noncomputable section

namespace Cert.Glue2

open Cert.Spec

variable {n f p o : ℕ}

/-- The mean row depends on the totals entry by entry. -/
theorem meanOfSum_congr (s s' : Fin f → EReal) (l : Fin f) (hs : s l = s' l) : meanOfSum s l = meanOfSum s' l := by
  unfold meanOfSum; rw [hs]

/-- The variance row depends on the two totals entry by entry. -/
theorem varOfSums_congr (s s' q q' : Fin f → EReal) (l : Fin f) (hs : s l = s' l) (hq : q l = q' l) :
    varOfSums s q l = varOfSums s' q' l := by
  unfold varOfSums meanOfSum; rw [hs, hq]

/-- A layer whose aggregate is A at row r, whose mean and variance rows are formed from totals that are the
    column sums and sums of squares of A, and whose other inputs agree entry by entry, is the layer of A with
    A's own statistics. -/
theorem layerOut_of_stats (VA A : Fin n → Fin f → EReal) (mean var s q : Fin f → EReal)
    (W W' : Fin f → Fin f → EReal) (h h' : Fin n → Fin p → EReal) (Wa Wa' : Fin p → Fin o → EReal)
    (Wb Wb' : Fin f → Fin o → EReal) (r : Fin n) (j : Fin o)
    (hA : ∀ l, VA r l = A r l) (hm : ∀ l, mean l = meanOfSum s l) (hv : ∀ l, var l = varOfSums s q l)
    (hs : ∀ l, s l = colSum A l) (hq : ∀ l, q l = colSumSq A l)
    (hW : ∀ l k, W l k = W' l k) (hh : ∀ k, h r k = h' r k) (hWa : ∀ k, Wa k j = Wa' k j) (hWb : ∀ k, Wb k j = Wb' k j) :
    layerOut VA mean var W h Wa Wb r j
      = layerOut A (meanOfSum (colSum A)) (varOfSums (colSum A) (colSumSq A)) W' h' Wa' Wb' r j :=
  Cert.Layers.layerOut_congr VA A mean _ var _ W W' h h' Wa Wa' Wb Wb' r r j j hA
    (fun l => (hm l).trans (meanOfSum_congr s _ l (hs l)))
    (fun l => (hv l).trans (varOfSums_congr s _ q _ l (hs l) (hq l))) hW hh hWa hWb

end Cert.Glue2

end
-- ==== Proof.GlueLayer2.lean ====
/-
  The kernel's second layer, as the region leaves it, is the layer of the second aggregate with its statistics.

  The fourth region finds, in its windows, the second aggregate (formed by the host from the second region's
  output), that output itself, a mean row and a variance row the host formed from the third region's two column
  totals of the same aggregate, and the second layer's two dense maps laid out with inputs as rows, the second
  one cut at the seam between the previous states and the hidden state.  Reading each window, the region's
  result at row r and column j is the layer of the aggregate with the mean of its column sums and the variance
  from its two column totals.
-/
import proofs.«167109_j5557687681833_1_alg».proof.Proof.Gen.KernelIdeal.Frame
import proofs.«167109_j5557687681833_1_alg».proof.Proof.Layer3Blocks
import proofs.«167109_j5557687681833_1_alg».proof.Proof.KerHost3
import proofs.«167109_j5557687681833_1_alg».proof.Proof.Stats2
import proofs.«167109_j5557687681833_1_alg».proof.Proof.ChainsEq
import proofs.«167109_j5557687681833_1_alg».proof.Proof.GlueLayer2Core

set_option maxRecDepth 16384

noncomputable section

namespace Cert.Glue2

open Cert.KernelIdeal Cert.KernelIdeal.Gen Idealize.ShloMosaic Idealize.ShloMosaic.TcCoe Idealize.SL.Sem
open Idealize.ShloMosaic.ValueIdx Cert.Spec

variable (m : (ℓ : Loc nD τ sig) → Buf (Elt Ideal) ℓ) (ρ : Dev nD → PrngReg) (c : Dev nD)

/-- The second region's output, as the later boundaries hold it. -/
theorem state1_eq : W4 m ρ c (Proc.devRef .tc main_v56) = (dat1 (V3 m ρ) c).arrAt 7 cfg1.N := W4_arr m ρ c 7

/-- The fourth region's aggregate window holds the second aggregate of the second region's output. -/
theorem win0_eq : V7 m ρ c (Pipeline.arrRef spec3 0)
    = Cert.RefRun.agg258 (m ((c.tc : Thread nD τ).loc main_arg0)) (m ((c.tc : Thread nD τ).loc main_arg1))
        (Cert.RefRun.gcol (m ((c.tc : Thread nD τ).loc main_arg2))) (W4 m ρ c (Proc.devRef .tc main_v56)) := by
  rw [Cert.KerRun.V7_win0 m ρ c, Cert.ChainsEq.agg258_eq, Cert.ChainsEq.gcol_eq, state1_eq m ρ c]

/-- So does the third region's input window. -/
theorem stats_win0_eq : V5 m ρ c (Pipeline.arrRef spec2 0)
    = Cert.RefRun.agg258 (m ((c.tc : Thread nD τ).loc main_arg0)) (m ((c.tc : Thread nD τ).loc main_arg1))
        (Cert.RefRun.gcol (m ((c.tc : Thread nD τ).loc main_arg2))) (W4 m ρ c (Proc.devRef .tc main_v56)) := by
  rw [Cert.KerRun.V5_win0 m ρ c, Cert.ChainsEq.agg258_eq, Cert.ChainsEq.gcol_eq, state1_eq m ρ c]

/-- THE SECOND LAYER as the kernel leaves it, entry by entry. -/
theorem glue_e2 (r : Fin 100000) (j : Fin 515) :
    W8 m ρ c (Proc.devRef .tc main_v102_0) (ix2 r j)
      = layerOut (p := 257) (f := 258)
          (fun r l => Cert.RefRun.agg258 (m ((c.tc : Thread nD τ).loc main_arg0)) (m ((c.tc : Thread nD τ).loc main_arg1))
            (Cert.RefRun.gcol (m ((c.tc : Thread nD τ).loc main_arg2))) (W4 m ρ c (Proc.devRef .tc main_v56)) (ix2 r l))
          (meanOfSum (colSum fun (r : Fin 100000) (l : Fin 258) =>
            Cert.RefRun.agg258 (m ((c.tc : Thread nD τ).loc main_arg0)) (m ((c.tc : Thread nD τ).loc main_arg1))
              (Cert.RefRun.gcol (m ((c.tc : Thread nD τ).loc main_arg2))) (W4 m ρ c (Proc.devRef .tc main_v56)) (ix2 r l)))
          (varOfSums
            (colSum fun (r : Fin 100000) (l : Fin 258) =>
              Cert.RefRun.agg258 (m ((c.tc : Thread nD τ).loc main_arg0)) (m ((c.tc : Thread nD τ).loc main_arg1))
                (Cert.RefRun.gcol (m ((c.tc : Thread nD τ).loc main_arg2))) (W4 m ρ c (Proc.devRef .tc main_v56)) (ix2 r l))
            (colSumSq fun (r : Fin 100000) (l : Fin 258) =>
              Cert.RefRun.agg258 (m ((c.tc : Thread nD τ).loc main_arg0)) (m ((c.tc : Thread nD τ).loc main_arg1))
                (Cert.RefRun.gcol (m ((c.tc : Thread nD τ).loc main_arg2))) (W4 m ρ c (Proc.devRef .tc main_v56)) (ix2 r l)))
          (fun l k => m ((c.tc : Thread nD τ).loc main_arg8) (ix2 k l))
          (fun r k => W4 m ρ c (Proc.devRef .tc main_v56) (ix2 r k))
          (fun k j => m ((c.tc : Thread nD τ).loc main_arg9) (ix2 j (Fin.castAdd 258 k)))
          (fun k j => m ((c.tc : Thread nD τ).loc main_arg9) (ix2 j (Fin.natAdd 257 k))) r j := by
  rw [show W8 m ρ c (Proc.devRef .tc main_v102_0) = _ from W8_arr m ρ c 9, Cert.Layers.out3 (V7 m ρ) c r j]
  refine layerOut_of_stats _ _ _ _
    (fun l : Fin 258 => (dat2 (V5 m ρ) c).arrAt 1 cfg2.N (ix2 0 l))
    (fun l : Fin 258 => (dat2 (V5 m ρ) c).arrAt 2 cfg2.N (ix2 0 l)) _ _ _ _ _ _ _ _ r j ?_ ?_ ?_ ?_ ?_ ?_ ?_ ?_ ?_
  · intro l
    exact congrFun (win0_eq m ρ c) (ix2 r l)
  · intro l
    exact Cert.KerRun.V7_win2 m ρ c l
  · intro l
    exact Cert.KerRun.V7_win3 m ρ c l
  · intro l
    refine (Cert.Stats.sum2 (V5 m ρ) c l).trans ?_
    rw [stats_win0_eq m ρ c]
  · intro l
    refine (Cert.Stats.sumsq2 (V5 m ρ) c l).trans ?_
    rw [stats_win0_eq m ρ c]
  · intro l k
    exact Cert.KerRun.V7_win4 m ρ c l k
  · intro k
    show V7 m ρ c (Pipeline.arrRef spec3 1) (ix2 r k) = W4 m ρ c (Proc.devRef .tc main_v56) (ix2 r k)
    rw [Cert.KerRun.V7_win1 m ρ c, state1_eq m ρ c]
  · intro k
    exact Cert.KerRun.V7_win5 m ρ c k j
  · intro k
    exact Cert.KerRun.V7_win6 m ρ c k j

end Cert.Glue2

end
-- ==== Proof.KerHostTail.lean ====
/-
  The two results read back to the last two grid regions.

  The link scores are the last region's one-column output with the unit axis dropped; the node scores are the
  fourth region's second output, which nothing after that region writes.
-/
import proofs.«167109_j5557687681833_1_alg».proof.Proof.Gen.KernelIdeal.Frame
import Idealize.ShloMosaic.PureOps.Ideal
import Idealize.ShloMosaic.Lib.ValueIdx
import Idealize.ShloMosaic.Lib.ValueLayout
import Idealize.ShloMosaic.Lib.Pipeline.Value
import proofs.«167109_j5557687681833_1_alg».proof.Proof.KerHostKeep

set_option maxRecDepth 16384

noncomputable section

namespace Cert.KerRun

open Idealize.ShloMosaic Idealize.ShloMosaic.TcCoe Idealize.ShloMosaic.Tactic
open Idealize.SL.Sem
open Idealize.ShloMosaic.ValueIdx
open Idealize.ShloMosaic.StableHlo (after_cons after_nil nullary_result unary_result binary_result ternary_result quaternary_result
  reshape_result binaryIndexed_result nary4_result nary_result unaryIndexed_result nullary_result_ne unary_result_ne binary_result_ne
  ternary_result_ne quaternary_result_ne reshape_result_ne binaryIndexed_result_ne nary_result_ne unaryIndexed_result_ne)
open Cert.KernelIdeal Cert.KernelIdeal.Gen

variable (m : (ℓ : Loc nD τ sig) → Buf (Elt Ideal) ℓ) (ρ : Dev nD → PrngReg) (c : Dev nD)

/-- The link scores at query `r` are the last region's output at row `r`, column 0. -/
theorem link_read (r : Fin 4096) :
    W11 m ρ c (Proc.devRef .tc main_v121) (ix1 r) = (dat4 (V9 m ρ) c).arrAt 3 cfg4.N (ix2 r 0) := by
  have e : W11 m ρ c (Proc.devRef .tc main_v121)
      = fun i => shapeCast S4096 (W10 m ρ c (Proc.devRef .tc main_v120)) shapeCasts_S4096x1_S4096 i := by
    show StableHlo.after hostOps5 (W10 m ρ c) (Proc.devRef .tc main_v121) = _
    after_results; rfl
  rw [e, ← W10_arr m ρ c 3]
  exact shapeCast_apply _ _ (ix1 r) (ix2 r 0) (by
    rw [Shape.rowMajor_val_two, Shape.rowMajor_val_one]
    show r.val * 1 + 0 = r.val
    omega)

/-- The node scores are the fourth region's second output. -/
theorem node_read :
    W11 m ρ c (Proc.devRef .tc main_v102_1) = (dat3 (V7 m ρ) c).arrAt 10 cfg3.N :=
  calc W11 m ρ c (Proc.devRef .tc main_v102_1)
    _ = W10 m ρ c (Proc.devRef .tc main_v102_1) := by host_keeps hostOps5
    _ = W9 m ρ c (Proc.devRef .tc main_v102_1) := W10_of_ne m ρ c main_v102_1 (by decide)
    _ = W8 m ρ c (Proc.devRef .tc main_v102_1) := by host_keeps hostOps4
    _ = (dat3 (V7 m ρ) c).arrAt 10 cfg3.N := W8_arr m ρ c 10

end Cert.KerRun

end
-- ==== Proof.GlueE3.lean ====
/-
  The kernel's node scores, entry by entry, as the node head of the states after the second layer.

  The scores are the fourth region's second output, which is the head of the second layer of the region's input
  arrays; that layer is the region's first output, the states after the second layer; the head's two maps are the
  two node weight arguments transposed.
-/
import proofs.«167109_j5557687681833_1_alg».proof.Proof.KerHostTail
import proofs.«167109_j5557687681833_1_alg».proof.Proof.KerHost3
import proofs.«167109_j5557687681833_1_alg».proof.Proof.Layer3Blocks

set_option maxRecDepth 16384

noncomputable section

namespace Cert.Glue

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

/-- The node score at (r, j) is the head, at row `r`, of the final states through the two node maps. -/
theorem glue_e3 (r : Fin 100000) (j : Fin 10) :
    W11 m ρ c (Proc.devRef .tc main_v102_1) (ix2 r j)
      = Cert.Spec.head
          (fun (r : Fin 100000) (l : Fin 515) => W8 m ρ c (Proc.devRef .tc main_v102_0) (ix2 r l))
          (fun (l : Fin 515) (k : Fin 128) => (m ((c.tc : Thread nD τ).loc main_arg12)) (ix2 k l))
          (fun (k : Fin 128) (j : Fin 10) => (m ((c.tc : Thread nD τ).loc main_arg13)) (ix2 j k)) r j := by
  rw [Cert.KerRun.node_read m ρ c, Cert.Layers.node3 (V7 m ρ) c r j]
  refine Cert.Layers.head_congr _ _ _ _ _ _ _ _ _ _ (fun l => ?_)
    (fun l k => Cert.KerRun.V7_win7 m ρ c l k) (fun k => Cert.KerRun.V7_win8 m ρ c k j)
  exact (Cert.Layers.out3 (V7 m ρ) c r l).symm.trans
    (congrFun (show (dat3 (V7 m ρ) c).arrAt 9 cfg3.N = W8 m ρ c (Proc.devRef .tc main_v102_0) from (W8_arr m ρ c 9).symm) (ix2 r l))

end Cert.Glue

end
-- ==== Proof.KerHost4.lean ====
/-
  The last region's entry contents: the fifth stretch of host operations read off the fourth region's exit.

  The stretch gathers the final states of the two query nodes side by side and transposes the link head's two maps.
-/
import proofs.«167109_j5557687681833_1_alg».proof.Proof.Gen.KernelIdeal.Frame
import Idealize.ShloMosaic.PureOps.Ideal
import Idealize.ShloMosaic.Lib.ValueIdx
import Idealize.ShloMosaic.Lib.ValueLayout
import Idealize.ShloMosaic.Lib.Pipeline.Value
import proofs.«167109_j5557687681833_1_alg».proof.Proof.KerHostKeep
import proofs.«167109_j5557687681833_1_alg».proof.Proof.KerHostChains

set_option maxRecDepth 16384

noncomputable section

namespace Cert.KerRun

open Idealize.ShloMosaic Idealize.ShloMosaic.TcCoe Idealize.ShloMosaic.Tactic
open Idealize.SL.Sem
open Idealize.ShloMosaic.ValueIdx
open Idealize.ShloMosaic.StableHlo (after_cons after_nil nullary_result unary_result binary_result ternary_result quaternary_result
  reshape_result binaryIndexed_result nary4_result nary_result unaryIndexed_result nullary_result_ne unary_result_ne binary_result_ne
  ternary_result_ne quaternary_result_ne reshape_result_ne binaryIndexed_result_ne nary_result_ne unaryIndexed_result_ne)
open Cert.KernelIdeal Cert.KernelIdeal.Gen

variable (m : (ℓ : Loc nD τ sig) → Buf (Elt Ideal) ℓ) (ρ : Dev nD → PrngReg) (c : Dev nD)

/-- From any contents, the fifth stretch leaves in the query-feature buffer the query features of what the
    final-state buffer and the two query lists held. -/
theorem hq_of (F : Valuation τ sig (Elt Ideal)) :
    StableHlo.after hostOps4 F (Proc.devRef .tc main_v117)
      = hqK (F (Proc.devRef .tc main_v102_0)) (F (Proc.devRef .tc main_arg3)) (F (Proc.devRef .tc main_arg4)) := by
  after_results_simp
  rfl

/-- The query features of the fourth region's first output. -/
theorem V9_win0 : V9 m ρ c (Pipeline.arrRef spec4 0)
    = hqK ((dat3 (V7 m ρ) c).arrAt 9 cfg3.N) (m ((c.tc : Thread nD τ).loc main_arg3)) (m ((c.tc : Thread nD τ).loc main_arg4)) :=
  (hq_of (W8 m ρ c)).trans (by
    rw [keep8_arg3 m ρ c, keep8_arg4 m ρ c,
      show W8 m ρ c (Proc.devRef .tc main_v102_0) = _ from W8_arr m ρ c 9])

/-- The link head's first map enters transposed: rows are inputs. -/
theorem V9_win1 (l : Fin 1030) (k : Fin 128) : V9 m ρ c (Pipeline.arrRef spec4 1) (ix2 l k)
    = m ((c.tc : Thread nD τ).loc main_arg10) (ix2 k l) := by
  show StableHlo.after hostOps4 (W8 m ρ c) (Proc.devRef .tc main_v118) (ix2 l k) = _
  after_results_simp
  rw [keep8_arg10 m ρ c]
  exact transpose_ix2_apply _ _ l k

/-- The link head's second map, likewise. -/
theorem V9_win2 (k : Fin 128) (j : Fin 1) : V9 m ρ c (Pipeline.arrRef spec4 2) (ix2 k j)
    = m ((c.tc : Thread nD τ).loc main_arg11) (ix2 j k) := by
  show StableHlo.after hostOps4 (W8 m ρ c) (Proc.devRef .tc main_v119) (ix2 k j) = _
  after_results_simp
  rw [keep8_arg11 m ρ c]
  exact transpose_ix2_apply _ _ k j

end Cert.KerRun

end
-- ==== Proof.Head4Pay.lean ====
/-
  The link head's block arithmetic, entry by entry: a block of 1024 query rows (1030 columns) through the
  first dense map (128 columns), the positive part, and the second dense map (one column).
-/
import proofs.«167109_j5557687681833_1_alg».proof.Proof.Gen.KernelIdeal.Skeleton
import proofs.«167109_j5557687681833_1_alg».proof.Proof.LayerBlock

noncomputable section

namespace Cert.Layers

open Cert.KernelIdeal Cert.KernelIdeal.Gen Idealize.ShloMosaic Idealize.ShloMosaic.ValueIdx

/-- The stored block of the link head at (r, j). -/
theorem pay4_at (v0 : Vec Ideal S1024x1030 .f32) (v3 : Vec Ideal S1030x128 .f32) (v10 : Vec Ideal S128x1 .f32)
    (r : Fin 1024) (j : Fin 1) :
    k4_pay1 (F := Ideal) v0 v3 v10 (ix2 r j)
      = Cert.Spec.head (fun r l => v0 (ix2 r l)) (fun l k => v3 (ix2 l k)) (fun k j => v10 (ix2 k j)) r j := by
  unfold k4_pay1
  exact head_at (truncf .bf16 (shapeCast S1024x1030 v0 shapeCasts_S1024x1030_S1024x1030) bitsLt_bf16_f32)
    (fun r l => v0 (ix2 r l)) (fun r l => congrFun (shapeCast_self v0 shapeCasts_S1024x1030_S1024x1030) (ix2 r l)) v3 v10
    shapeCasts_S1030x128_S1030x128 shapeCasts_S128x1_S128x1 bitsLt_bf16_f32
    dot_S1024x1030_S1030x128_S1024x128_1_0_0_1_n_n ⟨rfl, rfl, rfl, rfl, rfl, rfl, rfl, rfl⟩
    dot_S1024x128_S128x1_S1024x1_1_0_0_1_n_n ⟨rfl, rfl, rfl, rfl, rfl, rfl, rfl, rfl⟩ r j

end Cert.Layers

end
-- ==== Proof.Head4Blocks.lean ====
/-
  The link head, from blocks to the whole array.

  The grid has 4 points; point t loads rows 1024·t … 1024·t + 1023 of the query array and the two whole weight
  arrays, and writes back rows 1024·t … 1024·t + 1023 of the one-column result.  A row of the result depends
  only on the same row of the query array, so what point t writes back is block t of one function of the whole
  arrays, and the 4 blocks cover the 4096 rows (row r is in the block of point r / 1024).
-/
import proofs.«167109_j5557687681833_1_alg».proof.Proof.Gen.KernelIdeal.Frame
import Idealize.ShloMosaic.Lib.Pipeline.Value
import proofs.«167109_j5557687681833_1_alg».proof.Proof.Head4Pay

set_option maxRecDepth 16384

noncomputable section

namespace Cert.Layers

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

/-- The link head over the whole arrays as the region finds them. -/
def L4 (c : Dev nD) (r : Fin 4096) (j : Fin 1) : EReal :=
  Cert.Spec.head (fun r l => V c (Pipeline.arrRef spec4 0) (ix2 r l)) (fun l k => V c (Pipeline.arrRef spec4 1) (ix2 l k))
    (fun k j => V c (Pipeline.arrRef spec4 2) (ix2 k j)) r j

/-- The block index maps over the grid: the row-blocked windows sit at block t, the others at block 0. -/
theorem idx4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The query window's block at point `t` reads rows 1024·t … of its array. -/
theorem rd4_0 (c : Dev nD) (t : Fin cfg4.N) (p : Fin 1024) (l : Fin 1030) (r : Fin 4096) (hr : r.val = t.val * 1024 + p.val) :
    iblk4 V c 0 t (ix2 p l) = V c (Pipeline.arrRef spec4 0) (ix2 r l) := by
  obtain ⟨e00, e01, -⟩ := idx4 t
  show V c (Pipeline.arrRef spec4 0) (((cfg4.win 0).blk t).view.emb (ix2 p l)) = _
  refine congrArg _ (funext fun a => Fin.ext ?_)
  match a with
  | ⟨0, _⟩ => show win4_0.index t (0 : Fin 2) * 1024 + 1 * p.val = r.val; omega
  | ⟨1, _⟩ => show win4_0.index t (1 : Fin 2) * 1030 + 1 * l.val = l.val; omega

/-- A whole-array window's block at any point is its array. -/
theorem rd4_1 (c : Dev nD) (t : Fin cfg4.N) (l : Fin 1030) (k : Fin 128) :
    iblk4 V c 1 t (ix2 l k) = V c (Pipeline.arrRef spec4 1) (ix2 l k) := by
  obtain ⟨-, -, e10, e11, -⟩ := idx4 t
  show V c (Pipeline.arrRef spec4 1) (((cfg4.win 1).blk t).view.emb (ix2 l k)) = _
  refine congrArg _ (funext fun a => Fin.ext ?_)
  match a with
  | ⟨0, _⟩ => show win4_1.index t (0 : Fin 2) * 1030 + 1 * l.val = l.val; omega
  | ⟨1, _⟩ => show win4_1.index t (1 : Fin 2) * 128 + 1 * k.val = k.val; omega

theorem rd4_2 (c : Dev nD) (t : Fin cfg4.N) (k : Fin 128) (j : Fin 1) :
    iblk4 V c 2 t (ix2 k j) = V c (Pipeline.arrRef spec4 2) (ix2 k j) := by
  obtain ⟨-, -, -, -, e20, e21, -⟩ := idx4 t
  show V c (Pipeline.arrRef spec4 2) (((cfg4.win 2).blk t).view.emb (ix2 k j)) = _
  refine congrArg _ (funext fun a => Fin.ext ?_)
  match a with
  | ⟨0, _⟩ => show win4_2.index t (0 : Fin 2) * 128 + 1 * k.val = k.val; omega
  | ⟨1, _⟩ => show win4_2.index t (1 : Fin 2) * 1 + 1 * j.val = j.val; omega

set_option maxHeartbeats 1000000 in
/-- WHAT POINT `t` WRITES BACK is block `t` of the head over the whole arrays. -/
theorem flushed4 (c : Dev nD) (t : Fin cfg4.N) :
    (dat4 V c).flushed 3 t = ((cfg4.win 3).blk t).view.read (Elt Ideal) (fun i => L4 V c (i 0) (i 1)) := by
  show (cfg4.win 3).cut (grid4.coords t) ((dat4 V c).after 3 t) = _
  rw [after4_3]
  unfold out4_3
  rw [View.canon_unit_zero hz4]
  simp only [View.ld_unit_zero (S := S1024x1030) hz4, View.ld_unit_zero (S := S1030x128) hz4, View.ld_unit_zero (S := S128x1) hz4]
  obtain ⟨-, -, -, -, -, -, e30, e31⟩ := idx4 t
  funext y
  have hy0 : (y 0).val < 1024 := (y 0).isLt
  have hy1 : (y 1).val < 1 := (y 1).isLt
  have hy : (cfg4.win 3).xinj (grid4.coords t) y = ix2 (⟨(y 0).val, hy0⟩ : Fin 1024) (⟨(y 1).val, hy1⟩ : Fin 1) :=
    funext fun a => by match a with | ⟨0, _⟩ => rfl | ⟨1, _⟩ => rfl
  have hr : ((((cfg4.win 3).blk t).view.emb y) 0).val = t.val * 1024 + (y 0).val := by
    show win4_3.index t (0 : Fin 2) * 1024 + 1 * (y 0).val = _; omega
  have hj : (⟨(y 1).val, hy1⟩ : Fin 1) = (((cfg4.win 3).blk t).view.emb y) 1 := Fin.ext (by
    show (y 1).val = win4_3.index t (1 : Fin 2) * 1 + 1 * (y 1).val; omega)
  show k4_pay1 (iblk4 V c 0 t) (iblk4 V c 1 t) (iblk4 V c 2 t) ((cfg4.win 3).xinj (grid4.coords t) y)
    = L4 V c ((((cfg4.win 3).blk t).view.emb y) 0) ((((cfg4.win 3).blk t).view.emb y) 1)
  rw [hy, ← hj]
  refine (pay4_at (iblk4 V c 0 t) (iblk4 V c 1 t) (iblk4 V c 2 t) _ _).trans ?_
  unfold L4
  exact head_congr _ _ _ _ _ _ _ _ _ _
    (fun l => rd4_0 V c t _ l _ hr) (fun l k => rd4_1 V c t l k) (fun k => rd4_2 V c t k _)

/-- An index of the array is in point `t`'s block iff each coordinate is in the block's range on its axis. -/
theorem mem_blk4 (t : Fin cfg4.N) (i : S4096x1.Idx) :
    i ∈ ((cfg4.win 3).blk t).view.set ↔ ∀ a : Fin 2, win4_3.index t a * S1024x1.size a ≤ (i a).val ∧ (i a).val < win4_3.index t a * S1024x1.size a + S1024x1.size a := by
  show i ∈ ((View.whole main_v120).slice (win4_3.rect t)).set ↔ _
  rw [View.set_slice_whole, Rect.mem_set_unit]
  exact Iff.rfl

/-- Row `r` is in the block of point `r / 1024`. -/
theorem cover4 (i : S4096x1.Idx) : ∃ t : Fin cfg4.N, (cfg4.win 3).flush t = true ∧ i ∈ ((cfg4.win 3).blk t).view.set := by
  have hi0 : (i 0).val < 4096 := (i 0).isLt
  have hi1 : (i 1).val < 1 := (i 1).isLt
  have hN : cfg4.N = 4 := N_4
  let t : Fin cfg4.N := ⟨(i 0).val / 1024, by rw [hN]; omega⟩
  obtain ⟨-, -, -, -, -, -, e30, e31⟩ := idx4 t
  have ht : t.val = (i 0).val / 1024 := rfl
  refine ⟨t, flush4_3 t, ?_⟩
  rw [mem_blk4]
  intro a
  match a with
  | ⟨0, _⟩ => show win4_3.index t (0 : Fin 2) * 1024 ≤ (i 0).val ∧ (i 0).val < win4_3.index t (0 : Fin 2) * 1024 + 1024; omega
  | ⟨1, _⟩ => show win4_3.index t (1 : Fin 2) * 1 ≤ (i 1).val ∧ (i 1).val < win4_3.index t (1 : Fin 2) * 1 + 1; omega

/-- THE ARRAY after the region: the link head of the arrays the region found, entry by entry. -/
theorem link4 (c : Dev nD) (r : Fin 4096) :
    (dat4 (F := Ideal) V c).arrAt 3 cfg4.N (ix2 r 0)
      = Cert.Spec.head (fun r l => V c (Pipeline.arrRef spec4 0) (ix2 r l)) (fun l k => V c (Pipeline.arrRef spec4 1) (ix2 l k))
          (fun k j => V c (Pipeline.arrRef spec4 2) (ix2 k j)) r 0 := by
  have h := (dat4 V c).arrAt_eq_of_cover 3 (fun i => L4 V c (i 0) (i 1)) (fun t _ => flushed4 V c t) cover4
  exact congrFun h (ix2 r (0 : Fin 1))

end Cert.Layers

end
-- ==== Proof.GlueE4.lean ====
/-
  The kernel's link scores, entry by entry, as the link head of the queried pairs' joined states.

  The scores are the last region's one-column output; that output is the head of the region's three input arrays;
  the first of these is the joined states of the fourth region's first output, the other two are the two link
  maps transposed.
-/
import proofs.«167109_j5557687681833_1_alg».proof.Proof.KerHostTail
import proofs.«167109_j5557687681833_1_alg».proof.Proof.KerHost4
import proofs.«167109_j5557687681833_1_alg».proof.Proof.Head4Blocks
import proofs.«167109_j5557687681833_1_alg».proof.Proof.ChainsEq

set_option maxRecDepth 16384

noncomputable section

namespace Cert.Glue

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

/-- The link score of query `r` is the head, at row `r`, of the joined final states through the two link maps. -/
theorem glue_e4 (r : Fin 4096) :
    W11 m ρ c (Proc.devRef .tc main_v121) (ix1 r)
      = Cert.Spec.head
          (fun (r : Fin 4096) (l : Fin 1030) => Cert.RefRun.hq (W8 m ρ c (Proc.devRef .tc main_v102_0)) (m ((c.tc : Thread nD τ).loc main_arg3)) (m ((c.tc : Thread nD τ).loc main_arg4)) (ix2 r l))
          (fun (l : Fin 1030) (k : Fin 128) => (m ((c.tc : Thread nD τ).loc main_arg10)) (ix2 k l))
          (fun (k : Fin 128) (j : Fin 1) => (m ((c.tc : Thread nD τ).loc main_arg11)) (ix2 j k)) r (0 : Fin 1) := by
  rw [Cert.KerRun.link_read m ρ c r, Cert.Layers.link4 (V9 m ρ) c r]
  refine Cert.Layers.head_congr _ _ _ _ _ _ _ _ _ _ (fun l => ?_)
    (fun l k => Cert.KerRun.V9_win1 m ρ c l k) (fun k => Cert.KerRun.V9_win2 m ρ c k 0)
  rw [Cert.KerRun.V9_win0 m ρ c, Cert.ChainsEq.hq_eq, show W8 m ρ c (Proc.devRef .tc main_v102_0) = _ from W8_arr m ρ c 9]

end Cert.Glue

end
-- ==== Proof.Algebraic.lean ====
/-
  The two idealized programs end with equal results.

  The kernel's run names its two results as the contents its last boundary holds; the reference's run ends at the
  composition of its stages.  Under the precondition the float arguments are real and the edge weights' denominator is
  not zero, so the bridge applies: the kernel's four arrays, read entry by entry, are the reference's.
-/
import proofs.«167109_j5557687681833_1_alg».proof.Proof.Claims
import proofs.«167109_j5557687681833_1_alg».proof.Proof.KerRun
import proofs.«167109_j5557687681833_1_alg».proof.Proof.RefRead
import proofs.«167109_j5557687681833_1_alg».proof.Proof.Bridge
import proofs.«167109_j5557687681833_1_alg».proof.Proof.PreUse
import proofs.«167109_j5557687681833_1_alg».proof.Proof.GlueE1
import proofs.«167109_j5557687681833_1_alg».proof.Proof.GlueLayer2
import proofs.«167109_j5557687681833_1_alg».proof.Proof.GlueE3
import proofs.«167109_j5557687681833_1_alg».proof.Proof.GlueE4

noncomputable section

namespace Cert.Proof.Claims

open Idealize.ShloMosaic Idealize.SL.Sem Idealize.ShloMosaic.ValueIdx

/-- The kernel's two results, as its last boundary holds them, are the reference's two stage compositions of the
    kernel's own arguments. -/
theorem kernel_results (m : (ℓ : Loc Cert.KernelIdeal.nD Cert.KernelIdeal.τ Cert.KernelIdeal.sig) → Buf (Elt Ideal) ℓ)
    (ρ : Dev Cert.KernelIdeal.nD → PrngReg)
    (hpre : Cert.Pre_KernelIdeal (hPre_finite_inputs := Cert.Pre_finite_inputs.Gen.facts) m) (c : Dev Cert.KernelIdeal.nD) :
    Cert.KernelIdeal.Gen.W11 m ρ c (Proc.devRef .tc Cert.KernelIdeal.main_v121)
        = Cert.RefRun.link
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg12))
          (m ((c.tc : Thread Cert.KernelIdeal.nD Cert.KernelIdeal.τ).loc Cert.KernelIdeal.main_arg13))
      ∧ Cert.KernelIdeal.Gen.W11 m ρ c (Proc.devRef .tc Cert.KernelIdeal.main_v102_1)
        = Cert.RefRun.node
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg12))
          (m ((c.tc : Thread Cert.KernelIdeal.nD Cert.KernelIdeal.τ).loc Cert.KernelIdeal.main_arg13)) := by
  obtain ⟨ht, hh0, hw1, hw2, hd⟩ := Cert.PreUse.of_pre m hpre c
  exact Cert.Bridge.results_eq Cert.RefRead.layer129_apply Cert.RefRead.layer258_apply Cert.RefRead.linkHead_apply
    Cert.RefRead.nodeHead_apply _ _ _ _ _ _ _ _ _ _ _ _ _ _ ht hd hh0 hw1 hw2
    (Cert.KernelIdeal.Gen.W4 m ρ c (Proc.devRef .tc Cert.KernelIdeal.main_v56))
    (Cert.KernelIdeal.Gen.W8 m ρ c (Proc.devRef .tc Cert.KernelIdeal.main_v102_0))
    (Cert.KernelIdeal.Gen.W11 m ρ c (Proc.devRef .tc Cert.KernelIdeal.main_v102_1))
    (Cert.KernelIdeal.Gen.W11 m ρ c (Proc.devRef .tc Cert.KernelIdeal.main_v121))
    (Cert.Glue.glue_e1 m ρ c) (Cert.Glue2.glue_e2 m ρ c) (Cert.Glue.glue_e3 m ρ c) (Cert.Glue.glue_e4 m ρ c)

/-- From memories agreeing on the arguments both idealized programs run and end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W11 m ρ c (Proc.devRef .tc Cert.KernelIdeal.main_v121),
    fun c => Cert.KernelIdeal.Gen.W11 m ρ c (Proc.devRef .tc Cert.KernelIdeal.main_v102_1), ?_, ?_⟩
  · refine (θ_run Cert.KernelIdeal.defs _ _).mono (fun r h c => ?_) (Cert.KerRun.run_results m ρ)
    exact ⟨(h c).1.1, (h c).1.2, (h c).2⟩
  · refine (θ_run Cert.ReferenceIdeal.defs _ _).mono (fun r h c => ?_) (Cert.RefRun.run m' ρ')
    obtain ⟨⟨hl, hn⟩, hargs⟩ := h c
    obtain ⟨a0, a1, a2, a3, a4, a5, a6, a7, a8, a9, a10, a11, a12, a13⟩ := hagree c
    obtain ⟨kl, kn⟩ := kernel_results m ρ hpre c
    refine ⟨hl.trans ?_, hn.trans ?_, hargs⟩
    · rw [a0, a1, a2, a3, a4, a5, a6, a7, a8, a9, a10, a11, a12, a13]; exact kl.symm
    · rw [a0, a1, a2, a3, a4, a5, a6, a7, a8, a9, a10, a11, a12, a13]; exact kn.symm

end Cert.Proof.Claims

end
-- ==== Proof.lean ====
/-
  A two-round graph network — per round a scatter-add aggregate of neighbour states and edge ages, a batch
  normalisation of the aggregate, a dense map with a positive part, and a second dense map over the state joined to
  the hidden state — followed by a link head on queried pairs and a node head on every node: a kernel of five grid
  regions against its array-language reference, equal as extended reals.

  Both programs build the aggregates with the same host operations.  They differ in three ways, none of which changes
  a value over the reals: the kernel accumulates the column totals and the totals of squares block by block and takes
  the variance as the mean of squares minus the squared mean, where the reference takes the mean of squared deviations;
  the kernel contracts the state and the hidden state separately and adds, where the reference joins them and contracts
  once; and the kernel works on blocks of a thousand rows, each row depending only on itself and the column statistics.
  The first difference needs every entry of the aggregate to be a real number (on the extended reals ∞ − ∞ parts the
  two variances), which holds because the float arguments are finite and the edge ages' denominator
  1 + t_last − t_first is not zero: the precondition states both.
-/
import proofs.«167109_j5557687681833_1_alg».proof.Proof.Algebraic

noncomputable section

namespace Cert.Proof

open Cert.Proof.Claims

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
